-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x1024 : Shape := ⟨3, ![64, 128, 1024]⟩
abbrev S128x128x3 : Shape := ⟨3, ![128, 128, 3]⟩
abbrev S128 : Shape := ⟨1, ![128]⟩
abbrev S128x128x1 : Shape := ⟨3, ![128, 128, 1]⟩
abbrev S_ : Shape := ⟨0, ![]⟩

class Facts : Prop where
  bcast_S_S64x128x1024 : S_.BroadcastsInDim S64x128x1024 (![] : Fin 0 → Fin S64x128x1024.rank)
  reducesTo_S64x128x1024_S_d0_1_2 : S64x128x1024.ReducesTo [0, 1, 2] S_
  h_S_ : 0 < S_.numel
  bcast_S_S128x128x3 : S_.BroadcastsInDim S128x128x3 (![] : Fin 0 → Fin S128x128x3.rank)
  reducesTo_S128x128x3_S_d0_1_2 : S128x128x3.ReducesTo [0, 1, 2] S_
  bcast_S_S128 : S_.BroadcastsInDim S128 (![] : Fin 0 → Fin S128.rank)
  reducesTo_S128_S_d0 : S128.ReducesTo [0] S_
  bcast_S_S128x128x1 : S_.BroadcastsInDim S128x128x1 (![] : Fin 0 → Fin S128x128x1.rank)
  reducesTo_S128x128x1_S_d0_1_2 : S128x128x1.ReducesTo [0, 1, 2] S_

variable [Facts]

def fn_part2 {F : FTy → Type} [FloatOps F] (main_arg7 : FVec F S128x128x1 .f32) (main_v33 : IVec S_ 1) : IVec S_ 1 :=
  let main_v34 : FVec F S128x128x1 .f32 := Host.absf main_arg7
  let main_cst_12 : FVec F S_ .f32 := constant S_ .f32 0x7F800000#32
  let main_v35 : FVec F S128x128x1 .f32 := broadcastInDim S128x128x1 ![] bcast_S_S128x128x1 main_cst_12
  let main_v36 : IVec S128x128x1 1 := cmpf .olt main_v34 main_v35
  let main_c_13 : IVec S_ 1 := constantI S_ 1 1#1
  let main_v37 : IVec S_ 1 := (fun x v => Host.reduce IntOp.andi x v reducesTo_S128x128x1_S_d0_1_2 h_S_) main_v36 main_c_13
  let main_v38 : IVec S_ 1 := andi main_v33 main_v37
  main_v38

def fn_part1 {F : FTy → Type} [FloatOps F] (main_arg4 : FVec F S128x128x3 .f32) (main_arg5 : FVec F S128 .f32) (main_arg6 : FVec F S128 .f32) (main_arg7 : FVec F S128x128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128x3 .f32 := Host.absf main_arg4
  let main_cst_6 : FVec F S_ .f32 := constant S_ .f32 0x7F800000#32
  let main_v20 : FVec F S128x128x3 .f32 := broadcastInDim S128x128x3 ![] bcast_S_S128x128x3 main_cst_6
  let main_v21 : IVec S128x128x3 1 := cmpf .olt main_v19 main_v20
  let main_c_7 : IVec S_ 1 := constantI S_ 1 1#1
  let main_v22 : IVec S_ 1 := (fun x v => Host.reduce IntOp.andi x v reducesTo_S128x128x3_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S64x128x1024 .f32) (main_arg1 : FVec F S128x128x3 .f32) (main_arg2 : FVec F S128 .f32) (main_arg3 : FVec F S128 .f32) (main_arg4 : FVec F S128x128x3 .f32) (main_arg5 : FVec F S128 .f32) (main_arg6 : FVec F S128 .f32) (main_arg7 : FVec F S128x128x1 .f32) : IVec S_ 1 :=
  let main_v0 : FVec F S64x128x1024 .f32 := Host.absf main_arg0
  let main_cst : FVec F S_ .f32 := constant S_ .f32 0x7F800000#32
  let main_v1 : FVec F S64x128x1024 .f32 := broadcastInDim S64x128x1024 ![] bcast_S_S64x128x1024 main_cst
  let main_v2 : IVec S64x128x1024 1 := cmpf .olt main_v0 main_v1
  let main_c : IVec S_ 1 := constantI S_ 1 1#1
  let main_v3 : IVec S_ 1 := (fun x v => Host.reduce IntOp.andi x v reducesTo_S64x128x1024_S_d0_1_2 h_S_) main_v2 main_c
  let main_v4 : FVec F S128x128x3 .f32 := Host.absf main_arg1
  let main_cst_0 : FVec F S_ .f32 := constant S_ .f32 0x7F800000#32
  let main_v5 : FVec F S128x128x3 .f32 := broadcastInDim S128x128x3 ![] bcast_S_S128x128x3 main_cst_0
  let main_v6 : IVec S128x128x3 1 := cmpf .olt main_v4 main_v5
  let main_c_1 : IVec S_ 1 := constantI S_ 1 1#1
  let main_v7 : IVec S_ 1 := (fun x v => Host.reduce IntOp.andi x v reducesTo_S128x128x3_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S64x128x1024 : Shape := ⟨3, ![64, 128, 1024]⟩
abbrev S128x128x3 : Shape := ⟨3, ![128, 128, 3]⟩
abbrev S128 : Shape := ⟨1, ![128]⟩
abbrev S128x128x1 : Shape := ⟨3, ![128, 128, 1]⟩
abbrev S128x3x128 : Shape := ⟨3, ![128, 3, 128]⟩
abbrev S128x384 : Shape := ⟨2, ![128, 384]⟩
abbrev S128x128 : Shape := ⟨2, ![128, 128]⟩
abbrev S64x128x1 : Shape := ⟨3, ![64, 128, 1]⟩
abbrev S8x128x1024 : Shape := ⟨3, ![8, 128, 1024]⟩
abbrev S8x128x1 : Shape := ⟨3, ![8, 128, 1]⟩
abbrev S1x128x1024 : Shape := ⟨3, ![1, 128, 1024]⟩
abbrev S128x1024 : Shape := ⟨2, ![128, 1024]⟩
abbrev S128x1 : Shape := ⟨2, ![128, 1]⟩
abbrev S128x1023 : Shape := ⟨2, ![128, 1023]⟩
abbrev S384x1024 : Shape := ⟨2, ![384, 1024]⟩
abbrev S1x128x1 : Shape := ⟨3, ![1, 128, 1]⟩
abbrev S64x128 : Shape := ⟨2, ![64, 128]⟩
abbrev S_ : Shape := ⟨0, ![]⟩

abbrev nBuf : Space → Nat
  | .hbm => 75
  | .vmem => 29
  | .smem => 0
  | _ => 0

abbrev bufTy : (tb : Table) → Fin (tcTables nBuf tb) → BufTy
  | .hbm, ⟨0, _⟩ => ⟨S64x128x1024, .f32⟩
  | .hbm, ⟨1, _⟩ => ⟨S128x128x3, .f32⟩
  | .hbm, ⟨2, _⟩ => ⟨S128, .f32⟩
  | .hbm, ⟨3, _⟩ => ⟨S128, .f32⟩
  | .hbm, ⟨4, _⟩ => ⟨S128x128x3, .f32⟩
  | .hbm, ⟨5, _⟩ => ⟨S128, .f32⟩
  | .hbm, ⟨6, _⟩ => ⟨S128, .f32⟩
  | .hbm, ⟨7, _⟩ => ⟨S128x128x1, .f32⟩
  | .hbm, ⟨8, _⟩ => ⟨S128x3x128, .f32⟩
  | .hbm, ⟨9, _⟩ => ⟨S128x384, .f32⟩
  | .hbm, ⟨10, _⟩ => ⟨S128x384, .bf16⟩
  | .hbm, ⟨11, _⟩ => ⟨S128x3x128, .f32⟩
  | .hbm, ⟨12, _⟩ => ⟨S128x384, .f32⟩
  | .hbm, ⟨13, _⟩ => ⟨S128x384, .bf16⟩
  | .hbm, ⟨14, _⟩ => ⟨S128x128, .f32⟩
  | .hbm, ⟨15, _⟩ => ⟨S128x128, .bf16⟩
  | .hbm, ⟨16, _⟩ => ⟨S64x128x1024, .bf16⟩
  | .hbm, ⟨17, _⟩ => ⟨S64x128x1, .f32⟩
  | .hbm, ⟨18, _⟩ => ⟨S64x128x1, .f32⟩
  | .hbm, ⟨19, _⟩ => ⟨S64x128, .f32⟩
  | .hbm, ⟨20, _⟩ => ⟨S_, .f32⟩
  | .hbm, ⟨21, _⟩ => ⟨S128, .f32⟩
  | .hbm, ⟨22, _⟩ => ⟨S64x128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128x1, .f32⟩
  | .hbm, ⟨44, _⟩ => ⟨S128x1, .f32⟩
  | .hbm, ⟨45, _⟩ => ⟨S64x128x1024, .bf16⟩
  | .hbm, ⟨46, _⟩ => ⟨S64x128x1, .f32⟩
  | .hbm, ⟨47, _⟩ => ⟨S64x128x1, .f32⟩
  | .hbm, ⟨48, _⟩ => ⟨S64x128, .f32⟩
  | .hbm, ⟨49, _⟩ => ⟨S_, .f32⟩
  | .hbm, ⟨50, _⟩ => ⟨S128, .f32⟩
  | .hbm, ⟨51, _⟩ => ⟨S64x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S128x1, .f32⟩
  | .hbm, ⟨73, _⟩ => ⟨S128x1, .f32⟩
  | .hbm, ⟨74, _⟩ => ⟨S64x128x1024, .f32⟩
  | .local _ .vmem, ⟨0, _⟩ => ⟨S8x128x1024, .f32⟩
  | .local _ .vmem, ⟨1, _⟩ => ⟨S8x128x1024, .f32⟩
  | .local _ .vmem, ⟨2, _⟩ => ⟨S128x384, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1, .f32⟩
  | .local _ .vmem, ⟨6, _⟩ => ⟨S8x128x1, .f32⟩
  | .local _ .vmem, ⟨7, _⟩ => ⟨S8x128x1, .f32⟩
  | .local _ .vmem, ⟨8, _⟩ => ⟨S8x128x1, .f32⟩
  | .local _ .vmem, ⟨9, _⟩ => ⟨S8x128x1024, .bf16⟩
  | .local _ .vmem, ⟨10, _⟩ => ⟨S8x128x1024, .bf16⟩
  | .local _ .vmem, ⟨11, _⟩ => ⟨S128x384, .bf16⟩
  | .local _ .vmem, ⟨12, _⟩ => ⟨S128x1, .f32⟩
  | .local _ .vmem, ⟨13, _⟩ => ⟨S128x1, .f32⟩
  | .local _ .vmem, ⟨14, _⟩ => ⟨S8x128x1024, .bf16⟩
  | .local _ .vmem, ⟨15, _⟩ => ⟨S8x128x1024, .bf16⟩
  | .local _ .vmem, ⟨16, _⟩ => ⟨S8x128x1, .f32⟩
  | .local _ .vmem, ⟨17, _⟩ => ⟨S8x128x1, .f32⟩
  | .local _ .vmem, ⟨18, _⟩ => ⟨S8x128x1, .f32⟩
  | .local _ .vmem, ⟨19, _⟩ => ⟨S8x128x1, .f32⟩
  | .local _ .vmem, ⟨20, _⟩ => ⟨S8x128x1024, .bf16⟩
  | .local _ .vmem, ⟨21, _⟩ => ⟨S8x128x1024, .bf16⟩
  | .local _ .vmem, ⟨22, _⟩ => ⟨S8x128x1024, .f32⟩
  | .local _ .vmem, ⟨23, _⟩ => ⟨S8x128x1024, .f32⟩
  | .local _ .vmem, ⟨24, _⟩ => ⟨S128x128, .bf16⟩
  | .local _ .vmem, ⟨25, _⟩ => ⟨S128x1, .f32⟩
  | .local _ .vmem, ⟨26, _⟩ => ⟨S128x1, .f32⟩
  | .local _ .vmem, ⟨27, _⟩ => ⟨S8x128x1024, .f32⟩
  | .local _ .vmem, ⟨28, _⟩ => ⟨S8x128x1024, .f32⟩
  | _, _ => ⟨S64x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x128x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8x128x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x128x3_S128x3x128_0_2_1 : S128x128x3.Transposes [0, 2, 1] S128x3x128
  shapeCasts_S128x3x128_S128x384 : S128x3x128.ShapeCasts S128x384
  bitsLt_bf16_f32 : FTy.bits .bf16 < FTy.bits .f32
  shapeCasts_S128x128x1_S128x128 : S128x128x1.ShapeCasts S128x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S8x128x1024_S1x128x1024_0_0_0 : ∀ a, (![0, 0, 0] : Fin 3 → Nat) a + S1x128x1024.size a ≤ S8x128x1024.size a
  h_S1x128x1024 : 0 < S1x128x1024.numel
  shapeCasts_S1x128x1024_S128x1024 : S1x128x1024.ShapeCasts S128x1024
  slices_S128x1024_o0_0_S128x1023 : S128x1024.Slices ![0, 0] S128x1023
  concatenates_S128x1_S128x1023_S128x1024_d1 : Shape.Concatenates [S128x1, S128x1023] S128x1024 1
  slices_S128x1024_o0_1_S128x1023 : S128x1024.Slices ![0, 1] S128x1023
  concatenates_S128x1023_S128x1_S128x1024_d1 : Shape.Concatenates [S128x1023, S128x1] S128x1024 1
  concatenates_S128x1024_S128x1024_S128x1024_S384x1024_d0 : Shape.Concatenates [S128x1024, S128x1024, S128x1024] S384x1024 0
  shapeCasts_S128x1024_S1x128x1024 : S128x1024.ShapeCasts S1x128x1024
  packedbf16_S8x128x1024_S1x128x1024_0_0_0 : (Rect.unit (s := S8x128x1024) ![0, 0, 0] S1x128x1024.size inb_S8x128x1024_S1x128x1024_0_0_0).PackedRows (EltTy.packing .bf16)
  reduces_S128x1024_S128 : S128x1024.Reduces [1] S128
  shapeCasts_S128_S128x1 : S128.ShapeCasts S128x1
  inb_S8x128x1_S1x128x1_0_0_0 : ∀ a, (![0, 0, 0] : Fin 3 → Nat) a + S1x128x1.size a ≤ S8x128x1.size a
  h_S1x128x1 : 0 < S1x128x1.numel
  shapeCasts_S1x128x1_S128x1 : S1x128x1.ShapeCasts S128x1
  shapeCasts_S128x1_S1x128x1 : S128x1.ShapeCasts S1x128x1
  inb_S8x128x1024_S1x128x1024_1_0_0 : ∀ a, (![1, 0, 0] : Fin 3 → Nat) a + S1x128x1024.size a ≤ S8x128x1024.size a
  packedbf16_S8x128x1024_S1x128x1024_1_0_0 : (Rect.unit (s := S8x128x1024) ![1, 0, 0] S1x128x1024.size inb_S8x128x1024_S1x128x1024_1_0_0).PackedRows (EltTy.packing .bf16)
  inb_S8x128x1_S1x128x1_1_0_0 : ∀ a, (![1, 0, 0] : Fin 3 → Nat) a + S1x128x1.size a ≤ S8x128x1.size a
  inb_S8x128x1024_S1x128x1024_2_0_0 : ∀ a, (![2, 0, 0] : Fin 3 → Nat) a + S1x128x1024.size a ≤ S8x128x1024.size a
  packedbf16_S8x128x1024_S1x128x1024_2_0_0 : (Rect.unit (s := S8x128x1024) ![2, 0, 0] S1x128x1024.size inb_S8x128x1024_S1x128x1024_2_0_0).PackedRows (EltTy.packing .bf16)
  inb_S8x128x1_S1x128x1_2_0_0 : ∀ a, (![2, 0, 0] : Fin 3 → Nat) a + S1x128x1.size a ≤ S8x128x1.size a
  inb_S8x128x1024_S1x128x1024_3_0_0 : ∀ a, (![3, 0, 0] : Fin 3 → Nat) a + S1x128x1024.size a ≤ S8x128x1024.size a
  packedbf16_S8x128x1024_S1x128x1024_3_0_0 : (Rect.unit (s := S8x128x1024) ![3, 0, 0] S1x128x1024.size inb_S8x128x1024_S1x128x1024_3_0_0).PackedRows (EltTy.packing .bf16)
  inb_S8x128x1_S1x128x1_3_0_0 : ∀ a, (![3, 0, 0] : Fin 3 → Nat) a + S1x128x1.size a ≤ S8x128x1.size a
  inb_S8x128x1024_S1x128x1024_4_0_0 : ∀ a, (![4, 0, 0] : Fin 3 → Nat) a + S1x128x1024.size a ≤ S8x128x1024.size a
  packedbf16_S8x128x1024_S1x128x1024_4_0_0 : (Rect.unit (s := S8x128x1024) ![4, 0, 0] S1x128x1024.size inb_S8x128x1024_S1x128x1024_4_0_0).PackedRows (EltTy.packing .bf16)
  inb_S8x128x1_S1x128x1_4_0_0 : ∀ a, (![4, 0, 0] : Fin 3 → Nat) a + S1x128x1.size a ≤ S8x128x1.size a
  inb_S8x128x1024_S1x128x1024_5_0_0 : ∀ a, (![5, 0, 0] : Fin 3 → Nat) a + S1x128x1024.size a ≤ S8x128x1024.size a
  packedbf16_S8x128x1024_S1x128x1024_5_0_0 : (Rect.unit (s := S8x128x1024) ![5, 0, 0] S1x128x1024.size inb_S8x128x1024_S1x128x1024_5_0_0).PackedRows (EltTy.packing .bf16)
  inb_S8x128x1_S1x128x1_5_0_0 : ∀ a, (![5, 0, 0] : Fin 3 → Nat) a + S1x128x1.size a ≤ S8x128x1.size a
  inb_S8x128x1024_S1x128x1024_6_0_0 : ∀ a, (![6, 0, 0] : Fin 3 → Nat) a + S1x128x1024.size a ≤ S8x128x1024.size a
  packedbf16_S8x128x1024_S1x128x1024_6_0_0 : (Rect.unit (s := S8x128x1024) ![6, 0, 0] S1x128x1024.size inb_S8x128x1024_S1x128x1024_6_0_0).PackedRows (EltTy.packing .bf16)
  inb_S8x128x1_S1x128x1_6_0_0 : ∀ a, (![6, 0, 0] : Fin 3 → Nat) a + S1x128x1.size a ≤ S8x128x1.size a
  inb_S8x128x1024_S1x128x1024_7_0_0 : ∀ a, (![7, 0, 0] : Fin 3 → Nat) a + S1x128x1024.size a ≤ S8x128x1024.size a
  packedbf16_S8x128x1024_S1x128x1024_7_0_0 : (Rect.unit (s := S8x128x1024) ![7, 0, 0] S1x128x1024.size inb_S8x128x1024_S1x128x1024_7_0_0).PackedRows (EltTy.packing .bf16)
  inb_S8x128x1_S1x128x1_7_0_0 : ∀ a, (![7, 0, 0] : Fin 3 → Nat) a + S1x128x1.size a ≤ S8x128x1.size a
  shapeCasts_S64x128x1_S64x128 : S64x128x1.ShapeCasts S64x128
  reducesTo_S64x128_S128_d0 : S64x128.ReducesTo [0] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S128x384_S384x1024_S128x1024_1_0_0_1_n_n_wf : DotDims.WF S128x384 S384x1024 S128x1024 [1] [0] [0] [1] [] []
  dot_S128x128_S128x1024_S128x1024_1_0_0_1_n_n_wf : DotDims.WF S128x128 S128x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S64x128x1024.size a
  hwx0_0 : ∀ i : grid0.Coords, EltTy.bits .f32 = 32 ∨ (Rect.block (s := S64x128x1024) S8x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1024.size a ≤ S64x128x1024.size a
  hwx0_2 : ∀ i : grid0.Coords, EltTy.bits .bf16 = 32 ∨ (Rect.block (s := S64x128x1024) S8x128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x1.size a ≤ S64x128x1.size a
  hwx0_3 : ∀ i : grid0.Coords, EltTy.bits .f32 = 32 ∨ (Rect.block (s := S64x128x1) S8x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x1.size a ≤ S64x128x1.size a
  hwx0_4 : ∀ i : grid0.Coords, EltTy.bits .f32 = 32 ∨ (Rect.block (s := S64x128x1) S8x128x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x1024.size a ≤ S64x128x1024.size a
  hwx1_0 : ∀ i : grid1.Coords, EltTy.bits .bf16 = 32 ∨ (Rect.block (s := S64x128x1024) S8x128x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x384.size a ≤ S128x384.size a
  hwx1_1 : ∀ i : grid1.Coords, EltTy.bits .bf16 = 32 ∨ (Rect.block (s := S128x384) S128x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128x1024.size a ≤ S64x128x1024.size a
  hwx1_4 : ∀ i : grid1.Coords, EltTy.bits .bf16 = 32 ∨ (Rect.block (s := S64x128x1024) S8x128x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128x1.size a ≤ S64x128x1.size a
  hwx1_5 : ∀ i : grid1.Coords, EltTy.bits .f32 = 32 ∨ (Rect.block (s := S64x128x1) S8x128x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128x1.size a ≤ S64x128x1.size a
  hwx1_6 : ∀ i : grid1.Coords, EltTy.bits .f32 = 32 ∨ (Rect.block (s := S64x128x1) S8x128x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x1024.size a ≤ S64x128x1024.size a
  hwx2_0 : ∀ i : grid2.Coords, EltTy.bits .bf16 = 32 ∨ (Rect.block (s := S64x128x1024) S8x128x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128x1024.size a ≤ S64x128x1024.size a
  hwx2_1 : ∀ i : grid2.Coords, EltTy.bits .f32 = 32 ∨ (Rect.block (s := S64x128x1024) S8x128x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128x1024.size a ≤ S64x128x1024.size a
  hwx2_5 : ∀ i : grid2.Coords, EltTy.bits .f32 = 32 ∨ (Rect.block (s := S64x128x1024) S8x128x1024.size (cc2_transform_5 i) (hinb2_5 i)).WholeWords (EltTy.packing .f32)

variable [Facts₀]

def dot_S128x384_S384x1024_S128x1024_1_0_0_1_n_n : DotDims S128x384 S384x1024 S128x1024 where
  lhsContracting := [1]
  rhsContracting := [0]
  lhsNonContracting := [0]
  rhsNonContracting := [1]
  lhsBatch := []
  rhsBatch := []
  wf := dot_S128x384_S384x1024_S128x1024_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S8x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S8x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_2) S8x128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_0) S8x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29_0) S8x128x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29_1) S8x128x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_2) S8x128x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29_0) S8x128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S8x128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S8x128x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x128x1024 : Shape := ⟨3, ![64, 128, 1024]⟩
abbrev S128x128x3 : Shape := ⟨3, ![128, 128, 3]⟩
abbrev S128 : Shape := ⟨1, ![128]⟩
abbrev S128x128x1 : Shape := ⟨3, ![128, 128, 1]⟩
abbrev S_ : Shape := ⟨0, ![]⟩
abbrev S66x128x1028 : Shape := ⟨3, ![66, 128, 1028]⟩
abbrev S22x3x128x1028 : Shape := ⟨4, ![22, 3, 128, 1028]⟩
abbrev S22x128x3x1028 : Shape := ⟨4, ![22, 128, 3, 1028]⟩
abbrev S22x128x3084 : Shape := ⟨3, ![22, 128, 3084]⟩
abbrev S22x128x3204 : Shape := ⟨3, ![22, 128, 3204]⟩
abbrev S66 : Shape := ⟨1, ![66]⟩
abbrev S22x3 : Shape := ⟨2, ![22, 3]⟩
abbrev S1028 : Shape := ⟨1, ![1028]⟩
abbrev S22x3x1 : Shape := ⟨3, ![22, 3, 1]⟩
abbrev S1x1x1028 : Shape := ⟨3, ![1, 1, 1028]⟩
abbrev S22x3x1028 : Shape := ⟨3, ![22, 3, 1028]⟩
abbrev S22x3084 : Shape := ⟨2, ![22, 3084]⟩
abbrev S22x3202 : Shape := ⟨2, ![22, 3202]⟩
abbrev S22x1x3202 : Shape := ⟨3, ![22, 1, 3202]⟩
abbrev S22x3200 : Shape := ⟨2, ![22, 3200]⟩
abbrev S22x1x3200 : Shape := ⟨3, ![22, 1, 3200]⟩
abbrev S3x128x128 : Shape := ⟨3, ![3, 128, 128]⟩
abbrev S128x128 : Shape := ⟨2, ![128, 128]⟩
abbrev S22x128x1 : Shape := ⟨3, ![22, 128, 1]⟩
abbrev S1x128x3204 : Shape := ⟨3, ![1, 128, 3204]⟩
abbrev S1x1x3200 : Shape := ⟨3, ![1, 1, 3200]⟩
abbrev S1x128x1 : Shape := ⟨3, ![1, 128, 1]⟩
abbrev S128x3204 : Shape := ⟨2, ![128, 3204]⟩
abbrev S128x3200 : Shape := ⟨2, ![128, 3200]⟩
abbrev S1x128x128 : Shape := ⟨3, ![1, 128, 128]⟩
abbrev S1x3200 : Shape := ⟨2, ![1, 3200]⟩
abbrev S128x1 : Shape := ⟨2, ![128, 1]⟩
abbrev S22x128 : Shape := ⟨2, ![22, 128]⟩
abbrev S1x1x3202 : Shape := ⟨3, ![1, 1, 3202]⟩
abbrev S128x3202 : Shape := ⟨2, ![128, 3202]⟩
abbrev S1x3202 : Shape := ⟨2, ![1, 3202]⟩
abbrev S22x128x3200 : Shape := ⟨3, ![22, 128, 3200]⟩
abbrev S1x128x3200 : Shape := ⟨3, ![1, 128, 3200]⟩

abbrev nBuf : Space → Nat
  | .hbm => 120
  | .vmem => 36
  | .smem => 0
  | _ => 0

abbrev bufTy : (tb : Table) → Fin (tcTables nBuf tb) → BufTy
  | .hbm, ⟨0, _⟩ => ⟨S64x128x1024, .f32⟩
  | .hbm, ⟨1, _⟩ => ⟨S128x128x3, .f32⟩
  | .hbm, ⟨2, _⟩ => ⟨S128, .f32⟩
  | .hbm, ⟨3, _⟩ => ⟨S128, .f32⟩
  | .hbm, ⟨4, _⟩ => ⟨S128x128x3, .f32⟩
  | .hbm, ⟨5, _⟩ => ⟨S128, .f32⟩
  | .hbm, ⟨6, _⟩ => ⟨S128, .f32⟩
  | .hbm, ⟨7, _⟩ => ⟨S128x128x1, .f32⟩
  | .hbm, ⟨8, _⟩ => ⟨S_, .i32⟩
  | .hbm, ⟨9, _⟩ => ⟨S_, .f32⟩
  | .hbm, ⟨10, _⟩ => ⟨S66x128x1028, .f32⟩
  | .hbm, ⟨11, _⟩ => ⟨S22x3x128x1028, .f32⟩
  | .hbm, ⟨12, _⟩ => ⟨S22x128x3x1028, .f32⟩
  | .hbm, ⟨13, _⟩ => ⟨S22x128x3084, .f32⟩
  | .hbm, ⟨14, _⟩ => ⟨S_, .i32⟩
  | .hbm, ⟨15, _⟩ => ⟨S_, .f32⟩
  | .hbm, ⟨16, _⟩ => ⟨S22x128x3204, .f32⟩
  | .hbm, ⟨17, _⟩ => ⟨S66, .i32⟩
  | .hbm, ⟨18, _⟩ => ⟨S22x3, .i32⟩
  | .hbm, ⟨19, _⟩ => ⟨S_, .i32⟩
  | .hbm, ⟨20, _⟩ => ⟨S22x3, .i32⟩
  | .hbm, ⟨21, _⟩ => ⟨S22x3, .i1⟩
  | .hbm, ⟨22, _⟩ => ⟨S1028, .i32⟩
  | .hbm, ⟨23, _⟩ => ⟨S_, .i32⟩
  | .hbm, ⟨24, _⟩ => ⟨S1028, .i32⟩
  | .hbm, ⟨25, _⟩ => ⟨S1028, .i1⟩
  | .hbm, ⟨26, _⟩ => ⟨S_, .i32⟩
  | .hbm, ⟨27, _⟩ => ⟨S1028, .i32⟩
  | .hbm, ⟨28, _⟩ => ⟨S1028, .i1⟩
  | .hbm, ⟨29, _⟩ => ⟨S1028, .i1⟩
  | .hbm, ⟨30, _⟩ => ⟨S_, .i32⟩
  | .hbm, ⟨31, _⟩ => ⟨S1028, .i32⟩
  | .hbm, ⟨32, _⟩ => ⟨S1028, .i1⟩
  | .hbm, ⟨33, _⟩ => ⟨S22x3x1, .i1⟩
  | .hbm, ⟨34, _⟩ => ⟨S1x1x1028, .i1⟩
  | .hbm, ⟨35, _⟩ => ⟨S22x3x1028, .i1⟩
  | .hbm, ⟨36, _⟩ => ⟨S22x3x1028, .i1⟩
  | .hbm, ⟨37, _⟩ => ⟨S22x3x1028, .i1⟩
  | .hbm, ⟨38, _⟩ => ⟨S22x3x1028, .f32⟩
  | .hbm, ⟨39, _⟩ => ⟨S22x3084, .f32⟩
  | .hbm, ⟨40, _⟩ => ⟨S_, .i32⟩
  | .hbm, ⟨41, _⟩ => ⟨S_, .f32⟩
  | .hbm, ⟨42, _⟩ => ⟨S22x3202, .f32⟩
  | .hbm, ⟨43, _⟩ => ⟨S22x1x3202, .f32⟩
  | .hbm, ⟨44, _⟩ => ⟨S22x3x1, .i1⟩
  | .hbm, ⟨45, _⟩ => ⟨S1x1x1028, .i1⟩
  | .hbm, ⟨46, _⟩ => ⟨S22x3x1028, .i1⟩
  | .hbm, ⟨47, _⟩ => ⟨S22x3x1028, .i1⟩
  | .hbm, ⟨48, _⟩ => ⟨S22x3x1028, .i1⟩
  | .hbm, ⟨49, _⟩ => ⟨S22x3x1028, .f32⟩
  | .hbm, ⟨50, _⟩ => ⟨S22x3084, .f32⟩
  | .hbm, ⟨51, _⟩ => ⟨S_, .i32⟩
  | .hbm, ⟨52, _⟩ => ⟨S_, .f32⟩
  | .hbm, ⟨53, _⟩ => ⟨S22x3200, .f32⟩
  | .hbm, ⟨54, _⟩ => ⟨S22x1x3200, .f32⟩
  | .hbm, ⟨55, _⟩ => ⟨S3x128x128, .f32⟩
  | .hbm, ⟨56, _⟩ => ⟨S3x128x128, .f32⟩
  | .hbm, ⟨57, _⟩ => ⟨S128x128, .f32⟩
  | .hbm, ⟨58, _⟩ => ⟨S22x128x1, .f32⟩
  | .hbm, ⟨59, _⟩ => ⟨S22x128x1, .f32⟩
  | .hbm, ⟨60, _⟩ => ⟨S22x128, .f32⟩
  | .hbm, ⟨61, _⟩ => ⟨S_, .f32⟩
  | .hbm, ⟨62, _⟩ => ⟨S128, .f32⟩
  | .hbm, ⟨63, _⟩ => ⟨S22x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128x1, .f32⟩
  | .hbm, ⟨85, _⟩ => ⟨S128x1, .f32⟩
  | .hbm, ⟨86, _⟩ => ⟨S22x128x1, .f32⟩
  | .hbm, ⟨87, _⟩ => ⟨S22x128x1, .f32⟩
  | .hbm, ⟨88, _⟩ => ⟨S22x128, .f32⟩
  | .hbm, ⟨89, _⟩ => ⟨S_, .f32⟩
  | .hbm, ⟨90, _⟩ => ⟨S128, .f32⟩
  | .hbm, ⟨91, _⟩ => ⟨S22x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S128, .f32⟩
  | .hbm, ⟨110, _⟩ => ⟨S128, .f32⟩
  | .hbm, ⟨111, _⟩ => ⟨S128, .f32⟩
  | .hbm, ⟨112, _⟩ => ⟨S128x1, .f32⟩
  | .hbm, ⟨113, _⟩ => ⟨S128x1, .f32⟩
  | .hbm, ⟨114, _⟩ => ⟨S22x128x3200, .f32⟩
  | .hbm, ⟨115, _⟩ => ⟨S22x128x3084, .f32⟩
  | .hbm, ⟨116, _⟩ => ⟨S22x128x3x1028, .f32⟩
  | .hbm, ⟨117, _⟩ => ⟨S22x3x128x1028, .f32⟩
  | .hbm, ⟨118, _⟩ => ⟨S66x128x1028, .f32⟩
  | .hbm, ⟨119, _⟩ => ⟨S64x128x1024, .f32⟩
  | .local _ .vmem, ⟨0, _⟩ => ⟨S1x128x3204, .f32⟩
  | .local _ .vmem, ⟨1, _⟩ => ⟨S1x128x3204, .f32⟩
  | .local _ .vmem, ⟨2, _⟩ => ⟨S3x128x128, .f32⟩
  | .local _ .vmem, ⟨3, _⟩ => ⟨S1x1x3200, .f32⟩
  | .local _ .vmem, ⟨4, _⟩ => ⟨S1x1x3200, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x3204, .f32⟩
  | .local _ .vmem, ⟨10, _⟩ => ⟨S1x128x3204, .f32⟩
  | .local _ .vmem, ⟨11, _⟩ => ⟨S3x128x128, .f32⟩
  | .local _ .vmem, ⟨12, _⟩ => ⟨S3x128x128, .f32⟩
  | .local _ .vmem, ⟨13, _⟩ => ⟨S128x1, .f32⟩
  | .local _ .vmem, ⟨14, _⟩ => ⟨S128x1, .f32⟩
  | .local _ .vmem, ⟨15, _⟩ => ⟨S1x1x3202, .f32⟩
  | .local _ .vmem, ⟨16, _⟩ => ⟨S1x1x3202, .f32⟩
  | .local _ .vmem, ⟨17, _⟩ => ⟨S1x1x3200, .f32⟩
  | .local _ .vmem, ⟨18, _⟩ => ⟨S1x1x3200, .f32⟩
  | .local _ .vmem, ⟨19, _⟩ => ⟨S1x128x1, .f32⟩
  | .local _ .vmem, ⟨20, _⟩ => ⟨S1x128x1, .f32⟩
  | .local _ .vmem, ⟨21, _⟩ => ⟨S1x128x1, .f32⟩
  | .local _ .vmem, ⟨22, _⟩ => ⟨S1x128x1, .f32⟩
  | .local _ .vmem, ⟨23, _⟩ => ⟨S1x128x3204, .f32⟩
  | .local _ .vmem, ⟨24, _⟩ => ⟨S1x128x3204, .f32⟩
  | .local _ .vmem, ⟨25, _⟩ => ⟨S3x128x128, .f32⟩
  | .local _ .vmem, ⟨26, _⟩ => ⟨S3x128x128, .f32⟩
  | .local _ .vmem, ⟨27, _⟩ => ⟨S128x128, .f32⟩
  | .local _ .vmem, ⟨28, _⟩ => ⟨S128x1, .f32⟩
  | .local _ .vmem, ⟨29, _⟩ => ⟨S128x1, .f32⟩
  | .local _ .vmem, ⟨30, _⟩ => ⟨S128x1, .f32⟩
  | .local _ .vmem, ⟨31, _⟩ => ⟨S128x1, .f32⟩
  | .local _ .vmem, ⟨32, _⟩ => ⟨S1x1x3202, .f32⟩
  | .local _ .vmem, ⟨33, _⟩ => ⟨S1x1x3202, .f32⟩
  | .local _ .vmem, ⟨34, _⟩ => ⟨S1x128x3200, .f32⟩
  | .local _ .vmem, ⟨35, _⟩ => ⟨S1x128x3200, .f32⟩
  | _, _ => ⟨S64x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_call3_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v39 : Ref sig .tc := ⟨.hbm, 60, rfl⟩
abbrev main_cst : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59_0 : Ref sig .tc := ⟨.hbm, 86, rfl⟩
abbrev main_v59_1 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_v71 : Ref sig .tc := ⟨.hbm, 104, rfl⟩
abbrev main_cst_17 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3204 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![22], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x3204 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x3202 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x3200 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![22], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x3204 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x1x3202 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x128x3200 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  pads_S64x128x1024_S66x128x1028_020_000_220 : S64x128x1024.Pads (![0, 0, 2] : Fin 3 → Nat) ![2, 0, 2] ![0, 0, 0] S66x128x1028
  h_S_ : 0 < S_.numel
  shapeCasts_S66x128x1028_S22x3x128x1028 : S66x128x1028.ShapeCasts S22x3x128x1028
  transposes_S22x3x128x1028_S22x128x3x1028_0_2_1_3 : S22x3x128x1028.Transposes [0, 2, 1, 3] S22x128x3x1028
  shapeCasts_S22x128x3x1028_S22x128x3084 : S22x128x3x1028.ShapeCasts S22x128x3084
  pads_S22x128x3084_S22x128x3204_000_000_01200 : S22x128x3084.Pads (![0, 0, 0] : Fin 3 → Nat) ![0, 0, 120] ![0, 0, 0] S22x128x3204
  shapeCasts_S66_S22x3 : S66.ShapeCasts S22x3
  bcast_S_S22x3 : S_.BroadcastsInDim S22x3 (![] : Fin 0 → Fin S22x3.rank)
  bcast_S_S1028 : S_.BroadcastsInDim S1028 (![] : Fin 0 → Fin S1028.rank)
  bcast_S22x3_S22x3x1_0_1 : S22x3.BroadcastsInDim S22x3x1 (![0, 1] : Fin 2 → Fin S22x3x1.rank)
  bcast_S1028_S1x1x1028_2 : S1028.BroadcastsInDim S1x1x1028 (![2] : Fin 1 → Fin S1x1x1028.rank)
  bcast_S22x3x1_S22x3x1028_0_1_2 : S22x3x1.BroadcastsInDim S22x3x1028 (![0, 1, 2] : Fin 3 → Fin S22x3x1028.rank)
  bcast_S1x1x1028_S22x3x1028_0_1_2 : S1x1x1028.BroadcastsInDim S22x3x1028 (![0, 1, 2] : Fin 3 → Fin S22x3x1028.rank)
  shapeCasts_S22x3x1028_S22x3084 : S22x3x1028.ShapeCasts S22x3084
  pads_S22x3084_S22x3202_000_01180 : S22x3084.Pads (![0, 0] : Fin 2 → Nat) ![0, 118] ![0, 0] S22x3202
  bcast_S22x3202_S22x1x3202_0_2 : S22x3202.BroadcastsInDim S22x1x3202 (![0, 2] : Fin 2 → Fin S22x1x3202.rank)
  pads_S22x3084_S22x3200_000_01160 : S22x3084.Pads (![0, 0] : Fin 2 → Nat) ![0, 116] ![0, 0] S22x3200
  bcast_S22x3200_S22x1x3200_0_2 : S22x3200.BroadcastsInDim S22x1x3200 (![0, 2] : Fin 2 → Fin S22x1x3200.rank)
  transposes_S128x128x3_S3x128x128_2_0_1 : S128x128x3.Transposes [2, 0, 1] S3x128x128
  shapeCasts_S128x128x1_S128x128 : S128x128x1.ShapeCasts S128x128
  inb_S1x128x3204_S1x128x3204_0_0_0 : ∀ a, (![0, 0, 0] : Fin 3 → Nat) a + S1x128x3204.size a ≤ S1x128x3204.size a
  h_S1x128x3204 : 0 < S1x128x3204.numel
  shapeCasts_S1x128x3204_S128x3204 : S1x128x3204.ShapeCasts S128x3204
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  slices_S3x128x128_o0_0_0_S1x128x128 : S3x128x128.Slices ![0, 0, 0] S1x128x128
  shapeCasts_S1x128x128_S128x128 : S1x128x128.ShapeCasts S128x128
  slices_S128x3204_o0_1_S128x3200 : S128x3204.Slices ![0, 1] S128x3200
  slices_S3x128x128_o1_0_0_S1x128x128 : S3x128x128.Slices ![1, 0, 0] S1x128x128
  slices_S128x3204_o0_2_S128x3200 : S128x3204.Slices ![0, 2] S128x3200
  slices_S3x128x128_o2_0_0_S1x128x128 : S3x128x128.Slices ![2, 0, 0] S1x128x128
  slices_S128x3204_o0_3_S128x3200 : S128x3204.Slices ![0, 3] S128x3200
  inb_S1x1x3200_S1x1x3200_0_0_0 : ∀ a, (![0, 0, 0] : Fin 3 → Nat) a + S1x1x3200.size a ≤ S1x1x3200.size a
  h_S1x1x3200 : 0 < S1x1x3200.numel
  shapeCasts_S1x1x3200_S1x3200 : S1x1x3200.ShapeCasts S1x3200
  broadcasts_S1x3200_S128x3200 : S1x3200.Broadcasts S128x3200
  reduces_S128x3200_S128 : S128x3200.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  shapeCasts_S22x128x1_S22x128 : S22x128x1.ShapeCasts S22x128
  reducesTo_S22x128_S128_d0 : S22x128.ReducesTo [0] S128
  bcast_S_S128 : S_.BroadcastsInDim S128 (![] : Fin 0 → Fin S128.rank)
  slices_S128x3204_o0_0_S128x3202 : S128x3204.Slices ![0, 0] S128x3202
  slices_S128x3204_o0_1_S128x3202 : S128x3204.Slices ![0, 1] S128x3202
  slices_S128x3204_o0_2_S128x3202 : S128x3204.Slices ![0, 2] S128x3202
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x3202 : S128x1.Broadcasts S128x3202
  inb_S1x1x3202_S1x1x3202_0_0_0 : ∀ a, (![0, 0, 0] : Fin 3 → Nat) a + S1x1x3202.size a ≤ S1x1x3202.size a
  h_S1x1x3202 : 0 < S1x1x3202.numel
  shapeCasts_S1x1x3202_S1x3202 : S1x1x3202.ShapeCasts S1x3202
  broadcasts_S1x3202_S128x3202 : S1x3202.Broadcasts S128x3202
  slices_S128x3202_o0_0_S128x3200 : S128x3202.Slices ![0, 0] S128x3200
  slices_S128x3202_o0_1_S128x3200 : S128x3202.Slices ![0, 1] S128x3200
  slices_S128x3202_o0_2_S128x3200 : S128x3202.Slices ![0, 2] S128x3200
  broadcasts_S128x1_S128x3200 : S128x1.Broadcasts S128x3200
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128x3200_S1x128x3200_0_0_0 : ∀ a, (![0, 0, 0] : Fin 3 → Nat) a + S1x128x3200.size a ≤ S1x128x3200.size a
  h_S1x128x3200 : 0 < S1x128x3200.numel
  shapeCasts_S1x128x3200_S128x3200 : S1x128x3200.ShapeCasts S128x3200
  shapeCasts_S128x3200_S1x128x3200 : S128x3200.ShapeCasts S1x128x3200
  slices_S22x128x3200_S22x128x3084_0_0_0 : S22x128x3200.Slices ![0, 0, 0] S22x128x3084
  shapeCasts_S22x128x3084_S22x128x3x1028 : S22x128x3084.ShapeCasts S22x128x3x1028
  transposes_S22x128x3x1028_S22x3x128x1028_0_2_1_3 : S22x128x3x1028.Transposes [0, 2, 1, 3] S22x3x128x1028
  shapeCasts_S22x3x128x1028_S66x128x1028 : S22x3x128x1028.ShapeCasts S66x128x1028
  slices_S66x128x1028_S64x128x1024_0_0_0 : S66x128x1028.Slices ![0, 0, 0] S64x128x1024
  dot_S128x128_S128x3200_S128x3200_1_0_0_1_n_n_wf : DotDims.WF S128x128 S128x3200 S128x3200 [1] [0] [0] [1] [] []
  dot_S128x128_S128x3202_S128x3202_1_0_0_1_n_n_wf : DotDims.WF S128x128 S128x3202 S128x3202 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3204.size a ≤ S22x128x3204.size a
  hwx0_0 : ∀ i : grid0.Coords, EltTy.bits .f32 = 32 ∨ (Rect.block (s := S22x128x3204) S1x128x3204.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3200.size a ≤ S22x1x3200.size a
  hwx0_2 : ∀ i : grid0.Coords, EltTy.bits .f32 = 32 ∨ (Rect.block (s := S22x1x3200) S1x1x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S22x128x1.size a
  hwx0_3 : ∀ i : grid0.Coords, EltTy.bits .f32 = 32 ∨ (Rect.block (s := S22x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S22x128x1.size a
  hwx0_4 : ∀ i : grid0.Coords, EltTy.bits .f32 = 32 ∨ (Rect.block (s := S22x128x1) S1x128x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x3204.size a ≤ S22x128x3204.size a
  hwx1_0 : ∀ i : grid1.Coords, EltTy.bits .f32 = 32 ∨ (Rect.block (s := S22x128x3204) S1x128x3204.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128x128.size a ≤ S3x128x128.size a
  hwx1_1 : ∀ i : grid1.Coords, EltTy.bits .f32 = 32 ∨ (Rect.block (s := S3x128x128) S3x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128x128.size a ≤ S3x128x128.size a
  hwx1_2 : ∀ i : grid1.Coords, EltTy.bits .f32 = 32 ∨ (Rect.block (s := S3x128x128) S3x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x3202.size a ≤ S22x1x3202.size a
  hwx1_5 : ∀ i : grid1.Coords, EltTy.bits .f32 = 32 ∨ (Rect.block (s := S22x1x3202) S1x1x3202.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x3200.size a ≤ S22x1x3200.size a
  hwx1_6 : ∀ i : grid1.Coords, EltTy.bits .f32 = 32 ∨ (Rect.block (s := S22x1x3200) S1x1x3200.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x1.size a ≤ S22x128x1.size a
  hwx1_7 : ∀ i : grid1.Coords, EltTy.bits .f32 = 32 ∨ (Rect.block (s := S22x128x1) S1x128x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128x1.size a ≤ S22x128x1.size a
  hwx1_8 : ∀ i : grid1.Coords, EltTy.bits .f32 = 32 ∨ (Rect.block (s := S22x128x1) S1x128x1.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x3204.size a ≤ S22x128x3204.size a
  hwx2_0 : ∀ i : grid2.Coords, EltTy.bits .f32 = 32 ∨ (Rect.block (s := S22x128x3204) S1x128x3204.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128x128.size a ≤ S3x128x128.size a
  hwx2_1 : ∀ i : grid2.Coords, EltTy.bits .f32 = 32 ∨ (Rect.block (s := S3x128x128) S3x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x128x128.size a ≤ S3x128x128.size a
  hwx2_2 : ∀ i : grid2.Coords, EltTy.bits .f32 = 32 ∨ (Rect.block (s := S3x128x128) S3x128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x3202.size a ≤ S22x1x3202.size a
  hwx2_8 : ∀ i : grid2.Coords, EltTy.bits .f32 = 32 ∨ (Rect.block (s := S22x1x3202) S1x1x3202.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x128x3200.size a ≤ S22x128x3200.size a
  hwx2_9 : ∀ i : grid2.Coords, EltTy.bits .f32 = 32 ∨ (Rect.block (s := S22x128x3200) S1x128x3200.size (cc2_transform_9 i) (hinb2_9 i)).WholeWords (EltTy.packing .f32)

variable [Facts₀]

def dot_S128x128_S128x3200_S128x3200_1_0_0_1_n_n : DotDims S128x128 S128x3200 S128x3200 where
  lhsContracting := [1]
  rhsContracting := [0]
  lhsNonContracting := [0]
  rhsNonContracting := [1]
  lhsBatch := []
  rhsBatch := []
  wf := dot_S128x128_S128x3200_S128x3200_1_0_0_1_n_n_wf
def dot_S128x128_S128x3202_S128x3202_1_0_0_1_n_n : DotDims S128x128 S128x3202 S128x3202 where
  lhsContracting := [1]
  rhsContracting := [0]
  lhsNonContracting := [0]
  rhsNonContracting := [1]
  lhsBatch := []
  rhsBatch := []
  wf := dot_S128x128_S128x3202_S128x3202_1_0_0_1_n_n_wf

abbrev win0_0 : Pipeline.Window sig grid0 :=
  Pipeline.Window.ofSpec (Memref.whole main_v4) S1x128x3204.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38_0) S1x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38_1) S1x128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x128x3204.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S3x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S3x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x1x3202.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x1x3200.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v59_0) S1x128x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v59_1) S1x128x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v4) S1x128x3204.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S3x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S3x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v79) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v25) S1x1x3202.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v80) S1x128x3200.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== Proof.KernelRun.lean ====
/-
  The idealized kernel's run with its result named: every weakly fair execution of @main terminates, nothing faults,
  the argument arrays end as launched, and the result buffer ends holding the contents of the last boundary of the
  fold through @main — the third region's output array after all its blocks have been written back.
-/
import proofs.«152241_g2000003559913605_pallasbulk_133_2_alg».proof.Proof.KernelIdealFrameP

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over @main's six segments, the last thread state read against the final state; the result
    buffer is one of the unscoped buffers that state holds at the last boundary's contents. -/
theorem run : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.ReferenceRun.lean ====
/-
  The idealized reference's run with its result named: every weakly fair execution of @main terminates, nothing
  faults, the argument arrays end as launched, and the result buffer ends holding the contents of the last boundary
  of the fold through @main — what the host operations after the third region leave there.
-/
import proofs.«152241_g2000003559913605_pallasbulk_133_2_alg».proof.Proof.Gen.ReferenceIdeal.Frame

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over @main's segments, the last thread state read against the final state; the result
    buffer is one of the unscoped buffers that state holds at the last boundary's contents. -/
theorem run : θ_run defs (onTc (τ := τ) (main (F := F))) ⟨m, fun _ => 0, ρ⟩ (fun r => ∀ c : Dev nD,
      r.2.mem ((c.tc : Thread nD τ).loc main_v85) = W15 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v85 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.ReferenceIdeal.Run

end
-- ==== Proof.Spec.lean ====
/-
  The mathematics of the residual block, on the extended reals, stated once for both programs.

  The block maps activations x[n, ci, l] (64 samples, 128 channels, 1024 positions) to
      y = relu( bn2( conv2( relu( bn1( conv1 x ) ) ) ) + wp · x ),
  where `conv` is the 3-tap 'same' convolution along the position axis (zeros beyond both ends of a sample),
  `bn` is batch normalisation with the statistics of the batch itself: per output channel the mean and the
  mean of squares over all 64·1024 entries, variance E[h²] − E[h]² clamped at zero, scale γ·rsqrt(var + ε) and shift
  β − mean·scale, and `wp · x` is the 1×1 projection of the input.

  Everything is curried over `Fin` coordinates, so that an array of a program is compared with these functions
  entry by entry at explicit coordinates.
-/
import Idealize.ShloMosaic.PureOps.Ideal
import Idealize.ShloMosaic.Lib.ValueIdx

noncomputable section

namespace Cert.ResBlock

open Idealize.ShloMosaic

/-- Activations [sample, channel, position]. -/
abbrev Act := Fin 64 → Fin 128 → Fin 1024 → EReal
/-- Convolution weights [output channel, input channel, tap]. -/
abbrev Wt := Fin 128 → Fin 128 → Fin 3 → EReal
/-- One number per channel. -/
abbrev Ch := Fin 128 → EReal

/-- The count 64·1024 = 65536, the ε of the normalisation and zero, as the f32 words both programs carry. -/
def cnt : EReal := Ideal.ofBits .f32 0x47800000#32
def eps : EReal := Ideal.ofBits .f32 0x3727C5AC#32
def zero : EReal := Ideal.ofBits .f32 0x00000000#32

/-- Tap `t` of a row at position `c`: the entry at position `c + t − 1`, and zero where that falls off either end
    of the row (the 'same' padding). -/
def tap (a : Fin 1024 → EReal) (c : Fin 1024) (t : Fin 3) : EReal :=
  if h : 1 ≤ c.val + t.val ∧ c.val + t.val ≤ 1024 then a ⟨c.val + t.val - 1, by omega⟩ else 0

/-- The 3-tap convolution: out[n, o, c] = Σ_t Σ_ci w[o, ci, t] · a[n, ci, c + t − 1]. -/
def conv (w : Wt) (a : Act) : Act :=
  fun n o c => ∑ t : Fin 3, ∑ ci : Fin 128, w o ci t * tap (a n ci) c t

/-- Per channel, the sum over the whole batch and all positions, and the sum of squares. -/
def tot (h : Act) : Ch := fun o => ∑ n : Fin 64, ∑ c : Fin 1024, h n o c
def totSq (h : Act) : Ch := fun o => ∑ n : Fin 64, ∑ c : Fin 1024, h n o c * h n o c

/-- The batch mean of a channel from its total. -/
def mean (s : Ch) : Ch := fun o => Ideal.div (s o) cnt
/-- The scale γ · rsqrt(max(E[h²] − E[h]², 0) + ε) from the two totals. -/
def scale (s ss g : Ch) : Ch :=
  fun o => g o * Ideal.rsqrt (max (Ideal.div (ss o) cnt - mean s o * mean s o) zero + eps)
/-- The shift β − mean · scale. -/
def shift (s ss g b : Ch) : Ch := fun o => b o - mean s o * scale s ss g o

/-- Normalise with a per-channel scale and shift, then clamp at zero. -/
def act (h : Act) (sc sh : Ch) : Act := fun n o c => max (h n o c * sc o + sh o) zero

/-- The 1×1 projection of the input. -/
def proj (wp : Fin 128 → Fin 128 → EReal) (x : Act) : Act := fun n o c => ∑ ci : Fin 128, wp o ci * x n ci c

/-- The first convolution, its normalisation constants, the activation between the convolutions, the second
    convolution and its constants, and the block's result. -/
def h1 (x : Act) (w1 : Wt) : Act := conv w1 x
def sc1 (x : Act) (w1 : Wt) (g1 : Ch) : Ch := scale (tot (h1 x w1)) (totSq (h1 x w1)) g1
def sh1 (x : Act) (w1 : Wt) (g1 b1 : Ch) : Ch := shift (tot (h1 x w1)) (totSq (h1 x w1)) g1 b1
def a1 (x : Act) (w1 : Wt) (g1 b1 : Ch) : Act := act (h1 x w1) (sc1 x w1 g1) (sh1 x w1 g1 b1)
def h2 (x : Act) (w1 : Wt) (g1 b1 : Ch) (w2 : Wt) : Act := conv w2 (a1 x w1 g1 b1)
def sc2 (x : Act) (w1 : Wt) (g1 b1 : Ch) (w2 : Wt) (g2 : Ch) : Ch :=
  scale (tot (h2 x w1 g1 b1 w2)) (totSq (h2 x w1 g1 b1 w2)) g2
def sh2 (x : Act) (w1 : Wt) (g1 b1 : Ch) (w2 : Wt) (g2 b2 : Ch) : Ch :=
  shift (tot (h2 x w1 g1 b1 w2)) (totSq (h2 x w1 g1 b1 w2)) g2 b2
def out (x : Act) (w1 : Wt) (g1 b1 : Ch) (w2 : Wt) (g2 b2 : Ch) (wp : Fin 128 → Fin 128 → EReal) : Act :=
  fun n o c => max ((h2 x w1 g1 b1 w2 n o c * sc2 x w1 g1 b1 w2 g2 o + sh2 x w1 g1 b1 w2 g2 b2 o) + proj wp x n o c) zero

/-! ## The two programs' layouts of the same data

The kernel stacks the three taps along the contraction axis: column `t·128 + ci` of its weight matrix is tap `t` of
input channel `ci`. The reference cuts the batch into 22 chunks of 3 samples (66 with two all-zero ones appended),
lays each sample out as a strip of 1028 columns — two zero columns, the 1024 entries, two zero columns —, puts a
chunk's three strips side by side (3084 columns) and pads to the working widths 3200 / 3202 / 3204 with zeros; 0/1
masks select the columns that hold genuine entries. -/

/-- An array of a program read as a function into the extended reals (a buffer's element type unfolds to them):
    `arr (S := S) A i` is entry `i` of `A`, typed `EReal`. -/
abbrev arr {S : Shape} (f : S.Idx → EReal) : S.Idx → EReal := f

/-- Column `t·128 + ci` of the stacked weights. -/
def kcol (t : Fin 3) (ci : Fin 128) : Fin 384 := ⟨t.val * 128 + ci.val, by omega⟩

/-- An entry of a finite row by a natural-number column, zero beyond its end. -/
def at0 {N : ℕ} (a : Fin N → EReal) (k : ℕ) : EReal := if h : k < N then a ⟨k, h⟩ else 0

/-- The halo-padded strip of sample `s` (of 66): entry `q` of 1028 is x[s, ci, q − 2] for 2 ≤ q < 1026 and s < 64. -/
def xpad (x : Act) (s : ℕ) (ci : Fin 128) (q : ℕ) : EReal :=
  if h : s < 64 ∧ 2 ≤ q ∧ q < 1026 then x ⟨s, h.1⟩ ci ⟨q - 2, by omega⟩ else 0

/-- A chunk's input row: its three strips side by side, zeros from column 3084 on. -/
def xflat (x : Act) (ch : Fin 22) (ci : Fin 128) (j : Fin 3204) : EReal :=
  if j.val < 3084 then xpad x (3 * ch.val + j.val / 1028) ci (j.val % 1028) else 0

/-- The mask of the first convolution's genuine columns in the extended layout (strip columns 1 … 1024 of a genuine
    sample), and of the output layout (strip columns 0 … 1023 of a genuine sample). -/
def mask1 (ch : Fin 22) (j : Fin 3202) : EReal :=
  if j.val < 3084 ∧ 3 * ch.val + j.val / 1028 < 64 ∧ 1 ≤ j.val % 1028 ∧ j.val % 1028 < 1025 then 1 else 0
def mask2 (ch : Fin 22) (j : Fin 3200) : EReal :=
  if j.val < 3084 ∧ 3 * ch.val + j.val / 1028 < 64 ∧ j.val % 1028 < 1024 then 1 else 0

/-- Three taps as the reference groups them: from zero, tap 0 at column `j`, tap 1 at `j + 1`, tap 2 at `j + 2` of
    rows `a`, with weights `w t o ci`. -/
def taps3 {N : ℕ} (w : Fin 3 → Fin 128 → Fin 128 → EReal) (a : Fin 128 → Fin N → EReal) (o : Fin 128) (j : ℕ) : EReal :=
  ((zero + ∑ ci : Fin 128, w 0 o ci * at0 (a ci) j) + ∑ ci : Fin 128, w 1 o ci * at0 (a ci) (j + 1))
    + ∑ ci : Fin 128, w 2 o ci * at0 (a ci) (j + 2)

/-- The reference's masked activation between its two convolutions, in the extended layout: the first convolution
    from column `j`, scaled, shifted, clamped at zero, times the mask. -/
def refAct {N : ℕ} (w1 : Fin 3 → Fin 128 → Fin 128 → EReal) (xf : Fin 128 → Fin N → EReal) (s1 t1 : Ch)
    (m1 : Fin 3202 → EReal) (ci : Fin 128) (j : Fin 3202) : EReal :=
  max (taps3 w1 xf ci j.val * s1 ci + t1 ci) zero * m1 j

end Cert.ResBlock

end
-- ==== Proof.KReg0.lean ====
/-
  From the blocks of the first region to its whole arrays. The region's eight grid points each write eight consecutive
  samples of every output; an entry of an output array is therefore what the body computes for that sample from the
  blocks the point reads, and those blocks are the same samples of the input and the whole weight array. The result is
  stated for any contents of the arrays when the region is entered.
-/
import proofs.«152241_g2000003559913605_pallasbulk_133_2_alg».proof.Proof.KernelIdealFrameP
import proofs.«152241_g2000003559913605_pallasbulk_133_2_alg».proof.Proof.Spec

import Idealize.ShloMosaic.Lib.ValueIdx
import Idealize.ShloMosaic.Lib.Pipeline.Value

set_option maxRecDepth 16384
noncomputable section
namespace Cert.KernelIdeal.KReg
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.ResBlock

/-! # The first region's three arrays

Each of the eight grid points works on eight consecutive samples: point `t` reads samples `8t … 8t+7` of the input and
writes the same samples of every output; the weights are read whole at every point. So the arrays after the region are
the per-sample formulas of the body at every sample. -/

/-- What the body of the first region is required to compute from its two blocks, at every place of a block: the
    three-tap convolution of the sample, its sum over the positions, and the sum of its squares. -/
abbrev Body0_2 : Prop := ∀ (x0 : Vec Ideal S8x128x1024 .f32) (x1 : Vec Ideal S128x384 .bf16) (i : Fin 8) (o : Fin 128) (l : Fin 1024),
    GenP.out0_2 x0 x1 (ix3 i o l) = ∑ t : Fin 3, ∑ ci : Fin 128, x1 (ix2 o (kcol t ci)) * tap (fun l' => x0 (ix3 i ci l')) l t
abbrev Body0_3 : Prop := ∀ (x0 : Vec Ideal S8x128x1024 .f32) (x1 : Vec Ideal S128x384 .bf16) (i : Fin 8) (o : Fin 128),
    GenP.out0_3 x0 x1 (ix3 i o 0) = ∑ l : Fin 1024, ∑ t : Fin 3, ∑ ci : Fin 128, x1 (ix2 o (kcol t ci)) * tap (fun l' => x0 (ix3 i ci l')) l t
abbrev Body0_4 : Prop := ∀ (x0 : Vec Ideal S8x128x1024 .f32) (x1 : Vec Ideal S128x384 .bf16) (i : Fin 8) (o : Fin 128),
    GenP.out0_4 x0 x1 (ix3 i o 0) = ∑ l : Fin 1024, (∑ t : Fin 3, ∑ ci : Fin 128, x1 (ix2 o (kcol t ci)) * tap (fun l' => x0 (ix3 i ci l')) l t)
      * (∑ t : Fin 3, ∑ ci : Fin 128, x1 (ix2 o (kcol t ci)) * tap (fun l' => x0 (ix3 i ci l')) l t)

/-- The first convolution at one entry, from the arrays the region finds. -/
def conv0 (V : (c : Dev nD) → (b : Ref sig .tc) → Buf (Elt Ideal) ((c : Thread nD τ).loc b)) (c : Dev nD) (n : Fin 64) (o : Fin 128) (l : Fin 1024) : EReal :=
  ∑ t : Fin 3, ∑ ci : Fin 128, arr (S := S128x384) (V c main_v2) (ix2 o (kcol t ci))
          * tap (fun l' => arr (S := S64x128x1024) (V c main_arg0) (ix3 n ci l')) l t

/-- The block indices of the windows at every grid point: the sample axis moves with the point, every other
    axis stays at block zero. -/
theorem idx0 : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The sample a grid point and a place inside its block name. -/
theorem sample_lt0 (t : Fin cfg0.N) (i : Fin 8) : 8 * t.val + i.val < 64 := by
  have h : t.val < 8 := lt_of_lt_of_eq t.isLt N_0
  omega

/-- The input block at point `t` is samples `8t … 8t+7` of its array. -/
theorem iblk0_0_apply (V : (c : Dev nD) → (b : Ref sig .tc) → Buf (Elt Ideal) ((c : Thread nD τ).loc b)) (c : Dev nD) (t : Fin cfg0.N) (i : Fin 8) (ci : Fin 128) (l : Fin 1024) (n : Fin 64)
    (hn : n.val = 8 * t.val + i.val) :
    (iblk0 V c 0 t : Vec Ideal S8x128x1024 .f32) (ix3 i ci l) = arr (S := S64x128x1024) (V c main_arg0) (ix3 n ci l) := by
  obtain ⟨e0, e1, e2⟩ := (idx0 t).1
  unfold iblk0
  rw [View.read_apply]
  show V c main_arg0 _ = V c main_arg0 _
  congr 1
  funext a
  apply Fin.ext
  match a with
  | ⟨0, _⟩ => show win0_0.index t (0 : Fin 3) * 8 + 1 * i.val = n.val; omega
  | ⟨1, _⟩ => show win0_0.index t (1 : Fin 3) * 128 + 1 * ci.val = ci.val; omega
  | ⟨2, _⟩ => show win0_0.index t (2 : Fin 3) * 1024 + 1 * l.val = l.val; omega

/-- The weight block at every point is its whole array. -/
theorem iblk0_1_apply (V : (c : Dev nD) → (b : Ref sig .tc) → Buf (Elt Ideal) ((c : Thread nD τ).loc b)) (c : Dev nD) (t : Fin cfg0.N) (p : Fin 128) (q : Fin 384) :
    (iblk0 V c 1 t : Vec Ideal S128x384 .bf16) (ix2 p q) = arr (S := S128x384) (V c main_v2) (ix2 p q) := by
  obtain ⟨e0, e1⟩ := (idx0 t).2.1
  unfold iblk0
  rw [View.read_apply]
  show V c main_v2 _ = V c main_v2 _
  congr 1
  funext a
  apply Fin.ext
  match a with
  | ⟨0, _⟩ => show win0_1.index t (0 : Fin 2) * 128 + 1 * p.val = p.val; omega
  | ⟨1, _⟩ => show win0_1.index t (1 : Fin 2) * 384 + 1 * q.val = q.val; omega

/-- One entry of the first convolution read from a point's blocks is that entry read from the arrays. -/
theorem conv0_blk (V : (c : Dev nD) → (b : Ref sig .tc) → Buf (Elt Ideal) ((c : Thread nD τ).loc b)) (c : Dev nD) (t : Fin cfg0.N) (i : Fin 8) (o : Fin 128) (l : Fin 1024)
    (x0 : Vec Ideal S8x128x1024 .f32) (x1 : Vec Ideal S128x384 .bf16) (h0 : x0 = iblk0 V c 0 t) (h1 : x1 = iblk0 V c 1 t) :
    (∑ tp : Fin 3, ∑ ci : Fin 128, x1 (ix2 o (kcol tp ci)) * tap (fun l' => x0 (ix3 i ci l')) l tp)
      = conv0 V c ⟨8 * t.val + i.val, sample_lt0 t i⟩ o l := by
  subst h0 h1
  unfold conv0
  refine Finset.sum_congr rfl fun tp _ => Finset.sum_congr rfl fun ci _ => ?_
  rw [iblk0_1_apply V c t o (kcol tp ci)]
  congr 1
  congr 1
  funext l'
  exact iblk0_0_apply V c t i ci l' ⟨8 * t.val + i.val, sample_lt0 t i⟩ rfl

/-- The first output array after the region (the first convolution), as one function of the arrays the region finds. -/
def G0_2 (V : (c : Dev nD) → (b : Ref sig .tc) → Buf (Elt Ideal) ((c : Thread nD τ).loc b)) (c : Dev nD) : S64x128x1024.Idx → EReal := fun j => conv0 V c (j 0) (j 1) (j 2)

/-- What grid point `t` writes back to it is block `t` of that function. -/
theorem flushed0_2 (V : (c : Dev nD) → (b : Ref sig .tc) → Buf (Elt Ideal) ((c : Thread nD τ).loc b)) (c : Dev nD) (hb : Body0_2) (t : Fin cfg0.N) :
    (dat0 V c).flushed 2 t = ((cfg0.win 2).blk t).view.read (Elt Ideal) (G0_2 V c) := by
  show (cfg0.win 2).cut (grid0.coords t) ((dat0 V c).after 2 t) = _
  rw [after0_2]
  obtain ⟨e0, e1, e2⟩ := (idx0 t).2.2.1
  funext j
  obtain ⟨i, o, l, rfl⟩ : ∃ (i : Fin 8) (o : Fin 128) (l : Fin 1024), j = ix3 i o l := ⟨j 0, j 1, j 2, eq_ix3 j⟩
  rw [View.read_apply]
  have hemb : ((cfg0.win 2).blk t).view.emb (ix3 i o l) = (ix3 ⟨8 * t.val + i.val, sample_lt0 t i⟩ o l : S64x128x1024.Idx) := by
    funext a
    apply Fin.ext
    match a with
    | ⟨0, _⟩ => show win0_2.index t (0 : Fin 3) * 8 + 1 * i.val = 8 * t.val + i.val; omega
    | ⟨1, _⟩ => show win0_2.index t (1 : Fin 3) * 128 + 1 * o.val = o.val; omega
    | ⟨2, _⟩ => show win0_2.index t (2 : Fin 3) * 1024 + 1 * l.val = l.val; omega
  show out0_2 (iblk0 V c 0 t) (iblk0 V c 1 t) (ix3 i o l) = G0_2 V c (((cfg0.win 2).blk t).view.emb (ix3 i o l))
  rw [hemb]
  refine (hb _ _ i o l).trans ?_
  exact conv0_blk V c t i o l _ _ rfl rfl

/-- An entry of the array lies in point `t`'s block iff each coordinate lies in the block's range. -/
theorem mem_blk0_2 (t : Fin cfg0.N) (i : S64x128x1024.Idx) :
    i ∈ ((cfg0.win 2).blk t).view.set ↔ ∀ a : Fin 3, win0_2.index t a * S8x128x1024.size a ≤ (i a).val
      ∧ (i a).val < win0_2.index t a * S8x128x1024.size a + S8x128x1024.size a := by
  show i ∈ ((View.whole main_v8_0).slice (win0_2.rect t)).set ↔ _
  rw [View.set_slice_whole, Rect.mem_set_unit]
  exact Iff.rfl

/-- Every entry of the array is in the block of the point its sample belongs to. -/
theorem cover0_2' (i : S64x128x1024.Idx) :
    ∃ t : Fin cfg0.N, (cfg0.win 2).flush t = true ∧ i ∈ ((cfg0.win 2).blk t).view.set := by
  have h0 : (i 0).val < 64 := (i 0).isLt
  have h1 : (i 1).val < 128 := (i 1).isLt
  have h2 : (i 2).val < 1024 := (i 2).isLt
  refine ⟨⟨(i 0).val / 8, by rw [show cfg0.N = 8 from N_0]; omega⟩, flush0_2 _, ?_⟩
  rw [mem_blk0_2]
  obtain ⟨e0, e1, e2⟩ := (idx0 ⟨(i 0).val / 8, by rw [show cfg0.N = 8 from N_0]; omega⟩).2.2.1
  intro a
  match a with
  | ⟨0, _⟩ => show win0_2.index _ (0 : Fin 3) * 8 ≤ (i 0).val ∧ (i 0).val < win0_2.index _ (0 : Fin 3) * 8 + 8; rw [e0]; show (i 0).val / 8 * 8 ≤ _ ∧ _ < (i 0).val / 8 * 8 + 8; omega
  | ⟨1, _⟩ => show win0_2.index _ (1 : Fin 3) * 128 ≤ (i 1).val ∧ (i 1).val < win0_2.index _ (1 : Fin 3) * 128 + 128; rw [e1]; omega
  | ⟨2, _⟩ => show win0_2.index _ (2 : Fin 3) * 1024 ≤ (i 2).val ∧ (i 2).val < win0_2.index _ (2 : Fin 3) * 1024 + 1024; rw [e2]; omega

/-- The array after the region. -/
theorem final0_2 (V : (c : Dev nD) → (b : Ref sig .tc) → Buf (Elt Ideal) ((c : Thread nD τ).loc b)) (c : Dev nD) (hb : Body0_2) : (dat0 V c).arrAt 2 cfg0.N = G0_2 V c :=
  (dat0 V c).arrAt_eq_of_cover 2 (G0_2 V c) (fun t _ => flushed0_2 V c hb t) cover0_2'

/-- The first convolution, entry by entry, given what the body computes. -/
theorem arr0_2_of (V : (c : Dev nD) → (b : Ref sig .tc) → Buf (Elt Ideal) ((c : Thread nD τ).loc b)) (c : Dev nD) (hb : Body0_2) (n : Fin 64) (o : Fin 128) (l : Fin 1024) :
    arr (S := S64x128x1024) ((GenP.dat0 V c).arrAt 2 cfg0.N) (ix3 n o l)
      = ∑ t : Fin 3, ∑ ci : Fin 128, arr (S := S128x384) (V c main_v2) (ix2 o (kcol t ci))
          * tap (fun l' => arr (S := S64x128x1024) (V c main_arg0) (ix3 n ci l')) l t := by
  rw [final0_2 V c hb]
  rfl

/-- The second output array after the region (the sums of the first convolution over the positions), as one function of the arrays the region finds. -/
def G0_3 (V : (c : Dev nD) → (b : Ref sig .tc) → Buf (Elt Ideal) ((c : Thread nD τ).loc b)) (c : Dev nD) : S64x128x1.Idx → EReal := fun j => ∑ l : Fin 1024, conv0 V c (j 0) (j 1) l

/-- What grid point `t` writes back to it is block `t` of that function. -/
theorem flushed0_3 (V : (c : Dev nD) → (b : Ref sig .tc) → Buf (Elt Ideal) ((c : Thread nD τ).loc b)) (c : Dev nD) (hb : Body0_3) (t : Fin cfg0.N) :
    (dat0 V c).flushed 3 t = ((cfg0.win 3).blk t).view.read (Elt Ideal) (G0_3 V c) := by
  show (cfg0.win 3).cut (grid0.coords t) ((dat0 V c).after 3 t) = _
  rw [after0_3]
  obtain ⟨e0, e1, e2⟩ := (idx0 t).2.2.2.1
  funext j
  obtain ⟨i, o, u, rfl⟩ : ∃ (i : Fin 8) (o : Fin 128) (u : Fin 1), j = ix3 i o u := ⟨j 0, j 1, j 2, eq_ix3 j⟩
  obtain rfl : u = 0 := Subsingleton.elim _ _
  rw [View.read_apply]
  have hemb : ((cfg0.win 3).blk t).view.emb (ix3 i o (0 : Fin 1)) = (ix3 ⟨8 * t.val + i.val, sample_lt0 t i⟩ o (0 : Fin 1) : S64x128x1.Idx) := by
    funext a
    apply Fin.ext
    match a with
    | ⟨0, _⟩ => show win0_3.index t (0 : Fin 3) * 8 + 1 * i.val = 8 * t.val + i.val; omega
    | ⟨1, _⟩ => show win0_3.index t (1 : Fin 3) * 128 + 1 * o.val = o.val; omega
    | ⟨2, _⟩ => show win0_3.index t (2 : Fin 3) * 1 + 1 * (0 : Fin 1).val = (0 : Fin 1).val; omega
  show out0_3 (iblk0 V c 0 t) (iblk0 V c 1 t) (ix3 i o 0) = G0_3 V c (((cfg0.win 3).blk t).view.emb (ix3 i o (0 : Fin 1)))
  rw [hemb]
  refine (hb _ _ i o).trans ?_
  refine Finset.sum_congr rfl fun l _ => ?_
  exact conv0_blk V c t i o l _ _ rfl rfl

/-- An entry of the array lies in point `t`'s block iff each coordinate lies in the block's range. -/
theorem mem_blk0_3 (t : Fin cfg0.N) (i : S64x128x1.Idx) :
    i ∈ ((cfg0.win 3).blk t).view.set ↔ ∀ a : Fin 3, win0_3.index t a * S8x128x1.size a ≤ (i a).val
      ∧ (i a).val < win0_3.index t a * S8x128x1.size a + S8x128x1.size a := by
  show i ∈ ((View.whole main_v8_1).slice (win0_3.rect t)).set ↔ _
  rw [View.set_slice_whole, Rect.mem_set_unit]
  exact Iff.rfl

/-- Every entry of the array is in the block of the point its sample belongs to. -/
theorem cover0_3' (i : S64x128x1.Idx) :
    ∃ t : Fin cfg0.N, (cfg0.win 3).flush t = true ∧ i ∈ ((cfg0.win 3).blk t).view.set := by
  have h0 : (i 0).val < 64 := (i 0).isLt
  have h1 : (i 1).val < 128 := (i 1).isLt
  have h2 : (i 2).val < 1 := (i 2).isLt
  refine ⟨⟨(i 0).val / 8, by rw [show cfg0.N = 8 from N_0]; omega⟩, flush0_3 _, ?_⟩
  rw [mem_blk0_3]
  obtain ⟨e0, e1, e2⟩ := (idx0 ⟨(i 0).val / 8, by rw [show cfg0.N = 8 from N_0]; omega⟩).2.2.2.1
  intro a
  match a with
  | ⟨0, _⟩ => show win0_3.index _ (0 : Fin 3) * 8 ≤ (i 0).val ∧ (i 0).val < win0_3.index _ (0 : Fin 3) * 8 + 8; rw [e0]; show (i 0).val / 8 * 8 ≤ _ ∧ _ < (i 0).val / 8 * 8 + 8; omega
  | ⟨1, _⟩ => show win0_3.index _ (1 : Fin 3) * 128 ≤ (i 1).val ∧ (i 1).val < win0_3.index _ (1 : Fin 3) * 128 + 128; rw [e1]; omega
  | ⟨2, _⟩ => show win0_3.index _ (2 : Fin 3) * 1 ≤ (i 2).val ∧ (i 2).val < win0_3.index _ (2 : Fin 3) * 1 + 1; rw [e2]; omega

/-- The array after the region. -/
theorem final0_3 (V : (c : Dev nD) → (b : Ref sig .tc) → Buf (Elt Ideal) ((c : Thread nD τ).loc b)) (c : Dev nD) (hb : Body0_3) : (dat0 V c).arrAt 3 cfg0.N = G0_3 V c :=
  (dat0 V c).arrAt_eq_of_cover 3 (G0_3 V c) (fun t _ => flushed0_3 V c hb t) cover0_3'

/-- The sums of the first convolution over the positions, entry by entry, given what the body computes. -/
theorem arr0_3_of (V : (c : Dev nD) → (b : Ref sig .tc) → Buf (Elt Ideal) ((c : Thread nD τ).loc b)) (c : Dev nD) (hb : Body0_3) (n : Fin 64) (o : Fin 128) :
    arr (S := S64x128x1) ((GenP.dat0 V c).arrAt 3 cfg0.N) (ix3 n o 0)
      = ∑ l : Fin 1024, ∑ t : Fin 3, ∑ ci : Fin 128, arr (S := S128x384) (V c main_v2) (ix2 o (kcol t ci))
          * tap (fun l' => arr (S := S64x128x1024) (V c main_arg0) (ix3 n ci l')) l t := by
  rw [final0_3 V c hb]
  rfl

/-- The third output array after the region (the sums of squares), as one function of the arrays the region finds. -/
def G0_4 (V : (c : Dev nD) → (b : Ref sig .tc) → Buf (Elt Ideal) ((c : Thread nD τ).loc b)) (c : Dev nD) : S64x128x1.Idx → EReal := fun j => ∑ l : Fin 1024, conv0 V c (j 0) (j 1) l * conv0 V c (j 0) (j 1) l

/-- What grid point `t` writes back to it is block `t` of that function. -/
theorem flushed0_4 (V : (c : Dev nD) → (b : Ref sig .tc) → Buf (Elt Ideal) ((c : Thread nD τ).loc b)) (c : Dev nD) (hb : Body0_4) (t : Fin cfg0.N) :
    (dat0 V c).flushed 4 t = ((cfg0.win 4).blk t).view.read (Elt Ideal) (G0_4 V c) := by
  show (cfg0.win 4).cut (grid0.coords t) ((dat0 V c).after 4 t) = _
  rw [after0_4]
  obtain ⟨e0, e1, e2⟩ := (idx0 t).2.2.2.2
  funext j
  obtain ⟨i, o, u, rfl⟩ : ∃ (i : Fin 8) (o : Fin 128) (u : Fin 1), j = ix3 i o u := ⟨j 0, j 1, j 2, eq_ix3 j⟩
  obtain rfl : u = 0 := Subsingleton.elim _ _
  rw [View.read_apply]
  have hemb : ((cfg0.win 4).blk t).view.emb (ix3 i o (0 : Fin 1)) = (ix3 ⟨8 * t.val + i.val, sample_lt0 t i⟩ o (0 : Fin 1) : S64x128x1.Idx) := by
    funext a
    apply Fin.ext
    match a with
    | ⟨0, _⟩ => show win0_4.index t (0 : Fin 3) * 8 + 1 * i.val = 8 * t.val + i.val; omega
    | ⟨1, _⟩ => show win0_4.index t (1 : Fin 3) * 128 + 1 * o.val = o.val; omega
    | ⟨2, _⟩ => show win0_4.index t (2 : Fin 3) * 1 + 1 * (0 : Fin 1).val = (0 : Fin 1).val; omega
  show out0_4 (iblk0 V c 0 t) (iblk0 V c 1 t) (ix3 i o 0) = G0_4 V c (((cfg0.win 4).blk t).view.emb (ix3 i o (0 : Fin 1)))
  rw [hemb]
  refine (hb _ _ i o).trans ?_
  refine Finset.sum_congr rfl fun l _ => ?_
  rw [conv0_blk V c t i o l _ _ rfl rfl]

/-- An entry of the array lies in point `t`'s block iff each coordinate lies in the block's range. -/
theorem mem_blk0_4 (t : Fin cfg0.N) (i : S64x128x1.Idx) :
    i ∈ ((cfg0.win 4).blk t).view.set ↔ ∀ a : Fin 3, win0_4.index t a * S8x128x1.size a ≤ (i a).val
      ∧ (i a).val < win0_4.index t a * S8x128x1.size a + S8x128x1.size a := by
  show i ∈ ((View.whole main_v8_2).slice (win0_4.rect t)).set ↔ _
  rw [View.set_slice_whole, Rect.mem_set_unit]
  exact Iff.rfl

/-- Every entry of the array is in the block of the point its sample belongs to. -/
theorem cover0_4' (i : S64x128x1.Idx) :
    ∃ t : Fin cfg0.N, (cfg0.win 4).flush t = true ∧ i ∈ ((cfg0.win 4).blk t).view.set := by
  have h0 : (i 0).val < 64 := (i 0).isLt
  have h1 : (i 1).val < 128 := (i 1).isLt
  have h2 : (i 2).val < 1 := (i 2).isLt
  refine ⟨⟨(i 0).val / 8, by rw [show cfg0.N = 8 from N_0]; omega⟩, flush0_4 _, ?_⟩
  rw [mem_blk0_4]
  obtain ⟨e0, e1, e2⟩ := (idx0 ⟨(i 0).val / 8, by rw [show cfg0.N = 8 from N_0]; omega⟩).2.2.2.2
  intro a
  match a with
  | ⟨0, _⟩ => show win0_4.index _ (0 : Fin 3) * 8 ≤ (i 0).val ∧ (i 0).val < win0_4.index _ (0 : Fin 3) * 8 + 8; rw [e0]; show (i 0).val / 8 * 8 ≤ _ ∧ _ < (i 0).val / 8 * 8 + 8; omega
  | ⟨1, _⟩ => show win0_4.index _ (1 : Fin 3) * 128 ≤ (i 1).val ∧ (i 1).val < win0_4.index _ (1 : Fin 3) * 128 + 128; rw [e1]; omega
  | ⟨2, _⟩ => show win0_4.index _ (2 : Fin 3) * 1 ≤ (i 2).val ∧ (i 2).val < win0_4.index _ (2 : Fin 3) * 1 + 1; rw [e2]; omega

/-- The array after the region. -/
theorem final0_4 (V : (c : Dev nD) → (b : Ref sig .tc) → Buf (Elt Ideal) ((c : Thread nD τ).loc b)) (c : Dev nD) (hb : Body0_4) : (dat0 V c).arrAt 4 cfg0.N = G0_4 V c :=
  (dat0 V c).arrAt_eq_of_cover 4 (G0_4 V c) (fun t _ => flushed0_4 V c hb t) cover0_4'

/-- The sums of squares of the first convolution over the positions, entry by entry, given what the body computes. -/
theorem arr0_4_of (V : (c : Dev nD) → (b : Ref sig .tc) → Buf (Elt Ideal) ((c : Thread nD τ).loc b)) (c : Dev nD) (hb : Body0_4) (n : Fin 64) (o : Fin 128) :
    arr (S := S64x128x1) ((GenP.dat0 V c).arrAt 4 cfg0.N) (ix3 n o 0)
      = ∑ l : Fin 1024, (∑ t : Fin 3, ∑ ci : Fin 128, arr (S := S128x384) (V c main_v2) (ix2 o (kcol t ci))
          * tap (fun l' => arr (S := S64x128x1024) (V c main_arg0) (ix3 n ci l')) l t)
        * (∑ t : Fin 3, ∑ ci : Fin 128, arr (S := S128x384) (V c main_v2) (ix2 o (kcol t ci))
          * tap (fun l' => arr (S := S64x128x1024) (V c main_arg0) (ix3 n ci l')) l t) := by
  rw [final0_4 V c hb]
  rfl

end Cert.KernelIdeal.KReg
end
-- ==== Proof.KReg1.lean ====
/-
  From the blocks of the second region to its whole arrays. The region's eight grid points each write eight consecutive
  samples of every output; an entry of an output array is what the body computes for that sample from the blocks the
  point reads: the same samples of the first convolution's array, and the weight, scale and shift arrays whole. The
  result is stated for any contents of the arrays when the region is entered.
-/
import proofs.«152241_g2000003559913605_pallasbulk_133_2_alg».proof.Proof.KernelIdealFrameP
import proofs.«152241_g2000003559913605_pallasbulk_133_2_alg».proof.Proof.Spec

import Idealize.ShloMosaic.Lib.ValueIdx
import Idealize.ShloMosaic.Lib.Pipeline.Value

set_option maxRecDepth 16384
noncomputable section
namespace Cert.KernelIdeal.KReg
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.ResBlock

/-! # The second region's three arrays

As in the first region, grid point `t` works on samples `8t … 8t+7`: it reads them from the first convolution's array
and writes them to every output; the weights and the per-channel scale and shift are read whole at every point. -/

/-- What the body of the second region is required to compute from its four blocks, at every place of a block: the
    three-tap convolution of the scaled, shifted and clamped sample, its sum over the positions, and the sum of its squares. -/
abbrev Body1_4 : Prop := ∀ (x0 : Vec Ideal S8x128x1024 .bf16) (x1 : Vec Ideal S128x384 .bf16) (x2 x3 : Vec Ideal S128x1 .f32) (i : Fin 8) (o : Fin 128) (l : Fin 1024),
    GenP.out1_4 x0 x1 x2 x3 (ix3 i o l) = ∑ t : Fin 3, ∑ ci : Fin 128, x1 (ix2 o (kcol t ci))
      * tap (fun l' => max (x0 (ix3 i ci l') * x2 (ix2 ci 0) + x3 (ix2 ci 0)) zero) l t
abbrev Body1_5 : Prop := ∀ (x0 : Vec Ideal S8x128x1024 .bf16) (x1 : Vec Ideal S128x384 .bf16) (x2 x3 : Vec Ideal S128x1 .f32) (i : Fin 8) (o : Fin 128),
    GenP.out1_5 x0 x1 x2 x3 (ix3 i o 0) = ∑ l : Fin 1024, ∑ t : Fin 3, ∑ ci : Fin 128, x1 (ix2 o (kcol t ci))
      * tap (fun l' => max (x0 (ix3 i ci l') * x2 (ix2 ci 0) + x3 (ix2 ci 0)) zero) l t
abbrev Body1_6 : Prop := ∀ (x0 : Vec Ideal S8x128x1024 .bf16) (x1 : Vec Ideal S128x384 .bf16) (x2 x3 : Vec Ideal S128x1 .f32) (i : Fin 8) (o : Fin 128),
    GenP.out1_6 x0 x1 x2 x3 (ix3 i o 0) = ∑ l : Fin 1024, (∑ t : Fin 3, ∑ ci : Fin 128, x1 (ix2 o (kcol t ci))
      * tap (fun l' => max (x0 (ix3 i ci l') * x2 (ix2 ci 0) + x3 (ix2 ci 0)) zero) l t)
      * (∑ t : Fin 3, ∑ ci : Fin 128, x1 (ix2 o (kcol t ci))
      * tap (fun l' => max (x0 (ix3 i ci l') * x2 (ix2 ci 0) + x3 (ix2 ci 0)) zero) l t)

/-- The second convolution at one entry, from the arrays the region finds: the first convolution scaled, shifted and
    clamped at zero, then the three taps. -/
def conv1 (V : (c : Dev nD) → (b : Ref sig .tc) → Buf (Elt Ideal) ((c : Thread nD τ).loc b)) (c : Dev nD) (n : Fin 64) (o : Fin 128) (l : Fin 1024) : EReal :=
  ∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t

/-- The block indices of the windows at every grid point: the sample axis moves with the point, every other
    axis stays at block zero. -/
theorem idx1 : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

/-- The sample a grid point and a place inside its block name. -/
theorem sample_lt1 (t : Fin cfg1.N) (i : Fin 8) : 8 * t.val + i.val < 64 := by
  have h : t.val < 8 := lt_of_lt_of_eq t.isLt N_1
  omega

/-- The block of the first convolution at point `t` is samples `8t … 8t+7` of its array. -/
theorem iblk1_0_apply (V : (c : Dev nD) → (b : Ref sig .tc) → Buf (Elt Ideal) ((c : Thread nD τ).loc b)) (c : Dev nD) (t : Fin cfg1.N) (i : Fin 8) (ci : Fin 128) (l : Fin 1024) (n : Fin 64)
    (hn : n.val = 8 * t.val + i.val) :
    (iblk1 V c 0 t : Vec Ideal S8x128x1024 .bf16) (ix3 i ci l) = arr (S := S64x128x1024) (V c main_v8_0) (ix3 n ci l) := by
  obtain ⟨e0, e1, e2⟩ := (idx1 t).1
  unfold iblk1
  rw [View.read_apply]
  show V c main_v8_0 _ = V c main_v8_0 _
  congr 1
  funext a
  apply Fin.ext
  match a with
  | ⟨0, _⟩ => show win1_0.index t (0 : Fin 3) * 8 + 1 * i.val = n.val; omega
  | ⟨1, _⟩ => show win1_0.index t (1 : Fin 3) * 128 + 1 * ci.val = ci.val; omega
  | ⟨2, _⟩ => show win1_0.index t (2 : Fin 3) * 1024 + 1 * l.val = l.val; omega

/-- The weight block at every point is its whole array. -/
theorem iblk1_1_apply (V : (c : Dev nD) → (b : Ref sig .tc) → Buf (Elt Ideal) ((c : Thread nD τ).loc b)) (c : Dev nD) (t : Fin cfg1.N) (p : Fin 128) (q : Fin 384) :
    (iblk1 V c 1 t : Vec Ideal S128x384 .bf16) (ix2 p q) = arr (S := S128x384) (V c main_v5) (ix2 p q) := by
  obtain ⟨e0, e1⟩ := (idx1 t).2.1
  unfold iblk1
  rw [View.read_apply]
  show V c main_v5 _ = V c main_v5 _
  congr 1
  funext a
  apply Fin.ext
  match a with
  | ⟨0, _⟩ => show win1_1.index t (0 : Fin 2) * 128 + 1 * p.val = p.val; omega
  | ⟨1, _⟩ => show win1_1.index t (1 : Fin 2) * 384 + 1 * q.val = q.val; omega

/-- The scale block at every point is its whole array. -/
theorem iblk1_2_apply (V : (c : Dev nD) → (b : Ref sig .tc) → Buf (Elt Ideal) ((c : Thread nD τ).loc b)) (c : Dev nD) (t : Fin cfg1.N) (p : Fin 128) (q : Fin 1) :
    (iblk1 V c 2 t : Vec Ideal S128x1 .f32) (ix2 p q) = arr (S := S128x1) (V c main_v27) (ix2 p q) := by
  obtain ⟨e0, e1⟩ := (idx1 t).2.2.1
  unfold iblk1
  rw [View.read_apply]
  show V c main_v27 _ = V c main_v27 _
  congr 1
  funext a
  apply Fin.ext
  match a with
  | ⟨0, _⟩ => show win1_2.index t (0 : Fin 2) * 128 + 1 * p.val = p.val; omega
  | ⟨1, _⟩ => show win1_2.index t (1 : Fin 2) * 1 + 1 * q.val = q.val; omega

/-- The shift block at every point is its whole array. -/
theorem iblk1_3_apply (V : (c : Dev nD) → (b : Ref sig .tc) → Buf (Elt Ideal) ((c : Thread nD τ).loc b)) (c : Dev nD) (t : Fin cfg1.N) (p : Fin 128) (q : Fin 1) :
    (iblk1 V c 3 t : Vec Ideal S128x1 .f32) (ix2 p q) = arr (S := S128x1) (V c main_v28) (ix2 p q) := by
  obtain ⟨e0, e1⟩ := (idx1 t).2.2.2.1
  unfold iblk1
  rw [View.read_apply]
  show V c main_v28 _ = V c main_v28 _
  congr 1
  funext a
  apply Fin.ext
  match a with
  | ⟨0, _⟩ => show win1_3.index t (0 : Fin 2) * 128 + 1 * p.val = p.val; omega
  | ⟨1, _⟩ => show win1_3.index t (1 : Fin 2) * 1 + 1 * q.val = q.val; omega

/-- One entry of the second convolution read from a point's blocks is that entry read from the arrays. -/
theorem conv1_blk (V : (c : Dev nD) → (b : Ref sig .tc) → Buf (Elt Ideal) ((c : Thread nD τ).loc b)) (c : Dev nD) (t : Fin cfg1.N) (i : Fin 8) (o : Fin 128) (l : Fin 1024)
    (x0 : Vec Ideal S8x128x1024 .bf16) (x1 : Vec Ideal S128x384 .bf16) (x2 x3 : Vec Ideal S128x1 .f32)
    (h0 : x0 = iblk1 V c 0 t) (h1 : x1 = iblk1 V c 1 t) (h2 : x2 = iblk1 V c 2 t) (h3 : x3 = iblk1 V c 3 t) :
    (∑ tp : Fin 3, ∑ ci : Fin 128, x1 (ix2 o (kcol tp ci))
        * tap (fun l' => max (x0 (ix3 i ci l') * x2 (ix2 ci 0) + x3 (ix2 ci 0)) zero) l tp)
      = conv1 V c ⟨8 * t.val + i.val, sample_lt1 t i⟩ o l := by
  subst h0 h1 h2 h3
  unfold conv1
  refine Finset.sum_congr rfl fun tp _ => Finset.sum_congr rfl fun ci _ => ?_
  rw [iblk1_1_apply V c t o (kcol tp ci)]
  congr 1
  congr 1
  funext l'
  rw [iblk1_0_apply V c t i ci l' ⟨8 * t.val + i.val, sample_lt1 t i⟩ rfl, iblk1_2_apply V c t ci 0, iblk1_3_apply V c t ci 0]

/-- The first output array after the region (the second convolution), as one function of the arrays the region finds. -/
def G1_4 (V : (c : Dev nD) → (b : Ref sig .tc) → Buf (Elt Ideal) ((c : Thread nD τ).loc b)) (c : Dev nD) : S64x128x1024.Idx → EReal := fun j => conv1 V c (j 0) (j 1) (j 2)

/-- What grid point `t` writes back to it is block `t` of that function. -/
theorem flushed1_4 (V : (c : Dev nD) → (b : Ref sig .tc) → Buf (Elt Ideal) ((c : Thread nD τ).loc b)) (c : Dev nD) (hb : Body1_4) (t : Fin cfg1.N) :
    (dat1 V c).flushed 4 t = ((cfg1.win 4).blk t).view.read (Elt Ideal) (G1_4 V c) := by
  show (cfg1.win 4).cut (grid1.coords t) ((dat1 V c).after 4 t) = _
  rw [after1_4]
  obtain ⟨e0, e1, e2⟩ := (idx1 t).2.2.2.2.1
  funext j
  obtain ⟨i, o, l, rfl⟩ : ∃ (i : Fin 8) (o : Fin 128) (l : Fin 1024), j = ix3 i o l := ⟨j 0, j 1, j 2, eq_ix3 j⟩
  rw [View.read_apply]
  have hemb : ((cfg1.win 4).blk t).view.emb (ix3 i o l) = (ix3 ⟨8 * t.val + i.val, sample_lt1 t i⟩ o l : S64x128x1024.Idx) := by
    funext a
    apply Fin.ext
    match a with
    | ⟨0, _⟩ => show win1_4.index t (0 : Fin 3) * 8 + 1 * i.val = 8 * t.val + i.val; omega
    | ⟨1, _⟩ => show win1_4.index t (1 : Fin 3) * 128 + 1 * o.val = o.val; omega
    | ⟨2, _⟩ => show win1_4.index t (2 : Fin 3) * 1024 + 1 * l.val = l.val; omega
  show out1_4 (iblk1 V c 0 t) (iblk1 V c 1 t) (iblk1 V c 2 t) (iblk1 V c 3 t) (ix3 i o l) = G1_4 V c (((cfg1.win 4).blk t).view.emb (ix3 i o l))
  rw [hemb]
  refine (hb _ _ _ _ i o l).trans ?_
  exact conv1_blk V c t i o l _ _ _ _ rfl rfl rfl rfl

/-- An entry of the array lies in point `t`'s block iff each coordinate lies in the block's range. -/
theorem mem_blk1_4 (t : Fin cfg1.N) (i : S64x128x1024.Idx) :
    i ∈ ((cfg1.win 4).blk t).view.set ↔ ∀ a : Fin 3, win1_4.index t a * S8x128x1024.size a ≤ (i a).val
      ∧ (i a).val < win1_4.index t a * S8x128x1024.size a + S8x128x1024.size a := by
  show i ∈ ((View.whole main_v29_0).slice (win1_4.rect t)).set ↔ _
  rw [View.set_slice_whole, Rect.mem_set_unit]
  exact Iff.rfl

/-- Every entry of the array is in the block of the point its sample belongs to. -/
theorem cover1_4' (i : S64x128x1024.Idx) :
    ∃ t : Fin cfg1.N, (cfg1.win 4).flush t = true ∧ i ∈ ((cfg1.win 4).blk t).view.set := by
  have h0 : (i 0).val < 64 := (i 0).isLt
  have h1 : (i 1).val < 128 := (i 1).isLt
  have h2 : (i 2).val < 1024 := (i 2).isLt
  refine ⟨⟨(i 0).val / 8, by rw [show cfg1.N = 8 from N_1]; omega⟩, flush1_4 _, ?_⟩
  rw [mem_blk1_4]
  obtain ⟨e0, e1, e2⟩ := (idx1 ⟨(i 0).val / 8, by rw [show cfg1.N = 8 from N_1]; omega⟩).2.2.2.2.1
  intro a
  match a with
  | ⟨0, _⟩ => show win1_4.index _ (0 : Fin 3) * 8 ≤ (i 0).val ∧ (i 0).val < win1_4.index _ (0 : Fin 3) * 8 + 8; rw [e0]; show (i 0).val / 8 * 8 ≤ _ ∧ _ < (i 0).val / 8 * 8 + 8; omega
  | ⟨1, _⟩ => show win1_4.index _ (1 : Fin 3) * 128 ≤ (i 1).val ∧ (i 1).val < win1_4.index _ (1 : Fin 3) * 128 + 128; rw [e1]; omega
  | ⟨2, _⟩ => show win1_4.index _ (2 : Fin 3) * 1024 ≤ (i 2).val ∧ (i 2).val < win1_4.index _ (2 : Fin 3) * 1024 + 1024; rw [e2]; omega

/-- The array after the region. -/
theorem final1_4 (V : (c : Dev nD) → (b : Ref sig .tc) → Buf (Elt Ideal) ((c : Thread nD τ).loc b)) (c : Dev nD) (hb : Body1_4) : (dat1 V c).arrAt 4 cfg1.N = G1_4 V c :=
  (dat1 V c).arrAt_eq_of_cover 4 (G1_4 V c) (fun t _ => flushed1_4 V c hb t) cover1_4'

/-- The second convolution, entry by entry, given what the body computes. -/
theorem arr1_4_of (V : (c : Dev nD) → (b : Ref sig .tc) → Buf (Elt Ideal) ((c : Thread nD τ).loc b)) (c : Dev nD) (hb : Body1_4) (n : Fin 64) (o : Fin 128) (l : Fin 1024) :
    arr (S := S64x128x1024) ((GenP.dat1 V c).arrAt 4 cfg1.N) (ix3 n o l)
      = ∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t := by
  rw [final1_4 V c hb]
  rfl

/-- The second output array after the region (the sums of the second convolution over the positions), as one function of the arrays the region finds. -/
def G1_5 (V : (c : Dev nD) → (b : Ref sig .tc) → Buf (Elt Ideal) ((c : Thread nD τ).loc b)) (c : Dev nD) : S64x128x1.Idx → EReal := fun j => ∑ l : Fin 1024, conv1 V c (j 0) (j 1) l

/-- What grid point `t` writes back to it is block `t` of that function. -/
theorem flushed1_5 (V : (c : Dev nD) → (b : Ref sig .tc) → Buf (Elt Ideal) ((c : Thread nD τ).loc b)) (c : Dev nD) (hb : Body1_5) (t : Fin cfg1.N) :
    (dat1 V c).flushed 5 t = ((cfg1.win 5).blk t).view.read (Elt Ideal) (G1_5 V c) := by
  show (cfg1.win 5).cut (grid1.coords t) ((dat1 V c).after 5 t) = _
  rw [after1_5]
  obtain ⟨e0, e1, e2⟩ := (idx1 t).2.2.2.2.2.1
  funext j
  obtain ⟨i, o, u, rfl⟩ : ∃ (i : Fin 8) (o : Fin 128) (u : Fin 1), j = ix3 i o u := ⟨j 0, j 1, j 2, eq_ix3 j⟩
  obtain rfl : u = 0 := Subsingleton.elim _ _
  rw [View.read_apply]
  have hemb : ((cfg1.win 5).blk t).view.emb (ix3 i o (0 : Fin 1)) = (ix3 ⟨8 * t.val + i.val, sample_lt1 t i⟩ o (0 : Fin 1) : S64x128x1.Idx) := by
    funext a
    apply Fin.ext
    match a with
    | ⟨0, _⟩ => show win1_5.index t (0 : Fin 3) * 8 + 1 * i.val = 8 * t.val + i.val; omega
    | ⟨1, _⟩ => show win1_5.index t (1 : Fin 3) * 128 + 1 * o.val = o.val; omega
    | ⟨2, _⟩ => show win1_5.index t (2 : Fin 3) * 1 + 1 * (0 : Fin 1).val = (0 : Fin 1).val; omega
  show out1_5 (iblk1 V c 0 t) (iblk1 V c 1 t) (iblk1 V c 2 t) (iblk1 V c 3 t) (ix3 i o 0) = G1_5 V c (((cfg1.win 5).blk t).view.emb (ix3 i o (0 : Fin 1)))
  rw [hemb]
  refine (hb _ _ _ _ i o).trans ?_
  refine Finset.sum_congr rfl fun l _ => ?_
  exact conv1_blk V c t i o l _ _ _ _ rfl rfl rfl rfl

/-- An entry of the array lies in point `t`'s block iff each coordinate lies in the block's range. -/
theorem mem_blk1_5 (t : Fin cfg1.N) (i : S64x128x1.Idx) :
    i ∈ ((cfg1.win 5).blk t).view.set ↔ ∀ a : Fin 3, win1_5.index t a * S8x128x1.size a ≤ (i a).val
      ∧ (i a).val < win1_5.index t a * S8x128x1.size a + S8x128x1.size a := by
  show i ∈ ((View.whole main_v29_1).slice (win1_5.rect t)).set ↔ _
  rw [View.set_slice_whole, Rect.mem_set_unit]
  exact Iff.rfl

/-- Every entry of the array is in the block of the point its sample belongs to. -/
theorem cover1_5' (i : S64x128x1.Idx) :
    ∃ t : Fin cfg1.N, (cfg1.win 5).flush t = true ∧ i ∈ ((cfg1.win 5).blk t).view.set := by
  have h0 : (i 0).val < 64 := (i 0).isLt
  have h1 : (i 1).val < 128 := (i 1).isLt
  have h2 : (i 2).val < 1 := (i 2).isLt
  refine ⟨⟨(i 0).val / 8, by rw [show cfg1.N = 8 from N_1]; omega⟩, flush1_5 _, ?_⟩
  rw [mem_blk1_5]
  obtain ⟨e0, e1, e2⟩ := (idx1 ⟨(i 0).val / 8, by rw [show cfg1.N = 8 from N_1]; omega⟩).2.2.2.2.2.1
  intro a
  match a with
  | ⟨0, _⟩ => show win1_5.index _ (0 : Fin 3) * 8 ≤ (i 0).val ∧ (i 0).val < win1_5.index _ (0 : Fin 3) * 8 + 8; rw [e0]; show (i 0).val / 8 * 8 ≤ _ ∧ _ < (i 0).val / 8 * 8 + 8; omega
  | ⟨1, _⟩ => show win1_5.index _ (1 : Fin 3) * 128 ≤ (i 1).val ∧ (i 1).val < win1_5.index _ (1 : Fin 3) * 128 + 128; rw [e1]; omega
  | ⟨2, _⟩ => show win1_5.index _ (2 : Fin 3) * 1 ≤ (i 2).val ∧ (i 2).val < win1_5.index _ (2 : Fin 3) * 1 + 1; rw [e2]; omega

/-- The array after the region. -/
theorem final1_5 (V : (c : Dev nD) → (b : Ref sig .tc) → Buf (Elt Ideal) ((c : Thread nD τ).loc b)) (c : Dev nD) (hb : Body1_5) : (dat1 V c).arrAt 5 cfg1.N = G1_5 V c :=
  (dat1 V c).arrAt_eq_of_cover 5 (G1_5 V c) (fun t _ => flushed1_5 V c hb t) cover1_5'

/-- The sums of the second convolution over the positions, entry by entry, given what the body computes. -/
theorem arr1_5_of (V : (c : Dev nD) → (b : Ref sig .tc) → Buf (Elt Ideal) ((c : Thread nD τ).loc b)) (c : Dev nD) (hb : Body1_5) (n : Fin 64) (o : Fin 128) :
    arr (S := S64x128x1) ((GenP.dat1 V c).arrAt 5 cfg1.N) (ix3 n o 0)
      = ∑ l : Fin 1024, ∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t := by
  rw [final1_5 V c hb]
  rfl

/-- The third output array after the region (the sums of squares), as one function of the arrays the region finds. -/
def G1_6 (V : (c : Dev nD) → (b : Ref sig .tc) → Buf (Elt Ideal) ((c : Thread nD τ).loc b)) (c : Dev nD) : S64x128x1.Idx → EReal := fun j => ∑ l : Fin 1024, conv1 V c (j 0) (j 1) l * conv1 V c (j 0) (j 1) l

/-- What grid point `t` writes back to it is block `t` of that function. -/
theorem flushed1_6 (V : (c : Dev nD) → (b : Ref sig .tc) → Buf (Elt Ideal) ((c : Thread nD τ).loc b)) (c : Dev nD) (hb : Body1_6) (t : Fin cfg1.N) :
    (dat1 V c).flushed 6 t = ((cfg1.win 6).blk t).view.read (Elt Ideal) (G1_6 V c) := by
  show (cfg1.win 6).cut (grid1.coords t) ((dat1 V c).after 6 t) = _
  rw [after1_6]
  obtain ⟨e0, e1, e2⟩ := (idx1 t).2.2.2.2.2.2
  funext j
  obtain ⟨i, o, u, rfl⟩ : ∃ (i : Fin 8) (o : Fin 128) (u : Fin 1), j = ix3 i o u := ⟨j 0, j 1, j 2, eq_ix3 j⟩
  obtain rfl : u = 0 := Subsingleton.elim _ _
  rw [View.read_apply]
  have hemb : ((cfg1.win 6).blk t).view.emb (ix3 i o (0 : Fin 1)) = (ix3 ⟨8 * t.val + i.val, sample_lt1 t i⟩ o (0 : Fin 1) : S64x128x1.Idx) := by
    funext a
    apply Fin.ext
    match a with
    | ⟨0, _⟩ => show win1_6.index t (0 : Fin 3) * 8 + 1 * i.val = 8 * t.val + i.val; omega
    | ⟨1, _⟩ => show win1_6.index t (1 : Fin 3) * 128 + 1 * o.val = o.val; omega
    | ⟨2, _⟩ => show win1_6.index t (2 : Fin 3) * 1 + 1 * (0 : Fin 1).val = (0 : Fin 1).val; omega
  show out1_6 (iblk1 V c 0 t) (iblk1 V c 1 t) (iblk1 V c 2 t) (iblk1 V c 3 t) (ix3 i o 0) = G1_6 V c (((cfg1.win 6).blk t).view.emb (ix3 i o (0 : Fin 1)))
  rw [hemb]
  refine (hb _ _ _ _ i o).trans ?_
  refine Finset.sum_congr rfl fun l _ => ?_
  rw [conv1_blk V c t i o l _ _ _ _ rfl rfl rfl rfl]

/-- An entry of the array lies in point `t`'s block iff each coordinate lies in the block's range. -/
theorem mem_blk1_6 (t : Fin cfg1.N) (i : S64x128x1.Idx) :
    i ∈ ((cfg1.win 6).blk t).view.set ↔ ∀ a : Fin 3, win1_6.index t a * S8x128x1.size a ≤ (i a).val
      ∧ (i a).val < win1_6.index t a * S8x128x1.size a + S8x128x1.size a := by
  show i ∈ ((View.whole main_v29_2).slice (win1_6.rect t)).set ↔ _
  rw [View.set_slice_whole, Rect.mem_set_unit]
  exact Iff.rfl

/-- Every entry of the array is in the block of the point its sample belongs to. -/
theorem cover1_6' (i : S64x128x1.Idx) :
    ∃ t : Fin cfg1.N, (cfg1.win 6).flush t = true ∧ i ∈ ((cfg1.win 6).blk t).view.set := by
  have h0 : (i 0).val < 64 := (i 0).isLt
  have h1 : (i 1).val < 128 := (i 1).isLt
  have h2 : (i 2).val < 1 := (i 2).isLt
  refine ⟨⟨(i 0).val / 8, by rw [show cfg1.N = 8 from N_1]; omega⟩, flush1_6 _, ?_⟩
  rw [mem_blk1_6]
  obtain ⟨e0, e1, e2⟩ := (idx1 ⟨(i 0).val / 8, by rw [show cfg1.N = 8 from N_1]; omega⟩).2.2.2.2.2.2
  intro a
  match a with
  | ⟨0, _⟩ => show win1_6.index _ (0 : Fin 3) * 8 ≤ (i 0).val ∧ (i 0).val < win1_6.index _ (0 : Fin 3) * 8 + 8; rw [e0]; show (i 0).val / 8 * 8 ≤ _ ∧ _ < (i 0).val / 8 * 8 + 8; omega
  | ⟨1, _⟩ => show win1_6.index _ (1 : Fin 3) * 128 ≤ (i 1).val ∧ (i 1).val < win1_6.index _ (1 : Fin 3) * 128 + 128; rw [e1]; omega
  | ⟨2, _⟩ => show win1_6.index _ (2 : Fin 3) * 1 ≤ (i 2).val ∧ (i 2).val < win1_6.index _ (2 : Fin 3) * 1 + 1; rw [e2]; omega

/-- The array after the region. -/
theorem final1_6 (V : (c : Dev nD) → (b : Ref sig .tc) → Buf (Elt Ideal) ((c : Thread nD τ).loc b)) (c : Dev nD) (hb : Body1_6) : (dat1 V c).arrAt 6 cfg1.N = G1_6 V c :=
  (dat1 V c).arrAt_eq_of_cover 6 (G1_6 V c) (fun t _ => flushed1_6 V c hb t) cover1_6'

/-- The sums of squares of the second convolution over the positions, entry by entry, given what the body computes. -/
theorem arr1_6_of (V : (c : Dev nD) → (b : Ref sig .tc) → Buf (Elt Ideal) ((c : Thread nD τ).loc b)) (c : Dev nD) (hb : Body1_6) (n : Fin 64) (o : Fin 128) :
    arr (S := S64x128x1) ((GenP.dat1 V c).arrAt 6 cfg1.N) (ix3 n o 0)
      = ∑ l : Fin 1024, (∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t)
        * (∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t) := by
  rw [final1_6 V c hb]
  rfl

end Cert.KernelIdeal.KReg
end
-- ==== Proof.KReg2.lean ====
/-
  From the blocks of the third region to its whole array. The region's eight grid points each write eight consecutive
  samples of the result; an entry of it is what the body computes for that sample from the blocks the point reads: the
  same samples of the second convolution's array and of the input, and the projection weights, scale and shift whole.
  The result is stated for any contents of the arrays when the region is entered.
-/
import proofs.«152241_g2000003559913605_pallasbulk_133_2_alg».proof.Proof.KernelIdealFrameP
import proofs.«152241_g2000003559913605_pallasbulk_133_2_alg».proof.Proof.Spec

import Idealize.ShloMosaic.Lib.ValueIdx
import Idealize.ShloMosaic.Lib.Pipeline.Value

set_option maxRecDepth 16384
noncomputable section
namespace Cert.KernelIdeal.KReg
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.ResBlock

/-! # The third region's array

Grid point `t` works on samples `8t … 8t+7`: it reads them from the second convolution's array and from the input and
writes them to the result; the projection weights and the per-channel scale and shift are read whole at every point. -/

/-- What the body of the third region is required to compute from its five blocks, at every place of a block. -/
abbrev Body2_5 : Prop := ∀ (x0 : Vec Ideal S8x128x1024 .bf16) (x1 : Vec Ideal S8x128x1024 .f32) (x2 : Vec Ideal S128x128 .bf16) (x3 x4 : Vec Ideal S128x1 .f32) (i : Fin 8) (o : Fin 128) (l : Fin 1024),
    GenP.out2_5 x0 x1 x2 x3 x4 (ix3 i o l) = max ((x0 (ix3 i o l) * x3 (ix2 o 0) + x4 (ix2 o 0)) + ∑ ci : Fin 128, x2 (ix2 o ci) * x1 (ix3 i ci l)) zero

/-- The block's result at one entry, from the arrays the region finds: the second convolution scaled and shifted, plus
    the projection of the input, clamped at zero. -/
def res2 (V : (c : Dev nD) → (b : Ref sig .tc) → Buf (Elt Ideal) ((c : Thread nD τ).loc b)) (c : Dev nD) (n : Fin 64) (o : Fin 128) (l : Fin 1024) : EReal :=
  max ((arr (S := S64x128x1024) (V c main_v29_0) (ix3 n o l) * arr (S := S128x1) (V c main_v48) (ix2 o 0) + arr (S := S128x1) (V c main_v49) (ix2 o 0))
          + ∑ ci : Fin 128, arr (S := S128x128) (V c main_v7) (ix2 o ci) * arr (S := S64x128x1024) (V c main_arg0) (ix3 n ci l)) zero

/-- The block indices of the windows at every grid point: the sample axis moves with the point, every other
    axis stays at block zero. -/
theorem idx2 : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 3) = t.val ∧ win2_5.index t (1 : Fin 3) = 0 ∧ win2_5.index t (2 : Fin 3) = 0) :=
  (by decide +kernel : ∀ t : Fin grid2.N, _)

/-- The sample a grid point and a place inside its block name. -/
theorem sample_lt2 (t : Fin cfg2.N) (i : Fin 8) : 8 * t.val + i.val < 64 := by
  have h : t.val < 8 := lt_of_lt_of_eq t.isLt N_2
  omega

/-- The block of the second convolution at point `t` is samples `8t … 8t+7` of its array. -/
theorem iblk2_0_apply (V : (c : Dev nD) → (b : Ref sig .tc) → Buf (Elt Ideal) ((c : Thread nD τ).loc b)) (c : Dev nD) (t : Fin cfg2.N) (i : Fin 8) (ci : Fin 128) (l : Fin 1024) (n : Fin 64)
    (hn : n.val = 8 * t.val + i.val) :
    (iblk2 V c 0 t : Vec Ideal S8x128x1024 .bf16) (ix3 i ci l) = arr (S := S64x128x1024) (V c main_v29_0) (ix3 n ci l) := by
  obtain ⟨e0, e1, e2⟩ := (idx2 t).1
  unfold iblk2
  rw [View.read_apply]
  show V c main_v29_0 _ = V c main_v29_0 _
  congr 1
  funext a
  apply Fin.ext
  match a with
  | ⟨0, _⟩ => show win2_0.index t (0 : Fin 3) * 8 + 1 * i.val = n.val; omega
  | ⟨1, _⟩ => show win2_0.index t (1 : Fin 3) * 128 + 1 * ci.val = ci.val; omega
  | ⟨2, _⟩ => show win2_0.index t (2 : Fin 3) * 1024 + 1 * l.val = l.val; omega

/-- The input block at point `t` is samples `8t … 8t+7` of its array. -/
theorem iblk2_1_apply (V : (c : Dev nD) → (b : Ref sig .tc) → Buf (Elt Ideal) ((c : Thread nD τ).loc b)) (c : Dev nD) (t : Fin cfg2.N) (i : Fin 8) (ci : Fin 128) (l : Fin 1024) (n : Fin 64)
    (hn : n.val = 8 * t.val + i.val) :
    (iblk2 V c 1 t : Vec Ideal S8x128x1024 .f32) (ix3 i ci l) = arr (S := S64x128x1024) (V c main_arg0) (ix3 n ci l) := by
  obtain ⟨e0, e1, e2⟩ := (idx2 t).2.1
  unfold iblk2
  rw [View.read_apply]
  show V c main_arg0 _ = V c main_arg0 _
  congr 1
  funext a
  apply Fin.ext
  match a with
  | ⟨0, _⟩ => show win2_1.index t (0 : Fin 3) * 8 + 1 * i.val = n.val; omega
  | ⟨1, _⟩ => show win2_1.index t (1 : Fin 3) * 128 + 1 * ci.val = ci.val; omega
  | ⟨2, _⟩ => show win2_1.index t (2 : Fin 3) * 1024 + 1 * l.val = l.val; omega

/-- The projection weight block at every point is its whole array. -/
theorem iblk2_2_apply (V : (c : Dev nD) → (b : Ref sig .tc) → Buf (Elt Ideal) ((c : Thread nD τ).loc b)) (c : Dev nD) (t : Fin cfg2.N) (p : Fin 128) (q : Fin 128) :
    (iblk2 V c 2 t : Vec Ideal S128x128 .bf16) (ix2 p q) = arr (S := S128x128) (V c main_v7) (ix2 p q) := by
  obtain ⟨e0, e1⟩ := (idx2 t).2.2.1
  unfold iblk2
  rw [View.read_apply]
  show V c main_v7 _ = V c main_v7 _
  congr 1
  funext a
  apply Fin.ext
  match a with
  | ⟨0, _⟩ => show win2_2.index t (0 : Fin 2) * 128 + 1 * p.val = p.val; omega
  | ⟨1, _⟩ => show win2_2.index t (1 : Fin 2) * 128 + 1 * q.val = q.val; omega

/-- The scale block at every point is its whole array. -/
theorem iblk2_3_apply (V : (c : Dev nD) → (b : Ref sig .tc) → Buf (Elt Ideal) ((c : Thread nD τ).loc b)) (c : Dev nD) (t : Fin cfg2.N) (p : Fin 128) (q : Fin 1) :
    (iblk2 V c 3 t : Vec Ideal S128x1 .f32) (ix2 p q) = arr (S := S128x1) (V c main_v48) (ix2 p q) := by
  obtain ⟨e0, e1⟩ := (idx2 t).2.2.2.1
  unfold iblk2
  rw [View.read_apply]
  show V c main_v48 _ = V c main_v48 _
  congr 1
  funext a
  apply Fin.ext
  match a with
  | ⟨0, _⟩ => show win2_3.index t (0 : Fin 2) * 128 + 1 * p.val = p.val; omega
  | ⟨1, _⟩ => show win2_3.index t (1 : Fin 2) * 1 + 1 * q.val = q.val; omega

/-- The shift block at every point is its whole array. -/
theorem iblk2_4_apply (V : (c : Dev nD) → (b : Ref sig .tc) → Buf (Elt Ideal) ((c : Thread nD τ).loc b)) (c : Dev nD) (t : Fin cfg2.N) (p : Fin 128) (q : Fin 1) :
    (iblk2 V c 4 t : Vec Ideal S128x1 .f32) (ix2 p q) = arr (S := S128x1) (V c main_v49) (ix2 p q) := by
  obtain ⟨e0, e1⟩ := (idx2 t).2.2.2.2.1
  unfold iblk2
  rw [View.read_apply]
  show V c main_v49 _ = V c main_v49 _
  congr 1
  funext a
  apply Fin.ext
  match a with
  | ⟨0, _⟩ => show win2_4.index t (0 : Fin 2) * 128 + 1 * p.val = p.val; omega
  | ⟨1, _⟩ => show win2_4.index t (1 : Fin 2) * 1 + 1 * q.val = q.val; omega

/-- One entry of the result computed from blocks that read sample `n` of the two activation arrays at place `i` and the
    three per-channel arrays whole is that entry computed from the arrays. -/
theorem res2_blk (V : (c : Dev nD) → (b : Ref sig .tc) → Buf (Elt Ideal) ((c : Thread nD τ).loc b)) (c : Dev nD) (n : Fin 64) (i : Fin 8) (o : Fin 128) (l : Fin 1024)
    (x0 : Vec Ideal S8x128x1024 .bf16) (x1 : Vec Ideal S8x128x1024 .f32) (x2 : Vec Ideal S128x128 .bf16) (x3 x4 : Vec Ideal S128x1 .f32)
    (h0 : ∀ (ci : Fin 128) (l' : Fin 1024), x0 (ix3 i ci l') = arr (S := S64x128x1024) (V c main_v29_0) (ix3 n ci l'))
    (h1 : ∀ (ci : Fin 128) (l' : Fin 1024), x1 (ix3 i ci l') = arr (S := S64x128x1024) (V c main_arg0) (ix3 n ci l'))
    (h2 : ∀ (p q : Fin 128), x2 (ix2 p q) = arr (S := S128x128) (V c main_v7) (ix2 p q))
    (h3 : ∀ (p : Fin 128) (q : Fin 1), x3 (ix2 p q) = arr (S := S128x1) (V c main_v48) (ix2 p q))
    (h4 : ∀ (p : Fin 128) (q : Fin 1), x4 (ix2 p q) = arr (S := S128x1) (V c main_v49) (ix2 p q)) :
    max ((x0 (ix3 i o l) * x3 (ix2 o 0) + x4 (ix2 o 0)) + ∑ ci : Fin 128, x2 (ix2 o ci) * x1 (ix3 i ci l)) zero
      = res2 V c n o l := by
  unfold res2
  rw [h0, h3, h4]
  congr 1
  congr 1
  refine Finset.sum_congr rfl fun ci _ => ?_
  rw [h2, h1]

/-- The output array after the region, as one function of the arrays the region finds. -/
def G2_5 (V : (c : Dev nD) → (b : Ref sig .tc) → Buf (Elt Ideal) ((c : Thread nD τ).loc b)) (c : Dev nD) : S64x128x1024.Idx → EReal := fun j => res2 V c (j 0) (j 1) (j 2)

/-- What grid point `t` writes back to it is block `t` of that function. -/
theorem flushed2_5 (V : (c : Dev nD) → (b : Ref sig .tc) → Buf (Elt Ideal) ((c : Thread nD τ).loc b)) (c : Dev nD) (hb : Body2_5) (t : Fin cfg2.N) :
    (dat2 V c).flushed 5 t = ((cfg2.win 5).blk t).view.read (Elt Ideal) (G2_5 V c) := by
  show (cfg2.win 5).cut (grid2.coords t) ((dat2 V c).after 5 t) = _
  rw [after2_5]
  obtain ⟨e0, e1, e2⟩ := (idx2 t).2.2.2.2.2
  funext j
  obtain ⟨i, o, l, rfl⟩ : ∃ (i : Fin 8) (o : Fin 128) (l : Fin 1024), j = ix3 i o l := ⟨j 0, j 1, j 2, eq_ix3 j⟩
  rw [View.read_apply]
  have hemb : ((cfg2.win 5).blk t).view.emb (ix3 i o l) = (ix3 ⟨8 * t.val + i.val, sample_lt2 t i⟩ o l : S64x128x1024.Idx) := by
    funext a
    apply Fin.ext
    match a with
    | ⟨0, _⟩ => show win2_5.index t (0 : Fin 3) * 8 + 1 * i.val = 8 * t.val + i.val; omega
    | ⟨1, _⟩ => show win2_5.index t (1 : Fin 3) * 128 + 1 * o.val = o.val; omega
    | ⟨2, _⟩ => show win2_5.index t (2 : Fin 3) * 1024 + 1 * l.val = l.val; omega
  show out2_5 (iblk2 V c 0 t) (iblk2 V c 1 t) (iblk2 V c 2 t) (iblk2 V c 3 t) (iblk2 V c 4 t) (ix3 i o l) = G2_5 V c (((cfg2.win 5).blk t).view.emb (ix3 i o l))
  rw [hemb]
  refine (hb _ _ _ _ _ i o l).trans ?_
  exact res2_blk V c ⟨8 * t.val + i.val, sample_lt2 t i⟩ i o l _ _ _ _ _
    (fun ci l' => iblk2_0_apply V c t i ci l' _ rfl) (fun ci l' => iblk2_1_apply V c t i ci l' _ rfl)
    (iblk2_2_apply V c t) (iblk2_3_apply V c t) (iblk2_4_apply V c t)

/-- An entry of the array lies in point `t`'s block iff each coordinate lies in the block's range. -/
theorem mem_blk2_5 (t : Fin cfg2.N) (i : S64x128x1024.Idx) :
    i ∈ ((cfg2.win 5).blk t).view.set ↔ ∀ a : Fin 3, win2_5.index t a * S8x128x1024.size a ≤ (i a).val
      ∧ (i a).val < win2_5.index t a * S8x128x1024.size a + S8x128x1024.size a := by
  show i ∈ ((View.whole main_v50).slice (win2_5.rect t)).set ↔ _
  rw [View.set_slice_whole, Rect.mem_set_unit]
  exact Iff.rfl

/-- Every entry of the array is in the block of the point its sample belongs to. -/
theorem cover2_5' (i : S64x128x1024.Idx) :
    ∃ t : Fin cfg2.N, (cfg2.win 5).flush t = true ∧ i ∈ ((cfg2.win 5).blk t).view.set := by
  have h0 : (i 0).val < 64 := (i 0).isLt
  have h1 : (i 1).val < 128 := (i 1).isLt
  have h2 : (i 2).val < 1024 := (i 2).isLt
  refine ⟨⟨(i 0).val / 8, by rw [show cfg2.N = 8 from N_2]; omega⟩, flush2_5 _, ?_⟩
  rw [mem_blk2_5]
  obtain ⟨e0, e1, e2⟩ := (idx2 ⟨(i 0).val / 8, by rw [show cfg2.N = 8 from N_2]; omega⟩).2.2.2.2.2
  intro a
  match a with
  | ⟨0, _⟩ => show win2_5.index _ (0 : Fin 3) * 8 ≤ (i 0).val ∧ (i 0).val < win2_5.index _ (0 : Fin 3) * 8 + 8; rw [e0]; show (i 0).val / 8 * 8 ≤ _ ∧ _ < (i 0).val / 8 * 8 + 8; omega
  | ⟨1, _⟩ => show win2_5.index _ (1 : Fin 3) * 128 ≤ (i 1).val ∧ (i 1).val < win2_5.index _ (1 : Fin 3) * 128 + 128; rw [e1]; omega
  | ⟨2, _⟩ => show win2_5.index _ (2 : Fin 3) * 1024 ≤ (i 2).val ∧ (i 2).val < win2_5.index _ (2 : Fin 3) * 1024 + 1024; rw [e2]; omega

/-- The array after the region. -/
theorem final2_5 (V : (c : Dev nD) → (b : Ref sig .tc) → Buf (Elt Ideal) ((c : Thread nD τ).loc b)) (c : Dev nD) (hb : Body2_5) : (dat2 V c).arrAt 5 cfg2.N = G2_5 V c :=
  (dat2 V c).arrAt_eq_of_cover 5 (G2_5 V c) (fun t _ => flushed2_5 V c hb t) cover2_5'

/-- The block's result, entry by entry, given what the body computes. -/
theorem arr2_5_of (V : (c : Dev nD) → (b : Ref sig .tc) → Buf (Elt Ideal) ((c : Thread nD τ).loc b)) (c : Dev nD) (hb : Body2_5) (n : Fin 64) (o : Fin 128) (l : Fin 1024) :
    arr (S := S64x128x1024) ((GenP.dat2 V c).arrAt 5 cfg2.N) (ix3 n o l)
      = max ((arr (S := S64x128x1024) (V c main_v29_0) (ix3 n o l) * arr (S := S128x1) (V c main_v48) (ix2 o 0) + arr (S := S128x1) (V c main_v49) (ix2 o 0))
          + ∑ ci : Fin 128, arr (S := S128x128) (V c main_v7) (ix2 o ci) * arr (S := S64x128x1024) (V c main_arg0) (ix3 n ci l)) zero := by
  rw [final2_5 V c hb]
  rfl

end Cert.KernelIdeal.KReg
end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.KBodyConv.lean ====
/-
  The three-tap convolution as one product.  A sample's rows a[ci, ·] (128 channels, 1024 positions) are laid out three
  times along the contraction axis: shifted one position to the right with a zero in column 0 (tap 0: position l reads
  l − 1), as they are (tap 1), and shifted one position to the left with a zero in column 1023 (tap 2: position l reads
  l + 1).  Row t·128 + ci of that stack, at column l, is tap t of row ci at position l, zero where the tap falls off an end
  of the row.  The product of the [128, 384] weights with the stack, into a zero accumulator, is therefore at (o, l) the
  sum over the 384 stacked rows, which regroups as the sum over the three taps and the 128 input channels.
-/
import proofs.«152241_g2000003559913605_pallasbulk_133_2_alg».proof.Proof.Gen.KernelIdeal
import proofs.«152241_g2000003559913605_pallasbulk_133_2_alg».proof.Proof.Spec
import proofs.«152241_g2000003559913605_pallasbulk_133_2_alg».proof.Proof.LibPlainDot
import Idealize.ShloMosaic.Lib.ValueIdx
import Idealize.ShloMosaic.Lib.Pipeline.Value

noncomputable section

namespace Cert.KernelIdeal.KBody

open Idealize.ShloMosaic Idealize.SL.Sem Idealize.ShloMosaic.ValueIdx
open Cert.KernelIdeal Cert.KernelIdeal.Gen Cert.ResBlock

/-! ## The taps of a row, case by case -/

/-- Tap 0 reads one position to the left, zero at position 0. -/
theorem tap_zero (a : Fin 1024 → EReal) (c : Fin 1024) :
    tap a c 0 = if h : 1 ≤ c.val then a ⟨c.val - 1, by omega⟩ else 0 := by
  unfold tap
  by_cases h : 1 ≤ c.val
  · rw [dif_pos h, dif_pos (by show 1 ≤ c.val + 0 ∧ c.val + 0 ≤ 1024; omega)]; rfl
  · rw [dif_neg h, dif_neg (by show ¬ (1 ≤ c.val + 0 ∧ c.val + 0 ≤ 1024); omega)]

/-- Tap 1 reads the position itself. -/
theorem tap_one (a : Fin 1024 → EReal) (c : Fin 1024) : tap a c 1 = a c := by
  unfold tap
  rw [dif_pos (by show 1 ≤ c.val + 1 ∧ c.val + 1 ≤ 1024; omega)]; rfl

/-- Tap 2 reads one position to the right, zero at position 1023. -/
theorem tap_two (a : Fin 1024 → EReal) (c : Fin 1024) :
    tap a c 2 = if h : c.val + 1 < 1024 then a ⟨c.val + 1, h⟩ else 0 := by
  unfold tap
  by_cases h : c.val + 1 < 1024
  · rw [dif_pos h, dif_pos (by show 1 ≤ c.val + 2 ∧ c.val + 2 ≤ 1024; omega)]; rfl
  · rw [dif_neg h, dif_neg (by show ¬ (1 ≤ c.val + 2 ∧ c.val + 2 ≤ 1024); omega)]

/-! ## The shifted copies and their stack -/

/-- The zero column that pads a shifted copy. -/
def zcol : FVec Ideal S128x1 .bf16 := broadcast S128x1 (Scalar.ofBits .bf16 0x0000#16)

theorem zcol_apply (j : S128x1.Idx) : zcol j = 0 := by
  show Ideal.ofBits .bf16 0x0000#16 = 0
  simp [Ideal.ofBits, Ideal.ieee]

/-- The rows shifted one position to the right: a zero column, then columns 0 … 1022. -/
def shr (a : FVec Ideal S128x1024 .bf16) : FVec Ideal S128x1024 .bf16 :=
  concatenate S128x1024 1 [⟨S128x1, zcol⟩, ⟨S128x1023, extractStridedSlice S128x1023 ![0, 0] a slices_S128x1024_o0_0_S128x1023⟩]
    concatenates_S128x1_S128x1023_S128x1024_d1

/-- The rows shifted one position to the left: columns 1 … 1023, then a zero column. -/
def shl (a : FVec Ideal S128x1024 .bf16) : FVec Ideal S128x1024 .bf16 :=
  concatenate S128x1024 1 [⟨S128x1023, extractStridedSlice S128x1023 ![0, 1] a slices_S128x1024_o0_1_S128x1023⟩, ⟨S128x1, zcol⟩]
    concatenates_S128x1023_S128x1_S128x1024_d1

/-- The three copies stacked along the contraction axis. -/
def stack3 (a : FVec Ideal S128x1024 .bf16) : FVec Ideal S384x1024 .bf16 :=
  concatenate S384x1024 0 [⟨S128x1024, shr a⟩, ⟨S128x1024, a⟩, ⟨S128x1024, shl a⟩]
    concatenates_S128x1024_S128x1024_S128x1024_S384x1024_d0

/-- The right-shifted copy at (ci, l): the row at l − 1, zero at l = 0. -/
theorem shr_apply (a : FVec Ideal S128x1024 .bf16) (ci : Fin 128) (l : Fin 1024) :
    shr a (ix2 ci l) = tap (fun l' => a (ix2 ci l')) l 0 := by
  rw [tap_zero]
  unfold shr
  by_cases h : 1 ≤ l.val
  · rw [dif_pos h]
    refine (concatenate_pair_apply_right (1 : Fin S128x1024.rank) zcol _ concatenates_S128x1_S128x1023_S128x1024_d1
      (ix2 ci l) rfl rfl (ix2 ci (⟨l.val - 1, by omega⟩ : Fin 1023)) (fun b hb => ?_) ?_).trans ?_
    · match b with
      | ⟨0, _⟩ => rfl
      | ⟨1, _⟩ => exact absurd rfl hb
    · show (l.val - 1) + 1 = l.val
      omega
    · refine extractStridedSlice_apply ![0, 0] a slices_S128x1024_o0_0_S128x1023 _ (ix2 ci (⟨l.val - 1, by omega⟩ : Fin 1024)) (fun b => ?_)
      match b with
      | ⟨0, _⟩ => show ci.val = 0 + ci.val; omega
      | ⟨1, _⟩ => show l.val - 1 = 0 + (l.val - 1); omega
  · rw [dif_neg h]
    refine (concatenate_pair_apply_left (1 : Fin S128x1024.rank) zcol _ concatenates_S128x1_S128x1023_S128x1024_d1
      (ix2 ci l) rfl (ix2 ci (0 : Fin 1)) (fun b => ?_)).trans (zcol_apply _)
    match b with
    | ⟨0, _⟩ => rfl
    | ⟨1, _⟩ => show 0 = l.val; omega

/-- The left-shifted copy at (ci, l): the row at l + 1, zero at l = 1023. -/
theorem shl_apply (a : FVec Ideal S128x1024 .bf16) (ci : Fin 128) (l : Fin 1024) :
    shl a (ix2 ci l) = tap (fun l' => a (ix2 ci l')) l 2 := by
  rw [tap_two]
  unfold shl
  by_cases h : l.val + 1 < 1024
  · rw [dif_pos h]
    refine (concatenate_pair_apply_left (1 : Fin S128x1024.rank) _ zcol concatenates_S128x1023_S128x1_S128x1024_d1
      (ix2 ci l) rfl (ix2 ci (⟨l.val, by omega⟩ : Fin 1023)) (fun b => ?_)).trans ?_
    · match b with
      | ⟨0, _⟩ => rfl
      | ⟨1, _⟩ => rfl
    · refine extractStridedSlice_apply ![0, 1] a slices_S128x1024_o0_1_S128x1023 _ (ix2 ci (⟨l.val + 1, h⟩ : Fin 1024)) (fun b => ?_)
      match b with
      | ⟨0, _⟩ => show ci.val = 0 + ci.val; omega
      | ⟨1, _⟩ => show l.val + 1 = 1 + l.val; omega
  · rw [dif_neg h]
    refine (concatenate_pair_apply_right (1 : Fin S128x1024.rank) _ zcol concatenates_S128x1023_S128x1_S128x1024_d1
      (ix2 ci l) rfl rfl (ix2 ci (0 : Fin 1)) (fun b hb => ?_) ?_).trans (zcol_apply _)
    · match b with
      | ⟨0, _⟩ => rfl
      | ⟨1, _⟩ => exact absurd rfl hb
    · show 0 + 1023 = l.val
      omega

/-- Row t·128 + ci of the stack at column l is tap t of row ci at position l. -/
theorem stack3_apply (a : FVec Ideal S128x1024 .bf16) (t : Fin 3) (ci : Fin 128) (l : Fin 1024) :
    stack3 a (ix2 (kcol t ci) l) = tap (fun l' => a (ix2 ci l')) l t := by
  unfold stack3
  match t with
  | ⟨0, _⟩ =>
    refine (concatenate_apply_piece (0 : Fin S384x1024.rank) [⟨S128x1024, shr a⟩, ⟨S128x1024, a⟩, ⟨S128x1024, shl a⟩] concatenates_S128x1024_S128x1024_S128x1024_S384x1024_d0
      (ix2 (kcol 0 ci) l) 0 (by show 0 < 3; omega) S128x1024 (shr a) rfl rfl 0 rfl (ix2 ci l) (fun b hb => ?_) ?_).trans (shr_apply a ci l)
    · match b with
      | ⟨0, _⟩ => exact absurd rfl hb
      | ⟨1, _⟩ => rfl
    · show 0 + ci.val = 0 * 128 + ci.val
      omega
  | ⟨1, _⟩ =>
    refine (concatenate_apply_piece (0 : Fin S384x1024.rank) [⟨S128x1024, shr a⟩, ⟨S128x1024, a⟩, ⟨S128x1024, shl a⟩] concatenates_S128x1024_S128x1024_S128x1024_S384x1024_d0
      (ix2 (kcol 1 ci) l) 1 (by show 1 < 3; omega) S128x1024 a rfl rfl 128 rfl (ix2 ci l) (fun b hb => ?_) ?_).trans (tap_one (fun l' => a (ix2 ci l')) l).symm
    · match b with
      | ⟨0, _⟩ => exact absurd rfl hb
      | ⟨1, _⟩ => rfl
    · show 128 + ci.val = 1 * 128 + ci.val
      omega
  | ⟨2, _⟩ =>
    refine (concatenate_apply_piece (0 : Fin S384x1024.rank) [⟨S128x1024, shr a⟩, ⟨S128x1024, a⟩, ⟨S128x1024, shl a⟩] concatenates_S128x1024_S128x1024_S128x1024_S384x1024_d0
      (ix2 (kcol 2 ci) l) 2 (by show 2 < 3; omega) S128x1024 (shl a) rfl rfl 256 rfl (ix2 ci l) (fun b hb => ?_) ?_).trans (shl_apply a ci l)
    · match b with
      | ⟨0, _⟩ => exact absurd rfl hb
      | ⟨1, _⟩ => rfl
    · show 256 + ci.val = 2 * 128 + ci.val
      omega

/-! ## The product -/

/-- The 384 stacked rows regroup as three taps of 128 channels. -/
theorem sum_kcol (f : Fin 384 → EReal) : ∑ k : Fin 384, f k = ∑ t : Fin 3, ∑ ci : Fin 128, f (kcol t ci) := by
  rw [← Fintype.sum_prod_type', ← Equiv.sum_comp (finProdFinEquiv (m := 3) (n := 128)) f]
  refine Finset.sum_congr rfl fun p _ => congrArg f (Fin.ext ?_)
  show p.2.val + 128 * p.1.val = p.1.val * 128 + p.2.val
  omega

/-- The convolution of a sample by the stacked weights, as one product into a zero accumulator. -/
def cv (w : FVec Ideal S128x384 .bf16) (a : FVec Ideal S128x1024 .bf16) : FVec Ideal S128x1024 .f32 :=
  matmul dot_S128x384_S384x1024_S128x1024_1_0_0_1_n_n none w (stack3 a) (constant S128x1024 .f32 0x00000000#32)

/-- The convolution at (o, l): the sum over taps and input channels of weight times tap. -/
theorem cv_apply (w : FVec Ideal S128x384 .bf16) (a : FVec Ideal S128x1024 .bf16) (o : Fin 128) (l : Fin 1024) :
    cv w a (ix2 o l) = ∑ t : Fin 3, ∑ ci : Fin 128, w (ix2 o (kcol t ci)) * tap (fun l' => a (ix2 ci l')) l t := by
  unfold cv
  refine (Cert.LibPlainDot.matmul_zero_apply dot_S128x384_S384x1024_S128x1024_1_0_0_1_n_n rfl rfl rfl rfl
    (fun _ _ => rfl) (fun _ _ => rfl) none w (stack3 a) o l).trans ?_
  rw [sum_kcol]
  refine Finset.sum_congr rfl fun t _ => Finset.sum_congr rfl fun ci _ => ?_
  rw [stack3_apply]

end Cert.KernelIdeal.KBody

end
-- ==== Proof.KBodySamples.lean ====
/-
  A block of eight samples, [8, B, C], written and read one sample at a time.  The rectangle of sample k has extent one along
  the first axis, at offset k, and the whole of the other two axes: its own index (0, o, l) is the block's index (k, o, l).
  Eight pieces, one per sample, cover the block; whatever the order they were written in, the block reads at (i, o, l)
  the piece of sample i at (0, o, l), because no other sample's rectangle holds that index.
-/
import Idealize.ShloMosaic.Lib.Pipeline.FrameBody
import Idealize.ShloMosaic.Lib.Pipeline.Value
import Idealize.ShloMosaic.Lib.ValueIdx

noncomputable section

namespace Cert.KernelIdeal.KBody

open Idealize.ShloMosaic Idealize.SL.Sem Idealize.ShloMosaic.ValueIdx

/-! ## Eight sample-sized pieces of an [8, B, C] block -/

section Samples

variable {Val : EltTy → Type} {e : EltTy} {B C : ℕ}

/-- The rectangle of sample k — one unit along the first axis at offset k, everything along the other two — places its
    own index (u, o, l) at (k, o, l). -/
theorem sample_idx (k : ℕ)
    (inb : ∀ a, (![k, 0, 0] : Fin 3 → ℕ) a + (⟨3, ![1, B, C]⟩ : Shape).size a ≤ (⟨3, ![8, B, C]⟩ : Shape).size a)
    (hk : k < 8) (u : Fin 1) (o : Fin B) (l : Fin C) :
    (Rect.unit (s := (⟨3, ![8, B, C]⟩ : Shape)) ![k, 0, 0] (⟨3, ![1, B, C]⟩ : Shape).size inb).emb (ix3 u o l)
      = ix3 (⟨k, hk⟩ : Fin 8) o l := by
  funext a; apply Fin.ext
  rw [Rect.emb_apply]
  match a with
  | ⟨0, _⟩ => show k + 1 * u.val = k; omega
  | ⟨1, _⟩ => show 0 + 1 * o.val = o.val; omega
  | ⟨2, _⟩ => show 0 + 1 * l.val = l.val; omega

/-- A load through sample k's rectangle reads the block at (k, o, l). -/
theorem ld_sample (X : (⟨3, ![8, B, C]⟩ : Shape).Idx → Val e) (k : ℕ)
    (inb : ∀ a, (![k, 0, 0] : Fin 3 → ℕ) a + (⟨3, ![1, B, C]⟩ : Shape).size a ≤ (⟨3, ![8, B, C]⟩ : Shape).size a)
    (hk : k < 8) (u : Fin 1) (o : Fin B) (l : Fin C) :
    View.ld X (Rect.unit (s := (⟨3, ![8, B, C]⟩ : Shape)) ![k, 0, 0] (⟨3, ![1, B, C]⟩ : Shape).size inb) (ix3 u o l)
      = X (ix3 (⟨k, hk⟩ : Fin 8) o l) :=
  congrArg X (sample_idx k inb hk u o l)

/-- An index of another sample is outside sample k's rectangle. -/
theorem sample_not_mem (k : ℕ)
    (inb : ∀ a, (![k, 0, 0] : Fin 3 → ℕ) a + (⟨3, ![1, B, C]⟩ : Shape).size a ≤ (⟨3, ![8, B, C]⟩ : Shape).size a)
    (i : Fin 8) (o : Fin B) (l : Fin C) (h : i.val ≠ k) :
    ix3 i o l ∉ (Rect.unit (s := (⟨3, ![8, B, C]⟩ : Shape)) ![k, 0, 0] (⟨3, ![1, B, C]⟩ : Shape).size inb).set := by
  intro hm
  have h0 := (Rect.mem_set_unit.mp hm) (0 : Fin 3)
  have h1 : k ≤ i.val ∧ i.val < k + 1 := h0
  omega

/-- A piece written at another sample's rectangle does not change what the block reads at (i, o, l). -/
theorem canon_cons_sample_ne [∀ e, Nonempty (Val e)] (k : ℕ)
    (inb : ∀ a, (![k, 0, 0] : Fin 3 → ℕ) a + (⟨3, ![1, B, C]⟩ : Shape).size a ≤ (⟨3, ![8, B, C]⟩ : Shape).size a)
    (w : (⟨3, ![1, B, C]⟩ : Shape).Idx → Val e) (L : List (View.Piece Val (⟨3, ![8, B, C]⟩ : Shape) e))
    (i : Fin 8) (o : Fin B) (l : Fin C) (h : i.val ≠ k) :
    View.canon (⟨Rect.unit (s := (⟨3, ![8, B, C]⟩ : Shape)) ![k, 0, 0] (⟨3, ![1, B, C]⟩ : Shape).size inb, w⟩ :: L) (ix3 i o l) = View.canon L (ix3 i o l) :=
  View.canon_cons_of_not_mem ⟨Rect.unit (s := (⟨3, ![8, B, C]⟩ : Shape)) ![k, 0, 0] (⟨3, ![1, B, C]⟩ : Shape).size inb, w⟩ L (sample_not_mem k inb i o l h)

/-- A piece written last at sample k's rectangle is what the block reads at (k, o, l). -/
theorem canon_cons_sample_eq [∀ e, Nonempty (Val e)] (k : ℕ)
    (inb : ∀ a, (![k, 0, 0] : Fin 3 → ℕ) a + (⟨3, ![1, B, C]⟩ : Shape).size a ≤ (⟨3, ![8, B, C]⟩ : Shape).size a)
    (hk : k < 8) (w : (⟨3, ![1, B, C]⟩ : Shape).Idx → Val e) (L : List (View.Piece Val (⟨3, ![8, B, C]⟩ : Shape) e))
    (o : Fin B) (l : Fin C) :
    View.canon (⟨Rect.unit (s := (⟨3, ![8, B, C]⟩ : Shape)) ![k, 0, 0] (⟨3, ![1, B, C]⟩ : Shape).size inb, w⟩ :: L) (ix3 (⟨k, hk⟩ : Fin 8) o l)
      = w (ix3 (0 : Fin 1) o l) :=
  (congrArg (View.canon (⟨Rect.unit (s := (⟨3, ![8, B, C]⟩ : Shape)) ![k, 0, 0] (⟨3, ![1, B, C]⟩ : Shape).size inb, w⟩ :: L)) (sample_idx k inb hk 0 o l)).symm.trans
    (View.canon_cons_emb (Rect.unit (s := (⟨3, ![8, B, C]⟩ : Shape)) ![k, 0, 0] (⟨3, ![1, B, C]⟩ : Shape).size inb) w L (ix3 (0 : Fin 1) o l))

/-- Eight pieces, one per sample, written last sample first: the block they leave reads, at (i, o, l), sample i's
    piece at (0, o, l). -/
theorem canon8_apply [∀ e, Nonempty (Val e)]
    (h0 : ∀ a, (![0, 0, 0] : Fin 3 → ℕ) a + (⟨3, ![1, B, C]⟩ : Shape).size a ≤ (⟨3, ![8, B, C]⟩ : Shape).size a)
    (h1 : ∀ a, (![1, 0, 0] : Fin 3 → ℕ) a + (⟨3, ![1, B, C]⟩ : Shape).size a ≤ (⟨3, ![8, B, C]⟩ : Shape).size a)
    (h2 : ∀ a, (![2, 0, 0] : Fin 3 → ℕ) a + (⟨3, ![1, B, C]⟩ : Shape).size a ≤ (⟨3, ![8, B, C]⟩ : Shape).size a)
    (h3 : ∀ a, (![3, 0, 0] : Fin 3 → ℕ) a + (⟨3, ![1, B, C]⟩ : Shape).size a ≤ (⟨3, ![8, B, C]⟩ : Shape).size a)
    (h4 : ∀ a, (![4, 0, 0] : Fin 3 → ℕ) a + (⟨3, ![1, B, C]⟩ : Shape).size a ≤ (⟨3, ![8, B, C]⟩ : Shape).size a)
    (h5 : ∀ a, (![5, 0, 0] : Fin 3 → ℕ) a + (⟨3, ![1, B, C]⟩ : Shape).size a ≤ (⟨3, ![8, B, C]⟩ : Shape).size a)
    (h6 : ∀ a, (![6, 0, 0] : Fin 3 → ℕ) a + (⟨3, ![1, B, C]⟩ : Shape).size a ≤ (⟨3, ![8, B, C]⟩ : Shape).size a)
    (h7 : ∀ a, (![7, 0, 0] : Fin 3 → ℕ) a + (⟨3, ![1, B, C]⟩ : Shape).size a ≤ (⟨3, ![8, B, C]⟩ : Shape).size a)
    (w0 w1 w2 w3 w4 w5 w6 w7 : (⟨3, ![1, B, C]⟩ : Shape).Idx → Val e) (i : Fin 8) (o : Fin B) (l : Fin C) :
    View.canon (Val := Val) (s := (⟨3, ![8, B, C]⟩ : Shape)) (e := e)
       [⟨Rect.unit ![7, 0, 0] (⟨3, ![1, B, C]⟩ : Shape).size h7, w7⟩,
        ⟨Rect.unit ![6, 0, 0] (⟨3, ![1, B, C]⟩ : Shape).size h6, w6⟩,
        ⟨Rect.unit ![5, 0, 0] (⟨3, ![1, B, C]⟩ : Shape).size h5, w5⟩,
        ⟨Rect.unit ![4, 0, 0] (⟨3, ![1, B, C]⟩ : Shape).size h4, w4⟩,
        ⟨Rect.unit ![3, 0, 0] (⟨3, ![1, B, C]⟩ : Shape).size h3, w3⟩,
        ⟨Rect.unit ![2, 0, 0] (⟨3, ![1, B, C]⟩ : Shape).size h2, w2⟩,
        ⟨Rect.unit ![1, 0, 0] (⟨3, ![1, B, C]⟩ : Shape).size h1, w1⟩,
        ⟨Rect.unit ![0, 0, 0] (⟨3, ![1, B, C]⟩ : Shape).size h0, w0⟩] (ix3 i o l)
      = (match i with | ⟨0, _⟩ => w0 | ⟨1, _⟩ => w1 | ⟨2, _⟩ => w2 | ⟨3, _⟩ => w3 | ⟨4, _⟩ => w4 | ⟨5, _⟩ => w5 | ⟨6, _⟩ => w6 | ⟨7, _⟩ => w7) (ix3 (0 : Fin 1) o l) := by
  match i with
  | ⟨0, hk⟩ =>
    refine (canon_cons_sample_ne 7 h7 _ _ (⟨0, hk⟩ : Fin 8) o l (by show (0 : ℕ) ≠ 7; omega)).trans ?_
    refine (canon_cons_sample_ne 6 h6 _ _ (⟨0, hk⟩ : Fin 8) o l (by show (0 : ℕ) ≠ 6; omega)).trans ?_
    refine (canon_cons_sample_ne 5 h5 _ _ (⟨0, hk⟩ : Fin 8) o l (by show (0 : ℕ) ≠ 5; omega)).trans ?_
    refine (canon_cons_sample_ne 4 h4 _ _ (⟨0, hk⟩ : Fin 8) o l (by show (0 : ℕ) ≠ 4; omega)).trans ?_
    refine (canon_cons_sample_ne 3 h3 _ _ (⟨0, hk⟩ : Fin 8) o l (by show (0 : ℕ) ≠ 3; omega)).trans ?_
    refine (canon_cons_sample_ne 2 h2 _ _ (⟨0, hk⟩ : Fin 8) o l (by show (0 : ℕ) ≠ 2; omega)).trans ?_
    refine (canon_cons_sample_ne 1 h1 _ _ (⟨0, hk⟩ : Fin 8) o l (by show (0 : ℕ) ≠ 1; omega)).trans ?_
    exact canon_cons_sample_eq 0 h0 hk w0 _ o l
  | ⟨1, hk⟩ =>
    refine (canon_cons_sample_ne 7 h7 _ _ (⟨1, hk⟩ : Fin 8) o l (by show (1 : ℕ) ≠ 7; omega)).trans ?_
    refine (canon_cons_sample_ne 6 h6 _ _ (⟨1, hk⟩ : Fin 8) o l (by show (1 : ℕ) ≠ 6; omega)).trans ?_
    refine (canon_cons_sample_ne 5 h5 _ _ (⟨1, hk⟩ : Fin 8) o l (by show (1 : ℕ) ≠ 5; omega)).trans ?_
    refine (canon_cons_sample_ne 4 h4 _ _ (⟨1, hk⟩ : Fin 8) o l (by show (1 : ℕ) ≠ 4; omega)).trans ?_
    refine (canon_cons_sample_ne 3 h3 _ _ (⟨1, hk⟩ : Fin 8) o l (by show (1 : ℕ) ≠ 3; omega)).trans ?_
    refine (canon_cons_sample_ne 2 h2 _ _ (⟨1, hk⟩ : Fin 8) o l (by show (1 : ℕ) ≠ 2; omega)).trans ?_
    exact canon_cons_sample_eq 1 h1 hk w1 _ o l
  | ⟨2, hk⟩ =>
    refine (canon_cons_sample_ne 7 h7 _ _ (⟨2, hk⟩ : Fin 8) o l (by show (2 : ℕ) ≠ 7; omega)).trans ?_
    refine (canon_cons_sample_ne 6 h6 _ _ (⟨2, hk⟩ : Fin 8) o l (by show (2 : ℕ) ≠ 6; omega)).trans ?_
    refine (canon_cons_sample_ne 5 h5 _ _ (⟨2, hk⟩ : Fin 8) o l (by show (2 : ℕ) ≠ 5; omega)).trans ?_
    refine (canon_cons_sample_ne 4 h4 _ _ (⟨2, hk⟩ : Fin 8) o l (by show (2 : ℕ) ≠ 4; omega)).trans ?_
    refine (canon_cons_sample_ne 3 h3 _ _ (⟨2, hk⟩ : Fin 8) o l (by show (2 : ℕ) ≠ 3; omega)).trans ?_
    exact canon_cons_sample_eq 2 h2 hk w2 _ o l
  | ⟨3, hk⟩ =>
    refine (canon_cons_sample_ne 7 h7 _ _ (⟨3, hk⟩ : Fin 8) o l (by show (3 : ℕ) ≠ 7; omega)).trans ?_
    refine (canon_cons_sample_ne 6 h6 _ _ (⟨3, hk⟩ : Fin 8) o l (by show (3 : ℕ) ≠ 6; omega)).trans ?_
    refine (canon_cons_sample_ne 5 h5 _ _ (⟨3, hk⟩ : Fin 8) o l (by show (3 : ℕ) ≠ 5; omega)).trans ?_
    refine (canon_cons_sample_ne 4 h4 _ _ (⟨3, hk⟩ : Fin 8) o l (by show (3 : ℕ) ≠ 4; omega)).trans ?_
    exact canon_cons_sample_eq 3 h3 hk w3 _ o l
  | ⟨4, hk⟩ =>
    refine (canon_cons_sample_ne 7 h7 _ _ (⟨4, hk⟩ : Fin 8) o l (by show (4 : ℕ) ≠ 7; omega)).trans ?_
    refine (canon_cons_sample_ne 6 h6 _ _ (⟨4, hk⟩ : Fin 8) o l (by show (4 : ℕ) ≠ 6; omega)).trans ?_
    refine (canon_cons_sample_ne 5 h5 _ _ (⟨4, hk⟩ : Fin 8) o l (by show (4 : ℕ) ≠ 5; omega)).trans ?_
    exact canon_cons_sample_eq 4 h4 hk w4 _ o l
  | ⟨5, hk⟩ =>
    refine (canon_cons_sample_ne 7 h7 _ _ (⟨5, hk⟩ : Fin 8) o l (by show (5 : ℕ) ≠ 7; omega)).trans ?_
    refine (canon_cons_sample_ne 6 h6 _ _ (⟨5, hk⟩ : Fin 8) o l (by show (5 : ℕ) ≠ 6; omega)).trans ?_
    exact canon_cons_sample_eq 5 h5 hk w5 _ o l
  | ⟨6, hk⟩ =>
    refine (canon_cons_sample_ne 7 h7 _ _ (⟨6, hk⟩ : Fin 8) o l (by show (6 : ℕ) ≠ 7; omega)).trans ?_
    exact canon_cons_sample_eq 6 h6 hk w6 _ o l
  | ⟨7, hk⟩ =>
    exact canon_cons_sample_eq 7 h7 hk w7 _ o l

end Samples

end Cert.KernelIdeal.KBody

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.KBody0.lean ====
/-
  The first pass of the kernel on a block of eight samples.  For each sample the body rounds the [128, 1024] rows, lays
  them out three times along the contraction axis (shifted right, as they are, shifted left) and multiplies by the
  [128, 384] stacked weights: the three-tap convolution of that sample.  It stores the convolution, its sum along the
  positions, and the sum of its squares along the positions.  The eight copies of this computation are one term; the
  block each output window is left with reads, at sample i, that term of sample i.
-/
import proofs.«152241_g2000003559913605_pallasbulk_133_2_alg».proof.Proof.KernelIdealFrameP
import proofs.«152241_g2000003559913605_pallasbulk_133_2_alg».proof.Proof.Spec
import proofs.«152241_g2000003559913605_pallasbulk_133_2_alg».proof.Proof.KBodyConv
import proofs.«152241_g2000003559913605_pallasbulk_133_2_alg».proof.Proof.KBodySamples
import proofs.«152241_g2000003559913605_pallasbulk_133_2_alg».proof.Proof.LibLaneSums
import Idealize.ShloMosaic.Lib.ValueIdx
import Idealize.ShloMosaic.Lib.Pipeline.Value

noncomputable section

namespace Cert.KernelIdeal.KBody

open Idealize.ShloMosaic Idealize.ShloMosaic.TcCoe Idealize.SL.Sem Idealize.ShloMosaic.ValueIdx
open Cert.KernelIdeal Cert.KernelIdeal.Gen Cert.KernelIdeal.GenP Cert.ResBlock

/-! ## The three stores of a [128, 1024] result -/

/-- A [128, 1024] result stored as a sample: rounded, with a leading unit axis. -/
def asBlock (c : FVec Ideal S128x1024 .f32) : FVec Ideal S1x128x1024 .bf16 :=
  shapeCast S1x128x1024 (truncf .bf16 c bitsLt_bf16_f32) shapeCasts_S128x1024_S1x128x1024

theorem asBlock_apply (c : FVec Ideal S128x1024 .f32) (o : Fin 128) (l : Fin 1024) :
    asBlock c (ix3 (0 : Fin 1) o l) = c (ix2 o l) := by
  unfold asBlock
  refine (shapeCast_apply _ shapeCasts_S128x1024_S1x128x1024 (ix3 (0 : Fin 1) o l) (ix2 o l) ?_).trans rfl
  rw [Shape.rowMajor_val_three, Shape.rowMajor_val_two]
  show o.val * 1024 + l.val = (0 * 128 + o.val) * 1024 + l.val
  omega

/-- Its sum along the positions, as a [1, 128, 1] column. -/
def laneSum (c : FVec Ideal S128x1024 .f32) : FVec Ideal S1x128x1 .f32 :=
  shapeCast S1x128x1
    (shapeCast S128x1 (multiReduction .add [1] S128 c 0x00000000#32 reduces_S128x1024_S128 (.inl rfl) rfl) shapeCasts_S128_S128x1)
    shapeCasts_S128x1_S1x128x1

theorem laneSum_apply (c : FVec Ideal S128x1024 .f32) (o : Fin 128) :
    laneSum c (ix3 (0 : Fin 1) o (0 : Fin 1)) = ∑ l : Fin 1024, c (ix2 o l) := by
  unfold laneSum
  refine (shapeCast_apply _ shapeCasts_S128x1_S1x128x1 (ix3 (0 : Fin 1) o (0 : Fin 1)) (ix2 o (0 : Fin 1)) ?_).trans ?_
  · rw [Shape.rowMajor_val_three, Shape.rowMajor_val_two]
    show o.val * 1 + 0 = (0 * 128 + o.val) * 1 + 0
    omega
  · refine (Cert.LibLaneSums.shapeCast_a_a1_apply _ shapeCasts_S128_S128x1 o (0 : Fin 1)).trans ?_
    exact Cert.LibLaneSums.sum_last_apply c 0x00000000#32 reduces_S128x1024_S128 (.inl rfl) rfl o

/-- The sum of its squares along the positions. -/
def laneSumSq (c : FVec Ideal S128x1024 .f32) : FVec Ideal S1x128x1 .f32 := laneSum (mulf c c)

theorem laneSumSq_apply (c : FVec Ideal S128x1024 .f32) (o : Fin 128) :
    laneSumSq c (ix3 (0 : Fin 1) o (0 : Fin 1)) = ∑ l : Fin 1024, c (ix2 o l) * c (ix2 o l) :=
  laneSum_apply (mulf c c) o

/-! ## One sample's convolution -/

/-- A sample of the input block as rounded [128, 1024] rows. -/
def rows0 (v : Vec Ideal S1x128x1024 .f32) : FVec Ideal S128x1024 .bf16 :=
  truncf .bf16 (shapeCast S128x1024 v shapeCasts_S1x128x1024_S128x1024) bitsLt_bf16_f32

theorem rows0_apply (v : Vec Ideal S1x128x1024 .f32) (ci : Fin 128) (l : Fin 1024) :
    rows0 v (ix2 ci l) = v (ix3 (0 : Fin 1) ci l) := by
  unfold rows0
  refine Eq.trans rfl (shapeCast_apply v shapeCasts_S1x128x1024_S128x1024 (ix2 ci l) (ix3 (0 : Fin 1) ci l) ?_)
  rw [Shape.rowMajor_val_three, Shape.rowMajor_val_two]
  show (0 * 128 + ci.val) * 1024 + l.val = ci.val * 1024 + l.val
  omega

/-- The weights' block, loaded whole, is the block itself. -/
theorem wblk0 (x1 : Vec Ideal S128x384 .bf16) : k0_pay2 (View.ld x1 r0_0) = x1 := by
  unfold k0_pay2
  refine (shapeCast_self _ _).trans (View.ld_unit_zero (S := S128x384) ?_ _ x1)
  funext a
  match a with
  | ⟨0, _⟩ => rfl
  | ⟨1, _⟩ => rfl

/-- The convolution of sample k of the block: at (o, l) the sum over taps and input channels of the weight times the
    tap of that sample's row. -/
theorem conv0_apply (x0 : Vec Ideal S8x128x1024 .f32) (x1 : Vec Ideal S128x384 .bf16) (k : ℕ) (hk : k < 8)
    (inb : ∀ a, (![k, 0, 0] : Fin 3 → ℕ) a + S1x128x1024.size a ≤ S8x128x1024.size a) (o : Fin 128) (l : Fin 1024) :
    cv (k0_pay2 (View.ld x1 r0_0)) (rows0 (View.ld x0 (Rect.unit (s := S8x128x1024) ![k, 0, 0] S1x128x1024.size inb))) (ix2 o l)
      = ∑ t : Fin 3, ∑ ci : Fin 128, x1 (ix2 o (kcol t ci)) * tap (fun l' => x0 (ix3 (⟨k, hk⟩ : Fin 8) ci l')) l t := by
  rw [cv_apply, wblk0]
  refine Finset.sum_congr rfl fun t _ => Finset.sum_congr rfl fun ci _ => ?_
  have e : (fun l' : Fin 1024 => rows0 (View.ld x0 (Rect.unit (s := S8x128x1024) ![k, 0, 0] S1x128x1024.size inb)) (ix2 ci l'))
      = fun l' => x0 (ix3 (⟨k, hk⟩ : Fin 8) ci l') :=
    funext fun l' => (rows0_apply _ ci l').trans (ld_sample x0 k inb hk 0 ci l')
  rw [e]

/-! ## The three output blocks at a coordinate -/

/-- The convolution block: at (i, o, l), sample i's convolution at (o, l). -/
theorem out0_2_apply (x0 : Vec Ideal S8x128x1024 .f32) (x1 : Vec Ideal S128x384 .bf16) (i : Fin 8) (o : Fin 128) (l : Fin 1024) :
    GenP.out0_2 x0 x1 (ix3 i o l)
      = ∑ t : Fin 3, ∑ ci : Fin 128, x1 (ix2 o (kcol t ci)) * tap (fun l' => x0 (ix3 i ci l')) l t := by
  unfold out0_2
  refine (canon8_apply (B := 128) (C := 1024) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 _ _ _ _ _ _ _ _ i o l).trans ?_
  match i with
  | ⟨0, hk⟩ =>
    show asBlock (cv (k0_pay2 (View.ld x1 r0_0)) (rows0 (View.ld x0 r0_1))) (ix3 (0 : Fin 1) o l) = _
    exact (asBlock_apply _ o l).trans (conv0_apply x0 x1 0 hk inb_S8x128x1024_S1x128x1024_0_0_0 o l)
  | ⟨1, hk⟩ =>
    show asBlock (cv (k0_pay2 (View.ld x1 r0_0)) (rows0 (View.ld x0 r0_3))) (ix3 (0 : Fin 1) o l) = _
    exact (asBlock_apply _ o l).trans (conv0_apply x0 x1 1 hk inb_S8x128x1024_S1x128x1024_1_0_0 o l)
  | ⟨2, hk⟩ =>
    show asBlock (cv (k0_pay2 (View.ld x1 r0_0)) (rows0 (View.ld x0 r0_5))) (ix3 (0 : Fin 1) o l) = _
    exact (asBlock_apply _ o l).trans (conv0_apply x0 x1 2 hk inb_S8x128x1024_S1x128x1024_2_0_0 o l)
  | ⟨3, hk⟩ =>
    show asBlock (cv (k0_pay2 (View.ld x1 r0_0)) (rows0 (View.ld x0 r0_7))) (ix3 (0 : Fin 1) o l) = _
    exact (asBlock_apply _ o l).trans (conv0_apply x0 x1 3 hk inb_S8x128x1024_S1x128x1024_3_0_0 o l)
  | ⟨4, hk⟩ =>
    show asBlock (cv (k0_pay2 (View.ld x1 r0_0)) (rows0 (View.ld x0 r0_9))) (ix3 (0 : Fin 1) o l) = _
    exact (asBlock_apply _ o l).trans (conv0_apply x0 x1 4 hk inb_S8x128x1024_S1x128x1024_4_0_0 o l)
  | ⟨5, hk⟩ =>
    show asBlock (cv (k0_pay2 (View.ld x1 r0_0)) (rows0 (View.ld x0 r0_11))) (ix3 (0 : Fin 1) o l) = _
    exact (asBlock_apply _ o l).trans (conv0_apply x0 x1 5 hk inb_S8x128x1024_S1x128x1024_5_0_0 o l)
  | ⟨6, hk⟩ =>
    show asBlock (cv (k0_pay2 (View.ld x1 r0_0)) (rows0 (View.ld x0 r0_13))) (ix3 (0 : Fin 1) o l) = _
    exact (asBlock_apply _ o l).trans (conv0_apply x0 x1 6 hk inb_S8x128x1024_S1x128x1024_6_0_0 o l)
  | ⟨7, hk⟩ =>
    show asBlock (cv (k0_pay2 (View.ld x1 r0_0)) (rows0 (View.ld x0 r0_15))) (ix3 (0 : Fin 1) o l) = _
    exact (asBlock_apply _ o l).trans (conv0_apply x0 x1 7 hk inb_S8x128x1024_S1x128x1024_7_0_0 o l)

/-- The block of sums: at (i, o, 0), the sum over the positions of sample i's convolution. -/
theorem out0_3_apply (x0 : Vec Ideal S8x128x1024 .f32) (x1 : Vec Ideal S128x384 .bf16) (i : Fin 8) (o : Fin 128) :
    GenP.out0_3 x0 x1 (ix3 i o (0 : Fin 1))
      = ∑ l : Fin 1024, ∑ t : Fin 3, ∑ ci : Fin 128, x1 (ix2 o (kcol t ci)) * tap (fun l' => x0 (ix3 i ci l')) l t := by
  unfold out0_3
  refine (canon8_apply (B := 128) (C := 1) inb_S8x128x1_S1x128x1_0_0_0 inb_S8x128x1_S1x128x1_1_0_0 inb_S8x128x1_S1x128x1_2_0_0 inb_S8x128x1_S1x128x1_3_0_0 inb_S8x128x1_S1x128x1_4_0_0 inb_S8x128x1_S1x128x1_5_0_0 inb_S8x128x1_S1x128x1_6_0_0 inb_S8x128x1_S1x128x1_7_0_0 _ _ _ _ _ _ _ _ i o (0 : Fin 1)).trans ?_
  match i with
  | ⟨0, hk⟩ =>
    show laneSum (cv (k0_pay2 (View.ld x1 r0_0)) (rows0 (View.ld x0 r0_1))) (ix3 (0 : Fin 1) o (0 : Fin 1)) = _
    exact (laneSum_apply _ o).trans (Finset.sum_congr rfl fun l _ => conv0_apply x0 x1 0 hk inb_S8x128x1024_S1x128x1024_0_0_0 o l)
  | ⟨1, hk⟩ =>
    show laneSum (cv (k0_pay2 (View.ld x1 r0_0)) (rows0 (View.ld x0 r0_3))) (ix3 (0 : Fin 1) o (0 : Fin 1)) = _
    exact (laneSum_apply _ o).trans (Finset.sum_congr rfl fun l _ => conv0_apply x0 x1 1 hk inb_S8x128x1024_S1x128x1024_1_0_0 o l)
  | ⟨2, hk⟩ =>
    show laneSum (cv (k0_pay2 (View.ld x1 r0_0)) (rows0 (View.ld x0 r0_5))) (ix3 (0 : Fin 1) o (0 : Fin 1)) = _
    exact (laneSum_apply _ o).trans (Finset.sum_congr rfl fun l _ => conv0_apply x0 x1 2 hk inb_S8x128x1024_S1x128x1024_2_0_0 o l)
  | ⟨3, hk⟩ =>
    show laneSum (cv (k0_pay2 (View.ld x1 r0_0)) (rows0 (View.ld x0 r0_7))) (ix3 (0 : Fin 1) o (0 : Fin 1)) = _
    exact (laneSum_apply _ o).trans (Finset.sum_congr rfl fun l _ => conv0_apply x0 x1 3 hk inb_S8x128x1024_S1x128x1024_3_0_0 o l)
  | ⟨4, hk⟩ =>
    show laneSum (cv (k0_pay2 (View.ld x1 r0_0)) (rows0 (View.ld x0 r0_9))) (ix3 (0 : Fin 1) o (0 : Fin 1)) = _
    exact (laneSum_apply _ o).trans (Finset.sum_congr rfl fun l _ => conv0_apply x0 x1 4 hk inb_S8x128x1024_S1x128x1024_4_0_0 o l)
  | ⟨5, hk⟩ =>
    show laneSum (cv (k0_pay2 (View.ld x1 r0_0)) (rows0 (View.ld x0 r0_11))) (ix3 (0 : Fin 1) o (0 : Fin 1)) = _
    exact (laneSum_apply _ o).trans (Finset.sum_congr rfl fun l _ => conv0_apply x0 x1 5 hk inb_S8x128x1024_S1x128x1024_5_0_0 o l)
  | ⟨6, hk⟩ =>
    show laneSum (cv (k0_pay2 (View.ld x1 r0_0)) (rows0 (View.ld x0 r0_13))) (ix3 (0 : Fin 1) o (0 : Fin 1)) = _
    exact (laneSum_apply _ o).trans (Finset.sum_congr rfl fun l _ => conv0_apply x0 x1 6 hk inb_S8x128x1024_S1x128x1024_6_0_0 o l)
  | ⟨7, hk⟩ =>
    show laneSum (cv (k0_pay2 (View.ld x1 r0_0)) (rows0 (View.ld x0 r0_15))) (ix3 (0 : Fin 1) o (0 : Fin 1)) = _
    exact (laneSum_apply _ o).trans (Finset.sum_congr rfl fun l _ => conv0_apply x0 x1 7 hk inb_S8x128x1024_S1x128x1024_7_0_0 o l)

/-- The block of sums of squares: at (i, o, 0), the sum over the positions of the square of sample i's convolution. -/
theorem out0_4_apply (x0 : Vec Ideal S8x128x1024 .f32) (x1 : Vec Ideal S128x384 .bf16) (i : Fin 8) (o : Fin 128) :
    GenP.out0_4 x0 x1 (ix3 i o (0 : Fin 1))
      = ∑ l : Fin 1024, (∑ t : Fin 3, ∑ ci : Fin 128, x1 (ix2 o (kcol t ci)) * tap (fun l' => x0 (ix3 i ci l')) l t)
          * (∑ t : Fin 3, ∑ ci : Fin 128, x1 (ix2 o (kcol t ci)) * tap (fun l' => x0 (ix3 i ci l')) l t) := by
  unfold out0_4
  refine (canon8_apply (B := 128) (C := 1) inb_S8x128x1_S1x128x1_0_0_0 inb_S8x128x1_S1x128x1_1_0_0 inb_S8x128x1_S1x128x1_2_0_0 inb_S8x128x1_S1x128x1_3_0_0 inb_S8x128x1_S1x128x1_4_0_0 inb_S8x128x1_S1x128x1_5_0_0 inb_S8x128x1_S1x128x1_6_0_0 inb_S8x128x1_S1x128x1_7_0_0 _ _ _ _ _ _ _ _ i o (0 : Fin 1)).trans ?_
  match i with
  | ⟨0, hk⟩ =>
    show laneSumSq (cv (k0_pay2 (View.ld x1 r0_0)) (rows0 (View.ld x0 r0_1))) (ix3 (0 : Fin 1) o (0 : Fin 1)) = _
    exact (laneSumSq_apply _ o).trans (Finset.sum_congr rfl fun l _ => by rw [conv0_apply x0 x1 0 hk inb_S8x128x1024_S1x128x1024_0_0_0 o l])
  | ⟨1, hk⟩ =>
    show laneSumSq (cv (k0_pay2 (View.ld x1 r0_0)) (rows0 (View.ld x0 r0_3))) (ix3 (0 : Fin 1) o (0 : Fin 1)) = _
    exact (laneSumSq_apply _ o).trans (Finset.sum_congr rfl fun l _ => by rw [conv0_apply x0 x1 1 hk inb_S8x128x1024_S1x128x1024_1_0_0 o l])
  | ⟨2, hk⟩ =>
    show laneSumSq (cv (k0_pay2 (View.ld x1 r0_0)) (rows0 (View.ld x0 r0_5))) (ix3 (0 : Fin 1) o (0 : Fin 1)) = _
    exact (laneSumSq_apply _ o).trans (Finset.sum_congr rfl fun l _ => by rw [conv0_apply x0 x1 2 hk inb_S8x128x1024_S1x128x1024_2_0_0 o l])
  | ⟨3, hk⟩ =>
    show laneSumSq (cv (k0_pay2 (View.ld x1 r0_0)) (rows0 (View.ld x0 r0_7))) (ix3 (0 : Fin 1) o (0 : Fin 1)) = _
    exact (laneSumSq_apply _ o).trans (Finset.sum_congr rfl fun l _ => by rw [conv0_apply x0 x1 3 hk inb_S8x128x1024_S1x128x1024_3_0_0 o l])
  | ⟨4, hk⟩ =>
    show laneSumSq (cv (k0_pay2 (View.ld x1 r0_0)) (rows0 (View.ld x0 r0_9))) (ix3 (0 : Fin 1) o (0 : Fin 1)) = _
    exact (laneSumSq_apply _ o).trans (Finset.sum_congr rfl fun l _ => by rw [conv0_apply x0 x1 4 hk inb_S8x128x1024_S1x128x1024_4_0_0 o l])
  | ⟨5, hk⟩ =>
    show laneSumSq (cv (k0_pay2 (View.ld x1 r0_0)) (rows0 (View.ld x0 r0_11))) (ix3 (0 : Fin 1) o (0 : Fin 1)) = _
    exact (laneSumSq_apply _ o).trans (Finset.sum_congr rfl fun l _ => by rw [conv0_apply x0 x1 5 hk inb_S8x128x1024_S1x128x1024_5_0_0 o l])
  | ⟨6, hk⟩ =>
    show laneSumSq (cv (k0_pay2 (View.ld x1 r0_0)) (rows0 (View.ld x0 r0_13))) (ix3 (0 : Fin 1) o (0 : Fin 1)) = _
    exact (laneSumSq_apply _ o).trans (Finset.sum_congr rfl fun l _ => by rw [conv0_apply x0 x1 6 hk inb_S8x128x1024_S1x128x1024_6_0_0 o l])
  | ⟨7, hk⟩ =>
    show laneSumSq (cv (k0_pay2 (View.ld x1 r0_0)) (rows0 (View.ld x0 r0_15))) (ix3 (0 : Fin 1) o (0 : Fin 1)) = _
    exact (laneSumSq_apply _ o).trans (Finset.sum_congr rfl fun l _ => by rw [conv0_apply x0 x1 7 hk inb_S8x128x1024_S1x128x1024_7_0_0 o l])

end Cert.KernelIdeal.KBody
end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KBody1.lean ====
/-
  The second pass of the kernel on a block of eight samples.  For each sample the body widens the stored first
  convolution, multiplies each channel's row by that channel's scale, adds its shift, clamps at zero and rounds: the
  activation between the two convolutions.  It then convolves those rows exactly as the first pass convolves the input
  rows (three shifted copies stacked along the contraction axis, one product with the stacked weights), and stores the
  convolution, its sum along the positions and the sum of its squares along the positions.
-/
import proofs.«152241_g2000003559913605_pallasbulk_133_2_alg».proof.Proof.KernelIdealFrameP
import proofs.«152241_g2000003559913605_pallasbulk_133_2_alg».proof.Proof.Spec
import proofs.«152241_g2000003559913605_pallasbulk_133_2_alg».proof.Proof.KBodyConv
import proofs.«152241_g2000003559913605_pallasbulk_133_2_alg».proof.Proof.KBodySamples
import proofs.«152241_g2000003559913605_pallasbulk_133_2_alg».proof.Proof.KBody0
import proofs.«152241_g2000003559913605_pallasbulk_133_2_alg».proof.Proof.LibUnitAxes
import Idealize.ShloMosaic.Lib.ValueIdx
import Idealize.ShloMosaic.Lib.Pipeline.Value

noncomputable section

namespace Cert.KernelIdeal.KBody

open Idealize.ShloMosaic Idealize.ShloMosaic.TcCoe Idealize.SL.Sem Idealize.ShloMosaic.ValueIdx
open Cert.KernelIdeal Cert.KernelIdeal.Gen Cert.KernelIdeal.GenP Cert.ResBlock

/-! ## One sample's activation and convolution -/

/-- A sample of the stored first convolution, normalised per channel (scale s, shift t), clamped at zero and rounded,
    as [128, 1024] rows. -/
def rows1 (s t : FVec Ideal S128x1 .f32) (v : Vec Ideal S1x128x1024 .bf16) : FVec Ideal S128x1024 .bf16 :=
  truncf .bf16
    (maximumf
      (addf (mulf (extf .f32 (shapeCast S128x1024 v shapeCasts_S1x128x1024_S128x1024) bitsLt_bf16_f32)
                  (broadcastTo S128x1024 s broadcasts_S128x1_S128x1024))
            (broadcastTo S128x1024 t broadcasts_S128x1_S128x1024))
      (broadcast S128x1024 (Scalar.ofBits .f32 0x00000000#32)))
    bitsLt_bf16_f32

theorem rows1_apply (s t : FVec Ideal S128x1 .f32) (v : Vec Ideal S1x128x1024 .bf16) (ci : Fin 128) (l : Fin 1024) :
    rows1 s t v (ix2 ci l) = max (v (ix3 (0 : Fin 1) ci l) * s (ix2 ci (0 : Fin 1)) + t (ix2 ci (0 : Fin 1))) zero := by
  have e1 : shapeCast S128x1024 v shapeCasts_S1x128x1024_S128x1024 (ix2 ci l) = v (ix3 (0 : Fin 1) ci l) := by
    refine shapeCast_apply v shapeCasts_S1x128x1024_S128x1024 (ix2 ci l) (ix3 (0 : Fin 1) ci l) ?_
    rw [Shape.rowMajor_val_three, Shape.rowMajor_val_two]
    show (0 * 128 + ci.val) * 1024 + l.val = ci.val * 1024 + l.val
    omega
  have e2 : broadcastTo S128x1024 s broadcasts_S128x1_S128x1024 (ix2 ci l) = s (ix2 ci (0 : Fin 1)) :=
    Cert.LibUnitAxes.broadcastTo_a1_ab_apply s broadcasts_S128x1_S128x1024 ci l
  have e3 : broadcastTo S128x1024 t broadcasts_S128x1_S128x1024 (ix2 ci l) = t (ix2 ci (0 : Fin 1)) :=
    Cert.LibUnitAxes.broadcastTo_a1_ab_apply t broadcasts_S128x1_S128x1024 ci l
  show max (shapeCast S128x1024 v shapeCasts_S1x128x1024_S128x1024 (ix2 ci l)
              * broadcastTo S128x1024 s broadcasts_S128x1_S128x1024 (ix2 ci l)
            + broadcastTo S128x1024 t broadcasts_S128x1_S128x1024 (ix2 ci l)) (Ideal.ofBits .f32 0x00000000#32) = _
  rw [e1, e2, e3]
  rfl

/-- The weights', the scale's and the shift's blocks, loaded whole, are the blocks themselves. -/
theorem wblk1 (x1 : Vec Ideal S128x384 .bf16) : k1_pay2 (View.ld x1 r1_0) = x1 := by
  unfold k1_pay2
  refine (shapeCast_self _ _).trans (View.ld_unit_zero (S := S128x384) ?_ _ x1)
  funext a
  match a with
  | ⟨0, _⟩ => rfl
  | ⟨1, _⟩ => rfl

theorem sblk1 (x2 : Vec Ideal S128x1 .f32) : k1_pay3 (View.ld x2 r1_1) = x2 := by
  unfold k1_pay3
  refine (shapeCast_self _ _).trans (View.ld_unit_zero (S := S128x1) ?_ _ x2)
  funext a
  match a with
  | ⟨0, _⟩ => rfl
  | ⟨1, _⟩ => rfl

theorem tblk1 (x3 : Vec Ideal S128x1 .f32) : k1_pay4 (View.ld x3 r1_1) = x3 := by
  unfold k1_pay4
  refine (shapeCast_self _ _).trans (View.ld_unit_zero (S := S128x1) ?_ _ x3)
  funext a
  match a with
  | ⟨0, _⟩ => rfl
  | ⟨1, _⟩ => rfl

/-- The second convolution of sample k of the block: at (o, l) the sum over taps and input channels of the weight
    times the tap of that sample's activation row. -/
theorem conv1_apply (x0 : Vec Ideal S8x128x1024 .bf16) (x1 : Vec Ideal S128x384 .bf16) (x2 x3 : Vec Ideal S128x1 .f32)
    (k : ℕ) (hk : k < 8) (inb : ∀ a, (![k, 0, 0] : Fin 3 → ℕ) a + S1x128x1024.size a ≤ S8x128x1024.size a)
    (o : Fin 128) (l : Fin 1024) :
    cv (k1_pay2 (View.ld x1 r1_0))
        (rows1 (k1_pay3 (View.ld x2 r1_1)) (k1_pay4 (View.ld x3 r1_1))
          (View.ld x0 (Rect.unit (s := S8x128x1024) ![k, 0, 0] S1x128x1024.size inb))) (ix2 o l)
      = ∑ t : Fin 3, ∑ ci : Fin 128, x1 (ix2 o (kcol t ci))
          * tap (fun l' => max (x0 (ix3 (⟨k, hk⟩ : Fin 8) ci l') * x2 (ix2 ci (0 : Fin 1)) + x3 (ix2 ci (0 : Fin 1))) zero) l t := by
  rw [cv_apply, wblk1, sblk1, tblk1]
  refine Finset.sum_congr rfl fun t _ => Finset.sum_congr rfl fun ci _ => ?_
  have e : (fun l' : Fin 1024 => rows1 x2 x3 (View.ld x0 (Rect.unit (s := S8x128x1024) ![k, 0, 0] S1x128x1024.size inb)) (ix2 ci l'))
      = fun l' => max (x0 (ix3 (⟨k, hk⟩ : Fin 8) ci l') * x2 (ix2 ci (0 : Fin 1)) + x3 (ix2 ci (0 : Fin 1))) zero :=
    funext fun l' => by rw [rows1_apply, ld_sample x0 k inb hk 0 ci l']
  rw [e]

/-! ## The three output blocks at a coordinate -/

/-- The second convolution's block: at (i, o, l), sample i's second convolution at (o, l). -/
theorem out1_4_apply (x0 : Vec Ideal S8x128x1024 .bf16) (x1 : Vec Ideal S128x384 .bf16) (x2 x3 : Vec Ideal S128x1 .f32)
    (i : Fin 8) (o : Fin 128) (l : Fin 1024) :
    GenP.out1_4 x0 x1 x2 x3 (ix3 i o l)
      = ∑ t : Fin 3, ∑ ci : Fin 128, x1 (ix2 o (kcol t ci))
          * tap (fun l' => max (x0 (ix3 i ci l') * x2 (ix2 ci (0 : Fin 1)) + x3 (ix2 ci (0 : Fin 1))) zero) l t := by
  unfold out1_4
  refine (canon8_apply (B := 128) (C := 1024) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 _ _ _ _ _ _ _ _ i o l).trans ?_
  match i with
  | ⟨0, hk⟩ =>
    show asBlock (cv (k1_pay2 (View.ld x1 r1_0)) (rows1 (k1_pay3 (View.ld x2 r1_1)) (k1_pay4 (View.ld x3 r1_1)) (View.ld x0 r1_2))) (ix3 (0 : Fin 1) o l) = _
    exact (asBlock_apply _ o l).trans (conv1_apply x0 x1 x2 x3 0 hk inb_S8x128x1024_S1x128x1024_0_0_0 o l)
  | ⟨1, hk⟩ =>
    show asBlock (cv (k1_pay2 (View.ld x1 r1_0)) (rows1 (k1_pay3 (View.ld x2 r1_1)) (k1_pay4 (View.ld x3 r1_1)) (View.ld x0 r1_4))) (ix3 (0 : Fin 1) o l) = _
    exact (asBlock_apply _ o l).trans (conv1_apply x0 x1 x2 x3 1 hk inb_S8x128x1024_S1x128x1024_1_0_0 o l)
  | ⟨2, hk⟩ =>
    show asBlock (cv (k1_pay2 (View.ld x1 r1_0)) (rows1 (k1_pay3 (View.ld x2 r1_1)) (k1_pay4 (View.ld x3 r1_1)) (View.ld x0 r1_6))) (ix3 (0 : Fin 1) o l) = _
    exact (asBlock_apply _ o l).trans (conv1_apply x0 x1 x2 x3 2 hk inb_S8x128x1024_S1x128x1024_2_0_0 o l)
  | ⟨3, hk⟩ =>
    show asBlock (cv (k1_pay2 (View.ld x1 r1_0)) (rows1 (k1_pay3 (View.ld x2 r1_1)) (k1_pay4 (View.ld x3 r1_1)) (View.ld x0 r1_8))) (ix3 (0 : Fin 1) o l) = _
    exact (asBlock_apply _ o l).trans (conv1_apply x0 x1 x2 x3 3 hk inb_S8x128x1024_S1x128x1024_3_0_0 o l)
  | ⟨4, hk⟩ =>
    show asBlock (cv (k1_pay2 (View.ld x1 r1_0)) (rows1 (k1_pay3 (View.ld x2 r1_1)) (k1_pay4 (View.ld x3 r1_1)) (View.ld x0 r1_10))) (ix3 (0 : Fin 1) o l) = _
    exact (asBlock_apply _ o l).trans (conv1_apply x0 x1 x2 x3 4 hk inb_S8x128x1024_S1x128x1024_4_0_0 o l)
  | ⟨5, hk⟩ =>
    show asBlock (cv (k1_pay2 (View.ld x1 r1_0)) (rows1 (k1_pay3 (View.ld x2 r1_1)) (k1_pay4 (View.ld x3 r1_1)) (View.ld x0 r1_12))) (ix3 (0 : Fin 1) o l) = _
    exact (asBlock_apply _ o l).trans (conv1_apply x0 x1 x2 x3 5 hk inb_S8x128x1024_S1x128x1024_5_0_0 o l)
  | ⟨6, hk⟩ =>
    show asBlock (cv (k1_pay2 (View.ld x1 r1_0)) (rows1 (k1_pay3 (View.ld x2 r1_1)) (k1_pay4 (View.ld x3 r1_1)) (View.ld x0 r1_14))) (ix3 (0 : Fin 1) o l) = _
    exact (asBlock_apply _ o l).trans (conv1_apply x0 x1 x2 x3 6 hk inb_S8x128x1024_S1x128x1024_6_0_0 o l)
  | ⟨7, hk⟩ =>
    show asBlock (cv (k1_pay2 (View.ld x1 r1_0)) (rows1 (k1_pay3 (View.ld x2 r1_1)) (k1_pay4 (View.ld x3 r1_1)) (View.ld x0 r1_16))) (ix3 (0 : Fin 1) o l) = _
    exact (asBlock_apply _ o l).trans (conv1_apply x0 x1 x2 x3 7 hk inb_S8x128x1024_S1x128x1024_7_0_0 o l)

/-- The block of sums: at (i, o, 0), the sum over the positions of sample i's second convolution. -/
theorem out1_5_apply (x0 : Vec Ideal S8x128x1024 .bf16) (x1 : Vec Ideal S128x384 .bf16) (x2 x3 : Vec Ideal S128x1 .f32)
    (i : Fin 8) (o : Fin 128) :
    GenP.out1_5 x0 x1 x2 x3 (ix3 i o (0 : Fin 1))
      = ∑ l : Fin 1024, ∑ t : Fin 3, ∑ ci : Fin 128, x1 (ix2 o (kcol t ci))
          * tap (fun l' => max (x0 (ix3 i ci l') * x2 (ix2 ci (0 : Fin 1)) + x3 (ix2 ci (0 : Fin 1))) zero) l t := by
  unfold out1_5
  refine (canon8_apply (B := 128) (C := 1) inb_S8x128x1_S1x128x1_0_0_0 inb_S8x128x1_S1x128x1_1_0_0 inb_S8x128x1_S1x128x1_2_0_0 inb_S8x128x1_S1x128x1_3_0_0 inb_S8x128x1_S1x128x1_4_0_0 inb_S8x128x1_S1x128x1_5_0_0 inb_S8x128x1_S1x128x1_6_0_0 inb_S8x128x1_S1x128x1_7_0_0 _ _ _ _ _ _ _ _ i o (0 : Fin 1)).trans ?_
  match i with
  | ⟨0, hk⟩ =>
    show laneSum (cv (k1_pay2 (View.ld x1 r1_0)) (rows1 (k1_pay3 (View.ld x2 r1_1)) (k1_pay4 (View.ld x3 r1_1)) (View.ld x0 r1_2))) (ix3 (0 : Fin 1) o (0 : Fin 1)) = _
    exact (laneSum_apply _ o).trans (Finset.sum_congr rfl fun l _ => conv1_apply x0 x1 x2 x3 0 hk inb_S8x128x1024_S1x128x1024_0_0_0 o l)
  | ⟨1, hk⟩ =>
    show laneSum (cv (k1_pay2 (View.ld x1 r1_0)) (rows1 (k1_pay3 (View.ld x2 r1_1)) (k1_pay4 (View.ld x3 r1_1)) (View.ld x0 r1_4))) (ix3 (0 : Fin 1) o (0 : Fin 1)) = _
    exact (laneSum_apply _ o).trans (Finset.sum_congr rfl fun l _ => conv1_apply x0 x1 x2 x3 1 hk inb_S8x128x1024_S1x128x1024_1_0_0 o l)
  | ⟨2, hk⟩ =>
    show laneSum (cv (k1_pay2 (View.ld x1 r1_0)) (rows1 (k1_pay3 (View.ld x2 r1_1)) (k1_pay4 (View.ld x3 r1_1)) (View.ld x0 r1_6))) (ix3 (0 : Fin 1) o (0 : Fin 1)) = _
    exact (laneSum_apply _ o).trans (Finset.sum_congr rfl fun l _ => conv1_apply x0 x1 x2 x3 2 hk inb_S8x128x1024_S1x128x1024_2_0_0 o l)
  | ⟨3, hk⟩ =>
    show laneSum (cv (k1_pay2 (View.ld x1 r1_0)) (rows1 (k1_pay3 (View.ld x2 r1_1)) (k1_pay4 (View.ld x3 r1_1)) (View.ld x0 r1_8))) (ix3 (0 : Fin 1) o (0 : Fin 1)) = _
    exact (laneSum_apply _ o).trans (Finset.sum_congr rfl fun l _ => conv1_apply x0 x1 x2 x3 3 hk inb_S8x128x1024_S1x128x1024_3_0_0 o l)
  | ⟨4, hk⟩ =>
    show laneSum (cv (k1_pay2 (View.ld x1 r1_0)) (rows1 (k1_pay3 (View.ld x2 r1_1)) (k1_pay4 (View.ld x3 r1_1)) (View.ld x0 r1_10))) (ix3 (0 : Fin 1) o (0 : Fin 1)) = _
    exact (laneSum_apply _ o).trans (Finset.sum_congr rfl fun l _ => conv1_apply x0 x1 x2 x3 4 hk inb_S8x128x1024_S1x128x1024_4_0_0 o l)
  | ⟨5, hk⟩ =>
    show laneSum (cv (k1_pay2 (View.ld x1 r1_0)) (rows1 (k1_pay3 (View.ld x2 r1_1)) (k1_pay4 (View.ld x3 r1_1)) (View.ld x0 r1_12))) (ix3 (0 : Fin 1) o (0 : Fin 1)) = _
    exact (laneSum_apply _ o).trans (Finset.sum_congr rfl fun l _ => conv1_apply x0 x1 x2 x3 5 hk inb_S8x128x1024_S1x128x1024_5_0_0 o l)
  | ⟨6, hk⟩ =>
    show laneSum (cv (k1_pay2 (View.ld x1 r1_0)) (rows1 (k1_pay3 (View.ld x2 r1_1)) (k1_pay4 (View.ld x3 r1_1)) (View.ld x0 r1_14))) (ix3 (0 : Fin 1) o (0 : Fin 1)) = _
    exact (laneSum_apply _ o).trans (Finset.sum_congr rfl fun l _ => conv1_apply x0 x1 x2 x3 6 hk inb_S8x128x1024_S1x128x1024_6_0_0 o l)
  | ⟨7, hk⟩ =>
    show laneSum (cv (k1_pay2 (View.ld x1 r1_0)) (rows1 (k1_pay3 (View.ld x2 r1_1)) (k1_pay4 (View.ld x3 r1_1)) (View.ld x0 r1_16))) (ix3 (0 : Fin 1) o (0 : Fin 1)) = _
    exact (laneSum_apply _ o).trans (Finset.sum_congr rfl fun l _ => conv1_apply x0 x1 x2 x3 7 hk inb_S8x128x1024_S1x128x1024_7_0_0 o l)

/-- The block of sums of squares: at (i, o, 0), the sum over the positions of the square of sample i's second convolution. -/
theorem out1_6_apply (x0 : Vec Ideal S8x128x1024 .bf16) (x1 : Vec Ideal S128x384 .bf16) (x2 x3 : Vec Ideal S128x1 .f32)
    (i : Fin 8) (o : Fin 128) :
    GenP.out1_6 x0 x1 x2 x3 (ix3 i o (0 : Fin 1))
      = ∑ l : Fin 1024,
          (∑ t : Fin 3, ∑ ci : Fin 128, x1 (ix2 o (kcol t ci))
            * tap (fun l' => max (x0 (ix3 i ci l') * x2 (ix2 ci (0 : Fin 1)) + x3 (ix2 ci (0 : Fin 1))) zero) l t)
          * (∑ t : Fin 3, ∑ ci : Fin 128, x1 (ix2 o (kcol t ci))
            * tap (fun l' => max (x0 (ix3 i ci l') * x2 (ix2 ci (0 : Fin 1)) + x3 (ix2 ci (0 : Fin 1))) zero) l t) := by
  unfold out1_6
  refine (canon8_apply (B := 128) (C := 1) inb_S8x128x1_S1x128x1_0_0_0 inb_S8x128x1_S1x128x1_1_0_0 inb_S8x128x1_S1x128x1_2_0_0 inb_S8x128x1_S1x128x1_3_0_0 inb_S8x128x1_S1x128x1_4_0_0 inb_S8x128x1_S1x128x1_5_0_0 inb_S8x128x1_S1x128x1_6_0_0 inb_S8x128x1_S1x128x1_7_0_0 _ _ _ _ _ _ _ _ i o (0 : Fin 1)).trans ?_
  match i with
  | ⟨0, hk⟩ =>
    show laneSumSq (cv (k1_pay2 (View.ld x1 r1_0)) (rows1 (k1_pay3 (View.ld x2 r1_1)) (k1_pay4 (View.ld x3 r1_1)) (View.ld x0 r1_2))) (ix3 (0 : Fin 1) o (0 : Fin 1)) = _
    exact (laneSumSq_apply _ o).trans (Finset.sum_congr rfl fun l _ => by rw [conv1_apply x0 x1 x2 x3 0 hk inb_S8x128x1024_S1x128x1024_0_0_0 o l])
  | ⟨1, hk⟩ =>
    show laneSumSq (cv (k1_pay2 (View.ld x1 r1_0)) (rows1 (k1_pay3 (View.ld x2 r1_1)) (k1_pay4 (View.ld x3 r1_1)) (View.ld x0 r1_4))) (ix3 (0 : Fin 1) o (0 : Fin 1)) = _
    exact (laneSumSq_apply _ o).trans (Finset.sum_congr rfl fun l _ => by rw [conv1_apply x0 x1 x2 x3 1 hk inb_S8x128x1024_S1x128x1024_1_0_0 o l])
  | ⟨2, hk⟩ =>
    show laneSumSq (cv (k1_pay2 (View.ld x1 r1_0)) (rows1 (k1_pay3 (View.ld x2 r1_1)) (k1_pay4 (View.ld x3 r1_1)) (View.ld x0 r1_6))) (ix3 (0 : Fin 1) o (0 : Fin 1)) = _
    exact (laneSumSq_apply _ o).trans (Finset.sum_congr rfl fun l _ => by rw [conv1_apply x0 x1 x2 x3 2 hk inb_S8x128x1024_S1x128x1024_2_0_0 o l])
  | ⟨3, hk⟩ =>
    show laneSumSq (cv (k1_pay2 (View.ld x1 r1_0)) (rows1 (k1_pay3 (View.ld x2 r1_1)) (k1_pay4 (View.ld x3 r1_1)) (View.ld x0 r1_8))) (ix3 (0 : Fin 1) o (0 : Fin 1)) = _
    exact (laneSumSq_apply _ o).trans (Finset.sum_congr rfl fun l _ => by rw [conv1_apply x0 x1 x2 x3 3 hk inb_S8x128x1024_S1x128x1024_3_0_0 o l])
  | ⟨4, hk⟩ =>
    show laneSumSq (cv (k1_pay2 (View.ld x1 r1_0)) (rows1 (k1_pay3 (View.ld x2 r1_1)) (k1_pay4 (View.ld x3 r1_1)) (View.ld x0 r1_10))) (ix3 (0 : Fin 1) o (0 : Fin 1)) = _
    exact (laneSumSq_apply _ o).trans (Finset.sum_congr rfl fun l _ => by rw [conv1_apply x0 x1 x2 x3 4 hk inb_S8x128x1024_S1x128x1024_4_0_0 o l])
  | ⟨5, hk⟩ =>
    show laneSumSq (cv (k1_pay2 (View.ld x1 r1_0)) (rows1 (k1_pay3 (View.ld x2 r1_1)) (k1_pay4 (View.ld x3 r1_1)) (View.ld x0 r1_12))) (ix3 (0 : Fin 1) o (0 : Fin 1)) = _
    exact (laneSumSq_apply _ o).trans (Finset.sum_congr rfl fun l _ => by rw [conv1_apply x0 x1 x2 x3 5 hk inb_S8x128x1024_S1x128x1024_5_0_0 o l])
  | ⟨6, hk⟩ =>
    show laneSumSq (cv (k1_pay2 (View.ld x1 r1_0)) (rows1 (k1_pay3 (View.ld x2 r1_1)) (k1_pay4 (View.ld x3 r1_1)) (View.ld x0 r1_14))) (ix3 (0 : Fin 1) o (0 : Fin 1)) = _
    exact (laneSumSq_apply _ o).trans (Finset.sum_congr rfl fun l _ => by rw [conv1_apply x0 x1 x2 x3 6 hk inb_S8x128x1024_S1x128x1024_6_0_0 o l])
  | ⟨7, hk⟩ =>
    show laneSumSq (cv (k1_pay2 (View.ld x1 r1_0)) (rows1 (k1_pay3 (View.ld x2 r1_1)) (k1_pay4 (View.ld x3 r1_1)) (View.ld x0 r1_16))) (ix3 (0 : Fin 1) o (0 : Fin 1)) = _
    exact (laneSumSq_apply _ o).trans (Finset.sum_congr rfl fun l _ => by rw [conv1_apply x0 x1 x2 x3 7 hk inb_S8x128x1024_S1x128x1024_7_0_0 o l])

end Cert.KernelIdeal.KBody
end
-- ==== Proof.KBody2.lean ====
/-
  The third pass of the kernel on a block of eight samples.  For each sample the body multiplies the [128, 128] projection
  weights by the rounded input rows (the 1×1 projection of the input), widens the stored second convolution, multiplies
  each channel's row by that channel's scale and adds its shift (the second normalisation), adds the projection, and
  clamps at zero: the block's result for that sample.
-/
import proofs.«152241_g2000003559913605_pallasbulk_133_2_alg».proof.Proof.KernelIdealFrameP
import proofs.«152241_g2000003559913605_pallasbulk_133_2_alg».proof.Proof.Spec
import proofs.«152241_g2000003559913605_pallasbulk_133_2_alg».proof.Proof.KBodySamples
import proofs.«152241_g2000003559913605_pallasbulk_133_2_alg».proof.Proof.LibPlainDot
import proofs.«152241_g2000003559913605_pallasbulk_133_2_alg».proof.Proof.LibUnitAxes
import Idealize.ShloMosaic.Lib.ValueIdx
import Idealize.ShloMosaic.Lib.Pipeline.Value

noncomputable section

namespace Cert.KernelIdeal.KBody

open Idealize.ShloMosaic Idealize.ShloMosaic.TcCoe Idealize.SL.Sem Idealize.ShloMosaic.ValueIdx
open Cert.KernelIdeal Cert.KernelIdeal.Gen Cert.KernelIdeal.GenP Cert.ResBlock

/-! ## One sample's result -/

/-- The result for one sample: vh the stored second convolution of the sample, vx the input sample, w the projection
    weights, s and t the second normalisation's scale and shift. -/
def res2 (w : FVec Ideal S128x128 .bf16) (s t : FVec Ideal S128x1 .f32) (vx : Vec Ideal S1x128x1024 .f32)
    (vh : Vec Ideal S1x128x1024 .bf16) : FVec Ideal S1x128x1024 .f32 :=
  shapeCast S1x128x1024
    (maximumf
      (addf
        (addf (mulf (extf .f32 (shapeCast S128x1024 vh shapeCasts_S1x128x1024_S128x1024) bitsLt_bf16_f32)
                    (broadcastTo S128x1024 s broadcasts_S128x1_S128x1024))
              (broadcastTo S128x1024 t broadcasts_S128x1_S128x1024))
        (matmul dot_S128x128_S128x1024_S128x1024_1_0_0_1_n_n none w
          (truncf .bf16 (shapeCast S128x1024 vx shapeCasts_S1x128x1024_S128x1024) bitsLt_bf16_f32)
          (constant S128x1024 .f32 0x00000000#32)))
      (broadcast S128x1024 (Scalar.ofBits .f32 0x00000000#32)))
    shapeCasts_S128x1024_S1x128x1024

/-- A sample with its leading unit axis dropped reads the sample at (0, ci, l). -/
theorem drop_unit_apply {φ : EltTy} (v : S1x128x1024.Idx → Elt Ideal φ) (ci : Fin 128) (l : Fin 1024) :
    shapeCast S128x1024 v shapeCasts_S1x128x1024_S128x1024 (ix2 ci l) = v (ix3 (0 : Fin 1) ci l) := by
  refine shapeCast_apply v shapeCasts_S1x128x1024_S128x1024 (ix2 ci l) (ix3 (0 : Fin 1) ci l) ?_
  rw [Shape.rowMajor_val_three, Shape.rowMajor_val_two]
  show (0 * 128 + ci.val) * 1024 + l.val = ci.val * 1024 + l.val
  omega

theorem res2_apply (w : FVec Ideal S128x128 .bf16) (s t : FVec Ideal S128x1 .f32) (vx : Vec Ideal S1x128x1024 .f32)
    (vh : Vec Ideal S1x128x1024 .bf16) (o : Fin 128) (l : Fin 1024) :
    res2 w s t vx vh (ix3 (0 : Fin 1) o l)
      = max ((vh (ix3 (0 : Fin 1) o l) * s (ix2 o (0 : Fin 1)) + t (ix2 o (0 : Fin 1)))
              + ∑ ci : Fin 128, w (ix2 o ci) * vx (ix3 (0 : Fin 1) ci l)) zero := by
  unfold res2
  refine (shapeCast_apply _ shapeCasts_S128x1024_S1x128x1024 (ix3 (0 : Fin 1) o l) (ix2 o l) ?_).trans ?_
  · rw [Shape.rowMajor_val_three, Shape.rowMajor_val_two]
    show o.val * 1024 + l.val = (0 * 128 + o.val) * 1024 + l.val
    omega
  have e1 : shapeCast S128x1024 vh shapeCasts_S1x128x1024_S128x1024 (ix2 o l) = vh (ix3 (0 : Fin 1) o l) :=
    drop_unit_apply vh o l
  have e2 : broadcastTo S128x1024 s broadcasts_S128x1_S128x1024 (ix2 o l) = s (ix2 o (0 : Fin 1)) :=
    Cert.LibUnitAxes.broadcastTo_a1_ab_apply s broadcasts_S128x1_S128x1024 o l
  have e3 : broadcastTo S128x1024 t broadcasts_S128x1_S128x1024 (ix2 o l) = t (ix2 o (0 : Fin 1)) :=
    Cert.LibUnitAxes.broadcastTo_a1_ab_apply t broadcasts_S128x1_S128x1024 o l
  have e4 : matmul dot_S128x128_S128x1024_S128x1024_1_0_0_1_n_n none w
        (truncf .bf16 (shapeCast S128x1024 vx shapeCasts_S1x128x1024_S128x1024) bitsLt_bf16_f32)
        (constant S128x1024 .f32 0x00000000#32) (ix2 o l)
      = ∑ ci : Fin 128, w (ix2 o ci) * vx (ix3 (0 : Fin 1) ci l) := by
    refine (Cert.LibPlainDot.matmul_zero_apply dot_S128x128_S128x1024_S128x1024_1_0_0_1_n_n rfl rfl rfl rfl
      (fun _ _ => rfl) (fun _ _ => rfl) none w _ o l).trans ?_
    refine Finset.sum_congr rfl fun ci _ => ?_
    show w (ix2 o ci) * shapeCast S128x1024 vx shapeCasts_S1x128x1024_S128x1024 (ix2 ci l) = _
    rw [drop_unit_apply vx ci l]
  show max ((shapeCast S128x1024 vh shapeCasts_S1x128x1024_S128x1024 (ix2 o l)
                * broadcastTo S128x1024 s broadcasts_S128x1_S128x1024 (ix2 o l)
              + broadcastTo S128x1024 t broadcasts_S128x1_S128x1024 (ix2 o l))
            + matmul dot_S128x128_S128x1024_S128x1024_1_0_0_1_n_n none w
                (truncf .bf16 (shapeCast S128x1024 vx shapeCasts_S1x128x1024_S128x1024) bitsLt_bf16_f32)
                (constant S128x1024 .f32 0x00000000#32) (ix2 o l))
          (Ideal.ofBits .f32 0x00000000#32) = _
  rw [e1, e2, e3, e4]
  rfl

/-- The projection weights', the scale's and the shift's blocks, loaded whole, are the blocks themselves. -/
theorem wblk2 (x2 : Vec Ideal S128x128 .bf16) : k2_pay2 (View.ld x2 r2_0) = x2 := by
  unfold k2_pay2
  refine (shapeCast_self _ _).trans (View.ld_unit_zero (S := S128x128) ?_ _ x2)
  funext a
  match a with
  | ⟨0, _⟩ => rfl
  | ⟨1, _⟩ => rfl

theorem sblk2 (x3 : Vec Ideal S128x1 .f32) : k2_pay3 (View.ld x3 r2_1) = x3 := by
  unfold k2_pay3
  refine (shapeCast_self _ _).trans (View.ld_unit_zero (S := S128x1) ?_ _ x3)
  funext a
  match a with
  | ⟨0, _⟩ => rfl
  | ⟨1, _⟩ => rfl

theorem tblk2 (x4 : Vec Ideal S128x1 .f32) : k2_pay4 (View.ld x4 r2_1) = x4 := by
  unfold k2_pay4
  refine (shapeCast_self _ _).trans (View.ld_unit_zero (S := S128x1) ?_ _ x4)
  funext a
  match a with
  | ⟨0, _⟩ => rfl
  | ⟨1, _⟩ => rfl

/-- The result for sample k of the blocks. -/
theorem res2_sample (x0 : Vec Ideal S8x128x1024 .bf16) (x1 : Vec Ideal S8x128x1024 .f32) (x2 : Vec Ideal S128x128 .bf16)
    (x3 x4 : Vec Ideal S128x1 .f32) (k : ℕ) (hk : k < 8)
    (inb : ∀ a, (![k, 0, 0] : Fin 3 → ℕ) a + S1x128x1024.size a ≤ S8x128x1024.size a) (o : Fin 128) (l : Fin 1024) :
    res2 (k2_pay2 (View.ld x2 r2_0)) (k2_pay3 (View.ld x3 r2_1)) (k2_pay4 (View.ld x4 r2_1))
        (View.ld x1 (Rect.unit (s := S8x128x1024) ![k, 0, 0] S1x128x1024.size inb))
        (View.ld x0 (Rect.unit (s := S8x128x1024) ![k, 0, 0] S1x128x1024.size inb)) (ix3 (0 : Fin 1) o l)
      = max ((x0 (ix3 (⟨k, hk⟩ : Fin 8) o l) * x3 (ix2 o (0 : Fin 1)) + x4 (ix2 o (0 : Fin 1)))
              + ∑ ci : Fin 128, x2 (ix2 o ci) * x1 (ix3 (⟨k, hk⟩ : Fin 8) ci l)) zero := by
  rw [res2_apply, wblk2, sblk2, tblk2, ld_sample x0 k inb hk 0 o l]
  have e : ∀ ci : Fin 128, View.ld x1 (Rect.unit (s := S8x128x1024) ![k, 0, 0] S1x128x1024.size inb) (ix3 (0 : Fin 1) ci l)
      = x1 (ix3 (⟨k, hk⟩ : Fin 8) ci l) := fun ci => ld_sample x1 k inb hk 0 ci l
  simp only [e]

/-! ## The output block at a coordinate -/

/-- The result block: at (i, o, l), sample i's result at (o, l). -/
theorem out2_5_apply (x0 : Vec Ideal S8x128x1024 .bf16) (x1 : Vec Ideal S8x128x1024 .f32) (x2 : Vec Ideal S128x128 .bf16)
    (x3 x4 : Vec Ideal S128x1 .f32) (i : Fin 8) (o : Fin 128) (l : Fin 1024) :
    GenP.out2_5 x0 x1 x2 x3 x4 (ix3 i o l)
      = max ((x0 (ix3 i o l) * x3 (ix2 o (0 : Fin 1)) + x4 (ix2 o (0 : Fin 1)))
              + ∑ ci : Fin 128, x2 (ix2 o ci) * x1 (ix3 i ci l)) zero := by
  unfold out2_5
  refine (canon8_apply (B := 128) (C := 1024) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 _ _ _ _ _ _ _ _ i o l).trans ?_
  match i with
  | ⟨0, hk⟩ =>
    show res2 (k2_pay2 (View.ld x2 r2_0)) (k2_pay3 (View.ld x3 r2_1)) (k2_pay4 (View.ld x4 r2_1)) (View.ld x1 r2_2) (View.ld x0 r2_2) (ix3 (0 : Fin 1) o l) = _
    exact res2_sample x0 x1 x2 x3 x4 0 hk inb_S8x128x1024_S1x128x1024_0_0_0 o l
  | ⟨1, hk⟩ =>
    show res2 (k2_pay2 (View.ld x2 r2_0)) (k2_pay3 (View.ld x3 r2_1)) (k2_pay4 (View.ld x4 r2_1)) (View.ld x1 r2_3) (View.ld x0 r2_3) (ix3 (0 : Fin 1) o l) = _
    exact res2_sample x0 x1 x2 x3 x4 1 hk inb_S8x128x1024_S1x128x1024_1_0_0 o l
  | ⟨2, hk⟩ =>
    show res2 (k2_pay2 (View.ld x2 r2_0)) (k2_pay3 (View.ld x3 r2_1)) (k2_pay4 (View.ld x4 r2_1)) (View.ld x1 r2_4) (View.ld x0 r2_4) (ix3 (0 : Fin 1) o l) = _
    exact res2_sample x0 x1 x2 x3 x4 2 hk inb_S8x128x1024_S1x128x1024_2_0_0 o l
  | ⟨3, hk⟩ =>
    show res2 (k2_pay2 (View.ld x2 r2_0)) (k2_pay3 (View.ld x3 r2_1)) (k2_pay4 (View.ld x4 r2_1)) (View.ld x1 r2_5) (View.ld x0 r2_5) (ix3 (0 : Fin 1) o l) = _
    exact res2_sample x0 x1 x2 x3 x4 3 hk inb_S8x128x1024_S1x128x1024_3_0_0 o l
  | ⟨4, hk⟩ =>
    show res2 (k2_pay2 (View.ld x2 r2_0)) (k2_pay3 (View.ld x3 r2_1)) (k2_pay4 (View.ld x4 r2_1)) (View.ld x1 r2_6) (View.ld x0 r2_6) (ix3 (0 : Fin 1) o l) = _
    exact res2_sample x0 x1 x2 x3 x4 4 hk inb_S8x128x1024_S1x128x1024_4_0_0 o l
  | ⟨5, hk⟩ =>
    show res2 (k2_pay2 (View.ld x2 r2_0)) (k2_pay3 (View.ld x3 r2_1)) (k2_pay4 (View.ld x4 r2_1)) (View.ld x1 r2_7) (View.ld x0 r2_7) (ix3 (0 : Fin 1) o l) = _
    exact res2_sample x0 x1 x2 x3 x4 5 hk inb_S8x128x1024_S1x128x1024_5_0_0 o l
  | ⟨6, hk⟩ =>
    show res2 (k2_pay2 (View.ld x2 r2_0)) (k2_pay3 (View.ld x3 r2_1)) (k2_pay4 (View.ld x4 r2_1)) (View.ld x1 r2_8) (View.ld x0 r2_8) (ix3 (0 : Fin 1) o l) = _
    exact res2_sample x0 x1 x2 x3 x4 6 hk inb_S8x128x1024_S1x128x1024_6_0_0 o l
  | ⟨7, hk⟩ =>
    show res2 (k2_pay2 (View.ld x2 r2_0)) (k2_pay3 (View.ld x3 r2_1)) (k2_pay4 (View.ld x4 r2_1)) (View.ld x1 r2_9) (View.ld x0 r2_9) (ix3 (0 : Fin 1) o l) = _
    exact res2_sample x0 x1 x2 x3 x4 7 hk inb_S8x128x1024_S1x128x1024_7_0_0 o l

end Cert.KernelIdeal.KBody
end
-- ==== Proof.KReg.lean ====
/-
  The kernel's three passes from blocks to whole arrays, with each body's block taken from the bodies' own lemmas:
  every output array of a pass, entry by entry, as a function of the arrays the pass reads.
-/
import proofs.«152241_g2000003559913605_pallasbulk_133_2_alg».proof.Proof.KReg0
import proofs.«152241_g2000003559913605_pallasbulk_133_2_alg».proof.Proof.KReg1
import proofs.«152241_g2000003559913605_pallasbulk_133_2_alg».proof.Proof.KReg2
import proofs.«152241_g2000003559913605_pallasbulk_133_2_alg».proof.Proof.KBody0
import proofs.«152241_g2000003559913605_pallasbulk_133_2_alg».proof.Proof.KBody1
import proofs.«152241_g2000003559913605_pallasbulk_133_2_alg».proof.Proof.KBody2

noncomputable section

namespace Cert.KernelIdeal.KReg

open Idealize.ShloMosaic Idealize.ShloMosaic.TcCoe Idealize.SL.Sem Idealize.ShloMosaic.ValueIdx
open Cert.KernelIdeal Cert.KernelIdeal.Gen Cert.KernelIdeal.GenP Cert.ResBlock

theorem arr0_2 (V : (c : Dev nD) → (b : Ref sig .tc) → Buf (Elt Ideal) ((c : Thread nD τ).loc b)) (c : Dev nD) (n : Fin 64) (o : Fin 128) (l : Fin 1024) :
    arr (S := S64x128x1024) ((GenP.dat0 V c).arrAt 2 cfg0.N) (ix3 n o l)
      = ∑ t : Fin 3, ∑ ci : Fin 128, arr (S := S128x384) (V c main_v2) (ix2 o (kcol t ci))
          * tap (fun l' => arr (S := S64x128x1024) (V c main_arg0) (ix3 n ci l')) l t :=
  arr0_2_of V c KBody.out0_2_apply n o l
theorem arr0_3 (V : (c : Dev nD) → (b : Ref sig .tc) → Buf (Elt Ideal) ((c : Thread nD τ).loc b)) (c : Dev nD) (n : Fin 64) (o : Fin 128) :
    arr (S := S64x128x1) ((GenP.dat0 V c).arrAt 3 cfg0.N) (ix3 n o 0)
      = ∑ l : Fin 1024, ∑ t : Fin 3, ∑ ci : Fin 128, arr (S := S128x384) (V c main_v2) (ix2 o (kcol t ci))
          * tap (fun l' => arr (S := S64x128x1024) (V c main_arg0) (ix3 n ci l')) l t :=
  arr0_3_of V c KBody.out0_3_apply n o
theorem arr0_4 (V : (c : Dev nD) → (b : Ref sig .tc) → Buf (Elt Ideal) ((c : Thread nD τ).loc b)) (c : Dev nD) (n : Fin 64) (o : Fin 128) :
    arr (S := S64x128x1) ((GenP.dat0 V c).arrAt 4 cfg0.N) (ix3 n o 0)
      = ∑ l : Fin 1024, (∑ t : Fin 3, ∑ ci : Fin 128, arr (S := S128x384) (V c main_v2) (ix2 o (kcol t ci))
          * tap (fun l' => arr (S := S64x128x1024) (V c main_arg0) (ix3 n ci l')) l t)
        * (∑ t : Fin 3, ∑ ci : Fin 128, arr (S := S128x384) (V c main_v2) (ix2 o (kcol t ci))
          * tap (fun l' => arr (S := S64x128x1024) (V c main_arg0) (ix3 n ci l')) l t) :=
  arr0_4_of V c KBody.out0_4_apply n o
theorem arr1_4 (V : (c : Dev nD) → (b : Ref sig .tc) → Buf (Elt Ideal) ((c : Thread nD τ).loc b)) (c : Dev nD) (n : Fin 64) (o : Fin 128) (l : Fin 1024) :
    arr (S := S64x128x1024) ((GenP.dat1 V c).arrAt 4 cfg1.N) (ix3 n o l)
      = ∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t :=
  arr1_4_of V c KBody.out1_4_apply n o l
theorem arr1_5 (V : (c : Dev nD) → (b : Ref sig .tc) → Buf (Elt Ideal) ((c : Thread nD τ).loc b)) (c : Dev nD) (n : Fin 64) (o : Fin 128) :
    arr (S := S64x128x1) ((GenP.dat1 V c).arrAt 5 cfg1.N) (ix3 n o 0)
      = ∑ l : Fin 1024, ∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t :=
  arr1_5_of V c KBody.out1_5_apply n o
theorem arr1_6 (V : (c : Dev nD) → (b : Ref sig .tc) → Buf (Elt Ideal) ((c : Thread nD τ).loc b)) (c : Dev nD) (n : Fin 64) (o : Fin 128) :
    arr (S := S64x128x1) ((GenP.dat1 V c).arrAt 6 cfg1.N) (ix3 n o 0)
      = ∑ l : Fin 1024, (∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t)
        * (∑ t : Fin 3, ∑ ci : Fin 128, arr (S := S128x384) (V c main_v5) (ix2 o (kcol t ci))
          * tap (fun l' => max (arr (S := S64x128x1024) (V c main_v8_0) (ix3 n ci l') * arr (S := S128x1) (V c main_v27) (ix2 ci 0)
              + arr (S := S128x1) (V c main_v28) (ix2 ci 0)) zero) l t) :=
  arr1_6_of V c KBody.out1_6_apply n o
theorem arr2_5 (V : (c : Dev nD) → (b : Ref sig .tc) → Buf (Elt Ideal) ((c : Thread nD τ).loc b)) (c : Dev nD) (n : Fin 64) (o : Fin 128) (l : Fin 1024) :
    arr (S := S64x128x1024) ((GenP.dat2 V c).arrAt 5 cfg2.N) (ix3 n o l)
      = max ((arr (S := S64x128x1024) (V c main_v29_0) (ix3 n o l) * arr (S := S128x1) (V c main_v48) (ix2 o 0) + arr (S := S128x1) (V c main_v49) (ix2 o 0))
          + ∑ ci : Fin 128, arr (S := S128x128) (V c main_v7) (ix2 o ci) * arr (S := S64x128x1024) (V c main_arg0) (ix3 n ci l)) zero :=
  arr2_5_of V c KBody.out2_5_apply n o l

end Cert.KernelIdeal.KReg

end
-- ==== Proof.KHost0.lean ====
/-
  The kernel's weight matrices as its first pass finds them. Each convolution's weights w[o, ci, t] are transposed to
  [o, t, ci] and flattened to 128 × 384, so column t·128 + ci of the flattened matrix is tap t of input channel ci; the
  projection's weights w[o, ci, 0] are flattened to 128 × 128. The narrowing of the number format is the identity on the
  extended reals. The input array itself is untouched by these operations.
-/
import proofs.«152241_g2000003559913605_pallasbulk_133_2_alg».proof.Proof.KernelIdealFrameP
import proofs.«152241_g2000003559913605_pallasbulk_133_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.KHost

open Idealize.ShloMosaic Idealize.ShloMosaic.TcCoe Idealize.SL.Sem Idealize.ShloMosaic.ValueIdx
open Cert.KernelIdeal Cert.KernelIdeal.Gen Cert.KernelIdeal.GenP Cert.ResBlock

variable (m : (ℓ : Loc nD τ sig) → Buf (Elt Ideal) ℓ) (ρ : Dev nD → PrngReg) (c : Dev nD)

/-- A [128, 128, 3] array transposed to [128, 3, 128] and flattened to [128, 384], read at (o, t·128 + ci). -/
theorem flat_apply (w : S128x128x3.Idx → EReal) (o : Fin 128) (t : Fin 3) (ci : Fin 128) :
    shapeCast S128x384 (transpose S128x3x128 [0, 2, 1] w transposes_S128x128x3_S128x3x128_0_2_1) shapeCasts_S128x3x128_S128x384
      (ix2 o (kcol t ci)) = w (ix3 o ci t) := by
  rw [shapeCast_apply _ _ _ (ix3 o t ci) (by
    rw [Shape.rowMajor_val_three, Shape.rowMajor_val_two]
    show (o.val * 3 + t.val) * 128 + ci.val = o.val * 384 + (t.val * 128 + ci.val)
    omega)]
  exact transpose_apply _ _ _ _ (ix3 o ci t) (fun b => by
    match b with
    | ⟨0, _⟩ => rfl
    | ⟨1, _⟩ => rfl
    | ⟨2, _⟩ => rfl)

theorem v2_eq : (GenP.W1 m ρ c (Proc.devRef .tc main_v2) : S128x384.Idx → EReal) =
    truncf (F := Ideal) .bf16 (shapeCast S128x384 (transpose S128x3x128 [0, 2, 1] (m ((c : Thread nD τ).loc main_arg1)) transposes_S128x128x3_S128x3x128_0_2_1) shapeCasts_S128x3x128_S128x384) bitsLt_bf16_f32 := by
  dsimp only [GenP.W1, GenP.hostOps0]
  after_results
  rfl

theorem v5_eq : (GenP.W1 m ρ c (Proc.devRef .tc main_v5) : S128x384.Idx → EReal) =
    truncf (F := Ideal) .bf16 (shapeCast S128x384 (transpose S128x3x128 [0, 2, 1] (m ((c : Thread nD τ).loc main_arg4)) transposes_S128x128x3_S128x3x128_0_2_1) shapeCasts_S128x3x128_S128x384) bitsLt_bf16_f32 := by
  dsimp only [GenP.W1, GenP.hostOps0]
  after_results
  rfl

theorem v7_eq : (GenP.W1 m ρ c (Proc.devRef .tc main_v7) : S128x128.Idx → EReal) =
    truncf (F := Ideal) .bf16 (shapeCast S128x128 (m ((c : Thread nD τ).loc main_arg7)) shapeCasts_S128x128x1_S128x128) bitsLt_bf16_f32 := by
  dsimp only [GenP.W1, GenP.hostOps0]
  after_results
  rfl

/-- Column t·128 + ci of the first convolution's flattened weights is w1[o, ci, t]. -/
theorem v2_apply (o : Fin 128) (t : Fin 3) (ci : Fin 128) :
    arr (S := S128x384) (GenP.W1 m ρ c (Proc.devRef .tc main_v2)) (ix2 o (kcol t ci))
      = arr (S := S128x128x3) (m ((c : Thread nD τ).loc main_arg1)) (ix3 o ci t) := by
  show (GenP.W1 m ρ c (Proc.devRef .tc main_v2) : S128x384.Idx → EReal) (ix2 o (kcol t ci)) = _
  rw [v2_eq]
  exact flat_apply _ o t ci

/-- Column t·128 + ci of the second convolution's flattened weights is w2[o, ci, t]. -/
theorem v5_apply (o : Fin 128) (t : Fin 3) (ci : Fin 128) :
    arr (S := S128x384) (GenP.W1 m ρ c (Proc.devRef .tc main_v5)) (ix2 o (kcol t ci))
      = arr (S := S128x128x3) (m ((c : Thread nD τ).loc main_arg4)) (ix3 o ci t) := by
  show (GenP.W1 m ρ c (Proc.devRef .tc main_v5) : S128x384.Idx → EReal) (ix2 o (kcol t ci)) = _
  rw [v5_eq]
  exact flat_apply _ o t ci

/-- The projection's flattened weights at (o, ci) are wp[o, ci, 0]. -/
theorem v7_apply (o : Fin 128) (ci : Fin 128) :
    arr (S := S128x128) (GenP.W1 m ρ c (Proc.devRef .tc main_v7)) (ix2 o ci)
      = arr (S := S128x128x1) (m ((c : Thread nD τ).loc main_arg7)) (ix3 o ci 0) := by
  show (GenP.W1 m ρ c (Proc.devRef .tc main_v7) : S128x128.Idx → EReal) (ix2 o ci) = _
  rw [v7_eq]
  exact shapeCast_apply _ _ _ (ix3 o ci 0) (by
    rw [Shape.rowMajor_val_three, Shape.rowMajor_val_two]
    show (o.val * 128 + ci.val) * 1 + 0 = o.val * 128 + ci.val
    omega)

end Cert.KernelIdeal.KHost

end
-- ==== Proof.LibFirstAxisSum.lean ====
/-
  A sum of an [a, b] array along its FIRST axis, read at a coordinate: started from the neutral element it is, at
  column q, the plain sum over k < a of the array at (k, q).
-/
import Idealize.ShloMosaic.PureOps.Ideal.Laws
import Idealize.ShloMosaic.Lib.ValueIdx

noncomputable section

namespace Cert.AxisSums

open Idealize.ShloMosaic Idealize.ShloMosaic.ValueIdx

/-- The source index above column q with k on the summed first axis is (k, q). -/
theorem lift_first {a b : ℕ} (h : (⟨2, ![a, b]⟩ : Shape).Reduces [0] ⟨1, ![b]⟩) (q : Fin b) (k : Fin a) :
    h.lift (ix1 q) k = ix2 k q := by
  funext d; apply Fin.ext
  show h.liftVal (ix1 q) k.val d = (ix2 k q d).val
  unfold Shape.Reduces.liftVal
  match d with
  | ⟨0, _⟩ => rfl
  | ⟨1, _⟩ => rfl

/-- A sum of an [a, b] array along its first axis, from the neutral element, at q: the sum over k of the array at
    (k, q). -/
theorem sum_first_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] (⟨1, ![b]⟩ : Shape) src acc h hφ hacc (ix1 q) = ∑ k : Fin a, src (ix2 k q) :=
  (Ideal.multiReduction_add_single src acc h hφ hacc (ix1 q)).trans
    (Finset.sum_congr rfl fun k _ => congrArg src (lift_first h q k))

end Cert.AxisSums

end
-- ==== Proof.FinLaw.lean ====
/-
  The normalisation constants as both programs compute them between their passes. Each pass leaves per-sample (or
  per-chunk) partial sums as an [N, 128, 1] array; the host flattens it to [N, 128], adds its rows up from zero, and
  from the two totals s (of the entries) and ss (of their squares) of a channel computes
      mean = s / 65536,   scale = γ · rsqrt(max(ss / 65536 − mean², 0) + ε),   shift = β − mean · scale
  on vectors of length 128. Read at a channel these are `Cert.ResBlock.scale` and `Cert.ResBlock.shift` of the totals.
-/
import Idealize.ShloMosaic.PureOps.Ideal.Laws
import Idealize.ShloMosaic.Lib.ValueIdx
import Idealize.ShloMosaic.Lib.Pipeline.Value
import proofs.«152241_g2000003559913605_pallasbulk_133_2_alg».proof.Proof.Spec
import proofs.«152241_g2000003559913605_pallasbulk_133_2_alg».proof.Proof.LibFirstAxisSum

noncomputable section

namespace Cert.ResBlock.FinLaw

open Idealize.ShloMosaic Idealize.ShloMosaic.ValueIdx Cert.ResBlock

/-- Vectors of length 128, and scalars. -/
abbrev V128 : Shape := ⟨1, ![128]⟩
abbrev V0 : Shape := ⟨0, ![]⟩

/-- The rows of an [N, 128, 1] array of partial sums, flattened to [N, 128] and added up from zero: at channel o the
    sum over n of the array at (n, o, 0). -/
theorem colsum_apply {N : ℕ} (A : FVec Ideal (⟨3, ![N, 128, 1]⟩ : Shape) .f32)
    (hsc : (⟨3, ![N, 128, 1]⟩ : Shape).ShapeCasts ⟨2, ![N, 128]⟩)
    (hr' : (⟨2, ![N, 128]⟩ : Shape).ReducesTo [0] V128) (hr : (⟨2, ![N, 128]⟩ : Shape).Reduces [0] V128)
    (hu : 0 < V0.numel) (o : Fin 128) :
    Host.reduceAdd (F := Ideal) (shapeCast ⟨2, ![N, 128]⟩ A hsc) (constant V0 .f32 0x00000000#32) hr' hu (ix1 o)
      = ∑ n : Fin N, A (ix3 n o (0 : Fin 1)) := by
  show Ideal.hostReduceAdd hr' _ _ (ix1 o) = _
  rw [Ideal.hostReduceAdd_single hr' hr]
  show Ideal.ofBits .f32 0x00000000#32 + _ = _
  rw [Ideal.ofBits_zero_f32, zero_add]
  refine Finset.sum_congr rfl fun n _ => ?_
  rw [Cert.AxisSums.lift_first hr o n]
  exact shapeCast_apply _ _ _ (ix3 n o (0 : Fin 1)) (by
    rw [Shape.rowMajor_val_three, Shape.rowMajor_val_two]
    show (n.val * 128 + o.val) * 1 + 0 = n.val * 128 + o.val
    omega)

variable (hb : V0.BroadcastsInDim V128 (![] : Fin 0 → Fin V128.rank))

/-- A word splat over the 128 channels. -/
def cv (b : BitVec 32) : FVec Ideal V128 .f32 := broadcastInDim V128 ![] hb (constant V0 .f32 b)

/-- The scale, as the host computes it from the two totals. -/
def scaleV (s ss g : FVec Ideal V128 .f32) : FVec Ideal V128 .f32 :=
  mulf g (Host.rsqrt (addf (maximumf (subf (Host.divf ss (cv hb 0x47800000#32))
    (mulf (Host.divf s (cv hb 0x47800000#32)) (Host.divf s (cv hb 0x47800000#32)))) (cv hb 0x00000000#32)) (cv hb 0x3727C5AC#32)))

/-- The shift, as the host computes it. -/
def shiftV (s ss g b : FVec Ideal V128 .f32) : FVec Ideal V128 .f32 :=
  subf b (mulf (Host.divf s (cv hb 0x47800000#32)) (scaleV hb s ss g))

theorem scaleV_apply (s ss g : FVec Ideal V128 .f32) (o : Fin 128) :
    scaleV hb s ss g (ix1 o) = scale (fun o => s (ix1 o)) (fun o => ss (ix1 o)) (fun o => g (ix1 o)) o := rfl

theorem shiftV_apply (s ss g b : FVec Ideal V128 .f32) (o : Fin 128) :
    shiftV hb s ss g b (ix1 o)
      = shift (fun o => s (ix1 o)) (fun o => ss (ix1 o)) (fun o => g (ix1 o)) (fun o => b (ix1 o)) o := rfl

omit hb in
/-- The scale and the shift depend on their totals and parameters only through their values. -/
theorem scale_congr {s s' ss ss' g g' : Ch} (h1 : ∀ o, s o = s' o) (h2 : ∀ o, ss o = ss' o) (h3 : ∀ o, g o = g' o) (o : Fin 128) :
    scale s ss g o = scale s' ss' g' o := by
  rw [funext h1, funext h2, funext h3]

omit hb in
theorem shift_congr {s s' ss ss' g g' b b' : Ch} (h1 : ∀ o, s o = s' o) (h2 : ∀ o, ss o = ss' o) (h3 : ∀ o, g o = g' o)
    (h4 : ∀ o, b o = b' o) (o : Fin 128) : shift s ss g b o = shift s' ss' g' b' o := by
  rw [funext h1, funext h2, funext h3, funext h4]

end Cert.ResBlock.FinLaw

end
-- ==== Proof.LibUnitColumns.lean ====
/-
  A vector presented with a unit axis, read at coordinates.  A vector [a] broadcast along dimension 0 of [a, 1], or cast
  to [a, 1], is the same elements in the same order: entry (p, 0) is the vector's entry p.  A vector [b] broadcast along
  dimension 1 of [1, b] reads, at (0, q), the vector's entry q.  (An index vector handed to a scatter or a gather as a
  column of start indices; a per-row factor handed to a kernel as a column; a bias handed to it as a row.)
-/
import Idealize.ShloMosaic.Lib.Pipeline.Value
import Idealize.ShloMosaic.Lib.ValueIdx
import Idealize.ShloMosaic.Lib.ValueLayout

noncomputable section

namespace Cert.LibUnitColumns

open Idealize.ShloMosaic Idealize.ShloMosaic.ValueIdx

variable {α : Type}

/-- The host's broadcast of a vector [a] along dimension 0 of [a, 1] reads, at (p, u), the vector at p. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) (fun ax => match ax with
    | ⟨0, _⟩ => by
      show p.val = if a = 1 then 0 else p.val
      split
      · have := p.isLt; omega
      · rfl)

/-- Casting a vector [a] to a column [a, 1] moves no element: entry (p, u) is the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h (ix2 p u) (ix1 p) (by
    rw [Shape.rowMajor_val_two, Shape.rowMajor_val_one]
    show p.val = p.val * 1 + u.val
    omega)

/-- The host's broadcast of a vector [b] along dimension 1 of [1, b] reads, at (u, q), the vector at q. -/
theorem broadcastInDim_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply ![1] h v (ix2 u q) (ix1 q) (fun ax => match ax with
    | ⟨0, _⟩ => by
      show q.val = if b = 1 then 0 else q.val
      split
      · have := q.isLt; omega
      · rfl)

end Cert.LibUnitColumns

end
-- ==== Proof.KHost1.lean ====
/-
  The normalisation constants of the first convolution as the kernel's next pass finds them: the per-sample partial
  sums and sums of squares the previous pass left ([64, 128, 1]) are added up over the 64 samples, and the scale and shift
  of each channel computed from the two totals and the affine parameters; both are handed on as columns [128, 1].
-/
import proofs.«152241_g2000003559913605_pallasbulk_133_2_alg».proof.Proof.KernelIdealFrameP
import proofs.«152241_g2000003559913605_pallasbulk_133_2_alg».proof.Proof.Spec
import proofs.«152241_g2000003559913605_pallasbulk_133_2_alg».proof.Proof.FinLaw
import proofs.«152241_g2000003559913605_pallasbulk_133_2_alg».proof.Proof.LibUnitColumns
import Idealize.ShloMosaic.Lib.StableHlo.Run

set_option maxRecDepth 16384

noncomputable section

namespace Cert.KernelIdeal.KHost

open Idealize.ShloMosaic Idealize.ShloMosaic.TcCoe Idealize.SL.Sem Idealize.ShloMosaic.ValueIdx
open Cert.KernelIdeal Cert.KernelIdeal.Gen Cert.KernelIdeal.GenP Cert.ResBlock

variable (m : (ℓ : Loc nD τ sig) → Buf (Elt Ideal) ℓ) (ρ : Dev nD → PrngReg) (c : Dev nD)

/-- The total of the partial sums, per channel, as the host forms it. -/
abbrev tot1 : FVec Ideal S128 .f32 :=
  Host.reduceAdd (F := Ideal) (shapeCast S64x128 (GenP.W2 m ρ c (Proc.devRef .tc main_v8_1)) shapeCasts_S64x128x1_S64x128)
    (constant S_ .f32 0x00000000#32) reducesTo_S64x128_S128_d0 h_S_
/-- The total of the partial sums of squares. -/
abbrev totSq1 : FVec Ideal S128 .f32 :=
  Host.reduceAdd (F := Ideal) (shapeCast S64x128 (GenP.W2 m ρ c (Proc.devRef .tc main_v8_2)) shapeCasts_S64x128x1_S64x128)
    (constant S_ .f32 0x00000000#32) reducesTo_S64x128_S128_d0 h_S_

set_option maxHeartbeats 1000000 in
theorem v27_eq : (GenP.W3 m ρ c (Proc.devRef .tc main_v27) : S128x1.Idx → EReal) =
    broadcastInDim S128x1 ![0] bcast_S128_S128x1_0 (FinLaw.scaleV bcast_S_S128 (tot1 m ρ c) (totSq1 m ρ c)
      (GenP.W2 m ρ c (Proc.devRef .tc main_arg2))) := by
  dsimp only [GenP.W3, hostOps1]
  after_results_simp
  rfl

set_option maxHeartbeats 1000000 in
theorem v28_eq : (GenP.W3 m ρ c (Proc.devRef .tc main_v28) : S128x1.Idx → EReal) =
    broadcastInDim S128x1 ![0] bcast_S128_S128x1_0 (FinLaw.shiftV bcast_S_S128 (tot1 m ρ c) (totSq1 m ρ c)
      (GenP.W2 m ρ c (Proc.devRef .tc main_arg2)) (GenP.W2 m ρ c (Proc.devRef .tc main_arg3))) := by
  dsimp only [GenP.W3, hostOps1]
  after_results_simp
  rfl

theorem tot1_apply (o : Fin 128) :
    tot1 m ρ c (ix1 o) = ∑ n : Fin 64, arr (S := S64x128x1) (GenP.W2 m ρ c (Proc.devRef .tc main_v8_1)) (ix3 n o (0 : Fin 1)) :=
  FinLaw.colsum_apply _ _ _ (by decide) _ o

theorem totSq1_apply (o : Fin 128) :
    totSq1 m ρ c (ix1 o) = ∑ n : Fin 64, arr (S := S64x128x1) (GenP.W2 m ρ c (Proc.devRef .tc main_v8_2)) (ix3 n o (0 : Fin 1)) :=
  FinLaw.colsum_apply _ _ _ (by decide) _ o

/-- The scale column at channel o. -/
theorem v27_apply (o : Fin 128) :
    arr (S := S128x1) (GenP.W3 m ρ c (Proc.devRef .tc main_v27)) (ix2 o (0 : Fin 1))
      = scale (fun o => ∑ n : Fin 64, arr (S := S64x128x1) (GenP.W2 m ρ c (Proc.devRef .tc main_v8_1)) (ix3 n o (0 : Fin 1)))
              (fun o => ∑ n : Fin 64, arr (S := S64x128x1) (GenP.W2 m ρ c (Proc.devRef .tc main_v8_2)) (ix3 n o (0 : Fin 1)))
              (fun o => arr (S := S128) (GenP.W2 m ρ c (Proc.devRef .tc main_arg2)) (ix1 o)) o := by
  show (GenP.W3 m ρ c (Proc.devRef .tc main_v27) : S128x1.Idx → EReal) (ix2 o (0 : Fin 1)) = _
  rw [v27_eq, Cert.LibUnitColumns.broadcastInDim_a_a1_apply, FinLaw.scaleV_apply]
  exact FinLaw.scale_congr (tot1_apply m ρ c) (totSq1_apply m ρ c) (fun _ => rfl) o

/-- The shift column at channel o. -/
theorem v28_apply (o : Fin 128) :
    arr (S := S128x1) (GenP.W3 m ρ c (Proc.devRef .tc main_v28)) (ix2 o (0 : Fin 1))
      = shift (fun o => ∑ n : Fin 64, arr (S := S64x128x1) (GenP.W2 m ρ c (Proc.devRef .tc main_v8_1)) (ix3 n o (0 : Fin 1)))
              (fun o => ∑ n : Fin 64, arr (S := S64x128x1) (GenP.W2 m ρ c (Proc.devRef .tc main_v8_2)) (ix3 n o (0 : Fin 1)))
              (fun o => arr (S := S128) (GenP.W2 m ρ c (Proc.devRef .tc main_arg2)) (ix1 o))
              (fun o => arr (S := S128) (GenP.W2 m ρ c (Proc.devRef .tc main_arg3)) (ix1 o)) o := by
  show (GenP.W3 m ρ c (Proc.devRef .tc main_v28) : S128x1.Idx → EReal) (ix2 o (0 : Fin 1)) = _
  rw [v28_eq, Cert.LibUnitColumns.broadcastInDim_a_a1_apply, FinLaw.shiftV_apply]
  exact FinLaw.shift_congr (tot1_apply m ρ c) (totSq1_apply m ρ c) (fun _ => rfl) (fun _ => rfl) o

end Cert.KernelIdeal.KHost

end
-- ==== Proof.KHost2.lean ====
/-
  The normalisation constants of the second convolution as the kernel's next pass finds them: the per-sample partial
  sums and sums of squares the previous pass left ([64, 128, 1]) are added up over the 64 samples, and the scale and shift
  of each channel computed from the two totals and the affine parameters; both are handed on as columns [128, 1].
-/
import proofs.«152241_g2000003559913605_pallasbulk_133_2_alg».proof.Proof.KernelIdealFrameP
import proofs.«152241_g2000003559913605_pallasbulk_133_2_alg».proof.Proof.Spec
import proofs.«152241_g2000003559913605_pallasbulk_133_2_alg».proof.Proof.FinLaw
import proofs.«152241_g2000003559913605_pallasbulk_133_2_alg».proof.Proof.LibUnitColumns
import Idealize.ShloMosaic.Lib.StableHlo.Run

set_option maxRecDepth 16384

noncomputable section

namespace Cert.KernelIdeal.KHost

open Idealize.ShloMosaic Idealize.ShloMosaic.TcCoe Idealize.SL.Sem Idealize.ShloMosaic.ValueIdx
open Cert.KernelIdeal Cert.KernelIdeal.Gen Cert.KernelIdeal.GenP Cert.ResBlock

variable (m : (ℓ : Loc nD τ sig) → Buf (Elt Ideal) ℓ) (ρ : Dev nD → PrngReg) (c : Dev nD)

/-- The total of the partial sums, per channel, as the host forms it. -/
abbrev tot2 : FVec Ideal S128 .f32 :=
  Host.reduceAdd (F := Ideal) (shapeCast S64x128 (GenP.W4 m ρ c (Proc.devRef .tc main_v29_1)) shapeCasts_S64x128x1_S64x128)
    (constant S_ .f32 0x00000000#32) reducesTo_S64x128_S128_d0 h_S_
/-- The total of the partial sums of squares. -/
abbrev totSq2 : FVec Ideal S128 .f32 :=
  Host.reduceAdd (F := Ideal) (shapeCast S64x128 (GenP.W4 m ρ c (Proc.devRef .tc main_v29_2)) shapeCasts_S64x128x1_S64x128)
    (constant S_ .f32 0x00000000#32) reducesTo_S64x128_S128_d0 h_S_

set_option maxHeartbeats 1000000 in
theorem v48_eq : (GenP.W5 m ρ c (Proc.devRef .tc main_v48) : S128x1.Idx → EReal) =
    broadcastInDim S128x1 ![0] bcast_S128_S128x1_0 (FinLaw.scaleV bcast_S_S128 (tot2 m ρ c) (totSq2 m ρ c)
      (GenP.W4 m ρ c (Proc.devRef .tc main_arg5))) := by
  dsimp only [GenP.W5, hostOps2]
  after_results_simp
  rfl

set_option maxHeartbeats 1000000 in
theorem v49_eq : (GenP.W5 m ρ c (Proc.devRef .tc main_v49) : S128x1.Idx → EReal) =
    broadcastInDim S128x1 ![0] bcast_S128_S128x1_0 (FinLaw.shiftV bcast_S_S128 (tot2 m ρ c) (totSq2 m ρ c)
      (GenP.W4 m ρ c (Proc.devRef .tc main_arg5)) (GenP.W4 m ρ c (Proc.devRef .tc main_arg6))) := by
  dsimp only [GenP.W5, hostOps2]
  after_results_simp
  rfl

theorem tot2_apply (o : Fin 128) :
    tot2 m ρ c (ix1 o) = ∑ n : Fin 64, arr (S := S64x128x1) (GenP.W4 m ρ c (Proc.devRef .tc main_v29_1)) (ix3 n o (0 : Fin 1)) :=
  FinLaw.colsum_apply _ _ _ (by decide) _ o

theorem totSq2_apply (o : Fin 128) :
    totSq2 m ρ c (ix1 o) = ∑ n : Fin 64, arr (S := S64x128x1) (GenP.W4 m ρ c (Proc.devRef .tc main_v29_2)) (ix3 n o (0 : Fin 1)) :=
  FinLaw.colsum_apply _ _ _ (by decide) _ o

/-- The scale column at channel o. -/
theorem v48_apply (o : Fin 128) :
    arr (S := S128x1) (GenP.W5 m ρ c (Proc.devRef .tc main_v48)) (ix2 o (0 : Fin 1))
      = scale (fun o => ∑ n : Fin 64, arr (S := S64x128x1) (GenP.W4 m ρ c (Proc.devRef .tc main_v29_1)) (ix3 n o (0 : Fin 1)))
              (fun o => ∑ n : Fin 64, arr (S := S64x128x1) (GenP.W4 m ρ c (Proc.devRef .tc main_v29_2)) (ix3 n o (0 : Fin 1)))
              (fun o => arr (S := S128) (GenP.W4 m ρ c (Proc.devRef .tc main_arg5)) (ix1 o)) o := by
  show (GenP.W5 m ρ c (Proc.devRef .tc main_v48) : S128x1.Idx → EReal) (ix2 o (0 : Fin 1)) = _
  rw [v48_eq, Cert.LibUnitColumns.broadcastInDim_a_a1_apply, FinLaw.scaleV_apply]
  exact FinLaw.scale_congr (tot2_apply m ρ c) (totSq2_apply m ρ c) (fun _ => rfl) o

/-- The shift column at channel o. -/
theorem v49_apply (o : Fin 128) :
    arr (S := S128x1) (GenP.W5 m ρ c (Proc.devRef .tc main_v49)) (ix2 o (0 : Fin 1))
      = shift (fun o => ∑ n : Fin 64, arr (S := S64x128x1) (GenP.W4 m ρ c (Proc.devRef .tc main_v29_1)) (ix3 n o (0 : Fin 1)))
              (fun o => ∑ n : Fin 64, arr (S := S64x128x1) (GenP.W4 m ρ c (Proc.devRef .tc main_v29_2)) (ix3 n o (0 : Fin 1)))
              (fun o => arr (S := S128) (GenP.W4 m ρ c (Proc.devRef .tc main_arg5)) (ix1 o))
              (fun o => arr (S := S128) (GenP.W4 m ρ c (Proc.devRef .tc main_arg6)) (ix1 o)) o := by
  show (GenP.W5 m ρ c (Proc.devRef .tc main_v49) : S128x1.Idx → EReal) (ix2 o (0 : Fin 1)) = _
  rw [v49_eq, Cert.LibUnitColumns.broadcastInDim_a_a1_apply, FinLaw.shiftV_apply]
  exact FinLaw.shift_congr (tot2_apply m ρ c) (totSq2_apply m ρ c) (fun _ => rfl) (fun _ => rfl) o

end Cert.KernelIdeal.KHost

end
-- ==== Proof.KValue.lean ====
/-
  The kernel's result in the block's own terms. The fold through the program is walked back from the result buffer:
  the third pass's output array, entry by entry, in terms of the arrays it reads; those in terms of the second pass
  and the normalisation constants computed between the passes; those in terms of the first pass; and the first pass in
  terms of the arguments. Buffers that a stretch of host operations or a pass does not write are carried across it.
-/
import proofs.«152241_g2000003559913605_pallasbulk_133_2_alg».proof.Proof.KReg
import proofs.«152241_g2000003559913605_pallasbulk_133_2_alg».proof.Proof.KernelIdealFrameP
import proofs.«152241_g2000003559913605_pallasbulk_133_2_alg».proof.Proof.Spec
import proofs.«152241_g2000003559913605_pallasbulk_133_2_alg».proof.Proof.KHost0
import proofs.«152241_g2000003559913605_pallasbulk_133_2_alg».proof.Proof.KHost1
import proofs.«152241_g2000003559913605_pallasbulk_133_2_alg».proof.Proof.KHost2
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.GenP Cert.ResBlock

variable (m : (ℓ : Loc nD τ sig) → Buf (Elt Ideal) ℓ) (ρ : Dev nD → PrngReg) (c : Dev nD)

/-- The argument arrays as functions of explicit coordinates. -/
abbrev X : Act := fun n ci l => arr (S := S64x128x1024) (m ((c : Thread nD τ).loc main_arg0)) (ix3 n ci l)
abbrev W1 : Wt := fun o ci t => arr (S := S128x128x3) (m ((c : Thread nD τ).loc main_arg1)) (ix3 o ci t)
abbrev G1 : Ch := fun o => arr (S := S128) (m ((c : Thread nD τ).loc main_arg2)) (ix1 o)
abbrev B1 : Ch := fun o => arr (S := S128) (m ((c : Thread nD τ).loc main_arg3)) (ix1 o)
abbrev W2 : Wt := fun o ci t => arr (S := S128x128x3) (m ((c : Thread nD τ).loc main_arg4)) (ix3 o ci t)
abbrev G2 : Ch := fun o => arr (S := S128) (m ((c : Thread nD τ).loc main_arg5)) (ix1 o)
abbrev B2 : Ch := fun o => arr (S := S128) (m ((c : Thread nD τ).loc main_arg6)) (ix1 o)
abbrev WP : Fin 128 → Fin 128 → EReal := fun o ci => arr (S := S128x128x1) (m ((c : Thread nD τ).loc main_arg7)) (ix3 o ci (0 : Fin 1))

/-- A buffer no operation of a host stretch writes holds after the stretch what it held before. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## What each stretch and each region leaves untouched -/

theorem k1_arg0 : GenP.W1 m ρ c (Proc.devRef .tc main_arg0) = GenP.W0 m ρ c (Proc.devRef .tc main_arg0) := by host_keeps hostOps0
theorem k1_arg2 : GenP.W1 m ρ c (Proc.devRef .tc main_arg2) = GenP.W0 m ρ c (Proc.devRef .tc main_arg2) := by host_keeps hostOps0
theorem k1_arg3 : GenP.W1 m ρ c (Proc.devRef .tc main_arg3) = GenP.W0 m ρ c (Proc.devRef .tc main_arg3) := by host_keeps hostOps0
theorem k1_arg5 : GenP.W1 m ρ c (Proc.devRef .tc main_arg5) = GenP.W0 m ρ c (Proc.devRef .tc main_arg5) := by host_keeps hostOps0
theorem k1_arg6 : GenP.W1 m ρ c (Proc.devRef .tc main_arg6) = GenP.W0 m ρ c (Proc.devRef .tc main_arg6) := by host_keeps hostOps0

theorem k2_arg0 : GenP.W2 m ρ c (Proc.devRef .tc main_arg0) = GenP.W1 m ρ c (Proc.devRef .tc main_arg0) :=
  (W2_arr m ρ c 0).trans (((dat0 (V1 m ρ) c).arrAt_in 0 rfl _).trans (A_eq0 (V1 m ρ) c 0))
theorem k2_v5 : GenP.W2 m ρ c (Proc.devRef .tc main_v5) = GenP.W1 m ρ c (Proc.devRef .tc main_v5) := W2_of_ne m ρ c main_v5 (by decide)
theorem k2_v7 : GenP.W2 m ρ c (Proc.devRef .tc main_v7) = GenP.W1 m ρ c (Proc.devRef .tc main_v7) := W2_of_ne m ρ c main_v7 (by decide)
theorem k2_arg2 : GenP.W2 m ρ c (Proc.devRef .tc main_arg2) = GenP.W1 m ρ c (Proc.devRef .tc main_arg2) := W2_of_ne m ρ c main_arg2 (by decide)
theorem k2_arg3 : GenP.W2 m ρ c (Proc.devRef .tc main_arg3) = GenP.W1 m ρ c (Proc.devRef .tc main_arg3) := W2_of_ne m ρ c main_arg3 (by decide)
theorem k2_arg5 : GenP.W2 m ρ c (Proc.devRef .tc main_arg5) = GenP.W1 m ρ c (Proc.devRef .tc main_arg5) := W2_of_ne m ρ c main_arg5 (by decide)
theorem k2_arg6 : GenP.W2 m ρ c (Proc.devRef .tc main_arg6) = GenP.W1 m ρ c (Proc.devRef .tc main_arg6) := W2_of_ne m ρ c main_arg6 (by decide)

theorem k3_v8_0 : GenP.W3 m ρ c (Proc.devRef .tc main_v8_0) = GenP.W2 m ρ c (Proc.devRef .tc main_v8_0) := by host_keeps hostOps1
theorem k3_v5 : GenP.W3 m ρ c (Proc.devRef .tc main_v5) = GenP.W2 m ρ c (Proc.devRef .tc main_v5) := by host_keeps hostOps1
theorem k3_v7 : GenP.W3 m ρ c (Proc.devRef .tc main_v7) = GenP.W2 m ρ c (Proc.devRef .tc main_v7) := by host_keeps hostOps1
theorem k3_arg0 : GenP.W3 m ρ c (Proc.devRef .tc main_arg0) = GenP.W2 m ρ c (Proc.devRef .tc main_arg0) := by host_keeps hostOps1
theorem k3_arg5 : GenP.W3 m ρ c (Proc.devRef .tc main_arg5) = GenP.W2 m ρ c (Proc.devRef .tc main_arg5) := by host_keeps hostOps1
theorem k3_arg6 : GenP.W3 m ρ c (Proc.devRef .tc main_arg6) = GenP.W2 m ρ c (Proc.devRef .tc main_arg6) := by host_keeps hostOps1

theorem k4_v7 : GenP.W4 m ρ c (Proc.devRef .tc main_v7) = GenP.W3 m ρ c (Proc.devRef .tc main_v7) := W4_of_ne m ρ c main_v7 (by decide)
theorem k4_arg0 : GenP.W4 m ρ c (Proc.devRef .tc main_arg0) = GenP.W3 m ρ c (Proc.devRef .tc main_arg0) := W4_of_ne m ρ c main_arg0 (by decide)
theorem k4_arg5 : GenP.W4 m ρ c (Proc.devRef .tc main_arg5) = GenP.W3 m ρ c (Proc.devRef .tc main_arg5) := W4_of_ne m ρ c main_arg5 (by decide)
theorem k4_arg6 : GenP.W4 m ρ c (Proc.devRef .tc main_arg6) = GenP.W3 m ρ c (Proc.devRef .tc main_arg6) := W4_of_ne m ρ c main_arg6 (by decide)

theorem k5_v29_0 : GenP.W5 m ρ c (Proc.devRef .tc main_v29_0) = GenP.W4 m ρ c (Proc.devRef .tc main_v29_0) := by host_keeps hostOps2
theorem k5_v7 : GenP.W5 m ρ c (Proc.devRef .tc main_v7) = GenP.W4 m ρ c (Proc.devRef .tc main_v7) := by host_keeps hostOps2
theorem k5_arg0 : GenP.W5 m ρ c (Proc.devRef .tc main_arg0) = GenP.W4 m ρ c (Proc.devRef .tc main_arg0) := by host_keeps hostOps2

/-! ## The first pass -/

theorem x_W1 (n : Fin 64) (ci : Fin 128) (l : Fin 1024) :
    arr (S := S64x128x1024) (GenP.W1 m ρ c (Proc.devRef .tc main_arg0)) (ix3 n ci l) = X m c n ci l := by
  rw [k1_arg0]

/-- The first pass's matrix product in the entry contents is the first convolution of the arguments. -/
theorem conv_V1 (n : Fin 64) (o : Fin 128) (l : Fin 1024) :
    (∑ t : Fin 3, ∑ ci : Fin 128, arr (S := S128x384) (V1 m ρ c main_v2) (ix2 o (kcol t ci))
        * tap (fun l' => arr (S := S64x128x1024) (V1 m ρ c main_arg0) (ix3 n ci l')) l t)
      = h1 (X m c) (W1 m c) n o l := by
  simp only [h1, conv]
  refine Finset.sum_congr rfl fun t _ => Finset.sum_congr rfl fun ci _ => ?_
  rw [show arr (S := S128x384) (V1 m ρ c main_v2) (ix2 o (kcol t ci)) = W1 m c o ci t from KHost.v2_apply m ρ c o t ci]
  refine congrArg _ (congrArg (fun a => tap a l t) (funext fun l' => ?_))
  exact x_W1 m ρ c n ci l'

/-- The first convolution, as the first pass writes it back. -/
theorem h1_W2 (n : Fin 64) (o : Fin 128) (l : Fin 1024) :
    arr (S := S64x128x1024) (GenP.W2 m ρ c (Proc.devRef .tc main_v8_0)) (ix3 n o l) = h1 (X m c) (W1 m c) n o l := by
  rw [show GenP.W2 m ρ c (Proc.devRef .tc main_v8_0) = (dat0 (V1 m ρ) c).arrAt 2 cfg0.N from W2_arr m ρ c 2,
    KReg.arr0_2 (V1 m ρ) c n o l]
  exact conv_V1 m ρ c n o l

/-- Its per-sample sums and sums of squares. -/
theorem s1_W2 (n : Fin 64) (o : Fin 128) :
    arr (S := S64x128x1) (GenP.W2 m ρ c (Proc.devRef .tc main_v8_1)) (ix3 n o (0 : Fin 1))
      = ∑ l : Fin 1024, h1 (X m c) (W1 m c) n o l := by
  rw [show GenP.W2 m ρ c (Proc.devRef .tc main_v8_1) = (dat0 (V1 m ρ) c).arrAt 3 cfg0.N from W2_arr m ρ c 3,
    KReg.arr0_3 (V1 m ρ) c n o]
  exact Finset.sum_congr rfl fun l _ => conv_V1 m ρ c n o l

theorem q1_W2 (n : Fin 64) (o : Fin 128) :
    arr (S := S64x128x1) (GenP.W2 m ρ c (Proc.devRef .tc main_v8_2)) (ix3 n o (0 : Fin 1))
      = ∑ l : Fin 1024, h1 (X m c) (W1 m c) n o l * h1 (X m c) (W1 m c) n o l := by
  rw [show GenP.W2 m ρ c (Proc.devRef .tc main_v8_2) = (dat0 (V1 m ρ) c).arrAt 4 cfg0.N from W2_arr m ρ c 4,
    KReg.arr0_4 (V1 m ρ) c n o]
  refine Finset.sum_congr rfl fun l _ => ?_
  rw [conv_V1 m ρ c n o l]

/-! ## The constants between the first and the second pass -/

theorem g1_W2 (o : Fin 128) : arr (S := S128) (GenP.W2 m ρ c (Proc.devRef .tc main_arg2)) (ix1 o) = G1 m c o := by
  rw [k2_arg2, k1_arg2]
theorem b1_W2 (o : Fin 128) : arr (S := S128) (GenP.W2 m ρ c (Proc.devRef .tc main_arg3)) (ix1 o) = B1 m c o := by
  rw [k2_arg3, k1_arg3]

theorem tot1 (o : Fin 128) :
    (∑ n : Fin 64, arr (S := S64x128x1) (GenP.W2 m ρ c (Proc.devRef .tc main_v8_1)) (ix3 n o (0 : Fin 1)))
      = tot (h1 (X m c) (W1 m c)) o :=
  Finset.sum_congr rfl fun n _ => s1_W2 m ρ c n o
theorem totSq1 (o : Fin 128) :
    (∑ n : Fin 64, arr (S := S64x128x1) (GenP.W2 m ρ c (Proc.devRef .tc main_v8_2)) (ix3 n o (0 : Fin 1)))
      = totSq (h1 (X m c) (W1 m c)) o :=
  Finset.sum_congr rfl fun n _ => q1_W2 m ρ c n o

theorem sc1_W3 (o : Fin 128) :
    arr (S := S128x1) (GenP.W3 m ρ c (Proc.devRef .tc main_v27)) (ix2 o (0 : Fin 1)) = sc1 (X m c) (W1 m c) (G1 m c) o := by
  rw [KHost.v27_apply]
  exact FinLaw.scale_congr (tot1 m ρ c) (totSq1 m ρ c) (g1_W2 m ρ c) o
theorem sh1_W3 (o : Fin 128) :
    arr (S := S128x1) (GenP.W3 m ρ c (Proc.devRef .tc main_v28)) (ix2 o (0 : Fin 1))
      = sh1 (X m c) (W1 m c) (G1 m c) (B1 m c) o := by
  rw [KHost.v28_apply]
  exact FinLaw.shift_congr (tot1 m ρ c) (totSq1 m ρ c) (g1_W2 m ρ c) (b1_W2 m ρ c) o

/-! ## The second pass -/

theorem w2_V3 (o : Fin 128) (t : Fin 3) (ci : Fin 128) :
    arr (S := S128x384) (V3 m ρ c main_v5) (ix2 o (kcol t ci)) = W2 m c o ci t := by
  show arr (S := S128x384) (GenP.W3 m ρ c (Proc.devRef .tc main_v5)) (ix2 o (kcol t ci)) = _
  rw [k3_v5, k2_v5]
  exact KHost.v5_apply m ρ c o t ci

theorem conv_V3 (n : Fin 64) (o : Fin 128) (l : Fin 1024) :
    (∑ t : Fin 3, ∑ ci : Fin 128, arr (S := S128x384) (V3 m ρ c main_v5) (ix2 o (kcol t ci))
        * tap (fun l' => max (arr (S := S64x128x1024) (V3 m ρ c main_v8_0) (ix3 n ci l') * arr (S := S128x1) (V3 m ρ c main_v27) (ix2 ci 0)
            + arr (S := S128x1) (V3 m ρ c main_v28) (ix2 ci 0)) zero) l t)
      = h2 (X m c) (W1 m c) (G1 m c) (B1 m c) (W2 m c) n o l := by
  simp only [h2, conv]
  refine Finset.sum_congr rfl fun t _ => Finset.sum_congr rfl fun ci _ => ?_
  rw [w2_V3 m ρ c o t ci]
  refine congrArg _ (congrArg (fun a => tap a l t) (funext fun l' => ?_))
  show max (arr (S := S64x128x1024) (GenP.W3 m ρ c (Proc.devRef .tc main_v8_0)) (ix3 n ci l')
      * arr (S := S128x1) (GenP.W3 m ρ c (Proc.devRef .tc main_v27)) (ix2 ci (0 : Fin 1))
      + arr (S := S128x1) (GenP.W3 m ρ c (Proc.devRef .tc main_v28)) (ix2 ci (0 : Fin 1))) zero = _
  rw [k3_v8_0, h1_W2, sc1_W3, sh1_W3]
  rfl

theorem h2_W4 (n : Fin 64) (o : Fin 128) (l : Fin 1024) :
    arr (S := S64x128x1024) (GenP.W4 m ρ c (Proc.devRef .tc main_v29_0)) (ix3 n o l)
      = h2 (X m c) (W1 m c) (G1 m c) (B1 m c) (W2 m c) n o l := by
  rw [show GenP.W4 m ρ c (Proc.devRef .tc main_v29_0) = (dat1 (V3 m ρ) c).arrAt 4 cfg1.N from W4_arr m ρ c 4,
    KReg.arr1_4 (V3 m ρ) c n o l]
  exact conv_V3 m ρ c n o l

theorem s2_W4 (n : Fin 64) (o : Fin 128) :
    arr (S := S64x128x1) (GenP.W4 m ρ c (Proc.devRef .tc main_v29_1)) (ix3 n o (0 : Fin 1))
      = ∑ l : Fin 1024, h2 (X m c) (W1 m c) (G1 m c) (B1 m c) (W2 m c) n o l := by
  rw [show GenP.W4 m ρ c (Proc.devRef .tc main_v29_1) = (dat1 (V3 m ρ) c).arrAt 5 cfg1.N from W4_arr m ρ c 5,
    KReg.arr1_5 (V3 m ρ) c n o]
  exact Finset.sum_congr rfl fun l _ => conv_V3 m ρ c n o l

theorem q2_W4 (n : Fin 64) (o : Fin 128) :
    arr (S := S64x128x1) (GenP.W4 m ρ c (Proc.devRef .tc main_v29_2)) (ix3 n o (0 : Fin 1))
      = ∑ l : Fin 1024, h2 (X m c) (W1 m c) (G1 m c) (B1 m c) (W2 m c) n o l * h2 (X m c) (W1 m c) (G1 m c) (B1 m c) (W2 m c) n o l := by
  rw [show GenP.W4 m ρ c (Proc.devRef .tc main_v29_2) = (dat1 (V3 m ρ) c).arrAt 6 cfg1.N from W4_arr m ρ c 6,
    KReg.arr1_6 (V3 m ρ) c n o]
  refine Finset.sum_congr rfl fun l _ => ?_
  rw [conv_V3 m ρ c n o l]

/-! ## The constants between the second and the third pass -/

theorem g2_W4 (o : Fin 128) : arr (S := S128) (GenP.W4 m ρ c (Proc.devRef .tc main_arg5)) (ix1 o) = G2 m c o := by
  rw [k4_arg5, k3_arg5, k2_arg5, k1_arg5]
theorem b2_W4 (o : Fin 128) : arr (S := S128) (GenP.W4 m ρ c (Proc.devRef .tc main_arg6)) (ix1 o) = B2 m c o := by
  rw [k4_arg6, k3_arg6, k2_arg6, k1_arg6]

theorem tot2 (o : Fin 128) :
    (∑ n : Fin 64, arr (S := S64x128x1) (GenP.W4 m ρ c (Proc.devRef .tc main_v29_1)) (ix3 n o (0 : Fin 1)))
      = tot (h2 (X m c) (W1 m c) (G1 m c) (B1 m c) (W2 m c)) o :=
  Finset.sum_congr rfl fun n _ => s2_W4 m ρ c n o
theorem totSq2 (o : Fin 128) :
    (∑ n : Fin 64, arr (S := S64x128x1) (GenP.W4 m ρ c (Proc.devRef .tc main_v29_2)) (ix3 n o (0 : Fin 1)))
      = totSq (h2 (X m c) (W1 m c) (G1 m c) (B1 m c) (W2 m c)) o :=
  Finset.sum_congr rfl fun n _ => q2_W4 m ρ c n o

theorem sc2_W5 (o : Fin 128) :
    arr (S := S128x1) (GenP.W5 m ρ c (Proc.devRef .tc main_v48)) (ix2 o (0 : Fin 1))
      = sc2 (X m c) (W1 m c) (G1 m c) (B1 m c) (W2 m c) (G2 m c) o := by
  rw [KHost.v48_apply]
  exact FinLaw.scale_congr (tot2 m ρ c) (totSq2 m ρ c) (g2_W4 m ρ c) o
theorem sh2_W5 (o : Fin 128) :
    arr (S := S128x1) (GenP.W5 m ρ c (Proc.devRef .tc main_v49)) (ix2 o (0 : Fin 1))
      = sh2 (X m c) (W1 m c) (G1 m c) (B1 m c) (W2 m c) (G2 m c) (B2 m c) o := by
  rw [KHost.v49_apply]
  exact FinLaw.shift_congr (tot2 m ρ c) (totSq2 m ρ c) (g2_W4 m ρ c) (b2_W4 m ρ c) o

/-! ## The third pass and the result -/

theorem wp_V5 (o ci : Fin 128) : arr (S := S128x128) (V5 m ρ c main_v7) (ix2 o ci) = WP m c o ci := by
  show arr (S := S128x128) (GenP.W5 m ρ c (Proc.devRef .tc main_v7)) (ix2 o ci) = _
  rw [k5_v7, k4_v7, k3_v7, k2_v7]
  exact KHost.v7_apply m ρ c o ci

theorem x_V5 (n : Fin 64) (ci : Fin 128) (l : Fin 1024) :
    arr (S := S64x128x1024) (V5 m ρ c main_arg0) (ix3 n ci l) = X m c n ci l := by
  show arr (S := S64x128x1024) (GenP.W5 m ρ c (Proc.devRef .tc main_arg0)) (ix3 n ci l) = _
  rw [k5_arg0, k4_arg0, k3_arg0, k2_arg0, k1_arg0]

/-- The result buffer, entry by entry, is the block's result of the argument arrays. -/
theorem result (n : Fin 64) (o : Fin 128) (l : Fin 1024) :
    arr (S := S64x128x1024) (GenP.W6 m ρ c (Proc.devRef .tc main_v50)) (ix3 n o l)
      = out (X m c) (W1 m c) (G1 m c) (B1 m c) (W2 m c) (G2 m c) (B2 m c) (WP m c) n o l := by
  rw [show GenP.W6 m ρ c (Proc.devRef .tc main_v50) = (dat2 (V5 m ρ) c).arrAt 5 cfg2.N from W6_arr m ρ c 5,
    KReg.arr2_5 (V5 m ρ) c n o l]
  show max ((arr (S := S64x128x1024) (GenP.W5 m ρ c (Proc.devRef .tc main_v29_0)) (ix3 n o l)
      * arr (S := S128x1) (GenP.W5 m ρ c (Proc.devRef .tc main_v48)) (ix2 o (0 : Fin 1))
      + arr (S := S128x1) (GenP.W5 m ρ c (Proc.devRef .tc main_v49)) (ix2 o (0 : Fin 1)))
      + ∑ ci : Fin 128, arr (S := S128x128) (V5 m ρ c main_v7) (ix2 o ci) * arr (S := S64x128x1024) (V5 m ρ c main_arg0) (ix3 n ci l)) zero = _
  rw [k5_v29_0, h2_W4, sc2_W5, sh2_W5]
  have hp : (∑ ci : Fin 128, arr (S := S128x128) (V5 m ρ c main_v7) (ix2 o ci) * arr (S := S64x128x1024) (V5 m ρ c main_arg0) (ix3 n ci l))
      = proj (WP m c) (X m c) n o l :=
    Finset.sum_congr rfl fun ci _ => by rw [wp_V5, x_V5]
  rw [hp]
  rfl

end Cert.KernelIdeal.KV

end
-- ==== Proof.RBodyTaps.lean ====
/-
  The three-tap convolution as the reference writes it, read at an entry.

  The weights are stored tap-major, [3, 128, 128]; tap t's 128 × 128 matrix multiplies the window of the row block
  that starts t columns further on, and the three products are added, one after the other, onto an all-zero start.
  At output channel o and column j of a window of M columns cut from rows of N columns, the result is the grouping
  `taps3` of the specification from column j + b0, b0 the first window's starting column — every column read lies
  inside the row, so the zero extension of the rows never acts.
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.LibPlainDot
import proofs.«152241_g2000003559913605_pallasbulk_133_2_alg».proof.Proof.LibLaneSums
import proofs.«152241_g2000003559913605_pallasbulk_133_2_alg».proof.Proof.LibUnitAxes
import Idealize.ShloMosaic.Lib.ValueIdx
import Idealize.ShloMosaic.Lib.ValueLayout

noncomputable section
namespace Cert.ReferenceIdeal.RBody
open Idealize.ShloMosaic Idealize.ShloMosaic.ValueIdx
open Cert.ReferenceIdeal Cert.ReferenceIdeal.Gen Cert.ResBlock

/-- The product of a 128 × 128 matrix with a 128 × 3200 one, from zero, at an entry. -/
theorem mm3200_apply (lhs : FVec Ideal S128x128 .f32) (rhs : FVec Ideal S128x3200 .f32) (o : Fin 128) (j : Fin 3200) :
    matmul dot_S128x128_S128x3200_S128x3200_1_0_0_1_n_n none lhs rhs (constant S128x3200 .f32 0x00000000#32) (ix2 o j)
      = ∑ ci : Fin 128, lhs (ix2 o ci) * rhs (ix2 ci j) :=
  Cert.LibPlainDot.matmul_zero_apply dot_S128x128_S128x3200_S128x3200_1_0_0_1_n_n rfl rfl rfl rfl (fun _ _ => rfl) (fun _ _ => rfl) none lhs rhs o j

/-- The same with 3202 columns. -/
theorem mm3202_apply (lhs : FVec Ideal S128x128 .f32) (rhs : FVec Ideal S128x3202 .f32) (o : Fin 128) (j : Fin 3202) :
    matmul dot_S128x128_S128x3202_S128x3202_1_0_0_1_n_n none lhs rhs (constant S128x3202 .f32 0x00000000#32) (ix2 o j)
      = ∑ ci : Fin 128, lhs (ix2 o ci) * rhs (ix2 ci j) :=
  Cert.LibPlainDot.matmul_zero_apply dot_S128x128_S128x3202_S128x3202_1_0_0_1_n_n rfl rfl rfl rfl (fun _ _ => rfl) (fun _ _ => rfl) none lhs rhs o j

/-- One tap's weights: the slice of the tap-major weights at tap t, its unit axis dropped, at (o, ci). -/
theorem wtap_apply (ot : ℕ) (t : Fin 3) (ht : t.val = ot) (w3 : FVec Ideal S3x128x128 .f32)
    (h : S3x128x128.Slices ![ot, 0, 0] S1x128x128) (hc : S1x128x128.ShapeCasts S128x128) (o ci : Fin 128) :
    shapeCast S128x128 (extractStridedSlice S1x128x128 ![ot, 0, 0] w3 h) hc (ix2 o ci) = w3 (ix3 t o ci) :=
  (shapeCast_1ab_ab_apply _ hc o ci).trans
    (extractStridedSlice_apply _ w3 h _ (ix3 t o ci) fun a => by
      match a with
      | ⟨0, _⟩ => exact ht.trans (Nat.add_zero _).symm
      | ⟨1, _⟩ => exact (Nat.zero_add _).symm
      | ⟨2, _⟩ => exact (Nat.zero_add _).symm)

/-- Inside the row, the zero-extended entry is the entry. -/
theorem at0_of_lt {N : ℕ} (a : Fin N → EReal) (k : ℕ) (h : k < N) : at0 a k = a ⟨k, h⟩ := dif_pos h

/-- A window of M columns of a row block starting at column off, at (ci, j): the zero-extended row at column q = off + j,
    which lies inside the row. -/
theorem xtap_apply {N M : ℕ} (off : ℕ) (src : FVec Ideal (⟨2, ![128, N]⟩ : Shape) .f32)
    (hs : (⟨2, ![128, N]⟩ : Shape).Slices ![0, off] ⟨2, ![128, M]⟩) (ci : Fin 128) (j : Fin M) (q : ℕ) (hq : q = off + j.val) (hN : q < N) :
    extractStridedSlice ⟨2, ![128, M]⟩ ![0, off] src hs (ix2 ci j) = at0 (fun k => src (ix2 ci k)) q :=
  (slice2_axis1_apply off src hs ci j ⟨q, hN⟩ hq).trans (at0_of_lt (fun k => src (ix2 ci k)) q hN).symm

/-- One tap's term of the convolution at (o, j): Σ_ci w[t, o, ci] · row_ci[q], q = off + j. -/
theorem tapTerm_apply {N M : ℕ} (D : DotDims S128x128 (⟨2, ![128, M]⟩ : Shape) (⟨2, ![128, M]⟩ : Shape))
    (hD : ∀ (lhs : FVec Ideal S128x128 .f32) (rhs : FVec Ideal (⟨2, ![128, M]⟩ : Shape) .f32) (o : Fin 128) (j : Fin M),
      matmul D none lhs rhs (constant (⟨2, ![128, M]⟩ : Shape) .f32 0x00000000#32) (ix2 o j) = ∑ ci : Fin 128, lhs (ix2 o ci) * rhs (ix2 ci j))
    (ot : ℕ) (t : Fin 3) (ht : t.val = ot) (off : ℕ)
    (w3 : FVec Ideal S3x128x128 .f32) (src : FVec Ideal (⟨2, ![128, N]⟩ : Shape) .f32)
    (h : S3x128x128.Slices ![ot, 0, 0] S1x128x128) (hc : S1x128x128.ShapeCasts S128x128)
    (hs : (⟨2, ![128, N]⟩ : Shape).Slices ![0, off] ⟨2, ![128, M]⟩) (o : Fin 128) (j : Fin M) (q : ℕ) (hq : q = off + j.val) (hN : q < N) :
    matmul D none (shapeCast S128x128 (extractStridedSlice S1x128x128 ![ot, 0, 0] w3 h) hc)
        (extractStridedSlice ⟨2, ![128, M]⟩ ![0, off] src hs) (constant (⟨2, ![128, M]⟩ : Shape) .f32 0x00000000#32) (ix2 o j)
      = ∑ ci : Fin 128, w3 (ix3 t o ci) * at0 (fun k => src (ix2 ci k)) q :=
  (hD _ _ o j).trans (Finset.sum_congr rfl fun ci _ =>
    congrArg₂ (· * ·) (wtap_apply ot t ht w3 h hc o ci) (xtap_apply off src hs ci j q hq hN))

/-- The three taps added from an all-zero start, at (o, j): the grouping `taps3` from column j + b0, for windows that
    start at columns b0, b0 + 1, b0 + 2 and end inside the rows. -/
theorem conv3_apply {N M : ℕ} (D : DotDims S128x128 (⟨2, ![128, M]⟩ : Shape) (⟨2, ![128, M]⟩ : Shape))
    (hD : ∀ (lhs : FVec Ideal S128x128 .f32) (rhs : FVec Ideal (⟨2, ![128, M]⟩ : Shape) .f32) (o : Fin 128) (j : Fin M),
      matmul D none lhs rhs (constant (⟨2, ![128, M]⟩ : Shape) .f32 0x00000000#32) (ix2 o j) = ∑ ci : Fin 128, lhs (ix2 o ci) * rhs (ix2 ci j))
    (b0 b1 b2 : ℕ) (hb1 : b1 = b0 + 1) (hb2 : b2 = b0 + 2) (hN : b2 + M ≤ N)
    (acc : FVec Ideal (⟨2, ![128, M]⟩ : Shape) .f32) (w3 : FVec Ideal S3x128x128 .f32) (src : FVec Ideal (⟨2, ![128, N]⟩ : Shape) .f32)
    (h0 : S3x128x128.Slices ![0, 0, 0] S1x128x128) (h1 : S3x128x128.Slices ![1, 0, 0] S1x128x128)
    (h2 : S3x128x128.Slices ![2, 0, 0] S1x128x128) (hc : S1x128x128.ShapeCasts S128x128)
    (s0 : (⟨2, ![128, N]⟩ : Shape).Slices ![0, b0] ⟨2, ![128, M]⟩) (s1 : (⟨2, ![128, N]⟩ : Shape).Slices ![0, b1] ⟨2, ![128, M]⟩)
    (s2 : (⟨2, ![128, N]⟩ : Shape).Slices ![0, b2] ⟨2, ![128, M]⟩)
    (hacc : ∀ i, acc i = zero) (o : Fin 128) (j : Fin M) :
    addf (addf (addf acc
        (matmul D none (shapeCast S128x128 (extractStridedSlice S1x128x128 ![0, 0, 0] w3 h0) hc)
          (extractStridedSlice ⟨2, ![128, M]⟩ ![0, b0] src s0) (constant (⟨2, ![128, M]⟩ : Shape) .f32 0x00000000#32)))
        (matmul D none (shapeCast S128x128 (extractStridedSlice S1x128x128 ![1, 0, 0] w3 h1) hc)
          (extractStridedSlice ⟨2, ![128, M]⟩ ![0, b1] src s1) (constant (⟨2, ![128, M]⟩ : Shape) .f32 0x00000000#32)))
        (matmul D none (shapeCast S128x128 (extractStridedSlice S1x128x128 ![2, 0, 0] w3 h2) hc)
          (extractStridedSlice ⟨2, ![128, M]⟩ ![0, b2] src s2) (constant (⟨2, ![128, M]⟩ : Shape) .f32 0x00000000#32)) (ix2 o j)
      = taps3 (fun t o ci => w3 (ix3 t o ci)) (fun ci k => src (ix2 ci k)) o (j.val + b0) := by
  have hj := j.isLt
  exact congrArg₂ (· + ·) (congrArg₂ (· + ·) (congrArg₂ (· + ·) (hacc _)
      (tapTerm_apply D hD 0 0 rfl b0 w3 src h0 hc s0 o j (j.val + b0) (by omega) (by omega)))
      (tapTerm_apply D hD 1 1 rfl b1 w3 src h1 hc s1 o j (j.val + b0 + 1) (by omega) (by omega)))
      (tapTerm_apply D hD 2 2 rfl b2 w3 src h2 hc s2 o j (j.val + b0 + 2) (by omega) (by omega))

/-- The all-zero offsets, however many axes. -/
theorem hz3 : (![0, 0, 0] : Fin 3 → Nat) = fun _ => 0 := funext fun a => by fin_cases a <;> rfl
theorem hz2 : (![0, 0] : Fin 2 → Nat) = fun _ => 0 := funext fun a => by fin_cases a <;> rfl

end Cert.ReferenceIdeal.RBody
end
-- ==== Proof.RBodyA.lean ====
/-
  The first statistics body of the reference, read at coordinates.

  On one chunk — a [1, 128, 3204] block of halo-padded rows, the tap-major weights [3, 128, 128] and a [1, 1, 3200] mask
  of zeros and ones — it forms the first convolution h[o, j] at the 3200 columns j (three taps, from column j + 1 of the
  rows), multiplies by the mask and sums along the columns: per output channel o the block holds Σ_j h[o, j] · mask[j]
  and Σ_j h[o, j] · (h[o, j] · mask[j]).
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.LibPlainDot
import proofs.«152241_g2000003559913605_pallasbulk_133_2_alg».proof.Proof.LibLaneSums
import proofs.«152241_g2000003559913605_pallasbulk_133_2_alg».proof.Proof.LibUnitAxes
import Idealize.ShloMosaic.Lib.ValueIdx
import Idealize.ShloMosaic.Lib.ValueLayout
import proofs.«152241_g2000003559913605_pallasbulk_133_2_alg».proof.Proof.RBodyTaps
noncomputable section
namespace Cert.ReferenceIdeal.RBody
open Idealize.ShloMosaic Idealize.ShloMosaic.ValueIdx
open Cert.ReferenceIdeal Cert.ReferenceIdeal.Gen Cert.ResBlock

/-- The first convolution over the chunk's rows, at output channel o and column j of 3200: the three taps from column j + 1. -/
theorem pay1A_apply (v0 : Vec Ideal S1x128x3204 .f32) (v2 : Vec Ideal S3x128x128 .f32) (o : Fin 128) (j : Fin 3200) :
    k0_pay1 v0 v2 (ix2 o j) = taps3 (fun t o ci => v2 (ix3 t o ci)) (fun ci k => v0 (ix3 0 ci k)) o (j.val + 1) := by
  unfold k0_pay1
  refine (conv3_apply dot_S128x128_S128x3200_S128x3200_1_0_0_1_n_n mm3200_apply 1 2 3 rfl rfl (by omega) _ _ _ _ _ _ _ _ _ _ (fun _ => rfl) o j).trans ?_
  exact congrArg₂ (fun w a => taps3 w a o (j.val + 1))
    (funext fun t => funext fun o => funext fun ci => congrFun (shapeCast_self v2 _) (ix3 t o ci))
    (funext fun ci => funext fun k => shapeCast_1ab_ab_apply v0 _ ci k)

/-- Times the mask's column j. -/
theorem pay2A_apply (v0 : Vec Ideal S1x128x3204 .f32) (v2 : Vec Ideal S3x128x128 .f32) (v20 : Vec Ideal S1x1x3200 .f32)
    (o : Fin 128) (j : Fin 3200) :
    k0_pay2 v0 v2 v20 (ix2 o j)
      = taps3 (fun t o ci => v2 (ix3 t o ci)) (fun ci k => v0 (ix3 0 ci k)) o (j.val + 1) * v20 (ix3 0 0 j) := by
  unfold k0_pay2
  exact congrArg₂ (· * ·) (pay1A_apply v0 v2 o j)
    ((broadcastTo_1b_ab_apply _ _ o j).trans (shapeCast_1ab_ab_apply v20 _ 0 j))

/-- The masked sum along the columns, kept as a [1, 128, 1] block. -/
theorem pay3A_apply (v0 : Vec Ideal S1x128x3204 .f32) (v2 : Vec Ideal S3x128x128 .f32) (v20 : Vec Ideal S1x1x3200 .f32) (o : Fin 128) :
    k0_pay3 v0 v2 v20 (ix3 0 o 0) = ∑ j : Fin 3200, k0_pay2 v0 v2 v20 (ix2 o j) := by
  unfold k0_pay3
  exact (shapeCast_ab_1ab_apply _ _ 0 o 0).trans ((Cert.LibLaneSums.shapeCast_a_a1_apply _ _ o 0).trans
    (Cert.LibLaneSums.sum_last_apply _ _ _ _ _ o))

/-- The masked sum of squares along the columns. -/
theorem pay4A_apply (v0 : Vec Ideal S1x128x3204 .f32) (v2 : Vec Ideal S3x128x128 .f32) (v20 : Vec Ideal S1x1x3200 .f32) (o : Fin 128) :
    k0_pay4 v0 v2 v20 (ix3 0 o 0) = ∑ j : Fin 3200, k0_pay1 v0 v2 (ix2 o j) * k0_pay2 v0 v2 v20 (ix2 o j) := by
  unfold k0_pay4
  exact (shapeCast_ab_1ab_apply _ _ 0 o 0).trans ((Cert.LibLaneSums.shapeCast_a_a1_apply _ _ o 0).trans
    (Cert.LibLaneSums.sum_last_apply _ _ _ _ _ o))

/-- The first statistics block: per output channel, the masked sum over the chunk's 3200 columns of the first convolution. -/
theorem outA_3_apply (x0 : Vec Ideal S1x128x3204 .f32) (x1 : Vec Ideal S3x128x128 .f32) (x2 : Vec Ideal S1x1x3200 .f32) (o : Fin 128) :
    Gen.out0_3 x0 x1 x2 (ix3 0 o 0)
      = ∑ j : Fin 3200, taps3 (fun t o ci => x1 (ix3 t o ci)) (fun ci k => x0 (ix3 0 ci k)) o (j.val + 1) * x2 (ix3 0 0 j) := by
  unfold Gen.out0_3
  rw [View.canon_unit_zero hz3]
  simp only [View.ld_unit_zero (S := S1x128x3204) hz3, View.ld_unit_zero (S := S3x128x128) hz3, View.ld_unit_zero (S := S1x1x3200) hz3]
  exact (pay3A_apply x0 x1 x2 o).trans (Finset.sum_congr rfl fun j _ => pay2A_apply x0 x1 x2 o j)

/-- The second statistics block: the masked sum of its squares. -/
theorem outA_4_apply (x0 : Vec Ideal S1x128x3204 .f32) (x1 : Vec Ideal S3x128x128 .f32) (x2 : Vec Ideal S1x1x3200 .f32) (o : Fin 128) :
    Gen.out0_4 x0 x1 x2 (ix3 0 o 0)
      = ∑ j : Fin 3200, taps3 (fun t o ci => x1 (ix3 t o ci)) (fun ci k => x0 (ix3 0 ci k)) o (j.val + 1)
          * (taps3 (fun t o ci => x1 (ix3 t o ci)) (fun ci k => x0 (ix3 0 ci k)) o (j.val + 1) * x2 (ix3 0 0 j)) := by
  unfold Gen.out0_4
  rw [View.canon_unit_zero hz3]
  simp only [View.ld_unit_zero (S := S1x128x3204) hz3, View.ld_unit_zero (S := S3x128x128) hz3, View.ld_unit_zero (S := S1x1x3200) hz3]
  exact (pay4A_apply x0 x1 x2 o).trans (Finset.sum_congr rfl fun j _ =>
    congrArg₂ (· * ·) (pay1A_apply x0 x1 o j) (pay2A_apply x0 x1 x2 o j))

end Cert.ReferenceIdeal.RBody
end
-- ==== Proof.RRegA.lean ====
/-
  The reference's first region, from blocks to whole arrays.

  The region runs over 22 chunks. At chunk t it reads row t of the array of halo-padded input rows
  [22, 128, 3204], the whole tap-major weight array [3, 128, 128] and row t of the output-layout mask [22, 1, 3200],
  and writes row t of two arrays [22, 128, 1]: per output channel the masked sum of the first convolution over the
  chunk's columns, and the masked sum of its squares.

  Stated for arbitrary contents of the arrays when the region is entered: each input block is the named row of its
  array (the index maps are decided once over the 22 points), what the body leaves at chunk t is therefore row t of one
  function of the whole arrays, the 22 rows cover each output array, and so each output array IS that function.
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.RBodyA
import Idealize.ShloMosaic.Lib.Pipeline.Value
import Idealize.ShloMosaic.Lib.ValueIdx

noncomputable section

namespace Cert.ReferenceIdeal.RReg

open Idealize.ShloMosaic Idealize.ShloMosaic.TcCoe Idealize.SL.Sem Idealize.ShloMosaic.ValueIdx
open Idealize.ShloMosaic.Pipeline (Dat)
open Cert.ReferenceIdeal Cert.ReferenceIdeal.Gen Cert.ResBlock

variable (V : (c : Dev nD) → (b : Ref sig .tc) → Buf (Elt Ideal) ((c : Thread nD τ).loc b))

/-- The grid of every region has 22 points, one per chunk. -/
theorem lt22 (t : Fin cfg0.N) : t.val < 22 := by
  have h := t.isLt
  have e : cfg0.N = 22 := N_0
  omega

/-- The index maps of the first region, decided over the 22 points: the row block, the mask and both outputs move
    with the chunk along the leading axis; the weights stay. -/
theorem idxA : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The row block of chunk `t` is row `t` of the array of row blocks. -/
theorem iblkA_0 (c : Dev nD) (t : Fin cfg0.N) (ci : Fin 128) (k : Fin 3204) :
    arr (S := S1x128x3204) (iblk0 V c 0 t) (ix3 0 ci k)
      = arr (S := S22x128x3204) (V c main_v4) (ix3 ⟨t.val, lt22 t⟩ ci k) := by
  obtain ⟨e0, e1, e2, -⟩ := idxA t
  show V c main_v4 _ = V c main_v4 _
  congr 1
  funext a
  apply Fin.ext
  match a with
  | ⟨0, _⟩ => show win0_0.index t (0 : Fin 3) * 1 + 1 * 0 = t.val; omega
  | ⟨1, _⟩ => show win0_0.index t (1 : Fin 3) * 128 + 1 * ci.val = ci.val; omega
  | ⟨2, _⟩ => show win0_0.index t (2 : Fin 3) * 3204 + 1 * k.val = k.val; omega

/-- The weights' block is the whole weight array at every point. -/
theorem iblkA_1 (c : Dev nD) (t : Fin cfg0.N) (tp : Fin 3) (o ci : Fin 128) :
    arr (S := S3x128x128) (iblk0 V c 1 t) (ix3 tp o ci) = arr (S := S3x128x128) (V c main_v35) (ix3 tp o ci) := by
  obtain ⟨-, -, -, e0, e1, e2, -⟩ := idxA t
  show V c main_v35 _ = V c main_v35 _
  congr 1
  funext a
  apply Fin.ext
  match a with
  | ⟨0, _⟩ => show win0_1.index t (0 : Fin 3) * 3 + 1 * tp.val = tp.val; omega
  | ⟨1, _⟩ => show win0_1.index t (1 : Fin 3) * 128 + 1 * o.val = o.val; omega
  | ⟨2, _⟩ => show win0_1.index t (2 : Fin 3) * 128 + 1 * ci.val = ci.val; omega

/-- The mask's block at chunk `t` is row `t` of the mask array. -/
theorem iblkA_2 (c : Dev nD) (t : Fin cfg0.N) (j : Fin 3200) :
    arr (S := S1x1x3200) (iblk0 V c 2 t) (ix3 0 0 j)
      = arr (S := S22x1x3200) (V c main_v34) (ix3 ⟨t.val, lt22 t⟩ 0 j) := by
  obtain ⟨-, -, -, -, -, -, e0, e1, e2, -⟩ := idxA t
  show V c main_v34 _ = V c main_v34 _
  congr 1
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 3200 + 1 * j.val = j.val; omega

/-- The masked sum of the first convolution over chunk `ch`, output channel `o`, and the masked sum of its squares:
    what the two output arrays of the first region hold at (ch, o, 0). -/
def sumA3 (c : Dev nD) (ch : Fin 22) (o : Fin 128) : EReal :=
  ∑ j : Fin 3200, taps3 (fun t o ci => arr (S := S3x128x128) (V c main_v35) (ix3 t o ci)) (fun ci k => arr (S := S22x128x3204) (V c main_v4) (ix3 ch ci k)) o (j.val + 1) * arr (S := S22x1x3200) (V c main_v34) (ix3 ch 0 j)
def sumA4 (c : Dev nD) (ch : Fin 22) (o : Fin 128) : EReal :=
  ∑ j : Fin 3200, taps3 (fun t o ci => arr (S := S3x128x128) (V c main_v35) (ix3 t o ci)) (fun ci k => arr (S := S22x128x3204) (V c main_v4) (ix3 ch ci k)) o (j.val + 1) * (taps3 (fun t o ci => arr (S := S3x128x128) (V c main_v35) (ix3 t o ci)) (fun ci k => arr (S := S22x128x3204) (V c main_v4) (ix3 ch ci k)) o (j.val + 1) * arr (S := S22x1x3200) (V c main_v34) (ix3 ch 0 j))

/-- The two output arrays as functions of the index. -/
def GA3 (c : Dev nD) : S22x128x1.Idx → EReal := fun i => sumA3 V c ⟨(i 0).val, (i 0).isLt⟩ ⟨(i 1).val, (i 1).isLt⟩
def GA4 (c : Dev nD) : S22x128x1.Idx → EReal := fun i => sumA4 V c ⟨(i 0).val, (i 0).isLt⟩ ⟨(i 1).val, (i 1).isLt⟩

/-- What the body leaves in the first output's buffer at chunk `t`, channel `o`. -/
theorem bodyA_3 (c : Dev nD) (t : Fin cfg0.N) (o : Fin 128) :
    arr (S := S1x128x1) (out0_3 (iblk0 V c 0 t) (iblk0 V c 1 t) (iblk0 V c 2 t)) (ix3 0 o 0) = sumA3 V c ⟨t.val, lt22 t⟩ o := by
  refine (RBody.outA_3_apply (iblk0 V c 0 t) (iblk0 V c 1 t) (iblk0 V c 2 t) o).trans ?_
  unfold sumA3
  have hW : (fun (t' : Fin 3) (o ci : Fin 128) => arr (S := S3x128x128) (iblk0 V c 1 t) (ix3 t' o ci))
      = fun t' o ci => arr (S := S3x128x128) (V c main_v35) (ix3 t' o ci) :=
    funext fun t' => funext fun o => funext fun ci => iblkA_1 V c t t' o ci
  have hX : (fun (ci : Fin 128) (k : Fin 3204) => arr (S := S1x128x3204) (iblk0 V c 0 t) (ix3 0 ci k))
      = fun ci k => arr (S := S22x128x3204) (V c main_v4) (ix3 ⟨t.val, lt22 t⟩ ci k) :=
    funext fun ci => funext fun k => iblkA_0 V c t ci k
  refine Finset.sum_congr rfl fun j _ => ?_
  show taps3 (fun t' o ci => arr (S := S3x128x128) (iblk0 V c 1 t) (ix3 t' o ci)) (fun ci k => arr (S := S1x128x3204) (iblk0 V c 0 t) (ix3 0 ci k)) o (j.val + 1) * arr (S := S1x1x3200) (iblk0 V c 2 t) (ix3 0 0 j) = _
  rw [hW, hX, iblkA_2]

/-- What the body leaves in the second output's buffer at chunk `t`, channel `o`. -/
theorem bodyA_4 (c : Dev nD) (t : Fin cfg0.N) (o : Fin 128) :
    arr (S := S1x128x1) (out0_4 (iblk0 V c 0 t) (iblk0 V c 1 t) (iblk0 V c 2 t)) (ix3 0 o 0) = sumA4 V c ⟨t.val, lt22 t⟩ o := by
  refine (RBody.outA_4_apply (iblk0 V c 0 t) (iblk0 V c 1 t) (iblk0 V c 2 t) o).trans ?_
  unfold sumA4
  have hW : (fun (t' : Fin 3) (o ci : Fin 128) => arr (S := S3x128x128) (iblk0 V c 1 t) (ix3 t' o ci))
      = fun t' o ci => arr (S := S3x128x128) (V c main_v35) (ix3 t' o ci) :=
    funext fun t' => funext fun o => funext fun ci => iblkA_1 V c t t' o ci
  have hX : (fun (ci : Fin 128) (k : Fin 3204) => arr (S := S1x128x3204) (iblk0 V c 0 t) (ix3 0 ci k))
      = fun ci k => arr (S := S22x128x3204) (V c main_v4) (ix3 ⟨t.val, lt22 t⟩ ci k) :=
    funext fun ci => funext fun k => iblkA_0 V c t ci k
  refine Finset.sum_congr rfl fun j _ => ?_
  show taps3 (fun t' o ci => arr (S := S3x128x128) (iblk0 V c 1 t) (ix3 t' o ci)) (fun ci k => arr (S := S1x128x3204) (iblk0 V c 0 t) (ix3 0 ci k)) o (j.val + 1) * (taps3 (fun t' o ci => arr (S := S3x128x128) (iblk0 V c 1 t) (ix3 t' o ci)) (fun ci k => arr (S := S1x128x3204) (iblk0 V c 0 t) (ix3 0 ci k)) o (j.val + 1) * arr (S := S1x1x3200) (iblk0 V c 2 t) (ix3 0 0 j)) = _
  rw [hW, hX, iblkA_2]

/-- Where an element of chunk `t`'s output block sits in the output array: row `t`, same channel. -/
theorem cutA_3 (c : Dev nD) (t : Fin cfg0.N) (j : S1x128x1.Idx) :
    arr (S := S1x128x1) (out0_3 (iblk0 V c 0 t) (iblk0 V c 1 t) (iblk0 V c 2 t)) j
      = GA3 V c (((cfg0.win 3).blk t).view.emb j) := by
  obtain ⟨z, o, u, rfl⟩ : ∃ (z : Fin 1) (o : Fin 128) (u : Fin 1), j = ix3 z o u := ⟨j 0, j 1, j 2, eq_ix3 j⟩
  obtain rfl : z = 0 := Subsingleton.elim _ _
  obtain rfl : u = 0 := Subsingleton.elim _ _
  refine (bodyA_3 V c t o).trans ?_
  obtain ⟨-, -, -, -, -, -, -, -, -, e0, e1, e2, -⟩ := idxA t
  unfold GA3
  congr 1
  · apply Fin.ext
    show t.val = win0_3.index t (0 : Fin 3) * 1 + 1 * 0
    omega
  · apply Fin.ext
    show o.val = win0_3.index t (1 : Fin 3) * 128 + 1 * o.val
    omega

/-- What chunk `t` writes back to the first output array is block `t` of `GA3`. -/
theorem flushedA_3 (c : Dev nD) (t : Fin cfg0.N) :
    (dat0 V c).flushed 3 t = ((cfg0.win 3).blk t).view.read (Elt Ideal) (GA3 V c) := by
  show (cfg0.win 3).cut (grid0.coords t) ((dat0 V c).after 3 t) = _
  rw [after0_3]
  funext j
  exact cutA_3 V c t j

/-- An index of the output array is in chunk `t`'s block iff each coordinate is in the block's range on its axis. -/
theorem mem_blkA_3 (t : Fin cfg0.N) (i : S22x128x1.Idx) :
    i ∈ ((cfg0.win 3).blk t).view.set ↔ ∀ a : Fin 3, win0_3.index t a * S1x128x1.size a ≤ (i a).val
      ∧ (i a).val < win0_3.index t a * S1x128x1.size a + S1x128x1.size a := by
  show i ∈ ((View.whole main_v38_0).slice (win0_3.rect t)).set ↔ _
  rw [View.set_slice_whole, Rect.mem_set_unit]
  exact Iff.rfl

/-- Every index of the first output array lies in the block of the chunk its leading coordinate names. -/
theorem coverA_3 (i : S22x128x1.Idx) :
    ∃ t : Fin cfg0.N, (cfg0.win 3).flush t = true ∧ i ∈ ((cfg0.win 3).blk t).view.set := by
  have h0 : (i 0).val < 22 := (i 0).isLt
  have h1 : (i 1).val < 128 := (i 1).isLt
  have h2 : (i 2).val < 1 := (i 2).isLt
  obtain ⟨t, ht⟩ : ∃ t : Fin cfg0.N, t.val = (i 0).val :=
    ⟨⟨(i 0).val, by rw [show cfg0.N = 22 from N_0]; exact h0⟩, rfl⟩
  refine ⟨t, flush0_3 t, ?_⟩
  rw [mem_blkA_3]
  obtain ⟨-, -, -, -, -, -, -, -, -, e0, e1, e2, -⟩ := idxA t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1 ≤ (i 2).val ∧ (i 2).val < win0_3.index t (2 : Fin 3) * 1 + 1; omega

/-- The first output array after the region. -/
theorem finalA_3 (c : Dev nD) : (dat0 V c).arrAt 3 cfg0.N = GA3 V c :=
  (dat0 V c).arrAt_eq_of_cover 3 (GA3 V c) (fun t _ => flushedA_3 V c t) coverA_3

/-- THE FIRST OUTPUT of the first region at (chunk, channel, 0): the masked sum of the first convolution over the
    chunk's columns. -/
theorem arrA_3 (V : (c : Dev nD) → (b : Ref sig .tc) → Buf (Elt Ideal) ((c : Thread nD τ).loc b)) (c : Dev nD) (ch : Fin 22) (o : Fin 128) :
    arr (S := S22x128x1) ((Gen.dat0 V c).arrAt 3 cfg0.N) (ix3 ch o 0)
      = ∑ j : Fin 3200, taps3 (fun t o ci => arr (S := S3x128x128) (V c main_v35) (ix3 t o ci)) (fun ci k => arr (S := S22x128x3204) (V c main_v4) (ix3 ch ci k)) o (j.val + 1) * arr (S := S22x1x3200) (V c main_v34) (ix3 ch 0 j) := by
  rw [finalA_3]
  rfl

/-- Where an element of chunk `t`'s second output block sits in its array: row `t`, same channel. -/
theorem cutA_4 (c : Dev nD) (t : Fin cfg0.N) (j : S1x128x1.Idx) :
    arr (S := S1x128x1) (out0_4 (iblk0 V c 0 t) (iblk0 V c 1 t) (iblk0 V c 2 t)) j
      = GA4 V c (((cfg0.win 4).blk t).view.emb j) := by
  obtain ⟨z, o, u, rfl⟩ : ∃ (z : Fin 1) (o : Fin 128) (u : Fin 1), j = ix3 z o u := ⟨j 0, j 1, j 2, eq_ix3 j⟩
  obtain rfl : z = 0 := Subsingleton.elim _ _
  obtain rfl : u = 0 := Subsingleton.elim _ _
  refine (bodyA_4 V c t o).trans ?_
  obtain ⟨-, -, -, -, -, -, -, -, -, -, -, -, e0, e1, e2⟩ := idxA t
  unfold GA4
  congr 1
  · apply Fin.ext
    show t.val = win0_4.index t (0 : Fin 3) * 1 + 1 * 0
    omega
  · apply Fin.ext
    show o.val = win0_4.index t (1 : Fin 3) * 128 + 1 * o.val
    omega

/-- What chunk `t` writes back to the second output array is block `t` of `GA4`. -/
theorem flushedA_4 (c : Dev nD) (t : Fin cfg0.N) :
    (dat0 V c).flushed 4 t = ((cfg0.win 4).blk t).view.read (Elt Ideal) (GA4 V c) := by
  show (cfg0.win 4).cut (grid0.coords t) ((dat0 V c).after 4 t) = _
  rw [after0_4]
  funext j
  exact cutA_4 V c t j

theorem mem_blkA_4 (t : Fin cfg0.N) (i : S22x128x1.Idx) :
    i ∈ ((cfg0.win 4).blk t).view.set ↔ ∀ a : Fin 3, win0_4.index t a * S1x128x1.size a ≤ (i a).val
      ∧ (i a).val < win0_4.index t a * S1x128x1.size a + S1x128x1.size a := by
  show i ∈ ((View.whole main_v38_1).slice (win0_4.rect t)).set ↔ _
  rw [View.set_slice_whole, Rect.mem_set_unit]
  exact Iff.rfl

/-- Every index of the second output array lies in the block of the chunk its leading coordinate names. -/
theorem coverA_4 (i : S22x128x1.Idx) :
    ∃ t : Fin cfg0.N, (cfg0.win 4).flush t = true ∧ i ∈ ((cfg0.win 4).blk t).view.set := by
  have h0 : (i 0).val < 22 := (i 0).isLt
  have h1 : (i 1).val < 128 := (i 1).isLt
  have h2 : (i 2).val < 1 := (i 2).isLt
  obtain ⟨t, ht⟩ : ∃ t : Fin cfg0.N, t.val = (i 0).val :=
    ⟨⟨(i 0).val, by rw [show cfg0.N = 22 from N_0]; exact h0⟩, rfl⟩
  refine ⟨t, flush0_4 t, ?_⟩
  rw [mem_blkA_4]
  obtain ⟨-, -, -, -, -, -, -, -, -, -, -, -, e0, e1, e2⟩ := idxA t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 1 ≤ (i 2).val ∧ (i 2).val < win0_4.index t (2 : Fin 3) * 1 + 1; omega

/-- The second output array after the region. -/
theorem finalA_4 (c : Dev nD) : (dat0 V c).arrAt 4 cfg0.N = GA4 V c :=
  (dat0 V c).arrAt_eq_of_cover 4 (GA4 V c) (fun t _ => flushedA_4 V c t) coverA_4

/-- THE SECOND OUTPUT of the first region at (chunk, channel, 0): the masked sum of the squares of the first
    convolution over the chunk's columns. -/
theorem arrA_4 (V : (c : Dev nD) → (b : Ref sig .tc) → Buf (Elt Ideal) ((c : Thread nD τ).loc b)) (c : Dev nD) (ch : Fin 22) (o : Fin 128) :
    arr (S := S22x128x1) ((Gen.dat0 V c).arrAt 4 cfg0.N) (ix3 ch o 0)
      = ∑ j : Fin 3200, taps3 (fun t o ci => arr (S := S3x128x128) (V c main_v35) (ix3 t o ci)) (fun ci k => arr (S := S22x128x3204) (V c main_v4) (ix3 ch ci k)) o (j.val + 1) * (taps3 (fun t o ci => arr (S := S3x128x128) (V c main_v35) (ix3 t o ci)) (fun ci k => arr (S := S22x128x3204) (V c main_v4) (ix3 ch ci k)) o (j.val + 1) * arr (S := S22x1x3200) (V c main_v34) (ix3 ch 0 j)) := by
  rw [finalA_4]
  rfl

end Cert.ReferenceIdeal.RReg

end
-- ==== Proof.RBodyB.lean ====
/-
  The second statistics body of the reference, read at coordinates.

  On one chunk it first forms the masked activation between the two convolutions on 3202 columns — the first
  convolution from column j of the rows, times the first scale, plus the first shift, clamped at zero, times the
  first mask —, then the second convolution of it at the 3200 columns j (three taps, from column j), multiplies by the
  second mask and sums along the columns: per output channel o the blocks hold Σ_j h2[o, j] · mask[j] and
  Σ_j h2[o, j] · (h2[o, j] · mask[j]).
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.LibPlainDot
import proofs.«152241_g2000003559913605_pallasbulk_133_2_alg».proof.Proof.LibLaneSums
import proofs.«152241_g2000003559913605_pallasbulk_133_2_alg».proof.Proof.LibUnitAxes
import Idealize.ShloMosaic.Lib.ValueIdx
import Idealize.ShloMosaic.Lib.ValueLayout
import proofs.«152241_g2000003559913605_pallasbulk_133_2_alg».proof.Proof.RBodyTaps
noncomputable section
namespace Cert.ReferenceIdeal.RBody
open Idealize.ShloMosaic Idealize.ShloMosaic.ValueIdx
open Cert.ReferenceIdeal Cert.ReferenceIdeal.Gen Cert.ResBlock

/-- The masked activation between the convolutions, at channel ci and column j of 3202: the first convolution from
    column j, scaled, shifted, clamped at zero, times the mask. -/
theorem pay5B_apply (v0 : Vec Ideal S1x128x3204 .f32) (v2 : Vec Ideal S3x128x128 .f32) (v20 v24 : Vec Ideal S128x1 .f32)
    (v30 : Vec Ideal S1x1x3202 .f32) (ci : Fin 128) (j : Fin 3202) :
    k1_pay5 v0 v2 v20 v24 v30 (ix2 ci j)
      = refAct (fun t o ci => v2 (ix3 t o ci)) (fun ci k => v0 (ix3 0 ci k)) (fun ci => v20 (ix2 ci 0)) (fun ci => v24 (ix2 ci 0))
          (fun j => v30 (ix3 0 0 j)) ci j := by
  unfold k1_pay5 refAct
  refine congrArg₂ (· * ·) (congrArg₂ max (congrArg₂ (· + ·) (congrArg₂ (· * ·) ?_ ?_) ?_) rfl) ?_
  · refine (conv3_apply dot_S128x128_S128x3202_S128x3202_1_0_0_1_n_n mm3202_apply 0 1 2 rfl rfl (by omega) _ _ _ _ _ _ _ _ _ _ (fun _ => rfl) ci j).trans ?_
    exact congrArg₂ (fun w a => taps3 w a ci j.val)
      (funext fun t => funext fun o => funext fun ci => congrFun (shapeCast_self v2 _) (ix3 t o ci))
      (funext fun ci => funext fun k => shapeCast_1ab_ab_apply v0 _ ci k)
  · exact (Cert.LibUnitAxes.broadcastTo_a1_ab_apply _ _ ci j).trans (congrFun (shapeCast_self v20 _) (ix2 ci 0))
  · exact (Cert.LibUnitAxes.broadcastTo_a1_ab_apply _ _ ci j).trans (congrFun (shapeCast_self v24 _) (ix2 ci 0))
  · exact (broadcastTo_1b_ab_apply _ _ ci j).trans (shapeCast_1ab_ab_apply v30 _ 0 j)

/-- The second convolution over rows of 3202 columns, from an all-zero start, at (o, j): the three taps from column j. -/
theorem pay1B_apply (v33 : FVec Ideal S128x3202 .f32) (v35 : FVec Ideal S3x128x128 .f32) (v36 : FVec Ideal S128x3200 .f32)
    (h36 : ∀ i, v36 i = zero) (o : Fin 128) (j : Fin 3200) :
    k1_pay1 v33 v35 v36 (ix2 o j) = taps3 (fun t o ci => v35 (ix3 t o ci)) (fun ci k => v33 (ix2 ci k)) o j.val := by
  unfold k1_pay1
  exact conv3_apply dot_S128x128_S128x3200_S128x3200_1_0_0_1_n_n mm3200_apply 0 1 2 rfl rfl (by omega) v36 v35 v33 _ _ _ _ _ _ _ h36 o j

/-- Times the mask's column j. -/
theorem pay2B_apply (v33 : FVec Ideal S128x3202 .f32) (v35 : FVec Ideal S3x128x128 .f32) (v36 : FVec Ideal S128x3200 .f32)
    (v52 : Vec Ideal S1x1x3200 .f32) (o : Fin 128) (j : Fin 3200) :
    k1_pay2 v33 v35 v36 v52 (ix2 o j) = k1_pay1 v33 v35 v36 (ix2 o j) * v52 (ix3 0 0 j) := by
  unfold k1_pay2
  exact congrArg₂ (· * ·) rfl ((broadcastTo_1b_ab_apply _ _ o j).trans (shapeCast_1ab_ab_apply v52 _ 0 j))

/-- The masked sum along the columns, kept as a [1, 128, 1] block. -/
theorem pay3B_apply (v33 : FVec Ideal S128x3202 .f32) (v35 : FVec Ideal S3x128x128 .f32) (v36 : FVec Ideal S128x3200 .f32)
    (v52 : Vec Ideal S1x1x3200 .f32) (o : Fin 128) :
    k1_pay3 v33 v35 v36 v52 (ix3 0 o 0) = ∑ j : Fin 3200, k1_pay2 v33 v35 v36 v52 (ix2 o j) := by
  unfold k1_pay3
  exact (shapeCast_ab_1ab_apply _ _ 0 o 0).trans ((Cert.LibLaneSums.shapeCast_a_a1_apply _ _ o 0).trans
    (Cert.LibLaneSums.sum_last_apply _ _ _ _ _ o))

/-- The masked sum of squares along the columns. -/
theorem pay4B_apply (v33 : FVec Ideal S128x3202 .f32) (v35 : FVec Ideal S3x128x128 .f32) (v36 : FVec Ideal S128x3200 .f32)
    (v52 : Vec Ideal S1x1x3200 .f32) (o : Fin 128) :
    k1_pay4 v33 v35 v36 v52 (ix3 0 o 0) = ∑ j : Fin 3200, k1_pay1 v33 v35 v36 (ix2 o j) * k1_pay2 v33 v35 v36 v52 (ix2 o j) := by
  unfold k1_pay4
  exact (shapeCast_ab_1ab_apply _ _ 0 o 0).trans ((Cert.LibLaneSums.shapeCast_a_a1_apply _ _ o 0).trans
    (Cert.LibLaneSums.sum_last_apply _ _ _ _ _ o))

/-- The second convolution of the masked activation, at (o, j), in the specification's words. -/
theorem conv2B_apply (x0 : Vec Ideal S1x128x3204 .f32) (x1 x2 : Vec Ideal S3x128x128 .f32) (x3 x4 : Vec Ideal S128x1 .f32)
    (x5 : Vec Ideal S1x1x3202 .f32) (o : Fin 128) (j : Fin 3200) :
    k1_pay1 (k1_pay5 x0 x1 x3 x4 x5) (k1_pay6 x2) (k1_pay7 (F := Ideal)) (ix2 o j)
      = taps3 (fun t o ci => x2 (ix3 t o ci))
          (refAct (fun t o ci => x1 (ix3 t o ci)) (fun ci k => x0 (ix3 0 ci k)) (fun ci => x3 (ix2 ci 0)) (fun ci => x4 (ix2 ci 0))
            (fun j => x5 (ix3 0 0 j))) o j.val :=
  (pay1B_apply _ _ _ (fun _ => rfl) o j).trans (congrArg₂ (fun w a => taps3 w a o j.val)
    (funext fun t => funext fun o => funext fun ci => congrFun (shapeCast_self x2 _) (ix3 t o ci))
    (funext fun ci => funext fun k => pay5B_apply x0 x1 x3 x4 x5 ci k))

/-- The first statistics block of the second normalisation: per output channel, the masked sum over the chunk's 3200
    columns of the second convolution of the masked activation. -/
theorem outB_7_apply (x0 : Vec Ideal S1x128x3204 .f32) (x1 x2 : Vec Ideal S3x128x128 .f32) (x3 x4 : Vec Ideal S128x1 .f32)
    (x5 : Vec Ideal S1x1x3202 .f32) (x6 : Vec Ideal S1x1x3200 .f32) (o : Fin 128) :
    Gen.out1_7 x0 x1 x2 x3 x4 x5 x6 (ix3 0 o 0)
      = ∑ j : Fin 3200, taps3 (fun t o ci => x2 (ix3 t o ci))
          (refAct (fun t o ci => x1 (ix3 t o ci)) (fun ci k => x0 (ix3 0 ci k)) (fun ci => x3 (ix2 ci 0)) (fun ci => x4 (ix2 ci 0))
            (fun j => x5 (ix3 0 0 j))) o j.val * x6 (ix3 0 0 j) := by
  unfold Gen.out1_7
  rw [View.canon_unit_zero hz3]
  simp only [View.ld_unit_zero (S := S1x128x3204) hz3, View.ld_unit_zero (S := S3x128x128) hz3, View.ld_unit_zero (S := S1x1x3200) hz3,
    View.ld_unit_zero (S := S1x1x3202) hz3, View.ld_unit_zero (S := S128x1) hz2]
  exact (pay3B_apply _ _ _ x6 o).trans (Finset.sum_congr rfl fun j _ =>
    (pay2B_apply _ _ _ x6 o j).trans (congrArg₂ (· * ·) (conv2B_apply x0 x1 x2 x3 x4 x5 o j) rfl))

/-- The second statistics block: the masked sum of its squares. -/
theorem outB_8_apply (x0 : Vec Ideal S1x128x3204 .f32) (x1 x2 : Vec Ideal S3x128x128 .f32) (x3 x4 : Vec Ideal S128x1 .f32)
    (x5 : Vec Ideal S1x1x3202 .f32) (x6 : Vec Ideal S1x1x3200 .f32) (o : Fin 128) :
    Gen.out1_8 x0 x1 x2 x3 x4 x5 x6 (ix3 0 o 0)
      = ∑ j : Fin 3200, taps3 (fun t o ci => x2 (ix3 t o ci))
          (refAct (fun t o ci => x1 (ix3 t o ci)) (fun ci k => x0 (ix3 0 ci k)) (fun ci => x3 (ix2 ci 0)) (fun ci => x4 (ix2 ci 0))
            (fun j => x5 (ix3 0 0 j))) o j.val
          * (taps3 (fun t o ci => x2 (ix3 t o ci))
          (refAct (fun t o ci => x1 (ix3 t o ci)) (fun ci k => x0 (ix3 0 ci k)) (fun ci => x3 (ix2 ci 0)) (fun ci => x4 (ix2 ci 0))
            (fun j => x5 (ix3 0 0 j))) o j.val * x6 (ix3 0 0 j)) := by
  unfold Gen.out1_8
  rw [View.canon_unit_zero hz3]
  simp only [View.ld_unit_zero (S := S1x128x3204) hz3, View.ld_unit_zero (S := S3x128x128) hz3, View.ld_unit_zero (S := S1x1x3200) hz3,
    View.ld_unit_zero (S := S1x1x3202) hz3, View.ld_unit_zero (S := S128x1) hz2]
  exact (pay4B_apply _ _ _ x6 o).trans (Finset.sum_congr rfl fun j _ =>
    congrArg₂ (· * ·) (conv2B_apply x0 x1 x2 x3 x4 x5 o j)
      ((pay2B_apply _ _ _ x6 o j).trans (congrArg₂ (· * ·) (conv2B_apply x0 x1 x2 x3 x4 x5 o j) rfl)))

end Cert.ReferenceIdeal.RBody
end
-- ==== Proof.RRegB.lean ====
/-
  The reference's second region, from blocks to whole arrays.

  The region runs over 22 chunks. At chunk t it reads row t of the array of halo-padded input rows [22, 128, 3204],
  both whole tap-major weight arrays [3, 128, 128], the first normalisation's scale and shift columns [128, 1], and
  row t of the two masks [22, 1, 3202] and [22, 1, 3200], and writes row t of two arrays [22, 128, 1]: per output
  channel the masked sum of the second convolution (taken over the masked activation of the first) over the chunk's
  columns, and the masked sum of its squares.

  Stated for arbitrary contents of the arrays when the region is entered: each input block is the named row of its
  array (the index maps are decided once over the 22 points), what the body leaves at chunk t is therefore row t of one
  function of the whole arrays, the 22 rows cover each output array, and so each output array IS that function.
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.RBodyB
import Idealize.ShloMosaic.Lib.Pipeline.Value
import Idealize.ShloMosaic.Lib.ValueIdx

noncomputable section

namespace Cert.ReferenceIdeal.RReg

open Idealize.ShloMosaic Idealize.ShloMosaic.TcCoe Idealize.SL.Sem Idealize.ShloMosaic.ValueIdx
open Idealize.ShloMosaic.Pipeline (Dat)
open Cert.ReferenceIdeal Cert.ReferenceIdeal.Gen Cert.ResBlock

variable (V : (c : Dev nD) → (b : Ref sig .tc) → Buf (Elt Ideal) ((c : Thread nD τ).loc b))

/-- The grid has 22 points, one per chunk. -/
theorem lt22B (t : Fin cfg1.N) : t.val < 22 := by
  have h := t.isLt
  have e : cfg1.N = 22 := N_1
  omega

/-- The index maps of this region, decided over the 22 points: the row block, the masks and the outputs move with
    the chunk along the leading axis; the weights, scales and shifts stay. -/
theorem idxB : ∀ t : Fin cfg1.N,
    win1_0.index t (0 : Fin 3) = t.val
    ∧ win1_0.index t (1 : Fin 3) = 0
    ∧ win1_0.index t (2 : Fin 3) = 0
    ∧ win1_1.index t (0 : Fin 3) = 0
    ∧ win1_1.index t (1 : Fin 3) = 0
    ∧ win1_1.index t (2 : Fin 3) = 0
    ∧ win1_2.index t (0 : Fin 3) = 0
    ∧ win1_2.index t (1 : Fin 3) = 0
    ∧ win1_2.index t (2 : Fin 3) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 3) = t.val
    ∧ win1_5.index t (1 : Fin 3) = 0
    ∧ win1_5.index t (2 : Fin 3) = 0
    ∧ win1_6.index t (0 : Fin 3) = t.val
    ∧ win1_6.index t (1 : Fin 3) = 0
    ∧ win1_6.index t (2 : Fin 3) = 0
    ∧ win1_7.index t (0 : Fin 3) = t.val
    ∧ win1_7.index t (1 : Fin 3) = 0
    ∧ win1_7.index t (2 : Fin 3) = 0
    ∧ win1_8.index t (0 : Fin 3) = t.val
    ∧ win1_8.index t (1 : Fin 3) = 0
    ∧ win1_8.index t (2 : Fin 3) = 0 :=
  (by decide +kernel : ∀ t : Fin grid1.N, _)

/-- The row block of chunk `t` is row `t` of the array of row blocks. -/
theorem iblkB_0 (c : Dev nD) (t : Fin cfg1.N) (q : Fin 128) (k : Fin 3204) :
    arr (S := S1x128x3204) (iblk1 V c 0 t) (ix3 0 q k)
      = arr (S := S22x128x3204) (V c main_v4) (ix3 ⟨t.val, lt22B t⟩ q k) := by
  obtain ⟨e0, e1, e2, -⟩ := idxB t
  show V c main_v4 _ = V c main_v4 _
  congr 1
  funext a
  apply Fin.ext
  match a with
  | ⟨0, _⟩ => show win1_0.index t (0 : Fin 3) * 1 + 1 * 0 = t.val; omega
  | ⟨1, _⟩ => show win1_0.index t (1 : Fin 3) * 128 + 1 * q.val = q.val; omega
  | ⟨2, _⟩ => show win1_0.index t (2 : Fin 3) * 3204 + 1 * k.val = k.val; omega

/-- The first convolution's weights: the whole array at every point. -/
theorem iblkB_1 (c : Dev nD) (t : Fin cfg1.N) (p : Fin 3) (q : Fin 128) (k : Fin 128) :
    arr (S := S3x128x128) (iblk1 V c 1 t) (ix3 p q k)
      = arr (S := S3x128x128) (V c main_v35) (ix3 p q k) := by
  obtain ⟨-, -, -, e0, e1, e2, -⟩ := idxB t
  show V c main_v35 _ = V c main_v35 _
  congr 1
  funext a
  apply Fin.ext
  match a with
  | ⟨0, _⟩ => show win1_1.index t (0 : Fin 3) * 3 + 1 * p.val = p.val; omega
  | ⟨1, _⟩ => show win1_1.index t (1 : Fin 3) * 128 + 1 * q.val = q.val; omega
  | ⟨2, _⟩ => show win1_1.index t (2 : Fin 3) * 128 + 1 * k.val = k.val; omega

/-- The second convolution's weights: the whole array at every point. -/
theorem iblkB_2 (c : Dev nD) (t : Fin cfg1.N) (p : Fin 3) (q : Fin 128) (k : Fin 128) :
    arr (S := S3x128x128) (iblk1 V c 2 t) (ix3 p q k)
      = arr (S := S3x128x128) (V c main_v36) (ix3 p q k) := by
  obtain ⟨-, -, -, -, -, -, e0, e1, e2, -⟩ := idxB t
  show V c main_v36 _ = V c main_v36 _
  congr 1
  funext a
  apply Fin.ext
  match a with
  | ⟨0, _⟩ => show win1_2.index t (0 : Fin 3) * 3 + 1 * p.val = p.val; omega
  | ⟨1, _⟩ => show win1_2.index t (1 : Fin 3) * 128 + 1 * q.val = q.val; omega
  | ⟨2, _⟩ => show win1_2.index t (2 : Fin 3) * 128 + 1 * k.val = k.val; omega

/-- The first normalisation's scale: the whole column at every point. -/
theorem iblkB_3 (c : Dev nD) (t : Fin cfg1.N) (p : Fin 128) :
    arr (S := S128x1) (iblk1 V c 3 t) (ix2 p 0)
      = arr (S := S128x1) (V c main_v57) (ix2 p 0) := by
  obtain ⟨-, -, -, -, -, -, -, -, -, e0, e1, -⟩ := idxB t
  show V c main_v57 _ = V c main_v57 _
  congr 1
  funext a
  apply Fin.ext
  match a with
  | ⟨0, _⟩ => show win1_3.index t (0 : Fin 2) * 128 + 1 * p.val = p.val; omega
  | ⟨1, _⟩ => show win1_3.index t (1 : Fin 2) * 1 + 1 * 0 = 0; omega

/-- The first normalisation's shift: the whole column at every point. -/
theorem iblkB_4 (c : Dev nD) (t : Fin cfg1.N) (p : Fin 128) :
    arr (S := S128x1) (iblk1 V c 4 t) (ix2 p 0)
      = arr (S := S128x1) (V c main_v58) (ix2 p 0) := by
  obtain ⟨-, -, -, -, -, -, -, -, -, -, -, e0, e1, -⟩ := idxB t
  show V c main_v58 _ = V c main_v58 _
  congr 1
  funext a
  apply Fin.ext
  match a with
  | ⟨0, _⟩ => show win1_4.index t (0 : Fin 2) * 128 + 1 * p.val = p.val; omega
  | ⟨1, _⟩ => show win1_4.index t (1 : Fin 2) * 1 + 1 * 0 = 0; omega

/-- The extended-layout mask's block at chunk `t` is row `t` of its array. -/
theorem iblkB_5 (c : Dev nD) (t : Fin cfg1.N) (k : Fin 3202) :
    arr (S := S1x1x3202) (iblk1 V c 5 t) (ix3 0 0 k)
      = arr (S := S22x1x3202) (V c main_v25) (ix3 ⟨t.val, lt22B t⟩ 0 k) := by
  obtain ⟨-, -, -, -, -, -, -, -, -, -, -, -, -, e0, e1, e2, -⟩ := idxB t
  show V c main_v25 _ = V c main_v25 _
  congr 1
  funext a
  apply Fin.ext
  match a with
  | ⟨0, _⟩ => show win1_5.index t (0 : Fin 3) * 1 + 1 * 0 = t.val; omega
  | ⟨1, _⟩ => show win1_5.index t (1 : Fin 3) * 1 + 1 * 0 = 0; omega
  | ⟨2, _⟩ => show win1_5.index t (2 : Fin 3) * 3202 + 1 * k.val = k.val; omega

/-- The output-layout mask's block at chunk `t` is row `t` of its array. -/
theorem iblkB_6 (c : Dev nD) (t : Fin cfg1.N) (k : Fin 3200) :
    arr (S := S1x1x3200) (iblk1 V c 6 t) (ix3 0 0 k)
      = arr (S := S22x1x3200) (V c main_v34) (ix3 ⟨t.val, lt22B t⟩ 0 k) := by
  obtain ⟨-, -, -, -, -, -, -, -, -, -, -, -, -, -, -, -, e0, e1, e2, -⟩ := idxB t
  show V c main_v34 _ = V c main_v34 _
  congr 1
  funext a
  apply Fin.ext
  match a with
  | ⟨0, _⟩ => show win1_6.index t (0 : Fin 3) * 1 + 1 * 0 = t.val; omega
  | ⟨1, _⟩ => show win1_6.index t (1 : Fin 3) * 1 + 1 * 0 = 0; omega
  | ⟨2, _⟩ => show win1_6.index t (2 : Fin 3) * 3200 + 1 * k.val = k.val; omega

/-- The masked sum of the second convolution over chunk `ch`, output channel `o`, and the masked sum of its squares:
    what the two output arrays of the second region hold at (ch, o, 0). The second convolution runs over the masked
    activation `refAct` of the first. -/
def sumB7 (c : Dev nD) (ch : Fin 22) (o : Fin 128) : EReal :=
  ∑ j : Fin 3200, taps3 (fun t o ci => arr (S := S3x128x128) (V c main_v36) (ix3 t o ci)) (refAct (fun t o ci => arr (S := S3x128x128) (V c main_v35) (ix3 t o ci)) (fun ci k => arr (S := S22x128x3204) (V c main_v4) (ix3 ch ci k)) (fun ci => arr (S := S128x1) (V c main_v57) (ix2 ci 0)) (fun ci => arr (S := S128x1) (V c main_v58) (ix2 ci 0)) (fun j => arr (S := S22x1x3202) (V c main_v25) (ix3 ch 0 j))) o j.val * arr (S := S22x1x3200) (V c main_v34) (ix3 ch 0 j)
def sumB8 (c : Dev nD) (ch : Fin 22) (o : Fin 128) : EReal :=
  ∑ j : Fin 3200, taps3 (fun t o ci => arr (S := S3x128x128) (V c main_v36) (ix3 t o ci)) (refAct (fun t o ci => arr (S := S3x128x128) (V c main_v35) (ix3 t o ci)) (fun ci k => arr (S := S22x128x3204) (V c main_v4) (ix3 ch ci k)) (fun ci => arr (S := S128x1) (V c main_v57) (ix2 ci 0)) (fun ci => arr (S := S128x1) (V c main_v58) (ix2 ci 0)) (fun j => arr (S := S22x1x3202) (V c main_v25) (ix3 ch 0 j))) o j.val * (taps3 (fun t o ci => arr (S := S3x128x128) (V c main_v36) (ix3 t o ci)) (refAct (fun t o ci => arr (S := S3x128x128) (V c main_v35) (ix3 t o ci)) (fun ci k => arr (S := S22x128x3204) (V c main_v4) (ix3 ch ci k)) (fun ci => arr (S := S128x1) (V c main_v57) (ix2 ci 0)) (fun ci => arr (S := S128x1) (V c main_v58) (ix2 ci 0)) (fun j => arr (S := S22x1x3202) (V c main_v25) (ix3 ch 0 j))) o j.val * arr (S := S22x1x3200) (V c main_v34) (ix3 ch 0 j))

/-- The two output arrays as functions of the index. -/
def GB7 (c : Dev nD) : S22x128x1.Idx → EReal := fun i => sumB7 V c ⟨(i 0).val, (i 0).isLt⟩ ⟨(i 1).val, (i 1).isLt⟩
def GB8 (c : Dev nD) : S22x128x1.Idx → EReal := fun i => sumB8 V c ⟨(i 0).val, (i 0).isLt⟩ ⟨(i 1).val, (i 1).isLt⟩

/-- What the body leaves in the first output's buffer at chunk `t`, channel `o`. -/
theorem bodyB_7 (c : Dev nD) (t : Fin cfg1.N) (o : Fin 128) :
    arr (S := S1x128x1) (out1_7 (iblk1 V c 0 t) (iblk1 V c 1 t) (iblk1 V c 2 t) (iblk1 V c 3 t) (iblk1 V c 4 t) (iblk1 V c 5 t) (iblk1 V c 6 t)) (ix3 0 o 0) = sumB7 V c ⟨t.val, lt22B t⟩ o := by
  refine (RBody.outB_7_apply (iblk1 V c 0 t) (iblk1 V c 1 t) (iblk1 V c 2 t) (iblk1 V c 3 t) (iblk1 V c 4 t) (iblk1 V c 5 t) (iblk1 V c 6 t) o).trans ?_
  unfold sumB7
  have hW1 : (fun t' o ci => arr (S := S3x128x128) (iblk1 V c 1 t) (ix3 t' o ci))
      = fun t' o ci => arr (S := S3x128x128) (V c main_v35) (ix3 t' o ci) :=
    funext fun t' => funext fun o => funext fun ci => iblkB_1 V c t t' o ci
  have hW2 : (fun t' o ci => arr (S := S3x128x128) (iblk1 V c 2 t) (ix3 t' o ci))
      = fun t' o ci => arr (S := S3x128x128) (V c main_v36) (ix3 t' o ci) :=
    funext fun t' => funext fun o => funext fun ci => iblkB_2 V c t t' o ci
  have hX : (fun ci k => arr (S := S1x128x3204) (iblk1 V c 0 t) (ix3 0 ci k))
      = fun ci k => arr (S := S22x128x3204) (V c main_v4) (ix3 ⟨t.val, lt22B t⟩ ci k) :=
    funext fun ci => funext fun k => iblkB_0 V c t ci k
  have hS : (fun ci => arr (S := S128x1) (iblk1 V c 3 t) (ix2 ci 0))
      = fun ci => arr (S := S128x1) (V c main_v57) (ix2 ci 0) :=
    funext fun ci => iblkB_3 V c t ci
  have hT : (fun ci => arr (S := S128x1) (iblk1 V c 4 t) (ix2 ci 0))
      = fun ci => arr (S := S128x1) (V c main_v58) (ix2 ci 0) :=
    funext fun ci => iblkB_4 V c t ci
  have hM : (fun j => arr (S := S1x1x3202) (iblk1 V c 5 t) (ix3 0 0 j))
      = fun j => arr (S := S22x1x3202) (V c main_v25) (ix3 ⟨t.val, lt22B t⟩ 0 j) :=
    funext fun j => iblkB_5 V c t j
  refine Finset.sum_congr rfl fun j _ => ?_
  show taps3 (fun t' o ci => arr (S := S3x128x128) (iblk1 V c 2 t) (ix3 t' o ci)) (refAct (fun t' o ci => arr (S := S3x128x128) (iblk1 V c 1 t) (ix3 t' o ci)) (fun ci k => arr (S := S1x128x3204) (iblk1 V c 0 t) (ix3 0 ci k)) (fun ci => arr (S := S128x1) (iblk1 V c 3 t) (ix2 ci 0)) (fun ci => arr (S := S128x1) (iblk1 V c 4 t) (ix2 ci 0)) (fun j => arr (S := S1x1x3202) (iblk1 V c 5 t) (ix3 0 0 j))) o j.val * arr (S := S1x1x3200) (iblk1 V c 6 t) (ix3 0 0 j) = _
  rw [hW1, hW2, hX, hS, hT, hM, iblkB_6]

/-- What the body leaves in the second output's buffer at chunk `t`, channel `o`. -/
theorem bodyB_8 (c : Dev nD) (t : Fin cfg1.N) (o : Fin 128) :
    arr (S := S1x128x1) (out1_8 (iblk1 V c 0 t) (iblk1 V c 1 t) (iblk1 V c 2 t) (iblk1 V c 3 t) (iblk1 V c 4 t) (iblk1 V c 5 t) (iblk1 V c 6 t)) (ix3 0 o 0) = sumB8 V c ⟨t.val, lt22B t⟩ o := by
  refine (RBody.outB_8_apply (iblk1 V c 0 t) (iblk1 V c 1 t) (iblk1 V c 2 t) (iblk1 V c 3 t) (iblk1 V c 4 t) (iblk1 V c 5 t) (iblk1 V c 6 t) o).trans ?_
  unfold sumB8
  have hW1 : (fun t' o ci => arr (S := S3x128x128) (iblk1 V c 1 t) (ix3 t' o ci))
      = fun t' o ci => arr (S := S3x128x128) (V c main_v35) (ix3 t' o ci) :=
    funext fun t' => funext fun o => funext fun ci => iblkB_1 V c t t' o ci
  have hW2 : (fun t' o ci => arr (S := S3x128x128) (iblk1 V c 2 t) (ix3 t' o ci))
      = fun t' o ci => arr (S := S3x128x128) (V c main_v36) (ix3 t' o ci) :=
    funext fun t' => funext fun o => funext fun ci => iblkB_2 V c t t' o ci
  have hX : (fun ci k => arr (S := S1x128x3204) (iblk1 V c 0 t) (ix3 0 ci k))
      = fun ci k => arr (S := S22x128x3204) (V c main_v4) (ix3 ⟨t.val, lt22B t⟩ ci k) :=
    funext fun ci => funext fun k => iblkB_0 V c t ci k
  have hS : (fun ci => arr (S := S128x1) (iblk1 V c 3 t) (ix2 ci 0))
      = fun ci => arr (S := S128x1) (V c main_v57) (ix2 ci 0) :=
    funext fun ci => iblkB_3 V c t ci
  have hT : (fun ci => arr (S := S128x1) (iblk1 V c 4 t) (ix2 ci 0))
      = fun ci => arr (S := S128x1) (V c main_v58) (ix2 ci 0) :=
    funext fun ci => iblkB_4 V c t ci
  have hM : (fun j => arr (S := S1x1x3202) (iblk1 V c 5 t) (ix3 0 0 j))
      = fun j => arr (S := S22x1x3202) (V c main_v25) (ix3 ⟨t.val, lt22B t⟩ 0 j) :=
    funext fun j => iblkB_5 V c t j
  refine Finset.sum_congr rfl fun j _ => ?_
  show taps3 (fun t' o ci => arr (S := S3x128x128) (iblk1 V c 2 t) (ix3 t' o ci)) (refAct (fun t' o ci => arr (S := S3x128x128) (iblk1 V c 1 t) (ix3 t' o ci)) (fun ci k => arr (S := S1x128x3204) (iblk1 V c 0 t) (ix3 0 ci k)) (fun ci => arr (S := S128x1) (iblk1 V c 3 t) (ix2 ci 0)) (fun ci => arr (S := S128x1) (iblk1 V c 4 t) (ix2 ci 0)) (fun j => arr (S := S1x1x3202) (iblk1 V c 5 t) (ix3 0 0 j))) o j.val * (taps3 (fun t' o ci => arr (S := S3x128x128) (iblk1 V c 2 t) (ix3 t' o ci)) (refAct (fun t' o ci => arr (S := S3x128x128) (iblk1 V c 1 t) (ix3 t' o ci)) (fun ci k => arr (S := S1x128x3204) (iblk1 V c 0 t) (ix3 0 ci k)) (fun ci => arr (S := S128x1) (iblk1 V c 3 t) (ix2 ci 0)) (fun ci => arr (S := S128x1) (iblk1 V c 4 t) (ix2 ci 0)) (fun j => arr (S := S1x1x3202) (iblk1 V c 5 t) (ix3 0 0 j))) o j.val * arr (S := S1x1x3200) (iblk1 V c 6 t) (ix3 0 0 j)) = _
  rw [hW1, hW2, hX, hS, hT, hM, iblkB_6]

/-- Where an element of chunk `t`'s output block sits in its array: row `t`, same channel. -/
theorem cutB_7 (c : Dev nD) (t : Fin cfg1.N) (j : S1x128x1.Idx) :
    arr (S := S1x128x1) (out1_7 (iblk1 V c 0 t) (iblk1 V c 1 t) (iblk1 V c 2 t) (iblk1 V c 3 t) (iblk1 V c 4 t) (iblk1 V c 5 t) (iblk1 V c 6 t)) j
      = GB7 V c (((cfg1.win 7).blk t).view.emb j) := by
  obtain ⟨z, o, u, rfl⟩ : ∃ (z : Fin 1) (o : Fin 128) (u : Fin 1), j = ix3 z o u := ⟨j 0, j 1, j 2, eq_ix3 j⟩
  obtain rfl : z = 0 := Subsingleton.elim _ _
  obtain rfl : u = 0 := Subsingleton.elim _ _
  refine (bodyB_7 V c t o).trans ?_
  obtain ⟨-, -, -, -, -, -, -, -, -, -, -, -, -, -, -, -, -, -, -, e0, e1, e2, -⟩ := idxB t
  unfold GB7
  congr 1
  · apply Fin.ext
    show t.val = win1_7.index t (0 : Fin 3) * 1 + 1 * 0
    omega
  · apply Fin.ext
    show o.val = win1_7.index t (1 : Fin 3) * 128 + 1 * o.val
    omega

/-- What chunk `t` writes back to this output array is block `t` of `GB7`. -/
theorem flushedB_7 (c : Dev nD) (t : Fin cfg1.N) :
    (dat1 V c).flushed 7 t = ((cfg1.win 7).blk t).view.read (Elt Ideal) (GB7 V c) := by
  show (cfg1.win 7).cut (grid1.coords t) ((dat1 V c).after 7 t) = _
  rw [after1_7]
  funext j
  exact cutB_7 V c t j

/-- An index of the output array is in chunk `t`'s block iff each coordinate is in the block's range on its axis. -/
theorem mem_blkB_7 (t : Fin cfg1.N) (i : S22x128x1.Idx) :
    i ∈ ((cfg1.win 7).blk t).view.set ↔ ∀ a : Fin 3, win1_7.index t a * S1x128x1.size a ≤ (i a).val
      ∧ (i a).val < win1_7.index t a * S1x128x1.size a + S1x128x1.size a := by
  show i ∈ ((View.whole main_v59_0).slice (win1_7.rect t)).set ↔ _
  rw [View.set_slice_whole, Rect.mem_set_unit]
  exact Iff.rfl

/-- Every index of this output array lies in the block of the chunk its leading coordinate names. -/
theorem coverB_7 (i : S22x128x1.Idx) :
    ∃ t : Fin cfg1.N, (cfg1.win 7).flush t = true ∧ i ∈ ((cfg1.win 7).blk t).view.set := by
  have h0 : (i 0).val < 22 := (i 0).isLt
  have h1 : (i 1).val < 128 := (i 1).isLt
  have h2 : (i 2).val < 1 := (i 2).isLt
  obtain ⟨t, ht⟩ : ∃ t : Fin cfg1.N, t.val = (i 0).val :=
    ⟨⟨(i 0).val, by rw [show cfg1.N = 22 from N_1]; exact h0⟩, rfl⟩
  refine ⟨t, flush1_7 t, ?_⟩
  rw [mem_blkB_7]
  obtain ⟨-, -, -, -, -, -, -, -, -, -, -, -, -, -, -, -, -, -, -, e0, e1, e2, -⟩ := idxB t
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 128 ≤ (i 1).val ∧ (i 1).val < win1_7.index t (1 : Fin 3) * 128 + 128; omega
  | ⟨2, _⟩ => show win1_7.index t (2 : Fin 3) * 1 ≤ (i 2).val ∧ (i 2).val < win1_7.index t (2 : Fin 3) * 1 + 1; omega

/-- This output array after the region. -/
theorem finalB_7 (c : Dev nD) : (dat1 V c).arrAt 7 cfg1.N = GB7 V c :=
  (dat1 V c).arrAt_eq_of_cover 7 (GB7 V c) (fun t _ => flushedB_7 V c t) coverB_7

/-- Where an element of chunk `t`'s output block sits in its array: row `t`, same channel. -/
theorem cutB_8 (c : Dev nD) (t : Fin cfg1.N) (j : S1x128x1.Idx) :
    arr (S := S1x128x1) (out1_8 (iblk1 V c 0 t) (iblk1 V c 1 t) (iblk1 V c 2 t) (iblk1 V c 3 t) (iblk1 V c 4 t) (iblk1 V c 5 t) (iblk1 V c 6 t)) j
      = GB8 V c (((cfg1.win 8).blk t).view.emb j) := by
  obtain ⟨z, o, u, rfl⟩ : ∃ (z : Fin 1) (o : Fin 128) (u : Fin 1), j = ix3 z o u := ⟨j 0, j 1, j 2, eq_ix3 j⟩
  obtain rfl : z = 0 := Subsingleton.elim _ _
  obtain rfl : u = 0 := Subsingleton.elim _ _
  refine (bodyB_8 V c t o).trans ?_
  obtain ⟨-, -, -, -, -, -, -, -, -, -, -, -, -, -, -, -, -, -, -, -, -, -, e0, e1, e2⟩ := idxB t
  unfold GB8
  congr 1
  · apply Fin.ext
    show t.val = win1_8.index t (0 : Fin 3) * 1 + 1 * 0
    omega
  · apply Fin.ext
    show o.val = win1_8.index t (1 : Fin 3) * 128 + 1 * o.val
    omega

/-- What chunk `t` writes back to this output array is block `t` of `GB8`. -/
theorem flushedB_8 (c : Dev nD) (t : Fin cfg1.N) :
    (dat1 V c).flushed 8 t = ((cfg1.win 8).blk t).view.read (Elt Ideal) (GB8 V c) := by
  show (cfg1.win 8).cut (grid1.coords t) ((dat1 V c).after 8 t) = _
  rw [after1_8]
  funext j
  exact cutB_8 V c t j

/-- An index of the output array is in chunk `t`'s block iff each coordinate is in the block's range on its axis. -/
theorem mem_blkB_8 (t : Fin cfg1.N) (i : S22x128x1.Idx) :
    i ∈ ((cfg1.win 8).blk t).view.set ↔ ∀ a : Fin 3, win1_8.index t a * S1x128x1.size a ≤ (i a).val
      ∧ (i a).val < win1_8.index t a * S1x128x1.size a + S1x128x1.size a := by
  show i ∈ ((View.whole main_v59_1).slice (win1_8.rect t)).set ↔ _
  rw [View.set_slice_whole, Rect.mem_set_unit]
  exact Iff.rfl

/-- Every index of this output array lies in the block of the chunk its leading coordinate names. -/
theorem coverB_8 (i : S22x128x1.Idx) :
    ∃ t : Fin cfg1.N, (cfg1.win 8).flush t = true ∧ i ∈ ((cfg1.win 8).blk t).view.set := by
  have h0 : (i 0).val < 22 := (i 0).isLt
  have h1 : (i 1).val < 128 := (i 1).isLt
  have h2 : (i 2).val < 1 := (i 2).isLt
  obtain ⟨t, ht⟩ : ∃ t : Fin cfg1.N, t.val = (i 0).val :=
    ⟨⟨(i 0).val, by rw [show cfg1.N = 22 from N_1]; exact h0⟩, rfl⟩
  refine ⟨t, flush1_8 t, ?_⟩
  rw [mem_blkB_8]
  obtain ⟨-, -, -, -, -, -, -, -, -, -, -, -, -, -, -, -, -, -, -, -, -, -, e0, e1, e2⟩ := idxB t
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 128 ≤ (i 1).val ∧ (i 1).val < win1_8.index t (1 : Fin 3) * 128 + 128; omega
  | ⟨2, _⟩ => show win1_8.index t (2 : Fin 3) * 1 ≤ (i 2).val ∧ (i 2).val < win1_8.index t (2 : Fin 3) * 1 + 1; omega

/-- This output array after the region. -/
theorem finalB_8 (c : Dev nD) : (dat1 V c).arrAt 8 cfg1.N = GB8 V c :=
  (dat1 V c).arrAt_eq_of_cover 8 (GB8 V c) (fun t _ => flushedB_8 V c t) coverB_8

/-- THE FIRST OUTPUT of the second region at (chunk, channel, 0): the masked sum of the second convolution over the
    chunk's columns. -/
theorem arrB_7 (V : (c : Dev nD) → (b : Ref sig .tc) → Buf (Elt Ideal) ((c : Thread nD τ).loc b)) (c : Dev nD) (ch : Fin 22) (o : Fin 128) :
    arr (S := S22x128x1) ((Gen.dat1 V c).arrAt 7 cfg1.N) (ix3 ch o 0)
      = ∑ j : Fin 3200, taps3 (fun t o ci => arr (S := S3x128x128) (V c main_v36) (ix3 t o ci)) (refAct (fun t o ci => arr (S := S3x128x128) (V c main_v35) (ix3 t o ci)) (fun ci k => arr (S := S22x128x3204) (V c main_v4) (ix3 ch ci k)) (fun ci => arr (S := S128x1) (V c main_v57) (ix2 ci 0)) (fun ci => arr (S := S128x1) (V c main_v58) (ix2 ci 0)) (fun j => arr (S := S22x1x3202) (V c main_v25) (ix3 ch 0 j))) o j.val * arr (S := S22x1x3200) (V c main_v34) (ix3 ch 0 j) := by
  rw [finalB_7]
  rfl

/-- THE SECOND OUTPUT of the second region at (chunk, channel, 0): the masked sum of the squares of the second
    convolution over the chunk's columns. -/
theorem arrB_8 (V : (c : Dev nD) → (b : Ref sig .tc) → Buf (Elt Ideal) ((c : Thread nD τ).loc b)) (c : Dev nD) (ch : Fin 22) (o : Fin 128) :
    arr (S := S22x128x1) ((Gen.dat1 V c).arrAt 8 cfg1.N) (ix3 ch o 0)
      = ∑ j : Fin 3200, taps3 (fun t o ci => arr (S := S3x128x128) (V c main_v36) (ix3 t o ci)) (refAct (fun t o ci => arr (S := S3x128x128) (V c main_v35) (ix3 t o ci)) (fun ci k => arr (S := S22x128x3204) (V c main_v4) (ix3 ch ci k)) (fun ci => arr (S := S128x1) (V c main_v57) (ix2 ci 0)) (fun ci => arr (S := S128x1) (V c main_v58) (ix2 ci 0)) (fun j => arr (S := S22x1x3202) (V c main_v25) (ix3 ch 0 j))) o j.val * (taps3 (fun t o ci => arr (S := S3x128x128) (V c main_v36) (ix3 t o ci)) (refAct (fun t o ci => arr (S := S3x128x128) (V c main_v35) (ix3 t o ci)) (fun ci k => arr (S := S22x128x3204) (V c main_v4) (ix3 ch ci k)) (fun ci => arr (S := S128x1) (V c main_v57) (ix2 ci 0)) (fun ci => arr (S := S128x1) (V c main_v58) (ix2 ci 0)) (fun j => arr (S := S22x1x3202) (V c main_v25) (ix3 ch 0 j))) o j.val * arr (S := S22x1x3200) (V c main_v34) (ix3 ch 0 j)) := by
  rw [finalB_8]
  rfl

end Cert.ReferenceIdeal.RReg

end
-- ==== Proof.RBodyC.lean ====
/-
  The output body of the reference, read at coordinates.

  On one chunk it forms the masked activation between the two convolutions on 3202 columns (as the second statistics
  body does), the second convolution of it at the 3200 columns j, normalises with the second scale and shift, adds the
  1 × 1 projection of the chunk's rows at column j + 2 — the column of the rows that lies under output column j — and
  clamps at zero.
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.LibPlainDot
import proofs.«152241_g2000003559913605_pallasbulk_133_2_alg».proof.Proof.LibLaneSums
import proofs.«152241_g2000003559913605_pallasbulk_133_2_alg».proof.Proof.LibUnitAxes
import Idealize.ShloMosaic.Lib.ValueIdx
import Idealize.ShloMosaic.Lib.ValueLayout
import proofs.«152241_g2000003559913605_pallasbulk_133_2_alg».proof.Proof.RBodyTaps
noncomputable section
namespace Cert.ReferenceIdeal.RBody
open Idealize.ShloMosaic Idealize.ShloMosaic.ValueIdx
open Cert.ReferenceIdeal Cert.ReferenceIdeal.Gen Cert.ResBlock

/-- The masked activation between the convolutions as the output body forms it: the same value as in the second
    statistics body. -/
theorem pay3C_apply (v0 : Vec Ideal S1x128x3204 .f32) (v2 : Vec Ideal S3x128x128 .f32) (v20 v24 : Vec Ideal S128x1 .f32)
    (v30 : Vec Ideal S1x1x3202 .f32) (ci : Fin 128) (j : Fin 3202) :
    k2_pay3 v0 v2 v20 v24 v30 (ix2 ci j)
      = refAct (fun t o ci => v2 (ix3 t o ci)) (fun ci k => v0 (ix3 0 ci k)) (fun ci => v20 (ix2 ci 0)) (fun ci => v24 (ix2 ci 0))
          (fun j => v30 (ix3 0 0 j)) ci j := by
  unfold k2_pay3 k2_pay2 refAct
  refine congrArg₂ (· * ·) (congrArg₂ max (congrArg₂ (· + ·) (congrArg₂ (· * ·) ?_ ?_) ?_) rfl) ?_
  · refine (conv3_apply dot_S128x128_S128x3202_S128x3202_1_0_0_1_n_n mm3202_apply 0 1 2 rfl rfl (by omega) _ _ _ _ _ _ _ _ _ _ (fun _ => rfl) ci j).trans ?_
    exact congrArg₂ (fun w a => taps3 w a ci j.val)
      (funext fun t => funext fun o => funext fun ci => congrFun (shapeCast_self v2 _) (ix3 t o ci))
      (funext fun ci => funext fun k => shapeCast_1ab_ab_apply v0 _ ci k)
  · exact (Cert.LibUnitAxes.broadcastTo_a1_ab_apply _ _ ci j).trans (congrFun (shapeCast_self v20 _) (ix2 ci 0))
  · exact (Cert.LibUnitAxes.broadcastTo_a1_ab_apply _ _ ci j).trans (congrFun (shapeCast_self v24 _) (ix2 ci 0))
  · exact (broadcastTo_1b_ab_apply _ _ ci j).trans (shapeCast_1ab_ab_apply v30 _ 0 j)

/-- The output body's stored value at (o, j), over its intermediate rows: the second convolution from column j, scaled
    and shifted, plus the projection of the input rows at column j + 2, clamped at zero. -/
theorem pay1C_apply (v1 : FVec Ideal S128x3204 .f32) (v33 : FVec Ideal S128x3202 .f32) (v35 : FVec Ideal S3x128x128 .f32)
    (v36 : FVec Ideal S128x3200 .f32) (h36 : ∀ i, v36 i = zero) (v52 v56 : Vec Ideal S128x1 .f32) (v60 : Vec Ideal S128x128 .f32)
    (o : Fin 128) (j : Fin 3200) :
    k2_pay1 v1 v33 v35 v36 v52 v56 v60 (ix3 0 o j)
      = max ((taps3 (fun t o ci => v35 (ix3 t o ci)) (fun ci k => v33 (ix2 ci k)) o j.val * v52 (ix2 o 0) + v56 (ix2 o 0))
          + ∑ ci : Fin 128, v60 (ix2 o ci) * at0 (fun k => v1 (ix2 ci k)) (j.val + 2)) zero := by
  unfold k2_pay1
  refine (shapeCast_ab_1ab_apply _ _ 0 o j).trans ?_
  refine congrArg₂ max (congrArg₂ (· + ·) (congrArg₂ (· + ·) (congrArg₂ (· * ·) ?_ ?_) ?_) ?_) rfl
  · exact conv3_apply dot_S128x128_S128x3200_S128x3200_1_0_0_1_n_n mm3200_apply 0 1 2 rfl rfl (by omega) v36 v35 v33 _ _ _ _ _ _ _ h36 o j
  · exact (Cert.LibUnitAxes.broadcastTo_a1_ab_apply _ _ o j).trans (congrFun (shapeCast_self v52 _) (ix2 o 0))
  · exact (Cert.LibUnitAxes.broadcastTo_a1_ab_apply _ _ o j).trans (congrFun (shapeCast_self v56 _) (ix2 o 0))
  · refine (mm3200_apply _ _ o j).trans (Finset.sum_congr rfl fun ci _ =>
      congrArg₂ (· * ·) (congrFun (shapeCast_self v60 _) (ix2 o ci)) ?_)
    exact xtap_apply 2 v1 _ ci j (j.val + 2) (by omega) (by have := j.isLt; omega)

/-- The output block at (o, j): the second convolution of the masked activation from column j, normalised with the
    second scale and shift, plus the 1 × 1 projection of the chunk's rows at column j + 2 (inside the row: j + 2 < 3204, so
    the zero extension does not act), clamped at zero. -/
theorem outC_9_apply (x0 : Vec Ideal S1x128x3204 .f32) (x1 x2 : Vec Ideal S3x128x128 .f32) (x3 : Vec Ideal S128x128 .f32)
    (x4 x5 x6 x7 : Vec Ideal S128x1 .f32) (x8 : Vec Ideal S1x1x3202 .f32) (o : Fin 128) (j : Fin 3200) :
    Gen.out2_9 x0 x1 x2 x3 x4 x5 x6 x7 x8 (ix3 0 o j)
      = max ((taps3 (fun t o ci => x2 (ix3 t o ci))
          (refAct (fun t o ci => x1 (ix3 t o ci)) (fun ci k => x0 (ix3 0 ci k)) (fun ci => x4 (ix2 ci 0)) (fun ci => x5 (ix2 ci 0))
            (fun j => x8 (ix3 0 0 j))) o j.val * x6 (ix2 o 0) + x7 (ix2 o 0))
          + ∑ ci : Fin 128, x3 (ix2 o ci) * at0 (fun k => x0 (ix3 0 ci k)) (j.val + 2)) zero := by
  unfold Gen.out2_9
  rw [View.canon_unit_zero hz3]
  simp only [View.ld_unit_zero (S := S1x128x3204) hz3, View.ld_unit_zero (S := S3x128x128) hz3, View.ld_unit_zero (S := S1x1x3202) hz3,
    View.ld_unit_zero (S := S128x1) hz2, View.ld_unit_zero (S := S128x128) hz2]
  refine (pay1C_apply _ _ _ _ (fun _ => rfl) x6 x7 x3 o j).trans ?_
  refine congrArg₂ max (congrArg₂ (· + ·) (congrArg₂ (· + ·) (congrArg₂ (· * ·) ?_ rfl) rfl) ?_) rfl
  · exact congrArg₂ (fun w a => taps3 w a o j.val)
      (funext fun t => funext fun o => funext fun ci => congrFun (shapeCast_self x2 _) (ix3 t o ci))
      (funext fun ci => funext fun k => pay3C_apply x0 x1 x4 x5 x8 ci k)
  · exact Finset.sum_congr rfl fun ci _ => congrArg₂ (· * ·) rfl
      (congrArg (fun a => at0 a (j.val + 2)) (funext fun k => shapeCast_1ab_ab_apply x0 _ ci k))

end Cert.ReferenceIdeal.RBody
end
-- ==== Proof.RRegC.lean ====
/-
  The reference's third region, from blocks to the whole array.

  The region runs over 22 chunks. At chunk t it reads row t of the array of halo-padded input rows [22, 128, 3204],
  both whole tap-major weight arrays [3, 128, 128], the projection matrix [128, 128], the scale and shift columns
  [128, 1] of both normalisations, and row t of the extended-layout mask [22, 1, 3202], and writes row t of the array
  [22, 128, 3200]: per output channel and column the second convolution (taken over the masked activation of the
  first) scaled and shifted, plus the projection of the input row two columns on, clamped at zero.

  Stated for arbitrary contents of the arrays when the region is entered: each input block is the named row of its
  array (the index maps are decided once over the 22 points), what the body leaves at chunk t is therefore row t of one
  function of the whole arrays, the 22 rows cover the output array, and so the output array IS that function.
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.RBodyC
import Idealize.ShloMosaic.Lib.Pipeline.Value
import Idealize.ShloMosaic.Lib.ValueIdx

noncomputable section

namespace Cert.ReferenceIdeal.RReg

open Idealize.ShloMosaic Idealize.ShloMosaic.TcCoe Idealize.SL.Sem Idealize.ShloMosaic.ValueIdx
open Idealize.ShloMosaic.Pipeline (Dat)
open Cert.ReferenceIdeal Cert.ReferenceIdeal.Gen Cert.ResBlock

variable (V : (c : Dev nD) → (b : Ref sig .tc) → Buf (Elt Ideal) ((c : Thread nD τ).loc b))

/-- The grid has 22 points, one per chunk. -/
theorem lt22C (t : Fin cfg2.N) : t.val < 22 := by
  have h := t.isLt
  have e : cfg2.N = 22 := N_2
  omega

/-- The index maps of this region, decided over the 22 points: the row block, the masks and the outputs move with
    the chunk along the leading axis; the weights, scales and shifts stay. -/
theorem idxC : ∀ t : Fin cfg2.N,
    win2_0.index t (0 : Fin 3) = t.val
    ∧ win2_0.index t (1 : Fin 3) = 0
    ∧ win2_0.index t (2 : Fin 3) = 0
    ∧ win2_1.index t (0 : Fin 3) = 0
    ∧ win2_1.index t (1 : Fin 3) = 0
    ∧ win2_1.index t (2 : Fin 3) = 0
    ∧ win2_2.index t (0 : Fin 3) = 0
    ∧ win2_2.index t (1 : Fin 3) = 0
    ∧ win2_2.index t (2 : Fin 3) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 3) = t.val
    ∧ win2_8.index t (1 : Fin 3) = 0
    ∧ win2_8.index t (2 : Fin 3) = 0
    ∧ win2_9.index t (0 : Fin 3) = t.val
    ∧ win2_9.index t (1 : Fin 3) = 0
    ∧ win2_9.index t (2 : Fin 3) = 0 :=
  (by decide +kernel : ∀ t : Fin grid2.N, _)

/-- The row block of chunk `t` is row `t` of the array of row blocks. -/
theorem iblkC_0 (c : Dev nD) (t : Fin cfg2.N) (q : Fin 128) (k : Fin 3204) :
    arr (S := S1x128x3204) (iblk2 V c 0 t) (ix3 0 q k)
      = arr (S := S22x128x3204) (V c main_v4) (ix3 ⟨t.val, lt22C t⟩ q k) := by
  obtain ⟨e0, e1, e2, -⟩ := idxC t
  show V c main_v4 _ = V c main_v4 _
  congr 1
  funext a
  apply Fin.ext
  match a with
  | ⟨0, _⟩ => show win2_0.index t (0 : Fin 3) * 1 + 1 * 0 = t.val; omega
  | ⟨1, _⟩ => show win2_0.index t (1 : Fin 3) * 128 + 1 * q.val = q.val; omega
  | ⟨2, _⟩ => show win2_0.index t (2 : Fin 3) * 3204 + 1 * k.val = k.val; omega

/-- The first convolution's weights: the whole array at every point. -/
theorem iblkC_1 (c : Dev nD) (t : Fin cfg2.N) (p : Fin 3) (q : Fin 128) (k : Fin 128) :
    arr (S := S3x128x128) (iblk2 V c 1 t) (ix3 p q k)
      = arr (S := S3x128x128) (V c main_v35) (ix3 p q k) := by
  obtain ⟨-, -, -, e0, e1, e2, -⟩ := idxC t
  show V c main_v35 _ = V c main_v35 _
  congr 1
  funext a
  apply Fin.ext
  match a with
  | ⟨0, _⟩ => show win2_1.index t (0 : Fin 3) * 3 + 1 * p.val = p.val; omega
  | ⟨1, _⟩ => show win2_1.index t (1 : Fin 3) * 128 + 1 * q.val = q.val; omega
  | ⟨2, _⟩ => show win2_1.index t (2 : Fin 3) * 128 + 1 * k.val = k.val; omega

/-- The second convolution's weights: the whole array at every point. -/
theorem iblkC_2 (c : Dev nD) (t : Fin cfg2.N) (p : Fin 3) (q : Fin 128) (k : Fin 128) :
    arr (S := S3x128x128) (iblk2 V c 2 t) (ix3 p q k)
      = arr (S := S3x128x128) (V c main_v36) (ix3 p q k) := by
  obtain ⟨-, -, -, -, -, -, e0, e1, e2, -⟩ := idxC t
  show V c main_v36 _ = V c main_v36 _
  congr 1
  funext a
  apply Fin.ext
  match a with
  | ⟨0, _⟩ => show win2_2.index t (0 : Fin 3) * 3 + 1 * p.val = p.val; omega
  | ⟨1, _⟩ => show win2_2.index t (1 : Fin 3) * 128 + 1 * q.val = q.val; omega
  | ⟨2, _⟩ => show win2_2.index t (2 : Fin 3) * 128 + 1 * k.val = k.val; omega

/-- The projection's weights: the whole matrix at every point. -/
theorem iblkC_3 (c : Dev nD) (t : Fin cfg2.N) (p : Fin 128) (q : Fin 128) :
    arr (S := S128x128) (iblk2 V c 3 t) (ix2 p q)
      = arr (S := S128x128) (V c main_v37) (ix2 p q) := by
  obtain ⟨-, -, -, -, -, -, -, -, -, e0, e1, -⟩ := idxC t
  show V c main_v37 _ = V c main_v37 _
  congr 1
  funext a
  apply Fin.ext
  match a with
  | ⟨0, _⟩ => show win2_3.index t (0 : Fin 2) * 128 + 1 * p.val = p.val; omega
  | ⟨1, _⟩ => show win2_3.index t (1 : Fin 2) * 128 + 1 * q.val = q.val; omega

/-- The first normalisation's scale: the whole column at every point. -/
theorem iblkC_4 (c : Dev nD) (t : Fin cfg2.N) (p : Fin 128) :
    arr (S := S128x1) (iblk2 V c 4 t) (ix2 p 0)
      = arr (S := S128x1) (V c main_v57) (ix2 p 0) := by
  obtain ⟨-, -, -, -, -, -, -, -, -, -, -, e0, e1, -⟩ := idxC t
  show V c main_v57 _ = V c main_v57 _
  congr 1
  funext a
  apply Fin.ext
  match a with
  | ⟨0, _⟩ => show win2_4.index t (0 : Fin 2) * 128 + 1 * p.val = p.val; omega
  | ⟨1, _⟩ => show win2_4.index t (1 : Fin 2) * 1 + 1 * 0 = 0; omega

/-- The first normalisation's shift: the whole column at every point. -/
theorem iblkC_5 (c : Dev nD) (t : Fin cfg2.N) (p : Fin 128) :
    arr (S := S128x1) (iblk2 V c 5 t) (ix2 p 0)
      = arr (S := S128x1) (V c main_v58) (ix2 p 0) := by
  obtain ⟨-, -, -, -, -, -, -, -, -, -, -, -, -, e0, e1, -⟩ := idxC t
  show V c main_v58 _ = V c main_v58 _
  congr 1
  funext a
  apply Fin.ext
  match a with
  | ⟨0, _⟩ => show win2_5.index t (0 : Fin 2) * 128 + 1 * p.val = p.val; omega
  | ⟨1, _⟩ => show win2_5.index t (1 : Fin 2) * 1 + 1 * 0 = 0; omega

/-- The second normalisation's scale: the whole column at every point. -/
theorem iblkC_6 (c : Dev nD) (t : Fin cfg2.N) (p : Fin 128) :
    arr (S := S128x1) (iblk2 V c 6 t) (ix2 p 0)
      = arr (S := S128x1) (V c main_v78) (ix2 p 0) := by
  obtain ⟨-, -, -, -, -, -, -, -, -, -, -, -, -, -, -, e0, e1, -⟩ := idxC t
  show V c main_v78 _ = V c main_v78 _
  congr 1
  funext a
  apply Fin.ext
  match a with
  | ⟨0, _⟩ => show win2_6.index t (0 : Fin 2) * 128 + 1 * p.val = p.val; omega
  | ⟨1, _⟩ => show win2_6.index t (1 : Fin 2) * 1 + 1 * 0 = 0; omega

/-- The second normalisation's shift: the whole column at every point. -/
theorem iblkC_7 (c : Dev nD) (t : Fin cfg2.N) (p : Fin 128) :
    arr (S := S128x1) (iblk2 V c 7 t) (ix2 p 0)
      = arr (S := S128x1) (V c main_v79) (ix2 p 0) := by
  obtain ⟨-, -, -, -, -, -, -, -, -, -, -, -, -, -, -, -, -, e0, e1, -⟩ := idxC t
  show V c main_v79 _ = V c main_v79 _
  congr 1
  funext a
  apply Fin.ext
  match a with
  | ⟨0, _⟩ => show win2_7.index t (0 : Fin 2) * 128 + 1 * p.val = p.val; omega
  | ⟨1, _⟩ => show win2_7.index t (1 : Fin 2) * 1 + 1 * 0 = 0; omega

/-- The extended-layout mask's block at chunk `t` is row `t` of its array. -/
theorem iblkC_8 (c : Dev nD) (t : Fin cfg2.N) (k : Fin 3202) :
    arr (S := S1x1x3202) (iblk2 V c 8 t) (ix3 0 0 k)
      = arr (S := S22x1x3202) (V c main_v25) (ix3 ⟨t.val, lt22C t⟩ 0 k) := by
  obtain ⟨-, -, -, -, -, -, -, -, -, -, -, -, -, -, -, -, -, -, -, e0, e1, e2, -⟩ := idxC t
  show V c main_v25 _ = V c main_v25 _
  congr 1
  funext a
  apply Fin.ext
  match a with
  | ⟨0, _⟩ => show win2_8.index t (0 : Fin 3) * 1 + 1 * 0 = t.val; omega
  | ⟨1, _⟩ => show win2_8.index t (1 : Fin 3) * 1 + 1 * 0 = 0; omega
  | ⟨2, _⟩ => show win2_8.index t (2 : Fin 3) * 3202 + 1 * k.val = k.val; omega

/-- The block's result at chunk `ch`, output channel `o`, column `j` of the output layout: the second convolution
    (over the masked activation `refAct` of the first) scaled and shifted, plus the projection of the input row at
    column `j + 2`, clamped at zero. -/
def valC9 (c : Dev nD) (ch : Fin 22) (o : Fin 128) (j : Fin 3200) : EReal :=
  max ((taps3 (fun t o ci => arr (S := S3x128x128) (V c main_v36) (ix3 t o ci)) (refAct (fun t o ci => arr (S := S3x128x128) (V c main_v35) (ix3 t o ci)) (fun ci k => arr (S := S22x128x3204) (V c main_v4) (ix3 ch ci k)) (fun ci => arr (S := S128x1) (V c main_v57) (ix2 ci 0)) (fun ci => arr (S := S128x1) (V c main_v58) (ix2 ci 0)) (fun j => arr (S := S22x1x3202) (V c main_v25) (ix3 ch 0 j))) o j.val * arr (S := S128x1) (V c main_v78) (ix2 o 0) + arr (S := S128x1) (V c main_v79) (ix2 o 0))
      + ∑ ci : Fin 128, arr (S := S128x128) (V c main_v37) (ix2 o ci) * at0 (fun k => arr (S := S22x128x3204) (V c main_v4) (ix3 ch ci k)) (j.val + 2)) zero

/-- The output array as a function of the index. -/
def GC9 (c : Dev nD) : S22x128x3200.Idx → EReal :=
  fun i => valC9 V c ⟨(i 0).val, (i 0).isLt⟩ ⟨(i 1).val, (i 1).isLt⟩ ⟨(i 2).val, (i 2).isLt⟩

/-- What the body leaves in the output's buffer at chunk `t`, channel `o`, column `j`. -/
theorem bodyC_9 (c : Dev nD) (t : Fin cfg2.N) (o : Fin 128) (j : Fin 3200) :
    arr (S := S1x128x3200) (out2_9 (iblk2 V c 0 t) (iblk2 V c 1 t) (iblk2 V c 2 t) (iblk2 V c 3 t) (iblk2 V c 4 t) (iblk2 V c 5 t) (iblk2 V c 6 t) (iblk2 V c 7 t) (iblk2 V c 8 t)) (ix3 0 o j) = valC9 V c ⟨t.val, lt22C t⟩ o j := by
  refine (RBody.outC_9_apply (iblk2 V c 0 t) (iblk2 V c 1 t) (iblk2 V c 2 t) (iblk2 V c 3 t) (iblk2 V c 4 t) (iblk2 V c 5 t) (iblk2 V c 6 t) (iblk2 V c 7 t) (iblk2 V c 8 t) o j).trans ?_
  unfold valC9
  have hW1 : (fun t' o ci => arr (S := S3x128x128) (iblk2 V c 1 t) (ix3 t' o ci))
      = fun t' o ci => arr (S := S3x128x128) (V c main_v35) (ix3 t' o ci) :=
    funext fun t' => funext fun o => funext fun ci => iblkC_1 V c t t' o ci
  have hW2 : (fun t' o ci => arr (S := S3x128x128) (iblk2 V c 2 t) (ix3 t' o ci))
      = fun t' o ci => arr (S := S3x128x128) (V c main_v36) (ix3 t' o ci) :=
    funext fun t' => funext fun o => funext fun ci => iblkC_2 V c t t' o ci
  have hX : (fun ci k => arr (S := S1x128x3204) (iblk2 V c 0 t) (ix3 0 ci k))
      = fun ci k => arr (S := S22x128x3204) (V c main_v4) (ix3 ⟨t.val, lt22C t⟩ ci k) :=
    funext fun ci => funext fun k => iblkC_0 V c t ci k
  have hS : (fun ci => arr (S := S128x1) (iblk2 V c 4 t) (ix2 ci 0))
      = fun ci => arr (S := S128x1) (V c main_v57) (ix2 ci 0) :=
    funext fun ci => iblkC_4 V c t ci
  have hT : (fun ci => arr (S := S128x1) (iblk2 V c 5 t) (ix2 ci 0))
      = fun ci => arr (S := S128x1) (V c main_v58) (ix2 ci 0) :=
    funext fun ci => iblkC_5 V c t ci
  have hM : (fun j => arr (S := S1x1x3202) (iblk2 V c 8 t) (ix3 0 0 j))
      = fun j => arr (S := S22x1x3202) (V c main_v25) (ix3 ⟨t.val, lt22C t⟩ 0 j) :=
    funext fun j => iblkC_8 V c t j
  have hP : (∑ ci : Fin 128, arr (S := S128x128) (iblk2 V c 3 t) (ix2 o ci) * at0 (fun k => arr (S := S1x128x3204) (iblk2 V c 0 t) (ix3 0 ci k)) (j.val + 2))
      = ∑ ci : Fin 128, arr (S := S128x128) (V c main_v37) (ix2 o ci) * at0 (fun k => arr (S := S22x128x3204) (V c main_v4) (ix3 ⟨t.val, lt22C t⟩ ci k)) (j.val + 2) :=
    Finset.sum_congr rfl fun ci _ => by
      rw [iblkC_3, show (fun k => arr (S := S1x128x3204) (iblk2 V c 0 t) (ix3 0 ci k))
        = fun k => arr (S := S22x128x3204) (V c main_v4) (ix3 ⟨t.val, lt22C t⟩ ci k) from funext fun k => iblkC_0 V c t ci k]
  show max ((taps3 (fun t' o ci => arr (S := S3x128x128) (iblk2 V c 2 t) (ix3 t' o ci)) (refAct (fun t' o ci => arr (S := S3x128x128) (iblk2 V c 1 t) (ix3 t' o ci)) (fun ci k => arr (S := S1x128x3204) (iblk2 V c 0 t) (ix3 0 ci k)) (fun ci => arr (S := S128x1) (iblk2 V c 4 t) (ix2 ci 0)) (fun ci => arr (S := S128x1) (iblk2 V c 5 t) (ix2 ci 0)) (fun j => arr (S := S1x1x3202) (iblk2 V c 8 t) (ix3 0 0 j))) o j.val * arr (S := S128x1) (iblk2 V c 6 t) (ix2 o 0) + arr (S := S128x1) (iblk2 V c 7 t) (ix2 o 0))
      + ∑ ci : Fin 128, arr (S := S128x128) (iblk2 V c 3 t) (ix2 o ci) * at0 (fun k => arr (S := S1x128x3204) (iblk2 V c 0 t) (ix3 0 ci k)) (j.val + 2)) zero = _
  rw [hP, hW1, hW2, hX, hS, hT, hM, iblkC_6, iblkC_7]

/-- Where an element of chunk `t`'s output block sits in the output array: row `t`, same channel, same column. -/
theorem cutC_9 (c : Dev nD) (t : Fin cfg2.N) (j : S1x128x3200.Idx) :
    arr (S := S1x128x3200) (out2_9 (iblk2 V c 0 t) (iblk2 V c 1 t) (iblk2 V c 2 t) (iblk2 V c 3 t) (iblk2 V c 4 t) (iblk2 V c 5 t) (iblk2 V c 6 t) (iblk2 V c 7 t) (iblk2 V c 8 t)) j
      = GC9 V c (((cfg2.win 9).blk t).view.emb j) := by
  obtain ⟨z, o, l, rfl⟩ : ∃ (z : Fin 1) (o : Fin 128) (l : Fin 3200), j = ix3 z o l := ⟨j 0, j 1, j 2, eq_ix3 j⟩
  obtain rfl : z = 0 := Subsingleton.elim _ _
  refine (bodyC_9 V c t o l).trans ?_
  obtain ⟨-, -, -, -, -, -, -, -, -, -, -, -, -, -, -, -, -, -, -, -, -, -, e0, e1, e2⟩ := idxC t
  unfold GC9
  congr 1
  · apply Fin.ext
    show t.val = win2_9.index t (0 : Fin 3) * 1 + 1 * 0
    omega
  · apply Fin.ext
    show o.val = win2_9.index t (1 : Fin 3) * 128 + 1 * o.val
    omega
  · apply Fin.ext
    show l.val = win2_9.index t (2 : Fin 3) * 3200 + 1 * l.val
    omega

/-- What chunk `t` writes back to the output array is block `t` of `GC9`. -/
theorem flushedC_9 (c : Dev nD) (t : Fin cfg2.N) :
    (dat2 V c).flushed 9 t = ((cfg2.win 9).blk t).view.read (Elt Ideal) (GC9 V c) := by
  show (cfg2.win 9).cut (grid2.coords t) ((dat2 V c).after 9 t) = _
  rw [after2_9]
  funext j
  exact cutC_9 V c t j

/-- An index of the output array is in chunk `t`'s block iff each coordinate is in the block's range on its axis. -/
theorem mem_blkC_9 (t : Fin cfg2.N) (i : S22x128x3200.Idx) :
    i ∈ ((cfg2.win 9).blk t).view.set ↔ ∀ a : Fin 3, win2_9.index t a * S1x128x3200.size a ≤ (i a).val
      ∧ (i a).val < win2_9.index t a * S1x128x3200.size a + S1x128x3200.size a := by
  show i ∈ ((View.whole main_v80).slice (win2_9.rect t)).set ↔ _
  rw [View.set_slice_whole, Rect.mem_set_unit]
  exact Iff.rfl

/-- Every index of the output array lies in the block of the chunk its leading coordinate names. -/
theorem coverC_9 (i : S22x128x3200.Idx) :
    ∃ t : Fin cfg2.N, (cfg2.win 9).flush t = true ∧ i ∈ ((cfg2.win 9).blk t).view.set := by
  have h0 : (i 0).val < 22 := (i 0).isLt
  have h1 : (i 1).val < 128 := (i 1).isLt
  have h2 : (i 2).val < 3200 := (i 2).isLt
  obtain ⟨t, ht⟩ : ∃ t : Fin cfg2.N, t.val = (i 0).val :=
    ⟨⟨(i 0).val, by rw [show cfg2.N = 22 from N_2]; exact h0⟩, rfl⟩
  refine ⟨t, flush2_9 t, ?_⟩
  rw [mem_blkC_9]
  obtain ⟨-, -, -, -, -, -, -, -, -, -, -, -, -, -, -, -, -, -, -, -, -, -, e0, e1, e2⟩ := idxC t
  intro a
  match a with
  | ⟨0, _⟩ => show win2_9.index t (0 : Fin 3) * 1 ≤ (i 0).val ∧ (i 0).val < win2_9.index t (0 : Fin 3) * 1 + 1; omega
  | ⟨1, _⟩ => show win2_9.index t (1 : Fin 3) * 128 ≤ (i 1).val ∧ (i 1).val < win2_9.index t (1 : Fin 3) * 128 + 128; omega
  | ⟨2, _⟩ => show win2_9.index t (2 : Fin 3) * 3200 ≤ (i 2).val ∧ (i 2).val < win2_9.index t (2 : Fin 3) * 3200 + 3200; omega

/-- The output array after the region. -/
theorem finalC_9 (c : Dev nD) : (dat2 V c).arrAt 9 cfg2.N = GC9 V c :=
  (dat2 V c).arrAt_eq_of_cover 9 (GC9 V c) (fun t _ => flushedC_9 V c t) coverC_9

/-- THE OUTPUT of the third region at (chunk, channel, column): the second convolution normalised, plus the projection
    of the input, clamped at zero, in the chunk layout. -/
theorem arrC_9 (V : (c : Dev nD) → (b : Ref sig .tc) → Buf (Elt Ideal) ((c : Thread nD τ).loc b)) (c : Dev nD) (ch : Fin 22) (o : Fin 128) (j : Fin 3200) :
    arr (S := S22x128x3200) ((Gen.dat2 V c).arrAt 9 cfg2.N) (ix3 ch o j)
      = max ((taps3 (fun t o ci => arr (S := S3x128x128) (V c main_v36) (ix3 t o ci)) (refAct (fun t o ci => arr (S := S3x128x128) (V c main_v35) (ix3 t o ci)) (fun ci k => arr (S := S22x128x3204) (V c main_v4) (ix3 ch ci k)) (fun ci => arr (S := S128x1) (V c main_v57) (ix2 ci 0)) (fun ci => arr (S := S128x1) (V c main_v58) (ix2 ci 0)) (fun j => arr (S := S22x1x3202) (V c main_v25) (ix3 ch 0 j))) o j.val * arr (S := S128x1) (V c main_v78) (ix2 o 0) + arr (S := S128x1) (V c main_v79) (ix2 o 0))
          + ∑ ci : Fin 128, arr (S := S128x128) (V c main_v37) (ix2 o ci) * at0 (fun k => arr (S := S22x128x3204) (V c main_v4) (ix3 ch ci k)) (j.val + 2)) zero := by
  rw [finalC_9]
  rfl

end Cert.ReferenceIdeal.RReg

end
-- ==== Proof.RHostKeep.lean ====
/-
  A buffer that no operation of a stretch writes holds after the stretch what it held before: the one step every
  "unchanged" chain of the host-side reads repeats, stated once as a tactic over the stretch's name.
-/
import Idealize.ShloMosaic.Lib.StableHlo.Run

namespace Cert.ReferenceIdeal.RHost

open Idealize.ShloMosaic

/-- Closes `after ops V b = V b` for a literal stretch `ops` none of whose operations writes `b`. -/
macro "unwritten " s:ident : tactic => `(tactic| (
  refine StableHlo.after_of_forall_not_mem _ _ (List.forall_iff_forall_mem.mp ?_)
  simp only [$s:ident, List.Forall, StableHlo.nullary_writes, StableHlo.unary_writes, StableHlo.binary_writes,
    StableHlo.reshape_writes, Finset.mem_singleton]
  repeat' apply And.intro
  all_goals exact StableHlo.devRef_ne_of_ne (by decide)))

end Cert.ReferenceIdeal.RHost
-- ==== Proof.RHostLayout.lean ====
/-
  Layout operations of the reference's input preparation, read at an index over arbitrary arrays.

  The reference pads the batch [64, 128, 1024] with two all-zero samples and two zero columns on each side of every
  row, regroups the 66 padded samples as 22 chunks whose three strips of 1028 columns lie side by side, and pads each
  chunk's row of 3084 columns with zeros to the working width. Each step, applied to any array, is read here at explicit
  coordinates; nothing in this file mentions the program's buffers.
-/
import proofs.«152241_g2000003559913605_pallasbulk_133_2_alg».proof.Proof.Gen.ReferenceIdeal
import Idealize.ShloMosaic.Lib.ValueIdx
import Idealize.ShloMosaic.Lib.Pipeline.Value
import Idealize.ShloMosaic.Lib.KernelVsHost

set_option maxRecDepth 16384

noncomputable section

namespace Cert.ReferenceIdeal.RHost

open Idealize.ShloMosaic Idealize.ShloMosaic.ValueIdx
open Cert.ReferenceIdeal

/-! ## Three layout steps read at an index, over any arrays -/

/-- The batch padded by two all-zero samples after it and two columns on each side of every row: entry (s, ci, q) is
    the batch's entry (s, ci, q − 2) for a genuine sample and a genuine column, and the padding value elsewhere. -/
theorem pad_batch_apply (x : S64x128x1024.Idx → EReal) (z : S_.Idx → EReal)
    (h : S64x128x1024.Pads ![0, 0, 2] ![2, 0, 2] ![0, 0, 0] S66x128x1028) (hu : 0 < S_.numel)
    (s : Fin 66) (ci : Fin 128) (q : Fin 1028) :
    pad S66x128x1028 ![0, 0, 2] ![2, 0, 2] ![0, 0, 0] x z h hu (ix3 s ci q)
      = if hq : s.val < 64 ∧ 2 ≤ q.val ∧ q.val < 1026 then
          x (ix3 (⟨s.val, hq.1⟩ : Fin 64) ci (⟨q.val - 2, by omega⟩ : Fin 1024))
        else z ix0 := by
  by_cases hq : s.val < 64 ∧ 2 ≤ q.val ∧ q.val < 1026
  · rw [dif_pos hq]
    exact pad_apply_of_inside _ _ _ x z h hu (ix3 s ci q)
      (ix3 (⟨s.val, hq.1⟩ : Fin 64) ci (⟨q.val - 2, by omega⟩ : Fin 1024)) (fun a => by
        match a with
        | ⟨0, _⟩ => show s.val = 0 + s.val * 1; omega
        | ⟨1, _⟩ => show ci.val = 0 + ci.val * 1; omega
        | ⟨2, _⟩ => show q.val = 2 + (q.val - 2) * 1; omega)
  · rw [dif_neg hq]
    by_cases hs : s.val < 64
    · refine (pad_apply_of_not_inside _ _ _ x z h hu (ix3 s ci q) ⟨2, by decide⟩ ?_).trans (congrArg z (eq_ix0 _))
      show ¬(2 ≤ q.val ∧ (q.val - 2) % 1 = 0 ∧ (q.val - 2) / 1 < 1024)
      omega
    · refine (pad_apply_of_not_inside _ _ _ x z h hu (ix3 s ci q) ⟨0, by decide⟩ ?_).trans (congrArg z (eq_ix0 _))
      show ¬(0 ≤ s.val ∧ (s.val - 0) % 1 = 0 ∧ (s.val - 0) / 1 < 64)
      omega

/-- The 66 padded samples regrouped as 22 chunks of three strips laid side by side: column j of chunk ch is column
    j % 1028 of sample 3 · ch + j / 1028. -/
theorem strips_apply (y : S66x128x1028.Idx → EReal)
    (h1 : S66x128x1028.ShapeCasts S22x3x128x1028) (h2 : S22x3x128x1028.Transposes [0, 2, 1, 3] S22x128x3x1028)
    (h3 : S22x128x3x1028.ShapeCasts S22x128x3084) (ch : Fin 22) (ci : Fin 128) (j : Fin 3084) :
    shapeCast S22x128x3084 (transpose S22x128x3x1028 [0, 2, 1, 3] (shapeCast S22x3x128x1028 y h1) h2) h3 (ix3 ch ci j)
      = y (ix3 (⟨3 * ch.val + j.val / 1028, by omega⟩ : Fin 66) ci (⟨j.val % 1028, by omega⟩ : Fin 1028)) := by
  refine (shapeCast_apply _ _ (ix3 ch ci j)
    (ix4 ch ci (⟨j.val / 1028, by omega⟩ : Fin 3) (⟨j.val % 1028, by omega⟩ : Fin 1028)) ?_).trans ?_
  · rw [Shape.rowMajor_val_four, Shape.rowMajor_val_three]
    show ((ch.val * 128 + ci.val) * 3 + j.val / 1028) * 1028 + j.val % 1028 = (ch.val * 128 + ci.val) * 3084 + j.val
    omega
  refine (transpose_apply _ _ _ (ix4 ch ci (⟨j.val / 1028, by omega⟩ : Fin 3) (⟨j.val % 1028, by omega⟩ : Fin 1028))
    (ix4 ch (⟨j.val / 1028, by omega⟩ : Fin 3) ci (⟨j.val % 1028, by omega⟩ : Fin 1028)) (fun b => ?_)).trans ?_
  · match b with
    | ⟨0, _⟩ => rfl
    | ⟨1, _⟩ => rfl
    | ⟨2, _⟩ => rfl
    | ⟨3, _⟩ => rfl
  refine shapeCast_apply _ _ (ix4 ch (⟨j.val / 1028, by omega⟩ : Fin 3) ci (⟨j.val % 1028, by omega⟩ : Fin 1028))
    (ix3 (⟨3 * ch.val + j.val / 1028, by omega⟩ : Fin 66) ci (⟨j.val % 1028, by omega⟩ : Fin 1028)) ?_
  rw [Shape.rowMajor_val_three, Shape.rowMajor_val_four]
  show ((3 * ch.val + j.val / 1028) * 128 + ci.val) * 1028 + j.val % 1028
    = ((ch.val * 3 + j.val / 1028) * 128 + ci.val) * 1028 + j.val % 1028
  omega

/-- A chunk's row of 3084 columns padded to 3204: the row's entry below column 3084 and the padding value from there
    on. -/
theorem pad_row_apply (x : S22x128x3084.Idx → EReal) (z : S_.Idx → EReal)
    (h : S22x128x3084.Pads ![0, 0, 0] ![0, 0, 120] ![0, 0, 0] S22x128x3204) (hu : 0 < S_.numel)
    (ch : Fin 22) (ci : Fin 128) (j : Fin 3204) :
    pad S22x128x3204 ![0, 0, 0] ![0, 0, 120] ![0, 0, 0] x z h hu (ix3 ch ci j)
      = if hj : j.val < 3084 then x (ix3 ch ci (⟨j.val, hj⟩ : Fin 3084)) else z ix0 := by
  by_cases hj : j.val < 3084
  · rw [dif_pos hj]
    exact pad_apply_of_inside _ _ _ x z h hu (ix3 ch ci j) (ix3 ch ci (⟨j.val, hj⟩ : Fin 3084)) (fun a => by
      match a with
      | ⟨0, _⟩ => show ch.val = 0 + ch.val * 1; omega
      | ⟨1, _⟩ => show ci.val = 0 + ci.val * 1; omega
      | ⟨2, _⟩ => show j.val = 0 + j.val * 1; omega)
  · rw [dif_neg hj]
    refine (pad_apply_of_not_inside _ _ _ x z h hu (ix3 ch ci j) ⟨2, by decide⟩ ?_).trans (congrArg z (eq_ix0 _))
    show ¬(0 ≤ j.val ∧ (j.val - 0) % 1 = 0 ∧ (j.val - 0) / 1 < 3084)
    omega

/-- The padding value, the integer zero converted, is zero. -/
theorem pad_value_zero (i : S_.Idx) : (sitofp .f32 (constantI S_ 32 0#32) : FVec Ideal S_ .f32) i = (0 : EReal) :=
  sitofp_zero

end Cert.ReferenceIdeal.RHost

end
-- ==== Proof.RHostIn.lean ====
/-
  The first region's input rows read at an index.

  Before its first region the reference builds, from the batch x[n, ci, l] as launched, the rows its regions read:
  chunk ch, channel ci, column j holds x[3·ch + j / 1028, ci, j % 1028 − 2] where that names a genuine sample and a
  genuine column of its strip, and zero elsewhere — in the strips' two halo columns on each side, in the strips of
  the two samples appended to fill the last chunk, and from column 3084 on. Four stretches of operations build the
  rows (a padding, a regrouping, a second padding, each padding value the integer zero converted); the five
  stretches that follow do not write them.
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.RHostKeep
import proofs.«152241_g2000003559913605_pallasbulk_133_2_alg».proof.Proof.RHostLayout
import Idealize.ShloMosaic.Lib.ValueIdx
import Idealize.ShloMosaic.Lib.IdealHost
import Idealize.ShloMosaic.Lib.KernelVsHost

set_option maxRecDepth 16384

noncomputable section

namespace Cert.ReferenceIdeal.RHost

open Idealize.ShloMosaic Idealize.ShloMosaic.TcCoe Idealize.SL.Sem Idealize.ShloMosaic.ValueIdx
open Cert.ReferenceIdeal Cert.ReferenceIdeal.Gen Cert.ResBlock

/-! ## The four stretches that build the input rows, over any contents before each -/

section Steps
variable (V : Valuation τ sig (Elt Ideal))

/-- The first stretch sets the integer scalar to zero. -/
theorem step0_c : (StableHlo.after (hostOps0 (F := Ideal)) V (Proc.devRef .tc main_c) : IVec S_ 32) = constantI S_ 32 0#32 := by
  after_results

/-- The second pads the batch with the scalar converted. -/
theorem step1_v0 :
    (StableHlo.after (hostOps0_1 (F := Ideal)) V (Proc.devRef .tc main_v0) : S66x128x1028.Idx → EReal)
      = pad S66x128x1028 ![0, 0, 2] ![2, 0, 2] ![0, 0, 0] (arr (S := S64x128x1024) (V (Proc.devRef .tc main_arg0)))
          (sitofp .f32 (V (Proc.devRef .tc main_c) : IVec S_ 32) : FVec Ideal S_ .f32)
          pads_S64x128x1024_S66x128x1028_020_000_220 h_S_ := by
  after_results; rfl

/-- The third regroups the padded samples into chunks of three strips, and sets a second integer scalar to zero. -/
theorem step2_v3 :
    (StableHlo.after (hostOps0_2 (F := Ideal)) V (Proc.devRef .tc main_v3) : S22x128x3084.Idx → EReal)
      = shapeCast S22x128x3084 (transpose S22x128x3x1028 [0, 2, 1, 3]
          (shapeCast S22x3x128x1028 (arr (S := S66x128x1028) (V (Proc.devRef .tc main_v0))) shapeCasts_S66x128x1028_S22x3x128x1028)
          transposes_S22x3x128x1028_S22x128x3x1028_0_2_1_3) shapeCasts_S22x128x3x1028_S22x128x3084 := by
  after_results; rfl

theorem step2_c0 :
    (StableHlo.after (hostOps0_2 (F := Ideal)) V (Proc.devRef .tc main_c_0) : IVec S_ 32) = constantI S_ 32 0#32 := by
  after_results

/-- The fourth pads each chunk's row with that scalar converted. -/
theorem step3_v4 :
    (StableHlo.after (hostOps0_3 (F := Ideal)) V (Proc.devRef .tc main_v4) : S22x128x3204.Idx → EReal)
      = pad S22x128x3204 ![0, 0, 0] ![0, 0, 120] ![0, 0, 0] (arr (S := S22x128x3084) (V (Proc.devRef .tc main_v3)))
          (sitofp .f32 (V (Proc.devRef .tc main_c_0) : IVec S_ 32) : FVec Ideal S_ .f32)
          pads_S22x128x3084_S22x128x3204_000_000_01200 h_S_ := by
  after_results; rfl

end Steps

variable (m : (ℓ : Loc nD τ sig) → Buf (Elt Ideal) ℓ) (ρ : Dev nD → PrngReg) (c : Dev nD)

/-- The first stretch leaves the batch as launched. -/
theorem W1_arg0 : (Gen.W1 m ρ c (Proc.devRef .tc main_arg0) : S64x128x1024.Idx → EReal) = m ((c : Thread nD τ).loc main_arg0) :=
  (by unwritten hostOps0 : Gen.W1 m ρ c (Proc.devRef .tc main_arg0) = Gen.W0 m ρ c (Proc.devRef .tc main_arg0)).trans rfl

/-- The five later stretches leave the input rows as the fourth built them. -/
theorem W9_v4 : (Gen.W9 m ρ c (Proc.devRef .tc main_v4) : S22x128x3204.Idx → EReal) = Gen.W4 m ρ c (Proc.devRef .tc main_v4) :=
  calc Gen.W9 m ρ c (Proc.devRef .tc main_v4)
    _ = Gen.W8 m ρ c (Proc.devRef .tc main_v4) := by unwritten hostOps0_8
    _ = Gen.W7 m ρ c (Proc.devRef .tc main_v4) := by unwritten hostOps0_7
    _ = Gen.W6 m ρ c (Proc.devRef .tc main_v4) := by unwritten hostOps0_6
    _ = Gen.W5 m ρ c (Proc.devRef .tc main_v4) := by unwritten hostOps0_5
    _ = Gen.W4 m ρ c (Proc.devRef .tc main_v4) := by unwritten hostOps0_4

/-- The first region's input rows are the batch in the chunked, halo-padded layout. -/
theorem v4_apply (ch : Fin 22) (ci : Fin 128) (j : Fin 3204) :
    arr (S := S22x128x3204) (Gen.W9 m ρ c (Proc.devRef .tc main_v4)) (ix3 ch ci j)
      = xflat (fun n ci l => arr (S := S64x128x1024) (m ((c : Thread nD τ).loc main_arg0)) (ix3 n ci l)) ch ci j := by
  refine (congrFun (W9_v4 m ρ c) (ix3 ch ci j)).trans ?_
  refine (congrFun (step3_v4 (Gen.W3 m ρ c)) (ix3 ch ci j)).trans ?_
  refine (pad_row_apply _ _ _ _ ch ci j).trans ?_
  unfold xflat
  by_cases hj : j.val < 3084
  · rw [dif_pos hj, if_pos hj]
    refine (congrFun (step2_v3 (Gen.W2 m ρ c)) (ix3 ch ci (⟨j.val, hj⟩ : Fin 3084))).trans ?_
    refine (strips_apply _ _ _ _ ch ci (⟨j.val, hj⟩ : Fin 3084)).trans ?_
    refine (congrFun (step1_v0 (Gen.W1 m ρ c)) _).trans ?_
    refine (pad_batch_apply _ _ _ _ _ ci _).trans ?_
    unfold xpad
    by_cases hq : 3 * ch.val + j.val / 1028 < 64 ∧ 2 ≤ j.val % 1028 ∧ j.val % 1028 < 1026
    · rw [dif_pos hq, dif_pos hq, W1_arg0]
    · rw [dif_neg hq, dif_neg hq]
      rw [show (Gen.W1 m ρ c (Proc.devRef .tc main_c) : IVec S_ 32) = constantI S_ 32 0#32 from step0_c (Gen.W0 m ρ c)]
      exact pad_value_zero _
  · rw [dif_neg hj, if_neg hj]
    rw [show (Gen.W3 m ρ c (Proc.devRef .tc main_c_0) : IVec S_ 32) = constantI S_ 32 0#32 from step2_c0 (Gen.W2 m ρ c)]
    exact pad_value_zero _

end Cert.ReferenceIdeal.RHost

end
-- ==== Proof.RHostWeights.lean ====
/-
  The weights the reference's regions read, at an index.

  The last stretch of operations before the first region brings each convolution's weights w[o, ci, t] to the
  tap-major order [t, o, ci] the regions use, and drops the unit tap axis of the projection's weights. No earlier
  stretch writes a weight argument, so the arrays the regions find are the launched weights re-indexed.
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.RHostKeep

import Idealize.ShloMosaic.Lib.ValueIdx
import Idealize.ShloMosaic.Lib.IdealHost
import Idealize.ShloMosaic.Lib.KernelVsHost

set_option maxRecDepth 16384

noncomputable section

namespace Cert.ReferenceIdeal.RHost

open Idealize.ShloMosaic Idealize.ShloMosaic.TcCoe Idealize.SL.Sem Idealize.ShloMosaic.ValueIdx
open Cert.ReferenceIdeal Cert.ReferenceIdeal.Gen Cert.ResBlock

/-! ## The last stretch before the first region, over any contents before it -/

section Steps
variable (V : Valuation τ sig (Elt Ideal))

/-- The first convolution's weights with the tap axis brought to the front. -/
theorem step8_v35 :
    (StableHlo.after (hostOps0_8 (F := Ideal)) V (Proc.devRef .tc main_v35) : S3x128x128.Idx → EReal)
      = transpose S3x128x128 [2, 0, 1] (arr (S := S128x128x3) (V (Proc.devRef .tc main_arg1)))
          transposes_S128x128x3_S3x128x128_2_0_1 := by
  after_results

/-- The second convolution's weights likewise. -/
theorem step8_v36 :
    (StableHlo.after (hostOps0_8 (F := Ideal)) V (Proc.devRef .tc main_v36) : S3x128x128.Idx → EReal)
      = transpose S3x128x128 [2, 0, 1] (arr (S := S128x128x3) (V (Proc.devRef .tc main_arg4)))
          transposes_S128x128x3_S3x128x128_2_0_1 := by
  after_results

/-- The projection's weights with their unit tap axis dropped. -/
theorem step8_v37 :
    (StableHlo.after (hostOps0_8 (F := Ideal)) V (Proc.devRef .tc main_v37) : S128x128.Idx → EReal)
      = shapeCast S128x128 (arr (S := S128x128x1) (V (Proc.devRef .tc main_arg7))) shapeCasts_S128x128x1_S128x128 := by
  after_results; rfl

end Steps

/-- Entry (t, o, ci) of weights [o, ci, t] with the tap axis brought to the front. -/
theorem taps_first_apply (w : S128x128x3.Idx → EReal) (h : S128x128x3.Transposes [2, 0, 1] S3x128x128)
    (t : Fin 3) (o ci : Fin 128) : transpose S3x128x128 [2, 0, 1] w h (ix3 t o ci) = w (ix3 o ci t) :=
  transpose_apply _ w h (ix3 t o ci) (ix3 o ci t) (fun b => by
    match b with
    | ⟨0, _⟩ => rfl
    | ⟨1, _⟩ => rfl
    | ⟨2, _⟩ => rfl)

variable (m : (ℓ : Loc nD τ sig) → Buf (Elt Ideal) ℓ) (ρ : Dev nD → PrngReg) (c : Dev nD)

/-! The eight stretches before the last write none of the three weight arguments. -/

theorem W8_arg1 : Gen.W8 m ρ c (Proc.devRef .tc main_arg1) = m ((c : Thread nD τ).loc main_arg1) :=
  calc Gen.W8 m ρ c (Proc.devRef .tc main_arg1)
    _ = Gen.W7 m ρ c (Proc.devRef .tc main_arg1) := by unwritten hostOps0_7
    _ = Gen.W6 m ρ c (Proc.devRef .tc main_arg1) := by unwritten hostOps0_6
    _ = Gen.W5 m ρ c (Proc.devRef .tc main_arg1) := by unwritten hostOps0_5
    _ = Gen.W4 m ρ c (Proc.devRef .tc main_arg1) := by unwritten hostOps0_4
    _ = Gen.W3 m ρ c (Proc.devRef .tc main_arg1) := by unwritten hostOps0_3
    _ = Gen.W2 m ρ c (Proc.devRef .tc main_arg1) := by unwritten hostOps0_2
    _ = Gen.W1 m ρ c (Proc.devRef .tc main_arg1) := by unwritten hostOps0_1
    _ = Gen.W0 m ρ c (Proc.devRef .tc main_arg1) := by unwritten hostOps0
    _ = m ((c : Thread nD τ).loc main_arg1) := rfl

theorem W8_arg4 : Gen.W8 m ρ c (Proc.devRef .tc main_arg4) = m ((c : Thread nD τ).loc main_arg4) :=
  calc Gen.W8 m ρ c (Proc.devRef .tc main_arg4)
    _ = Gen.W7 m ρ c (Proc.devRef .tc main_arg4) := by unwritten hostOps0_7
    _ = Gen.W6 m ρ c (Proc.devRef .tc main_arg4) := by unwritten hostOps0_6
    _ = Gen.W5 m ρ c (Proc.devRef .tc main_arg4) := by unwritten hostOps0_5
    _ = Gen.W4 m ρ c (Proc.devRef .tc main_arg4) := by unwritten hostOps0_4
    _ = Gen.W3 m ρ c (Proc.devRef .tc main_arg4) := by unwritten hostOps0_3
    _ = Gen.W2 m ρ c (Proc.devRef .tc main_arg4) := by unwritten hostOps0_2
    _ = Gen.W1 m ρ c (Proc.devRef .tc main_arg4) := by unwritten hostOps0_1
    _ = Gen.W0 m ρ c (Proc.devRef .tc main_arg4) := by unwritten hostOps0
    _ = m ((c : Thread nD τ).loc main_arg4) := rfl

theorem W8_arg7 : Gen.W8 m ρ c (Proc.devRef .tc main_arg7) = m ((c : Thread nD τ).loc main_arg7) :=
  calc Gen.W8 m ρ c (Proc.devRef .tc main_arg7)
    _ = Gen.W7 m ρ c (Proc.devRef .tc main_arg7) := by unwritten hostOps0_7
    _ = Gen.W6 m ρ c (Proc.devRef .tc main_arg7) := by unwritten hostOps0_6
    _ = Gen.W5 m ρ c (Proc.devRef .tc main_arg7) := by unwritten hostOps0_5
    _ = Gen.W4 m ρ c (Proc.devRef .tc main_arg7) := by unwritten hostOps0_4
    _ = Gen.W3 m ρ c (Proc.devRef .tc main_arg7) := by unwritten hostOps0_3
    _ = Gen.W2 m ρ c (Proc.devRef .tc main_arg7) := by unwritten hostOps0_2
    _ = Gen.W1 m ρ c (Proc.devRef .tc main_arg7) := by unwritten hostOps0_1
    _ = Gen.W0 m ρ c (Proc.devRef .tc main_arg7) := by unwritten hostOps0
    _ = m ((c : Thread nD τ).loc main_arg7) := rfl

/-- The first region's first-convolution weights are the launched ones, tap-major. -/
theorem v35_apply (t : Fin 3) (o ci : Fin 128) :
    arr (S := S3x128x128) (Gen.W9 m ρ c (Proc.devRef .tc main_v35)) (ix3 t o ci)
      = arr (S := S128x128x3) (m ((c : Thread nD τ).loc main_arg1)) (ix3 o ci t) := by
  refine (congrFun (step8_v35 (Gen.W8 m ρ c)) (ix3 t o ci)).trans ?_
  refine (taps_first_apply _ _ t o ci).trans ?_
  rw [W8_arg1]

/-- The second-convolution weights likewise. -/
theorem v36_apply (t : Fin 3) (o ci : Fin 128) :
    arr (S := S3x128x128) (Gen.W9 m ρ c (Proc.devRef .tc main_v36)) (ix3 t o ci)
      = arr (S := S128x128x3) (m ((c : Thread nD τ).loc main_arg4)) (ix3 o ci t) := by
  refine (congrFun (step8_v36 (Gen.W8 m ρ c)) (ix3 t o ci)).trans ?_
  refine (taps_first_apply _ _ t o ci).trans ?_
  rw [W8_arg4]

/-- The projection's weights are the launched ones at tap 0, their only tap. -/
theorem v37_apply (o ci : Fin 128) :
    arr (S := S128x128) (Gen.W9 m ρ c (Proc.devRef .tc main_v37)) (ix2 o ci)
      = arr (S := S128x128x1) (m ((c : Thread nD τ).loc main_arg7)) (ix3 o ci 0) := by
  refine (congrFun (step8_v37 (Gen.W8 m ρ c)) (ix2 o ci)).trans ?_
  refine (shapeCast_apply _ _ (ix2 o ci) (ix3 o ci 0) ?_).trans ?_
  · rw [Shape.rowMajor_val_three, Shape.rowMajor_val_two]
    show (o.val * 128 + ci.val) * 1 + 0 = o.val * 128 + ci.val
    omega
  · rw [W8_arg7]

end Cert.ReferenceIdeal.RHost

end
-- ==== Proof.RHostBits.lean ====
/-
  What the reference's two masks are made of, over arbitrary arrays.

  A mask entry is a condition on the sample (is sample 3·ch + r one of the 64?) joined with a condition on the strip
  column (1 ≤ q < 1025 for the first mask, q < 1024 for the second), each a comparison of a counter with a constant
  as 32-bit words, converted to the number 1 or 0. This file reads the comparisons as inequalities between numbers,
  the conversion as an if-then-else, and the layout steps that spread the conditions over a chunk's columns, pad them to
  the working width and insert a unit axis, each at explicit coordinates.
-/
import proofs.«152241_g2000003559913605_pallasbulk_133_2_alg».proof.Proof.Gen.ReferenceIdeal
import Idealize.ShloMosaic.Lib.ValueIdx
import Idealize.ShloMosaic.Lib.IdealHost
import Idealize.ShloMosaic.Lib.Pipeline.Value
import Idealize.ShloMosaic.Lib.KernelVsHost
import Idealize.ShloMosaic.Lib.Affine

set_option maxRecDepth 16384

noncomputable section

namespace Cert.ReferenceIdeal.RHost

open Idealize.ShloMosaic Idealize.ShloMosaic.ValueIdx
open Cert.ReferenceIdeal Cert.ReferenceIdeal.Gen

/-! ## Words -/

/-- A number below 2³¹ as a 32-bit word, read signed, is the number. -/
theorem toInt_ofNat_small (a : ℕ) (h : a < 2 ^ 31) : (BitVec.ofNat 32 a).toInt = (a : ℤ) := by
  have h1 : (BitVec.ofNat 32 a).toNat = a := by
    rw [BitVec.toNat_ofNat]; exact Nat.mod_eq_of_lt (by omega)
  rw [BitVec.toInt_eq_toNat_of_lt (by rw [h1]; omega), h1]

/-- Signed "less than" between two such words is "less than" between the numbers. -/
theorem slt_ofNat (a k : ℕ) (ha : a < 2 ^ 31) (hk : k < 2 ^ 31) :
    IntOp.cmpi .slt (BitVec.ofNat 32 a) (BitVec.ofNat 32 k) = 1#1 ↔ a < k := by
  rw [IntOp.cmpi_slt, toInt_ofNat_small a ha, toInt_ofNat_small k hk]; omega

/-- Signed "at least" likewise. -/
theorem sge_ofNat (a k : ℕ) (ha : a < 2 ^ 31) (hk : k < 2 ^ 31) :
    IntOp.cmpi .sge (BitVec.ofNat 32 a) (BitVec.ofNat 32 k) = 1#1 ↔ k ≤ a := by
  rw [IntOp.cmpi_sge, toInt_ofNat_small a ha, toInt_ofNat_small k hk]; omega

/-- A condition bit converted to a number is 1 where the condition holds and 0 where it does not. -/
theorem bit_value (b : BitVec 1) (P : Prop) [Decidable P] (h : b = 1#1 ↔ P) :
    (((b.toNat : ℝ)) : EReal) = if P then 1 else 0 := by
  by_cases hP : P
  · rw [if_pos hP, h.mpr hP]; simp
  · rw [if_neg hP, eq_zero_of_ne_one (fun e => hP (h.mp e))]; simp

/-! ## The three conditions the masks are made of -/

/-- "Sample 3·ch + r is one of the 64": the samples numbered 0 … 65 in chunks of three, compared with 64. -/
def sampleOK : IVec S22x3 1 :=
  cmpi .slt (shapeCast S22x3 (iotaInDim S66 32 0) shapeCasts_S66_S22x3)
    (broadcastInDim S22x3 ![] bcast_S_S22x3 (constantI S_ 32 64#32))

/-- "Strip column q is one of 1 … 1024". -/
def colIn1 : IVec S1028 1 :=
  andi (cmpi .sge (iotaInDim S1028 32 0) (broadcastInDim S1028 ![] bcast_S_S1028 (constantI S_ 32 1#32)))
    (cmpi .slt (iotaInDim S1028 32 0) (broadcastInDim S1028 ![] bcast_S_S1028 (constantI S_ 32 1025#32)))

/-- "Strip column q is one of 0 … 1023". -/
def colIn2 : IVec S1028 1 :=
  cmpi .slt (iotaInDim S1028 32 0) (broadcastInDim S1028 ![] bcast_S_S1028 (constantI S_ 32 1024#32))

theorem sampleOK_iff (ch : Fin 22) (r : Fin 3) : sampleOK (ix2 ch r) = 1#1 ↔ 3 * ch.val + r.val < 64 := by
  have e : shapeCast S22x3 (iotaInDim S66 32 0) shapeCasts_S66_S22x3 (ix2 ch r)
      = BitVec.ofNat 32 (3 * ch.val + r.val) :=
    shapeCast_apply _ _ (ix2 ch r) (ix1 (⟨3 * ch.val + r.val, by omega⟩ : Fin 66)) (by
      rw [Shape.rowMajor_val_one, Shape.rowMajor_val_two]
      show 3 * ch.val + r.val = ch.val * 3 + r.val
      omega)
  show IntOp.cmpi .slt (shapeCast S22x3 (iotaInDim S66 32 0) shapeCasts_S66_S22x3 (ix2 ch r)) (BitVec.ofNat 32 64) = 1#1 ↔ _
  rw [e]
  exact slt_ofNat _ 64 (by omega) (by omega)

theorem colIn1_iff (q : Fin 1028) : colIn1 (ix1 q) = 1#1 ↔ 1 ≤ q.val ∧ q.val < 1025 := by
  show IntOp.andi (IntOp.cmpi .sge (BitVec.ofNat 32 q.val) (BitVec.ofNat 32 1))
      (IntOp.cmpi .slt (BitVec.ofNat 32 q.val) (BitVec.ofNat 32 1025)) = 1#1 ↔ _
  rw [IntOp.andi_eq_one, sge_ofNat _ 1 (by omega) (by omega), slt_ofNat _ 1025 (by omega) (by omega)]

theorem colIn2_iff (q : Fin 1028) : colIn2 (ix1 q) = 1#1 ↔ q.val < 1024 := by
  show IntOp.cmpi .slt (BitVec.ofNat 32 q.val) (BitVec.ofNat 32 1024) = 1#1 ↔ _
  exact slt_ofNat _ 1024 (by omega) (by omega)

/-! ## A sample condition and a column condition laid over a chunk's 3084 columns -/

/-- Both conditions spread over [22, 3, 1028], joined, converted to a number, and the three strips of a chunk laid
    side by side. -/
def grid (sOK : IVec S22x3 1) (col : IVec S1028 1) : FVec Ideal S22x3084 .f32 :=
  shapeCast S22x3084
    (uitofp .f32
      (andi
        (broadcastInDim S22x3x1028 ![0, 1, 2] bcast_S22x3x1_S22x3x1028_0_1_2
          (broadcastInDim S22x3x1 ![0, 1] bcast_S22x3_S22x3x1_0_1 sOK))
        (broadcastInDim S22x3x1028 ![0, 1, 2] bcast_S1x1x1028_S22x3x1028_0_1_2
          (broadcastInDim S1x1x1028 ![2] bcast_S1028_S1x1x1028_2 col))))
    shapeCasts_S22x3x1028_S22x3084

/-- Column j of chunk ch carries the sample condition of strip j / 1028 and the column condition of j % 1028. -/
theorem grid_apply (sOK : IVec S22x3 1) (col : IVec S1028 1) (ch : Fin 22) (j : Fin 3084) :
    grid sOK col (ix2 ch j)
      = ((((IntOp.andi (sOK (ix2 ch (⟨j.val / 1028, by omega⟩ : Fin 3)))
            (col (ix1 (⟨j.val % 1028, by omega⟩ : Fin 1028)))).toNat : ℝ)) : EReal) := by
  have e1 : broadcastInDim S22x3x1028 ![0, 1, 2] bcast_S22x3x1_S22x3x1028_0_1_2
        (broadcastInDim S22x3x1 ![0, 1] bcast_S22x3_S22x3x1_0_1 sOK)
        (ix3 ch (⟨j.val / 1028, by omega⟩ : Fin 3) (⟨j.val % 1028, by omega⟩ : Fin 1028))
      = sOK (ix2 ch (⟨j.val / 1028, by omega⟩ : Fin 3)) :=
    (broadcastInDim_apply _ _ _ (ix3 ch (⟨j.val / 1028, by omega⟩ : Fin 3) (⟨j.val % 1028, by omega⟩ : Fin 1028))
      (ix3 ch (⟨j.val / 1028, by omega⟩ : Fin 3) (0 : Fin 1)) (fun a => by
        match a with
        | ⟨0, _⟩ => rfl
        | ⟨1, _⟩ => rfl
        | ⟨2, _⟩ => rfl)).trans
    (broadcastInDim_apply _ _ _ (ix3 ch (⟨j.val / 1028, by omega⟩ : Fin 3) (0 : Fin 1))
      (ix2 ch (⟨j.val / 1028, by omega⟩ : Fin 3)) (fun a => by
        match a with
        | ⟨0, _⟩ => rfl
        | ⟨1, _⟩ => rfl))
  have e2 : broadcastInDim S22x3x1028 ![0, 1, 2] bcast_S1x1x1028_S22x3x1028_0_1_2
        (broadcastInDim S1x1x1028 ![2] bcast_S1028_S1x1x1028_2 col)
        (ix3 ch (⟨j.val / 1028, by omega⟩ : Fin 3) (⟨j.val % 1028, by omega⟩ : Fin 1028))
      = col (ix1 (⟨j.val % 1028, by omega⟩ : Fin 1028)) :=
    (broadcastInDim_apply _ _ _ (ix3 ch (⟨j.val / 1028, by omega⟩ : Fin 3) (⟨j.val % 1028, by omega⟩ : Fin 1028))
      (ix3 (0 : Fin 1) (0 : Fin 1) (⟨j.val % 1028, by omega⟩ : Fin 1028)) (fun a => by
        match a with
        | ⟨0, _⟩ => rfl
        | ⟨1, _⟩ => rfl
        | ⟨2, _⟩ => rfl)).trans
    (broadcastInDim_apply _ _ _ (ix3 (0 : Fin 1) (0 : Fin 1) (⟨j.val % 1028, by omega⟩ : Fin 1028))
      (ix1 (⟨j.val % 1028, by omega⟩ : Fin 1028)) (fun a => by
        match a with
        | ⟨0, _⟩ => rfl))
  unfold grid
  refine (shapeCast_apply _ _ (ix2 ch j)
    (ix3 ch (⟨j.val / 1028, by omega⟩ : Fin 3) (⟨j.val % 1028, by omega⟩ : Fin 1028)) ?_).trans ?_
  · rw [Shape.rowMajor_val_three, Shape.rowMajor_val_two]
    show (ch.val * 3 + j.val / 1028) * 1028 + j.val % 1028 = ch.val * 3084 + j.val
    omega
  show ((((IntOp.andi _ _).toNat : ℝ)) : EReal) = _
  rw [e1, e2]

/-- A chunk's 3084 mask columns padded to 3202: the entry below column 3084, the padding value from there on. -/
theorem pad_cols3202_apply (x : S22x3084.Idx → EReal) (z : S_.Idx → EReal)
    (h : S22x3084.Pads ![0, 0] ![0, 118] ![0, 0] S22x3202) (hu : 0 < S_.numel) (ch : Fin 22) (j : Fin 3202) :
    pad S22x3202 ![0, 0] ![0, 118] ![0, 0] x z h hu (ix2 ch j)
      = if hj : j.val < 3084 then x (ix2 ch (⟨j.val, hj⟩ : Fin 3084)) else z ix0 := by
  by_cases hj : j.val < 3084
  · rw [dif_pos hj]
    exact pad_apply_of_inside _ _ _ x z h hu (ix2 ch j) (ix2 ch (⟨j.val, hj⟩ : Fin 3084)) (fun a => by
      match a with
      | ⟨0, _⟩ => show ch.val = 0 + ch.val * 1; omega
      | ⟨1, _⟩ => show j.val = 0 + j.val * 1; omega)
  · rw [dif_neg hj]
    refine (pad_apply_of_not_inside _ _ _ x z h hu (ix2 ch j) ⟨1, by decide⟩ ?_).trans (congrArg z (eq_ix0 _))
    show ¬(0 ≤ j.val ∧ (j.val - 0) % 1 = 0 ∧ (j.val - 0) / 1 < 3084)
    omega

/-- A mask [22, 3202] given a unit middle axis: entry (ch, 0, j) is entry (ch, j). -/
theorem unit_axis3202_apply (x : S22x3202.Idx → EReal) (h : S22x3202.BroadcastsInDim S22x1x3202 ![0, 2])
    (ch : Fin 22) (u : Fin 1) (j : Fin 3202) :
    broadcastInDim S22x1x3202 ![0, 2] h x (ix3 ch u j) = x (ix2 ch j) :=
  broadcastInDim_apply _ h x (ix3 ch u j) (ix2 ch j) (fun a => by
    match a with
    | ⟨0, _⟩ => rfl
    | ⟨1, _⟩ => rfl)

/-- A chunk's 3084 mask columns padded to 3200: the entry below column 3084, the padding value from there on. -/
theorem pad_cols3200_apply (x : S22x3084.Idx → EReal) (z : S_.Idx → EReal)
    (h : S22x3084.Pads ![0, 0] ![0, 116] ![0, 0] S22x3200) (hu : 0 < S_.numel) (ch : Fin 22) (j : Fin 3200) :
    pad S22x3200 ![0, 0] ![0, 116] ![0, 0] x z h hu (ix2 ch j)
      = if hj : j.val < 3084 then x (ix2 ch (⟨j.val, hj⟩ : Fin 3084)) else z ix0 := by
  by_cases hj : j.val < 3084
  · rw [dif_pos hj]
    exact pad_apply_of_inside _ _ _ x z h hu (ix2 ch j) (ix2 ch (⟨j.val, hj⟩ : Fin 3084)) (fun a => by
      match a with
      | ⟨0, _⟩ => show ch.val = 0 + ch.val * 1; omega
      | ⟨1, _⟩ => show j.val = 0 + j.val * 1; omega)
  · rw [dif_neg hj]
    refine (pad_apply_of_not_inside _ _ _ x z h hu (ix2 ch j) ⟨1, by decide⟩ ?_).trans (congrArg z (eq_ix0 _))
    show ¬(0 ≤ j.val ∧ (j.val - 0) % 1 = 0 ∧ (j.val - 0) / 1 < 3084)
    omega

/-- A mask [22, 3200] given a unit middle axis: entry (ch, 0, j) is entry (ch, j). -/
theorem unit_axis3200_apply (x : S22x3200.Idx → EReal) (h : S22x3200.BroadcastsInDim S22x1x3200 ![0, 2])
    (ch : Fin 22) (u : Fin 1) (j : Fin 3200) :
    broadcastInDim S22x1x3200 ![0, 2] h x (ix3 ch u j) = x (ix2 ch j) :=
  broadcastInDim_apply _ h x (ix3 ch u j) (ix2 ch j) (fun a => by
    match a with
    | ⟨0, _⟩ => rfl
    | ⟨1, _⟩ => rfl)

end Cert.ReferenceIdeal.RHost

end
-- ==== Proof.RHostMask.lean ====
/-
  The reference's two masks read at an index.

  Five stretches of operations before the first region build the masks from counters and constants alone: the
  first mask [22, 1, 3202] is 1 at column j of chunk ch exactly when j lies in the chunk's three strips, sample
  3·ch + j / 1028 is one of the 64, and the strip column j % 1028 is one of 1 … 1024; the second [22, 1, 3200]
  likewise with strip columns 0 … 1023. Everywhere else both are 0 — a condition that fails, or the zero the columns
  from 3084 on are padded with.
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.RHostKeep
import proofs.«152241_g2000003559913605_pallasbulk_133_2_alg».proof.Proof.RHostLayout
import proofs.«152241_g2000003559913605_pallasbulk_133_2_alg».proof.Proof.RHostBits
import Idealize.ShloMosaic.Lib.ValueIdx
import Idealize.ShloMosaic.Lib.IdealHost
import Idealize.ShloMosaic.Lib.KernelVsHost

set_option maxRecDepth 16384

noncomputable section

namespace Cert.ReferenceIdeal.RHost

open Idealize.ShloMosaic Idealize.ShloMosaic.TcCoe Idealize.SL.Sem Idealize.ShloMosaic.ValueIdx
open Cert.ReferenceIdeal Cert.ReferenceIdeal.Gen Cert.ResBlock

/-! ## The five stretches that build the masks, over any contents before each -/

section Steps
variable (V : Valuation τ sig (Elt Ideal))

/-- The fifth stretch computes the sample condition, both column conditions, the first mask's 3084 columns, and an
    integer zero. -/
theorem step4_v8 :
    (StableHlo.after (hostOps0_4 (F := Ideal)) V (Proc.devRef .tc main_v8) : IVec S22x3 1) = sampleOK := by
  after_results <;> rfl

theorem step4_v16 :
    (StableHlo.after (hostOps0_4 (F := Ideal)) V (Proc.devRef .tc main_v16) : IVec S1028 1) = colIn2 := by
  after_results <;> rfl

theorem step4_v23 :
    (StableHlo.after (hostOps0_4 (F := Ideal)) V (Proc.devRef .tc main_v23) : S22x3084.Idx → EReal)
      = grid sampleOK colIn1 := by
  after_results_simp <;> rfl

theorem step4_c5 :
    (StableHlo.after (hostOps0_4 (F := Ideal)) V (Proc.devRef .tc main_c_5) : IVec S_ 32) = constantI S_ 32 0#32 := by
  after_results <;> rfl

/-- The sixth pads the first mask's columns to 3202 with that zero converted. -/
theorem step5_v24 :
    (StableHlo.after (hostOps0_5 (F := Ideal)) V (Proc.devRef .tc main_v24) : S22x3202.Idx → EReal)
      = pad S22x3202 ![0, 0] ![0, 118] ![0, 0] (arr (S := S22x3084) (V (Proc.devRef .tc main_v23)))
          (sitofp .f32 (V (Proc.devRef .tc main_c_5) : IVec S_ 32) : FVec Ideal S_ .f32)
          pads_S22x3084_S22x3202_000_01180 h_S_ := by
  after_results <;> rfl

/-- The seventh gives the first mask its unit middle axis, lays the sample condition and the second column condition
    over the 3084 columns, and computes another integer zero. -/
theorem step6_v25 :
    (StableHlo.after (hostOps0_6 (F := Ideal)) V (Proc.devRef .tc main_v25) : S22x1x3202.Idx → EReal)
      = broadcastInDim S22x1x3202 ![0, 2] bcast_S22x3202_S22x1x3202_0_2 (arr (S := S22x3202) (V (Proc.devRef .tc main_v24))) := by
  after_results <;> rfl

theorem step6_v32 :
    (StableHlo.after (hostOps0_6 (F := Ideal)) V (Proc.devRef .tc main_v32) : S22x3084.Idx → EReal)
      = grid (V (Proc.devRef .tc main_v8) : IVec S22x3 1) (V (Proc.devRef .tc main_v16) : IVec S1028 1) := by
  after_results <;> rfl

theorem step6_c6 :
    (StableHlo.after (hostOps0_6 (F := Ideal)) V (Proc.devRef .tc main_c_6) : IVec S_ 32) = constantI S_ 32 0#32 := by
  after_results <;> rfl

/-- The eighth pads the second mask's columns to 3200. -/
theorem step7_v33 :
    (StableHlo.after (hostOps0_7 (F := Ideal)) V (Proc.devRef .tc main_v33) : S22x3200.Idx → EReal)
      = pad S22x3200 ![0, 0] ![0, 116] ![0, 0] (arr (S := S22x3084) (V (Proc.devRef .tc main_v32)))
          (sitofp .f32 (V (Proc.devRef .tc main_c_6) : IVec S_ 32) : FVec Ideal S_ .f32)
          pads_S22x3084_S22x3200_000_01160 h_S_ := by
  after_results <;> rfl

/-- The ninth gives the second mask its unit middle axis. -/
theorem step8_v34 :
    (StableHlo.after (hostOps0_8 (F := Ideal)) V (Proc.devRef .tc main_v34) : S22x1x3200.Idx → EReal)
      = broadcastInDim S22x1x3200 ![0, 2] bcast_S22x3200_S22x1x3200_0_2 (arr (S := S22x3200) (V (Proc.devRef .tc main_v33))) := by
  after_results <;> rfl

end Steps

variable (m : (ℓ : Loc nD τ sig) → Buf (Elt Ideal) ℓ) (ρ : Dev nD → PrngReg) (c : Dev nD)

/-- The last two stretches leave the first mask as the seventh built it. -/
theorem W9_v25 : (Gen.W9 m ρ c (Proc.devRef .tc main_v25) : S22x1x3202.Idx → EReal) = Gen.W7 m ρ c (Proc.devRef .tc main_v25) :=
  calc Gen.W9 m ρ c (Proc.devRef .tc main_v25)
    _ = Gen.W8 m ρ c (Proc.devRef .tc main_v25) := by unwritten hostOps0_8
    _ = Gen.W7 m ρ c (Proc.devRef .tc main_v25) := by unwritten hostOps0_7

/-- The sixth stretch leaves the sample condition and the second column condition as the fifth computed them. -/
theorem W6_v8 : (Gen.W6 m ρ c (Proc.devRef .tc main_v8) : IVec S22x3 1) = sampleOK :=
  (by unwritten hostOps0_5 : Gen.W6 m ρ c (Proc.devRef .tc main_v8) = Gen.W5 m ρ c (Proc.devRef .tc main_v8)).trans
    (step4_v8 (Gen.W4 m ρ c))

theorem W6_v16 : (Gen.W6 m ρ c (Proc.devRef .tc main_v16) : IVec S1028 1) = colIn2 :=
  (by unwritten hostOps0_5 : Gen.W6 m ρ c (Proc.devRef .tc main_v16) = Gen.W5 m ρ c (Proc.devRef .tc main_v16)).trans
    (step4_v16 (Gen.W4 m ρ c))

/-- The first mask: 1 on strip columns 1 … 1024 of a genuine sample, 0 elsewhere. -/
theorem v25_apply (ch : Fin 22) (j : Fin 3202) :
    arr (S := S22x1x3202) (Gen.W9 m ρ c (Proc.devRef .tc main_v25)) (ix3 ch 0 j) = mask1 ch j := by
  refine (congrFun (W9_v25 m ρ c) (ix3 ch 0 j)).trans ?_
  refine (congrFun (step6_v25 (Gen.W6 m ρ c)) (ix3 ch 0 j)).trans ?_
  refine (unit_axis3202_apply _ _ ch 0 j).trans ?_
  refine (congrFun (step5_v24 (Gen.W5 m ρ c)) (ix2 ch j)).trans ?_
  refine (pad_cols3202_apply _ _ _ _ ch j).trans ?_
  unfold mask1
  by_cases hj : j.val < 3084
  · rw [dif_pos hj]
    refine (congrFun (step4_v23 (Gen.W4 m ρ c)) (ix2 ch (⟨j.val, hj⟩ : Fin 3084))).trans ?_
    refine (grid_apply _ _ ch (⟨j.val, hj⟩ : Fin 3084)).trans ?_
    refine (bit_value _ (3 * ch.val + j.val / 1028 < 64 ∧ 1 ≤ j.val % 1028 ∧ j.val % 1028 < 1025) ?_).trans ?_
    · rw [IntOp.andi_eq_one, sampleOK_iff, colIn1_iff] <;> exact Iff.rfl
    · by_cases hP : 3 * ch.val + j.val / 1028 < 64 ∧ 1 ≤ j.val % 1028 ∧ j.val % 1028 < 1025
      · rw [if_pos hP, if_pos ⟨hj, hP⟩]
      · rw [if_neg hP, if_neg (fun h => hP h.2)]
  · rw [dif_neg hj, if_neg (fun h => hj h.1)]
    rw [show (Gen.W5 m ρ c (Proc.devRef .tc main_c_5) : IVec S_ 32) = constantI S_ 32 0#32 from step4_c5 (Gen.W4 m ρ c)]
    exact pad_value_zero _

/-- The second mask: 1 on strip columns 0 … 1023 of a genuine sample, 0 elsewhere. -/
theorem v34_apply (ch : Fin 22) (j : Fin 3200) :
    arr (S := S22x1x3200) (Gen.W9 m ρ c (Proc.devRef .tc main_v34)) (ix3 ch 0 j) = mask2 ch j := by
  refine (congrFun (step8_v34 (Gen.W8 m ρ c)) (ix3 ch 0 j)).trans ?_
  refine (unit_axis3200_apply _ _ ch 0 j).trans ?_
  refine (congrFun (step7_v33 (Gen.W7 m ρ c)) (ix2 ch j)).trans ?_
  refine (pad_cols3200_apply _ _ _ _ ch j).trans ?_
  unfold mask2
  by_cases hj : j.val < 3084
  · rw [dif_pos hj]
    refine (congrFun (step6_v32 (Gen.W6 m ρ c)) (ix2 ch (⟨j.val, hj⟩ : Fin 3084))).trans ?_
    refine (grid_apply _ _ ch (⟨j.val, hj⟩ : Fin 3084)).trans ?_
    rw [W6_v8, W6_v16]
    refine (bit_value _ (3 * ch.val + j.val / 1028 < 64 ∧ j.val % 1028 < 1024) ?_).trans ?_
    · rw [IntOp.andi_eq_one, sampleOK_iff, colIn2_iff] <;> exact Iff.rfl
    · by_cases hP : 3 * ch.val + j.val / 1028 < 64 ∧ j.val % 1028 < 1024
      · rw [if_pos hP, if_pos ⟨hj, hP⟩]
      · rw [if_neg hP, if_neg (fun h => hP h.2)]
  · rw [dif_neg hj, if_neg (fun h => hj h.1)]
    rw [show (Gen.W7 m ρ c (Proc.devRef .tc main_c_6) : IVec S_ 32) = constantI S_ 32 0#32 from step6_c6 (Gen.W6 m ρ c)]
    exact pad_value_zero _

end Cert.ReferenceIdeal.RHost

end
-- ==== Proof.RHost0.lean ====
/-
  The arrays the reference's first region finds, each read at an index: the input rows in the chunked, halo-padded
  layout, the two masks, both convolutions' weights tap-major, and the projection's weights. The statements are in
  the three modules imported here; this module only gathers them.
-/
import proofs.«152241_g2000003559913605_pallasbulk_133_2_alg».proof.Proof.RHostIn
import proofs.«152241_g2000003559913605_pallasbulk_133_2_alg».proof.Proof.RHostWeights
import proofs.«152241_g2000003559913605_pallasbulk_133_2_alg».proof.Proof.RHostMask
-- ==== Proof.RHostTail.lean ====
/-
  The reference's result array read at an index.

  After its third region the reference holds the block's result in its own layout: 22 chunks, each a row of 3200
  columns per channel, of which the first 3084 are three strips of 1028 columns, one per sample of the chunk, and of a
  strip the first 1024 columns are the sample's entries. Five layout operations bring that array to the shape
  [64, 128, 1024] of the result. Read at (n, o, l) they name one entry of the region's array: chunk n / 3,
  channel o, column (n % 3) · 1028 + l.
-/
import proofs.«152241_g2000003559913605_pallasbulk_133_2_alg».proof.Proof.Gen.ReferenceIdeal.Frame
import proofs.«152241_g2000003559913605_pallasbulk_133_2_alg».proof.Proof.Spec
import Idealize.ShloMosaic.Lib.ValueIdx
import Idealize.ShloMosaic.Lib.Pipeline.Value

set_option maxRecDepth 16384

noncomputable section

namespace Cert.ReferenceIdeal.RHost

open Idealize.ShloMosaic Idealize.ShloMosaic.TcCoe Idealize.SL.Sem Idealize.ShloMosaic.ValueIdx
open Cert.ReferenceIdeal Cert.ReferenceIdeal.Gen Cert.ResBlock

variable (m : (ℓ : Loc nD τ sig) → Buf (Elt Ideal) ℓ) (ρ : Dev nD → PrngReg) (c : Dev nD)

/-- The result array is the last region's output array with the layout undone: entry (n, o, l) is the entry of
    chunk n / 3, channel o, at column (n % 3) · 1028 + l of the chunk's row — strip n % 3 of the chunk, whose first
    1024 columns are the sample's entries. The five operations are a slice to the 3084 strip columns, the split of a
    row into its three strips, the exchange of the strip and channel axes, the merge of chunk and strip into the sample
    axis, and the slice to the 64 genuine samples and 1024 genuine columns. -/
theorem v85_apply (n : Fin 64) (o : Fin 128) (l : Fin 1024) :
    arr (S := S64x128x1024) (Gen.W15 m ρ c (Proc.devRef .tc main_v85)) (ix3 n o l)
      = arr (S := S22x128x3200) (Gen.W14 m ρ c (Proc.devRef .tc main_v80))
          (ix3 (⟨n.val / 3, by omega⟩ : Fin 22) o (⟨(n.val % 3) * 1028 + l.val, by omega⟩ : Fin 3200)) := by
  have e : (Gen.W15 m ρ c (Proc.devRef .tc main_v85) : S64x128x1024.Idx → EReal)
      = extractStridedSlice S64x128x1024 ![0, 0, 0]
          (shapeCast S66x128x1028
            (transpose S22x3x128x1028 [0, 2, 1, 3]
              (shapeCast S22x128x3x1028
                (extractStridedSlice S22x128x3084 ![0, 0, 0]
                  (arr (S := S22x128x3200) (Gen.W14 m ρ c (Proc.devRef .tc main_v80)))
                  slices_S22x128x3200_S22x128x3084_0_0_0)
                shapeCasts_S22x128x3084_S22x128x3x1028)
              transposes_S22x128x3x1028_S22x3x128x1028_0_2_1_3)
            shapeCasts_S22x3x128x1028_S66x128x1028)
          slices_S66x128x1028_S64x128x1024_0_0_0 := by
    show StableHlo.after hostOps3 (W14 m ρ c) (Proc.devRef .tc main_v85) = _
    after_results; rfl
  refine (congrFun e (ix3 n o l)).trans ?_
  -- the slice to 64 samples and 1024 columns starts at the origin
  refine (extractStridedSlice_apply _ _ _ (ix3 n o l)
    (ix3 (⟨n.val, by omega⟩ : Fin 66) o (⟨l.val, by omega⟩ : Fin 1028)) (fun a => ?_)).trans ?_
  · match a with
    | ⟨0, _⟩ => show n.val = 0 + n.val; omega
    | ⟨1, _⟩ => show o.val = 0 + o.val; omega
    | ⟨2, _⟩ => show l.val = 0 + l.val; omega
  -- sample n is strip n % 3 of chunk n / 3
  refine (shapeCast_apply _ _ (ix3 (⟨n.val, by omega⟩ : Fin 66) o (⟨l.val, by omega⟩ : Fin 1028))
    (ix4 (⟨n.val / 3, by omega⟩ : Fin 22) (⟨n.val % 3, by omega⟩ : Fin 3) o (⟨l.val, by omega⟩ : Fin 1028)) ?_).trans ?_
  · rw [Shape.rowMajor_val_four, Shape.rowMajor_val_three]
    show (((n.val / 3) * 3 + n.val % 3) * 128 + o.val) * 1028 + l.val = (n.val * 128 + o.val) * 1028 + l.val
    have := Nat.div_add_mod n.val 3
    have h3 : (n.val / 3) * 3 + n.val % 3 = n.val := by omega
    rw [h3]
  -- the strip and channel axes change places
  refine (transpose_apply _ _ _ (ix4 (⟨n.val / 3, by omega⟩ : Fin 22) (⟨n.val % 3, by omega⟩ : Fin 3) o (⟨l.val, by omega⟩ : Fin 1028))
    (ix4 (⟨n.val / 3, by omega⟩ : Fin 22) o (⟨n.val % 3, by omega⟩ : Fin 3) (⟨l.val, by omega⟩ : Fin 1028)) (fun b => ?_)).trans ?_
  · match b with
    | ⟨0, _⟩ => rfl
    | ⟨1, _⟩ => rfl
    | ⟨2, _⟩ => rfl
    | ⟨3, _⟩ => rfl
  -- strip r of a row starts at column 1028 · r
  refine (shapeCast_apply _ _ (ix4 (⟨n.val / 3, by omega⟩ : Fin 22) o (⟨n.val % 3, by omega⟩ : Fin 3) (⟨l.val, by omega⟩ : Fin 1028))
    (ix3 (⟨n.val / 3, by omega⟩ : Fin 22) o (⟨(n.val % 3) * 1028 + l.val, by omega⟩ : Fin 3084)) ?_).trans ?_
  · rw [Shape.rowMajor_val_three, Shape.rowMajor_val_four]
    show ((n.val / 3) * 128 + o.val) * 3084 + ((n.val % 3) * 1028 + l.val)
      = ((((n.val / 3) * 128 + o.val) * 3 + n.val % 3) * 1028 + l.val)
    ring
  -- the slice to the strip columns starts at the origin
  refine (extractStridedSlice_apply _ _ _ (ix3 (⟨n.val / 3, by omega⟩ : Fin 22) o (⟨(n.val % 3) * 1028 + l.val, by omega⟩ : Fin 3084))
    (ix3 (⟨n.val / 3, by omega⟩ : Fin 22) o (⟨(n.val % 3) * 1028 + l.val, by omega⟩ : Fin 3200)) (fun a => ?_)).trans ?_
  · match a with
    | ⟨0, _⟩ => show n.val / 3 = 0 + n.val / 3; omega
    | ⟨1, _⟩ => show o.val = 0 + o.val; omega
    | ⟨2, _⟩ => show (n.val % 3) * 1028 + l.val = 0 + ((n.val % 3) * 1028 + l.val); omega
  rfl

end Cert.ReferenceIdeal.RHost

end
-- ==== Proof.RHost1.lean ====
/-
  The normalisation constants of the first convolution as the reference's next pass finds them: the per-chunk partial
  sums and sums of squares the previous pass left ([22, 128, 1]) are added up over the 22 chunks, and the scale and shift
  of each channel computed from the two totals and the affine parameters; both are handed on as columns [128, 1].
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.FinLaw
import proofs.«152241_g2000003559913605_pallasbulk_133_2_alg».proof.Proof.LibUnitColumns
import Idealize.ShloMosaic.Lib.StableHlo.Run

set_option maxRecDepth 16384

noncomputable section

namespace Cert.ReferenceIdeal.RHost

open Idealize.ShloMosaic Idealize.ShloMosaic.TcCoe Idealize.SL.Sem Idealize.ShloMosaic.ValueIdx
open Cert.ReferenceIdeal Cert.ReferenceIdeal.Gen Cert.ResBlock

variable (m : (ℓ : Loc nD τ sig) → Buf (Elt Ideal) ℓ) (ρ : Dev nD → PrngReg) (c : Dev nD)

/-- The total of the partial sums, per channel, as the host forms it. -/
abbrev tot1 : FVec Ideal S128 .f32 :=
  Host.reduceAdd (F := Ideal) (shapeCast S22x128 (Gen.W10 m ρ c (Proc.devRef .tc main_v38_0)) shapeCasts_S22x128x1_S22x128)
    (constant S_ .f32 0x00000000#32) reducesTo_S22x128_S128_d0 h_S_
/-- The total of the partial sums of squares. -/
abbrev totSq1 : FVec Ideal S128 .f32 :=
  Host.reduceAdd (F := Ideal) (shapeCast S22x128 (Gen.W10 m ρ c (Proc.devRef .tc main_v38_1)) shapeCasts_S22x128x1_S22x128)
    (constant S_ .f32 0x00000000#32) reducesTo_S22x128_S128_d0 h_S_

set_option maxHeartbeats 1000000 in
theorem v57_eq : (Gen.W11 m ρ c (Proc.devRef .tc main_v57) : S128x1.Idx → EReal) =
    shapeCast S128x1 (FinLaw.scaleV bcast_S_S128 (tot1 m ρ c) (totSq1 m ρ c)
      (Gen.W10 m ρ c (Proc.devRef .tc main_arg2))) shapeCasts_S128_S128x1 := by
  dsimp only [Gen.W11, hostOps1]
  after_results_simp
  rfl

set_option maxHeartbeats 1000000 in
theorem v58_eq : (Gen.W11 m ρ c (Proc.devRef .tc main_v58) : S128x1.Idx → EReal) =
    shapeCast S128x1 (FinLaw.shiftV bcast_S_S128 (tot1 m ρ c) (totSq1 m ρ c)
      (Gen.W10 m ρ c (Proc.devRef .tc main_arg2)) (Gen.W10 m ρ c (Proc.devRef .tc main_arg3))) shapeCasts_S128_S128x1 := by
  dsimp only [Gen.W11, hostOps1]
  after_results_simp
  rfl

theorem tot1_apply (o : Fin 128) :
    tot1 m ρ c (ix1 o) = ∑ ch : Fin 22, arr (S := S22x128x1) (Gen.W10 m ρ c (Proc.devRef .tc main_v38_0)) (ix3 ch o (0 : Fin 1)) :=
  FinLaw.colsum_apply _ _ _ (by decide) _ o

theorem totSq1_apply (o : Fin 128) :
    totSq1 m ρ c (ix1 o) = ∑ ch : Fin 22, arr (S := S22x128x1) (Gen.W10 m ρ c (Proc.devRef .tc main_v38_1)) (ix3 ch o (0 : Fin 1)) :=
  FinLaw.colsum_apply _ _ _ (by decide) _ o

/-- The scale column at channel o. -/
theorem v57_apply (o : Fin 128) :
    arr (S := S128x1) (Gen.W11 m ρ c (Proc.devRef .tc main_v57)) (ix2 o (0 : Fin 1))
      = scale (fun o => ∑ ch : Fin 22, arr (S := S22x128x1) (Gen.W10 m ρ c (Proc.devRef .tc main_v38_0)) (ix3 ch o (0 : Fin 1)))
              (fun o => ∑ ch : Fin 22, arr (S := S22x128x1) (Gen.W10 m ρ c (Proc.devRef .tc main_v38_1)) (ix3 ch o (0 : Fin 1)))
              (fun o => arr (S := S128) (Gen.W10 m ρ c (Proc.devRef .tc main_arg2)) (ix1 o)) o := by
  show (Gen.W11 m ρ c (Proc.devRef .tc main_v57) : S128x1.Idx → EReal) (ix2 o (0 : Fin 1)) = _
  rw [v57_eq, Cert.LibUnitColumns.shapeCast_a_a1_apply, FinLaw.scaleV_apply]
  exact FinLaw.scale_congr (tot1_apply m ρ c) (totSq1_apply m ρ c) (fun _ => rfl) o

/-- The shift column at channel o. -/
theorem v58_apply (o : Fin 128) :
    arr (S := S128x1) (Gen.W11 m ρ c (Proc.devRef .tc main_v58)) (ix2 o (0 : Fin 1))
      = shift (fun o => ∑ ch : Fin 22, arr (S := S22x128x1) (Gen.W10 m ρ c (Proc.devRef .tc main_v38_0)) (ix3 ch o (0 : Fin 1)))
              (fun o => ∑ ch : Fin 22, arr (S := S22x128x1) (Gen.W10 m ρ c (Proc.devRef .tc main_v38_1)) (ix3 ch o (0 : Fin 1)))
              (fun o => arr (S := S128) (Gen.W10 m ρ c (Proc.devRef .tc main_arg2)) (ix1 o))
              (fun o => arr (S := S128) (Gen.W10 m ρ c (Proc.devRef .tc main_arg3)) (ix1 o)) o := by
  show (Gen.W11 m ρ c (Proc.devRef .tc main_v58) : S128x1.Idx → EReal) (ix2 o (0 : Fin 1)) = _
  rw [v58_eq, Cert.LibUnitColumns.shapeCast_a_a1_apply, FinLaw.shiftV_apply]
  exact FinLaw.shift_congr (tot1_apply m ρ c) (totSq1_apply m ρ c) (fun _ => rfl) (fun _ => rfl) o

end Cert.ReferenceIdeal.RHost

end
-- ==== Proof.RHost2.lean ====
/-
  The normalisation constants of the second convolution as the reference's next pass finds them: the per-chunk partial
  sums and sums of squares the previous pass left ([22, 128, 1]) are added up over the 22 chunks, and the scale and shift
  of each channel computed from the two totals and the affine parameters; both are handed on as columns [128, 1].
-/
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.FinLaw
import proofs.«152241_g2000003559913605_pallasbulk_133_2_alg».proof.Proof.LibUnitColumns
import Idealize.ShloMosaic.Lib.StableHlo.Run

set_option maxRecDepth 16384

noncomputable section

namespace Cert.ReferenceIdeal.RHost

open Idealize.ShloMosaic Idealize.ShloMosaic.TcCoe Idealize.SL.Sem Idealize.ShloMosaic.ValueIdx
open Cert.ReferenceIdeal Cert.ReferenceIdeal.Gen Cert.ResBlock

variable (m : (ℓ : Loc nD τ sig) → Buf (Elt Ideal) ℓ) (ρ : Dev nD → PrngReg) (c : Dev nD)

/-- The total of the partial sums, per channel, as the host forms it. -/
abbrev tot2 : FVec Ideal S128 .f32 :=
  Host.reduceAdd (F := Ideal) (shapeCast S22x128 (Gen.W12 m ρ c (Proc.devRef .tc main_v59_0)) shapeCasts_S22x128x1_S22x128)
    (constant S_ .f32 0x00000000#32) reducesTo_S22x128_S128_d0 h_S_
/-- The total of the partial sums of squares. -/
abbrev totSq2 : FVec Ideal S128 .f32 :=
  Host.reduceAdd (F := Ideal) (shapeCast S22x128 (Gen.W12 m ρ c (Proc.devRef .tc main_v59_1)) shapeCasts_S22x128x1_S22x128)
    (constant S_ .f32 0x00000000#32) reducesTo_S22x128_S128_d0 h_S_

set_option maxHeartbeats 1000000 in
theorem v78_eq : (Gen.W13 m ρ c (Proc.devRef .tc main_v78) : S128x1.Idx → EReal) =
    shapeCast S128x1 (FinLaw.scaleV bcast_S_S128 (tot2 m ρ c) (totSq2 m ρ c)
      (Gen.W12 m ρ c (Proc.devRef .tc main_arg5))) shapeCasts_S128_S128x1 := by
  dsimp only [Gen.W13, hostOps2]
  after_results_simp
  rfl

set_option maxHeartbeats 1000000 in
theorem v79_eq : (Gen.W13 m ρ c (Proc.devRef .tc main_v79) : S128x1.Idx → EReal) =
    shapeCast S128x1 (FinLaw.shiftV bcast_S_S128 (tot2 m ρ c) (totSq2 m ρ c)
      (Gen.W12 m ρ c (Proc.devRef .tc main_arg5)) (Gen.W12 m ρ c (Proc.devRef .tc main_arg6))) shapeCasts_S128_S128x1 := by
  dsimp only [Gen.W13, hostOps2]
  after_results_simp
  rfl

theorem tot2_apply (o : Fin 128) :
    tot2 m ρ c (ix1 o) = ∑ ch : Fin 22, arr (S := S22x128x1) (Gen.W12 m ρ c (Proc.devRef .tc main_v59_0)) (ix3 ch o (0 : Fin 1)) :=
  FinLaw.colsum_apply _ _ _ (by decide) _ o

theorem totSq2_apply (o : Fin 128) :
    totSq2 m ρ c (ix1 o) = ∑ ch : Fin 22, arr (S := S22x128x1) (Gen.W12 m ρ c (Proc.devRef .tc main_v59_1)) (ix3 ch o (0 : Fin 1)) :=
  FinLaw.colsum_apply _ _ _ (by decide) _ o

/-- The scale column at channel o. -/
theorem v78_apply (o : Fin 128) :
    arr (S := S128x1) (Gen.W13 m ρ c (Proc.devRef .tc main_v78)) (ix2 o (0 : Fin 1))
      = scale (fun o => ∑ ch : Fin 22, arr (S := S22x128x1) (Gen.W12 m ρ c (Proc.devRef .tc main_v59_0)) (ix3 ch o (0 : Fin 1)))
              (fun o => ∑ ch : Fin 22, arr (S := S22x128x1) (Gen.W12 m ρ c (Proc.devRef .tc main_v59_1)) (ix3 ch o (0 : Fin 1)))
              (fun o => arr (S := S128) (Gen.W12 m ρ c (Proc.devRef .tc main_arg5)) (ix1 o)) o := by
  show (Gen.W13 m ρ c (Proc.devRef .tc main_v78) : S128x1.Idx → EReal) (ix2 o (0 : Fin 1)) = _
  rw [v78_eq, Cert.LibUnitColumns.shapeCast_a_a1_apply, FinLaw.scaleV_apply]
  exact FinLaw.scale_congr (tot2_apply m ρ c) (totSq2_apply m ρ c) (fun _ => rfl) o

/-- The shift column at channel o. -/
theorem v79_apply (o : Fin 128) :
    arr (S := S128x1) (Gen.W13 m ρ c (Proc.devRef .tc main_v79)) (ix2 o (0 : Fin 1))
      = shift (fun o => ∑ ch : Fin 22, arr (S := S22x128x1) (Gen.W12 m ρ c (Proc.devRef .tc main_v59_0)) (ix3 ch o (0 : Fin 1)))
              (fun o => ∑ ch : Fin 22, arr (S := S22x128x1) (Gen.W12 m ρ c (Proc.devRef .tc main_v59_1)) (ix3 ch o (0 : Fin 1)))
              (fun o => arr (S := S128) (Gen.W12 m ρ c (Proc.devRef .tc main_arg5)) (ix1 o))
              (fun o => arr (S := S128) (Gen.W12 m ρ c (Proc.devRef .tc main_arg6)) (ix1 o)) o := by
  show (Gen.W13 m ρ c (Proc.devRef .tc main_v79) : S128x1.Idx → EReal) (ix2 o (0 : Fin 1)) = _
  rw [v79_eq, Cert.LibUnitColumns.shapeCast_a_a1_apply, FinLaw.shiftV_apply]
  exact FinLaw.shift_congr (tot2_apply m ρ c) (totSq2_apply m ρ c) (fun _ => rfl) (fun _ => rfl) o

end Cert.ReferenceIdeal.RHost

end
-- ==== Proof.RefSums.lean ====
/-
  The reference's masked sums over its chunked layout, as sums over samples and positions.

  A chunk lays its three samples side by side in strips of 1028 columns; the mask of the output layout selects, in strip
  jj of chunk ch, the columns jj·1028 + q with q < 1024, and only while 3·ch + jj is one of the 64 genuine samples. A
  masked sum over the chunk's 3200 working columns is therefore the sum over the chunk's genuine samples and their 1024
  positions, and the 22 chunks together run through every sample once. Multiplying by one and by zero is exact on all of
  the extended reals, so nothing here asks for finiteness.
-/
import proofs.«152241_g2000003559913605_pallasbulk_133_2_alg».proof.Proof.Spec

noncomputable section

namespace Cert.ResBlock

/-- A masked sum over a chunk's 3200 working columns is the sum over the chunk's genuine samples and their 1024 positions. -/
theorem masked_sum (ch : Fin 22) (f : Fin 3200 → EReal) (g : Fin 64 → Fin 1024 → EReal)
    (hfg : ∀ (jj : ℕ) (hjj : jj < 3) (hn : 3 * ch.val + jj < 64) (q : Fin 1024),
      f ⟨jj * 1028 + q.val, by have := q.isLt; omega⟩ = g ⟨3 * ch.val + jj, hn⟩ q) :
    ∑ j : Fin 3200, f j * mask2 ch j = ∑ n : Fin 64, if n.val / 3 = ch.val then ∑ q : Fin 1024, g n q else 0 := by
  have hch := ch.isLt
  -- the left side is the sum over the columns the mask selects
  have hL : ∑ j : Fin 3200, f j * mask2 ch j
      = ∑ j ∈ Finset.univ.filter (fun j : Fin 3200 => j.val < 3084 ∧ 3 * ch.val + j.val / 1028 < 64 ∧ j.val % 1028 < 1024), f j := by
    rw [Finset.sum_filter]
    refine Finset.sum_congr rfl fun j _ => ?_
    show f j * (if j.val < 3084 ∧ 3 * ch.val + j.val / 1028 < 64 ∧ j.val % 1028 < 1024 then (1 : EReal) else 0) = _
    by_cases hP : j.val < 3084 ∧ 3 * ch.val + j.val / 1028 < 64 ∧ j.val % 1028 < 1024
    · rw [if_pos hP, if_pos hP, mul_one]
    · rw [if_neg hP, if_neg hP, mul_zero]
  -- the right side is the sum over the pairs (sample of the chunk, position)
  have hR : (∑ n : Fin 64, if n.val / 3 = ch.val then ∑ q : Fin 1024, g n q else 0)
      = ∑ x ∈ (Finset.univ.filter (fun n : Fin 64 => n.val / 3 = ch.val)) ×ˢ (Finset.univ : Finset (Fin 1024)), g x.1 x.2 := by
    rw [Finset.sum_product, Finset.sum_filter]
  rw [hL, hR]
  -- column j ↦ (sample 3·ch + j / 1028, position j % 1028), with inverse (n, q) ↦ (n % 3)·1028 + q
  refine Finset.sum_bij'
    (fun (j : Fin 3200) hj => ((⟨3 * ch.val + j.val / 1028, (Finset.mem_filter.mp hj).2.2.1⟩ : Fin 64),
      (⟨j.val % 1028, (Finset.mem_filter.mp hj).2.2.2⟩ : Fin 1024)))
    (fun (x : Fin 64 × Fin 1024) _ => (⟨(x.1.val % 3) * 1028 + x.2.val, by
      have h3 := x.2.isLt
      have h4 : x.1.val % 3 < 3 := Nat.mod_lt _ (by norm_num)
      omega⟩ : Fin 3200))
    ?_ ?_ ?_ ?_ ?_
  · intro j hj
    obtain ⟨-, h1, h2, h3⟩ := Finset.mem_filter.mp hj
    rw [Finset.mem_product, Finset.mem_filter]
    refine ⟨⟨Finset.mem_univ _, ?_⟩, Finset.mem_univ _⟩
    show (3 * ch.val + j.val / 1028) / 3 = ch.val
    have hc : j.val / 1028 ≤ 2 := by omega
    omega
  · intro x hx
    rw [Finset.mem_product, Finset.mem_filter] at hx
    obtain ⟨⟨-, h1⟩, -⟩ := hx
    rw [Finset.mem_filter]
    refine ⟨Finset.mem_univ _, ?_⟩
    have h2 := x.1.isLt
    have h3 := x.2.isLt
    have h4 : x.1.val % 3 < 3 := Nat.mod_lt _ (by norm_num)
    have h5 : 3 * ch.val + x.1.val % 3 = x.1.val := by omega
    have hd : ((x.1.val % 3) * 1028 + x.2.val) / 1028 = x.1.val % 3 := by omega
    have hm : ((x.1.val % 3) * 1028 + x.2.val) % 1028 = x.2.val := by omega
    show (x.1.val % 3) * 1028 + x.2.val < 3084
      ∧ 3 * ch.val + ((x.1.val % 3) * 1028 + x.2.val) / 1028 < 64
      ∧ ((x.1.val % 3) * 1028 + x.2.val) % 1028 < 1024
    rw [hd, hm]
    omega
  · intro j hj
    obtain ⟨-, h1, h2, h3⟩ := Finset.mem_filter.mp hj
    apply Fin.ext
    show ((3 * ch.val + j.val / 1028) % 3) * 1028 + j.val % 1028 = j.val
    have hc : j.val / 1028 ≤ 2 := by omega
    have hr : (3 * ch.val + j.val / 1028) % 3 = j.val / 1028 := by omega
    rw [hr]
    omega
  · intro x hx
    rw [Finset.mem_product, Finset.mem_filter] at hx
    obtain ⟨⟨-, h1⟩, -⟩ := hx
    have h2 := x.1.isLt
    have h3 := x.2.isLt
    have h4 : x.1.val % 3 < 3 := Nat.mod_lt _ (by norm_num)
    have h5 : 3 * ch.val + x.1.val % 3 = x.1.val := by omega
    have hd : ((x.1.val % 3) * 1028 + x.2.val) / 1028 = x.1.val % 3 := by omega
    have hm : ((x.1.val % 3) * 1028 + x.2.val) % 1028 = x.2.val := by omega
    apply Prod.ext <;> apply Fin.ext
    · show 3 * ch.val + ((x.1.val % 3) * 1028 + x.2.val) / 1028 = x.1.val
      rw [hd]; exact h5
    · show ((x.1.val % 3) * 1028 + x.2.val) % 1028 = x.2.val
      exact hm
  · intro j hj
    obtain ⟨-, h1, h2, h3⟩ := Finset.mem_filter.mp hj
    have e := hfg (j.val / 1028) (by omega) h2 ⟨j.val % 1028, h3⟩
    have ej : (⟨j.val / 1028 * 1028 + j.val % 1028, by have := j.isLt; omega⟩ : Fin 3200) = j :=
      Fin.ext (by show j.val / 1028 * 1028 + j.val % 1028 = j.val; omega)
    rw [ej] at e
    exact e
/-- Summed over the 22 chunks this is the sum over all 64 samples. -/
theorem chunk_sum (G : Fin 64 → EReal) :
    ∑ ch : Fin 22, ∑ n : Fin 64, (if n.val / 3 = ch.val then G n else 0) = ∑ n : Fin 64, G n := by
  rw [Finset.sum_comm]
  refine Finset.sum_congr rfl fun n _ => ?_
  have hn : n.val / 3 < 22 := by have := n.isLt; omega
  rw [Finset.sum_eq_single (⟨n.val / 3, hn⟩ : Fin 22)]
  · exact if_pos rfl
  · intro b _ hb
    exact if_neg fun h => hb (Fin.ext h.symm)
  · intro h
    exact absurd (Finset.mem_univ _) h

end Cert.ResBlock

end
-- ==== Proof.RefAlgebra.lean ====
/-
  The reference's layout read back in the block's own terms. A chunk holds three samples as strips of 1028 columns
  (two zeros, the 1024 entries, two zeros), so inside strip jj of chunk ch — sample 3·ch + jj — the three taps of a
  convolution read from a genuine output column never leave the strip, and what they meet beyond the sample's ends
  are the strip's own zeros: exactly the 'same' padding. Hence at a genuine column the reference's three-tap sums are the
  convolutions of the sample's rows, the masked activation between the convolutions is the activation with zero padding,
  and a masked sum over a chunk's 3200 working columns is the sum over the chunk's genuine samples and their 1024
  positions. Multiplying by a mask entry 0 gives 0 and by 1 changes nothing for every extended real, so none of this
  needs a finite entry.
-/
import Idealize.ShloMosaic.PureOps.Ideal.Laws
import proofs.«152241_g2000003559913605_pallasbulk_133_2_alg».proof.Proof.Spec

noncomputable section

namespace Cert.ResBlock

open Idealize.ShloMosaic

/-- Convolution weights tap-major, as the reference holds them: (t, o, ci) ↦ w[o, ci, t]. -/
def wT (w : Wt) : Fin 3 → Fin 128 → Fin 128 → EReal := fun t o ci => w o ci t

theorem zero_eq : zero = 0 := Ideal.ofBits_zero_f32

/-- Column r of strip jj of a chunk's input row is entry r of the halo-padded strip of sample 3·ch + jj. -/
theorem at0_xflat (X : Act) (ch : Fin 22) (ci : Fin 128) (jj : ℕ) (hjj : jj < 3) (r : ℕ) (hr : r < 1028) :
    at0 (xflat X ch ci) (jj * 1028 + r) = xpad X (3 * ch.val + jj) ci r := by
  have h1 : jj * 1028 + r < 3204 := by omega
  have h2 : (jj * 1028 + r) / 1028 = jj := by omega
  have h3 : (jj * 1028 + r) % 1028 = r := by omega
  unfold at0
  rw [dif_pos h1]
  show (if jj * 1028 + r < 3084 then xpad X (3 * ch.val + (jj * 1028 + r) / 1028) ci ((jj * 1028 + r) % 1028) else 0) = _
  rw [if_pos (by omega), h2, h3]

/-- Entry q + 1 + t of a genuine sample's halo-padded strip is tap t of its row at position q. -/
theorem xpad_tap (X : Act) (n : Fin 64) (ci : Fin 128) (q : Fin 1024) (t : Fin 3) :
    xpad X n.val ci (q.val + 1 + t.val) = tap (X n ci) q t := by
  unfold xpad tap
  by_cases h : 1 ≤ q.val + t.val ∧ q.val + t.val ≤ 1024
  · rw [dif_pos h, dif_pos ⟨n.isLt, by omega, by omega⟩]
    have e : q.val + 1 + t.val - 2 = q.val + t.val - 1 := by omega
    simp only [e]
  · rw [dif_neg h, dif_neg (by omega)]

/-- Entry q + 2 of a genuine sample's halo-padded strip is its row at position q. -/
theorem xpad_mid (X : Act) (n : Fin 64) (ci : Fin 128) (q : Fin 1024) :
    xpad X n.val ci (q.val + 2) = X n ci q := by
  unfold xpad
  rw [dif_pos ⟨n.isLt, by omega, by omega⟩]
  have e : q.val + 2 - 2 = q.val := by omega
  simp only [e]

section Strip

variable (X : Act) (ch : Fin 22) (jj : ℕ) (hjj : jj < 3) (hn : 3 * ch.val + jj < 64)

include hjj in
/-- A tap of the reference's first convolution read from genuine column q of the strip. -/
theorem at0_xflat_tap (ci : Fin 128) (q : Fin 1024) (t : Fin 3) :
    at0 (xflat X ch ci) (jj * 1028 + q.val + 1 + t.val) = tap (X ⟨3 * ch.val + jj, hn⟩ ci) q t := by
  rw [show jj * 1028 + q.val + 1 + t.val = jj * 1028 + (q.val + 1 + t.val) by omega,
    at0_xflat X ch ci jj hjj _ (by have := q.isLt; have := t.isLt; omega)]
  exact xpad_tap X ⟨3 * ch.val + jj, hn⟩ ci q t

include hjj in
/-- The reference's first convolution at a genuine column is the convolution of the sample's rows. -/
theorem taps3_xflat (w : Wt) (o : Fin 128) (q : Fin 1024) :
    taps3 (wT w) (xflat X ch) o (jj * 1028 + q.val + 1) = conv w X ⟨3 * ch.val + jj, hn⟩ o q := by
  have h0 := fun ci => at0_xflat_tap X ch jj hjj hn ci q 0
  have h1 := fun ci => at0_xflat_tap X ch jj hjj hn ci q 1
  have h2 := fun ci => at0_xflat_tap X ch jj hjj hn ci q 2
  simp only [Fin.val_zero, Fin.val_one, Fin.val_two, Nat.add_zero] at h0 h1 h2
  unfold taps3 conv
  rw [Fin.sum_univ_three, zero_eq, zero_add]
  simp only [h0, h1, h2, wT]

include hjj in
/-- The projection's read of the input at a genuine column is the sample's row. -/
theorem at0_xflat_mid (ci : Fin 128) (q : Fin 1024) :
    at0 (xflat X ch ci) (jj * 1028 + q.val + 2) = X ⟨3 * ch.val + jj, hn⟩ ci q := by
  rw [show jj * 1028 + q.val + 2 = jj * 1028 + (q.val + 2) by omega,
    at0_xflat X ch ci jj hjj _ (by have := q.isLt; omega)]
  exact xpad_mid X ⟨3 * ch.val + jj, hn⟩ ci q

end Strip

/-! ## Masks, the masked activation, the second convolution -/

section Masks

variable (ch : Fin 22) (jj : ℕ) (hjj : jj < 3)

include hjj in
/-- The output mask at column r of strip jj: 1 on the 1024 genuine columns of a genuine sample. -/
theorem mask2_at (r : ℕ) (hr : r < 1028) (h : jj * 1028 + r < 3200) :
    mask2 ch ⟨jj * 1028 + r, h⟩ = if 3 * ch.val + jj < 64 ∧ r < 1024 then 1 else 0 := by
  have h2 : (jj * 1028 + r) / 1028 = jj := by omega
  have h3 : (jj * 1028 + r) % 1028 = r := by omega
  have h4 : jj * 1028 + r < 3084 := by omega
  unfold mask2
  show (if jj * 1028 + r < 3084 ∧ 3 * ch.val + (jj * 1028 + r) / 1028 < 64 ∧ (jj * 1028 + r) % 1028 < 1024 then (1 : EReal) else 0) = _
  rw [h2, h3]
  simp only [h4, true_and]

include hjj in
/-- The mask of the extended layout at column r of strip jj: 1 on columns 1 … 1024 of a genuine sample. -/
theorem mask1_at (r : ℕ) (hr : r < 1028) (h : jj * 1028 + r < 3202) :
    mask1 ch ⟨jj * 1028 + r, h⟩ = if 3 * ch.val + jj < 64 ∧ 1 ≤ r ∧ r < 1025 then 1 else 0 := by
  have h2 : (jj * 1028 + r) / 1028 = jj := by omega
  have h3 : (jj * 1028 + r) % 1028 = r := by omega
  have h4 : jj * 1028 + r < 3084 := by omega
  unfold mask1
  show (if jj * 1028 + r < 3084 ∧ 3 * ch.val + (jj * 1028 + r) / 1028 < 64 ∧ 1 ≤ (jj * 1028 + r) % 1028 ∧ (jj * 1028 + r) % 1028 < 1025 then (1 : EReal) else 0) = _
  rw [h2, h3]
  simp only [h4, true_and]

end Masks

section Strip2

variable (X : Act) (ch : Fin 22) (jj : ℕ) (hjj : jj < 3) (hn : 3 * ch.val + jj < 64)

include hjj in
/-- A tap of the reference's second convolution read from genuine column q of the strip: the masked activation
    there is the activation of the sample's row, and zero beyond the row's ends. -/
theorem at0_refAct_tap (w : Wt) (s1 t1 : Ch) (ci : Fin 128) (q : Fin 1024) (t : Fin 3) :
    at0 (refAct (wT w) (xflat X ch) s1 t1 (mask1 ch) ci) (jj * 1028 + q.val + t.val)
      = tap (act (conv w X) s1 t1 ⟨3 * ch.val + jj, hn⟩ ci) q t := by
  have hq := q.isLt
  have ht := t.isLt
  have hlt : jj * 1028 + q.val + t.val < 3202 := by omega
  have hm := mask1_at ch jj hjj (q.val + t.val) (by omega) (by omega)
  have hidx : (⟨jj * 1028 + q.val + t.val, hlt⟩ : Fin 3202) = ⟨jj * 1028 + (q.val + t.val), by omega⟩ := Fin.ext (by simp only []; omega)
  unfold at0
  rw [dif_pos hlt]
  unfold refAct
  rw [hidx, hm]
  by_cases h : 1 ≤ q.val + t.val ∧ q.val + t.val ≤ 1024
  · have hq' : q.val + t.val - 1 < 1024 := by omega
    rw [if_pos ⟨hn, h.1, by omega⟩, mul_one]
    have e : jj * 1028 + (q.val + t.val) = jj * 1028 + (⟨q.val + t.val - 1, hq'⟩ : Fin 1024).val + 1 := by
      simp only []; omega
    show max (taps3 (wT w) (xflat X ch) ci (jj * 1028 + (q.val + t.val)) * s1 ci + t1 ci) zero = _
    rw [e, taps3_xflat X ch jj hjj hn w ci ⟨q.val + t.val - 1, hq'⟩]
    unfold tap act
    rw [dif_pos h]
  · rw [if_neg (fun hh => h ⟨hh.2.1, by omega⟩), mul_zero]
    unfold tap
    rw [dif_neg h]

include hjj in
/-- The reference's second convolution at a genuine column is the convolution of the sample's activation rows. -/
theorem taps3_refAct (w1 w2 : Wt) (s1 t1 : Ch) (o : Fin 128) (q : Fin 1024) :
    taps3 (wT w2) (refAct (wT w1) (xflat X ch) s1 t1 (mask1 ch)) o (jj * 1028 + q.val)
      = conv w2 (act (conv w1 X) s1 t1) ⟨3 * ch.val + jj, hn⟩ o q := by
  have h0 := fun ci => at0_refAct_tap X ch jj hjj hn w1 s1 t1 ci q 0
  have h1 := fun ci => at0_refAct_tap X ch jj hjj hn w1 s1 t1 ci q 1
  have h2 := fun ci => at0_refAct_tap X ch jj hjj hn w1 s1 t1 ci q 2
  simp only [Fin.val_zero, Fin.val_one, Fin.val_two, Nat.add_zero] at h0 h1 h2
  unfold taps3 conv
  rw [Fin.sum_univ_three, zero_eq, zero_add]
  simp only [h0, h1, h2, wT]
  rfl

end Strip2

end Cert.ResBlock

end
-- ==== Proof.RValue.lean ====
/-
  The reference's result in the block's own terms. The fold through the program is walked back from the result
  buffer: the extraction of the genuine columns, the third pass's output array, the normalisation constants computed
  from the masked chunk sums of the second and of the first pass, and the layouts of the arguments built before the
  first pass. At a genuine column every three-tap sum is the convolution of one sample's rows, and the masked sums
  over the chunks regroup into the sums over the 64 samples.
-/
import proofs.«152241_g2000003559913605_pallasbulk_133_2_alg».proof.Proof.RRegA
import proofs.«152241_g2000003559913605_pallasbulk_133_2_alg».proof.Proof.RRegB
import proofs.«152241_g2000003559913605_pallasbulk_133_2_alg».proof.Proof.RRegC
import proofs.«152241_g2000003559913605_pallasbulk_133_2_alg».proof.Proof.RHost0
import proofs.«152241_g2000003559913605_pallasbulk_133_2_alg».proof.Proof.RHostTail
import proofs.«152241_g2000003559913605_pallasbulk_133_2_alg».proof.Proof.RHost1
import proofs.«152241_g2000003559913605_pallasbulk_133_2_alg».proof.Proof.RHost2
import proofs.«152241_g2000003559913605_pallasbulk_133_2_alg».proof.Proof.RefSums
import proofs.«152241_g2000003559913605_pallasbulk_133_2_alg».proof.Proof.Gen.ReferenceIdeal.Frame
import proofs.«152241_g2000003559913605_pallasbulk_133_2_alg».proof.Proof.Spec
import proofs.«152241_g2000003559913605_pallasbulk_133_2_alg».proof.Proof.RefAlgebra
import proofs.«152241_g2000003559913605_pallasbulk_133_2_alg».proof.Proof.FinLaw
import Idealize.ShloMosaic.Lib.StableHlo.Run

set_option maxRecDepth 16384

noncomputable section

namespace Cert.ReferenceIdeal.RV

open Idealize.ShloMosaic Idealize.ShloMosaic.TcCoe Idealize.SL.Sem Idealize.ShloMosaic.ValueIdx
open Cert.ReferenceIdeal Cert.ReferenceIdeal.Gen Cert.ResBlock

variable (m : (ℓ : Loc nD τ sig) → Buf (Elt Ideal) ℓ) (ρ : Dev nD → PrngReg) (c : Dev nD)

/-- The argument arrays as functions of explicit coordinates. -/
abbrev X : Act := fun n ci l => arr (S := S64x128x1024) (m ((c : Thread nD τ).loc main_arg0)) (ix3 n ci l)
abbrev W1 : Wt := fun o ci t => arr (S := S128x128x3) (m ((c : Thread nD τ).loc main_arg1)) (ix3 o ci t)
abbrev G1 : Ch := fun o => arr (S := S128) (m ((c : Thread nD τ).loc main_arg2)) (ix1 o)
abbrev B1 : Ch := fun o => arr (S := S128) (m ((c : Thread nD τ).loc main_arg3)) (ix1 o)
abbrev W2 : Wt := fun o ci t => arr (S := S128x128x3) (m ((c : Thread nD τ).loc main_arg4)) (ix3 o ci t)
abbrev G2 : Ch := fun o => arr (S := S128) (m ((c : Thread nD τ).loc main_arg5)) (ix1 o)
abbrev B2 : Ch := fun o => arr (S := S128) (m ((c : Thread nD τ).loc main_arg6)) (ix1 o)
abbrev WP : Fin 128 → Fin 128 → EReal := fun o ci => arr (S := S128x128x1) (m ((c : Thread nD τ).loc main_arg7)) (ix3 o ci (0 : Fin 1))

/-- A buffer no operation of a host stretch writes holds after the stretch what it held before. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))))

/-! ## What each stretch and each pass leaves untouched -/

theorem p1_arg2 : Gen.W1 m ρ c (Proc.devRef .tc main_arg2) = Gen.W0 m ρ c (Proc.devRef .tc main_arg2) := by host_keeps hostOps0
theorem p2_arg2 : Gen.W2 m ρ c (Proc.devRef .tc main_arg2) = Gen.W1 m ρ c (Proc.devRef .tc main_arg2) := by host_keeps hostOps0_1
theorem p3_arg2 : Gen.W3 m ρ c (Proc.devRef .tc main_arg2) = Gen.W2 m ρ c (Proc.devRef .tc main_arg2) := by host_keeps hostOps0_2
theorem p4_arg2 : Gen.W4 m ρ c (Proc.devRef .tc main_arg2) = Gen.W3 m ρ c (Proc.devRef .tc main_arg2) := by host_keeps hostOps0_3
theorem p5_arg2 : Gen.W5 m ρ c (Proc.devRef .tc main_arg2) = Gen.W4 m ρ c (Proc.devRef .tc main_arg2) := by host_keeps hostOps0_4
theorem p6_arg2 : Gen.W6 m ρ c (Proc.devRef .tc main_arg2) = Gen.W5 m ρ c (Proc.devRef .tc main_arg2) := by host_keeps hostOps0_5
theorem p7_arg2 : Gen.W7 m ρ c (Proc.devRef .tc main_arg2) = Gen.W6 m ρ c (Proc.devRef .tc main_arg2) := by host_keeps hostOps0_6
theorem p8_arg2 : Gen.W8 m ρ c (Proc.devRef .tc main_arg2) = Gen.W7 m ρ c (Proc.devRef .tc main_arg2) := by host_keeps hostOps0_7
theorem p9_arg2 : Gen.W9 m ρ c (Proc.devRef .tc main_arg2) = Gen.W8 m ρ c (Proc.devRef .tc main_arg2) := by host_keeps hostOps0_8
theorem arg2_W9 : Gen.W9 m ρ c (Proc.devRef .tc main_arg2) = m ((c : Thread nD τ).loc main_arg2) := by
  rw [p9_arg2, p8_arg2, p7_arg2, p6_arg2, p5_arg2, p4_arg2, p3_arg2, p2_arg2, p1_arg2]
theorem p1_arg3 : Gen.W1 m ρ c (Proc.devRef .tc main_arg3) = Gen.W0 m ρ c (Proc.devRef .tc main_arg3) := by host_keeps hostOps0
theorem p2_arg3 : Gen.W2 m ρ c (Proc.devRef .tc main_arg3) = Gen.W1 m ρ c (Proc.devRef .tc main_arg3) := by host_keeps hostOps0_1
theorem p3_arg3 : Gen.W3 m ρ c (Proc.devRef .tc main_arg3) = Gen.W2 m ρ c (Proc.devRef .tc main_arg3) := by host_keeps hostOps0_2
theorem p4_arg3 : Gen.W4 m ρ c (Proc.devRef .tc main_arg3) = Gen.W3 m ρ c (Proc.devRef .tc main_arg3) := by host_keeps hostOps0_3
theorem p5_arg3 : Gen.W5 m ρ c (Proc.devRef .tc main_arg3) = Gen.W4 m ρ c (Proc.devRef .tc main_arg3) := by host_keeps hostOps0_4
theorem p6_arg3 : Gen.W6 m ρ c (Proc.devRef .tc main_arg3) = Gen.W5 m ρ c (Proc.devRef .tc main_arg3) := by host_keeps hostOps0_5
theorem p7_arg3 : Gen.W7 m ρ c (Proc.devRef .tc main_arg3) = Gen.W6 m ρ c (Proc.devRef .tc main_arg3) := by host_keeps hostOps0_6
theorem p8_arg3 : Gen.W8 m ρ c (Proc.devRef .tc main_arg3) = Gen.W7 m ρ c (Proc.devRef .tc main_arg3) := by host_keeps hostOps0_7
theorem p9_arg3 : Gen.W9 m ρ c (Proc.devRef .tc main_arg3) = Gen.W8 m ρ c (Proc.devRef .tc main_arg3) := by host_keeps hostOps0_8
theorem arg3_W9 : Gen.W9 m ρ c (Proc.devRef .tc main_arg3) = m ((c : Thread nD τ).loc main_arg3) := by
  rw [p9_arg3, p8_arg3, p7_arg3, p6_arg3, p5_arg3, p4_arg3, p3_arg3, p2_arg3, p1_arg3]
theorem p1_arg5 : Gen.W1 m ρ c (Proc.devRef .tc main_arg5) = Gen.W0 m ρ c (Proc.devRef .tc main_arg5) := by host_keeps hostOps0
theorem p2_arg5 : Gen.W2 m ρ c (Proc.devRef .tc main_arg5) = Gen.W1 m ρ c (Proc.devRef .tc main_arg5) := by host_keeps hostOps0_1
theorem p3_arg5 : Gen.W3 m ρ c (Proc.devRef .tc main_arg5) = Gen.W2 m ρ c (Proc.devRef .tc main_arg5) := by host_keeps hostOps0_2
theorem p4_arg5 : Gen.W4 m ρ c (Proc.devRef .tc main_arg5) = Gen.W3 m ρ c (Proc.devRef .tc main_arg5) := by host_keeps hostOps0_3
theorem p5_arg5 : Gen.W5 m ρ c (Proc.devRef .tc main_arg5) = Gen.W4 m ρ c (Proc.devRef .tc main_arg5) := by host_keeps hostOps0_4
theorem p6_arg5 : Gen.W6 m ρ c (Proc.devRef .tc main_arg5) = Gen.W5 m ρ c (Proc.devRef .tc main_arg5) := by host_keeps hostOps0_5
theorem p7_arg5 : Gen.W7 m ρ c (Proc.devRef .tc main_arg5) = Gen.W6 m ρ c (Proc.devRef .tc main_arg5) := by host_keeps hostOps0_6
theorem p8_arg5 : Gen.W8 m ρ c (Proc.devRef .tc main_arg5) = Gen.W7 m ρ c (Proc.devRef .tc main_arg5) := by host_keeps hostOps0_7
theorem p9_arg5 : Gen.W9 m ρ c (Proc.devRef .tc main_arg5) = Gen.W8 m ρ c (Proc.devRef .tc main_arg5) := by host_keeps hostOps0_8
theorem arg5_W9 : Gen.W9 m ρ c (Proc.devRef .tc main_arg5) = m ((c : Thread nD τ).loc main_arg5) := by
  rw [p9_arg5, p8_arg5, p7_arg5, p6_arg5, p5_arg5, p4_arg5, p3_arg5, p2_arg5, p1_arg5]
theorem p1_arg6 : Gen.W1 m ρ c (Proc.devRef .tc main_arg6) = Gen.W0 m ρ c (Proc.devRef .tc main_arg6) := by host_keeps hostOps0
theorem p2_arg6 : Gen.W2 m ρ c (Proc.devRef .tc main_arg6) = Gen.W1 m ρ c (Proc.devRef .tc main_arg6) := by host_keeps hostOps0_1
theorem p3_arg6 : Gen.W3 m ρ c (Proc.devRef .tc main_arg6) = Gen.W2 m ρ c (Proc.devRef .tc main_arg6) := by host_keeps hostOps0_2
theorem p4_arg6 : Gen.W4 m ρ c (Proc.devRef .tc main_arg6) = Gen.W3 m ρ c (Proc.devRef .tc main_arg6) := by host_keeps hostOps0_3
theorem p5_arg6 : Gen.W5 m ρ c (Proc.devRef .tc main_arg6) = Gen.W4 m ρ c (Proc.devRef .tc main_arg6) := by host_keeps hostOps0_4
theorem p6_arg6 : Gen.W6 m ρ c (Proc.devRef .tc main_arg6) = Gen.W5 m ρ c (Proc.devRef .tc main_arg6) := by host_keeps hostOps0_5
theorem p7_arg6 : Gen.W7 m ρ c (Proc.devRef .tc main_arg6) = Gen.W6 m ρ c (Proc.devRef .tc main_arg6) := by host_keeps hostOps0_6
theorem p8_arg6 : Gen.W8 m ρ c (Proc.devRef .tc main_arg6) = Gen.W7 m ρ c (Proc.devRef .tc main_arg6) := by host_keeps hostOps0_7
theorem p9_arg6 : Gen.W9 m ρ c (Proc.devRef .tc main_arg6) = Gen.W8 m ρ c (Proc.devRef .tc main_arg6) := by host_keeps hostOps0_8
theorem arg6_W9 : Gen.W9 m ρ c (Proc.devRef .tc main_arg6) = m ((c : Thread nD τ).loc main_arg6) := by
  rw [p9_arg6, p8_arg6, p7_arg6, p6_arg6, p5_arg6, p4_arg6, p3_arg6, p2_arg6, p1_arg6]
theorem a_arg2 : Gen.W10 m ρ c (Proc.devRef .tc main_arg2) = Gen.W9 m ρ c (Proc.devRef .tc main_arg2) := W10_of_ne m ρ c main_arg2 (by decide)
theorem a_arg3 : Gen.W10 m ρ c (Proc.devRef .tc main_arg3) = Gen.W9 m ρ c (Proc.devRef .tc main_arg3) := W10_of_ne m ρ c main_arg3 (by decide)
theorem a_arg5 : Gen.W10 m ρ c (Proc.devRef .tc main_arg5) = Gen.W9 m ρ c (Proc.devRef .tc main_arg5) := W10_of_ne m ρ c main_arg5 (by decide)
theorem a_arg6 : Gen.W10 m ρ c (Proc.devRef .tc main_arg6) = Gen.W9 m ρ c (Proc.devRef .tc main_arg6) := W10_of_ne m ρ c main_arg6 (by decide)
theorem a_v36 : Gen.W10 m ρ c (Proc.devRef .tc main_v36) = Gen.W9 m ρ c (Proc.devRef .tc main_v36) := W10_of_ne m ρ c main_v36 (by decide)
theorem a_v25 : Gen.W10 m ρ c (Proc.devRef .tc main_v25) = Gen.W9 m ρ c (Proc.devRef .tc main_v25) := W10_of_ne m ρ c main_v25 (by decide)
theorem a_v37 : Gen.W10 m ρ c (Proc.devRef .tc main_v37) = Gen.W9 m ρ c (Proc.devRef .tc main_v37) := W10_of_ne m ρ c main_v37 (by decide)
theorem a_v4 : Gen.W10 m ρ c (Proc.devRef .tc main_v4) = Gen.W9 m ρ c (Proc.devRef .tc main_v4) :=
  (W10_arr m ρ c 0).trans (((dat0 (V9 m ρ) c).arrAt_in 0 rfl _).trans (A_eq0 (V9 m ρ) c 0))
theorem a_v35 : Gen.W10 m ρ c (Proc.devRef .tc main_v35) = Gen.W9 m ρ c (Proc.devRef .tc main_v35) :=
  (W10_arr m ρ c 1).trans (((dat0 (V9 m ρ) c).arrAt_in 1 rfl _).trans (A_eq0 (V9 m ρ) c 1))
theorem a_v34 : Gen.W10 m ρ c (Proc.devRef .tc main_v34) = Gen.W9 m ρ c (Proc.devRef .tc main_v34) :=
  (W10_arr m ρ c 2).trans (((dat0 (V9 m ρ) c).arrAt_in 2 rfl _).trans (A_eq0 (V9 m ρ) c 2))
theorem h1_v4 : Gen.W11 m ρ c (Proc.devRef .tc main_v4) = Gen.W10 m ρ c (Proc.devRef .tc main_v4) := by host_keeps hostOps1
theorem h1_v35 : Gen.W11 m ρ c (Proc.devRef .tc main_v35) = Gen.W10 m ρ c (Proc.devRef .tc main_v35) := by host_keeps hostOps1
theorem h1_v34 : Gen.W11 m ρ c (Proc.devRef .tc main_v34) = Gen.W10 m ρ c (Proc.devRef .tc main_v34) := by host_keeps hostOps1
theorem h1_v36 : Gen.W11 m ρ c (Proc.devRef .tc main_v36) = Gen.W10 m ρ c (Proc.devRef .tc main_v36) := by host_keeps hostOps1
theorem h1_v25 : Gen.W11 m ρ c (Proc.devRef .tc main_v25) = Gen.W10 m ρ c (Proc.devRef .tc main_v25) := by host_keeps hostOps1
theorem h1_v37 : Gen.W11 m ρ c (Proc.devRef .tc main_v37) = Gen.W10 m ρ c (Proc.devRef .tc main_v37) := by host_keeps hostOps1
theorem h1_arg5 : Gen.W11 m ρ c (Proc.devRef .tc main_arg5) = Gen.W10 m ρ c (Proc.devRef .tc main_arg5) := by host_keeps hostOps1
theorem h1_arg6 : Gen.W11 m ρ c (Proc.devRef .tc main_arg6) = Gen.W10 m ρ c (Proc.devRef .tc main_arg6) := by host_keeps hostOps1
theorem b_v4 : Gen.W12 m ρ c (Proc.devRef .tc main_v4) = Gen.W11 m ρ c (Proc.devRef .tc main_v4) :=
  (W12_arr m ρ c 0).trans (((dat1 (V11 m ρ) c).arrAt_in 0 rfl _).trans (A_eq1 (V11 m ρ) c 0))
theorem b_v35 : Gen.W12 m ρ c (Proc.devRef .tc main_v35) = Gen.W11 m ρ c (Proc.devRef .tc main_v35) :=
  (W12_arr m ρ c 1).trans (((dat1 (V11 m ρ) c).arrAt_in 1 rfl _).trans (A_eq1 (V11 m ρ) c 1))
theorem b_v36 : Gen.W12 m ρ c (Proc.devRef .tc main_v36) = Gen.W11 m ρ c (Proc.devRef .tc main_v36) :=
  (W12_arr m ρ c 2).trans (((dat1 (V11 m ρ) c).arrAt_in 2 rfl _).trans (A_eq1 (V11 m ρ) c 2))
theorem b_v57 : Gen.W12 m ρ c (Proc.devRef .tc main_v57) = Gen.W11 m ρ c (Proc.devRef .tc main_v57) :=
  (W12_arr m ρ c 3).trans (((dat1 (V11 m ρ) c).arrAt_in 3 rfl _).trans (A_eq1 (V11 m ρ) c 3))
theorem b_v58 : Gen.W12 m ρ c (Proc.devRef .tc main_v58) = Gen.W11 m ρ c (Proc.devRef .tc main_v58) :=
  (W12_arr m ρ c 4).trans (((dat1 (V11 m ρ) c).arrAt_in 4 rfl _).trans (A_eq1 (V11 m ρ) c 4))
theorem b_v25 : Gen.W12 m ρ c (Proc.devRef .tc main_v25) = Gen.W11 m ρ c (Proc.devRef .tc main_v25) :=
  (W12_arr m ρ c 5).trans (((dat1 (V11 m ρ) c).arrAt_in 5 rfl _).trans (A_eq1 (V11 m ρ) c 5))
theorem b_v37 : Gen.W12 m ρ c (Proc.devRef .tc main_v37) = Gen.W11 m ρ c (Proc.devRef .tc main_v37) := W12_of_ne m ρ c main_v37 (by decide)
theorem b_arg5 : Gen.W12 m ρ c (Proc.devRef .tc main_arg5) = Gen.W11 m ρ c (Proc.devRef .tc main_arg5) := W12_of_ne m ρ c main_arg5 (by decide)
theorem b_arg6 : Gen.W12 m ρ c (Proc.devRef .tc main_arg6) = Gen.W11 m ρ c (Proc.devRef .tc main_arg6) := W12_of_ne m ρ c main_arg6 (by decide)
theorem h2_v4 : Gen.W13 m ρ c (Proc.devRef .tc main_v4) = Gen.W12 m ρ c (Proc.devRef .tc main_v4) := by host_keeps hostOps2
theorem h2_v35 : Gen.W13 m ρ c (Proc.devRef .tc main_v35) = Gen.W12 m ρ c (Proc.devRef .tc main_v35) := by host_keeps hostOps2
theorem h2_v36 : Gen.W13 m ρ c (Proc.devRef .tc main_v36) = Gen.W12 m ρ c (Proc.devRef .tc main_v36) := by host_keeps hostOps2
theorem h2_v25 : Gen.W13 m ρ c (Proc.devRef .tc main_v25) = Gen.W12 m ρ c (Proc.devRef .tc main_v25) := by host_keeps hostOps2
theorem h2_v37 : Gen.W13 m ρ c (Proc.devRef .tc main_v37) = Gen.W12 m ρ c (Proc.devRef .tc main_v37) := by host_keeps hostOps2
theorem h2_v57 : Gen.W13 m ρ c (Proc.devRef .tc main_v57) = Gen.W12 m ρ c (Proc.devRef .tc main_v57) := by host_keeps hostOps2
theorem h2_v58 : Gen.W13 m ρ c (Proc.devRef .tc main_v58) = Gen.W12 m ρ c (Proc.devRef .tc main_v58) := by host_keeps hostOps2

/-! ## The first pass: masked chunk sums of the first convolution -/

theorem e35_9 : (fun t o ci => arr (S := S3x128x128) (V9 m ρ c main_v35) (ix3 t o ci)) = wT (W1 m c) :=
  funext fun t => funext fun o => funext fun ci => RHost.v35_apply m ρ c t o ci
theorem e4_9 (ch : Fin 22) : (fun ci k => arr (S := S22x128x3204) (V9 m ρ c main_v4) (ix3 ch ci k)) = xflat (X m c) ch :=
  funext fun ci => funext fun k => RHost.v4_apply m ρ c ch ci k

theorem sA (ch : Fin 22) (o : Fin 128) :
    arr (S := S22x128x1) (Gen.W10 m ρ c (Proc.devRef .tc main_v38_0)) (ix3 ch o (0 : Fin 1))
      = ∑ n : Fin 64, if n.val / 3 = ch.val then ∑ q : Fin 1024, h1 (X m c) (W1 m c) n o q else 0 := by
  rw [show Gen.W10 m ρ c (Proc.devRef .tc main_v38_0) = (dat0 (V9 m ρ) c).arrAt 3 cfg0.N from W10_arr m ρ c 3,
    RReg.arrA_3 (V9 m ρ) c ch o, e35_9, e4_9]
  refine (Finset.sum_congr rfl fun j _ => ?_).trans
    (masked_sum ch (fun j => taps3 (wT (W1 m c)) (xflat (X m c) ch) o (j.val + 1)) (fun n q => h1 (X m c) (W1 m c) n o q)
      (fun jj hjj hn q => taps3_xflat (X m c) ch jj hjj hn (W1 m c) o q))
  exact congrArg _ (RHost.v34_apply m ρ c ch j)

theorem qA (ch : Fin 22) (o : Fin 128) :
    arr (S := S22x128x1) (Gen.W10 m ρ c (Proc.devRef .tc main_v38_1)) (ix3 ch o (0 : Fin 1))
      = ∑ n : Fin 64, if n.val / 3 = ch.val then ∑ q : Fin 1024, h1 (X m c) (W1 m c) n o q * h1 (X m c) (W1 m c) n o q else 0 := by
  rw [show Gen.W10 m ρ c (Proc.devRef .tc main_v38_1) = (dat0 (V9 m ρ) c).arrAt 4 cfg0.N from W10_arr m ρ c 4,
    RReg.arrA_4 (V9 m ρ) c ch o, e35_9, e4_9]
  refine (Finset.sum_congr rfl fun j _ => ?_).trans
    (masked_sum ch (fun j => taps3 (wT (W1 m c)) (xflat (X m c) ch) o (j.val + 1) * taps3 (wT (W1 m c)) (xflat (X m c) ch) o (j.val + 1))
      (fun n q => h1 (X m c) (W1 m c) n o q * h1 (X m c) (W1 m c) n o q)
      (fun jj hjj hn q => by
        show taps3 _ _ o _ * taps3 _ _ o _ = _
        rw [taps3_xflat (X m c) ch jj hjj hn (W1 m c) o q]; rfl))
  rw [show arr (S := S22x1x3200) (V9 m ρ c main_v34) (ix3 ch 0 j) = mask2 ch j from RHost.v34_apply m ρ c ch j]
  exact (mul_assoc _ _ _).symm

theorem tot1 (o : Fin 128) :
    (∑ ch : Fin 22, arr (S := S22x128x1) (Gen.W10 m ρ c (Proc.devRef .tc main_v38_0)) (ix3 ch o (0 : Fin 1)))
      = tot (h1 (X m c) (W1 m c)) o :=
  (Finset.sum_congr rfl fun ch _ => sA m ρ c ch o).trans (chunk_sum fun n => ∑ q : Fin 1024, h1 (X m c) (W1 m c) n o q)
theorem totSq1 (o : Fin 128) :
    (∑ ch : Fin 22, arr (S := S22x128x1) (Gen.W10 m ρ c (Proc.devRef .tc main_v38_1)) (ix3 ch o (0 : Fin 1)))
      = totSq (h1 (X m c) (W1 m c)) o :=
  (Finset.sum_congr rfl fun ch _ => qA m ρ c ch o).trans
    (chunk_sum fun n => ∑ q : Fin 1024, h1 (X m c) (W1 m c) n o q * h1 (X m c) (W1 m c) n o q)

theorem g1_W10 (o : Fin 128) : arr (S := S128) (Gen.W10 m ρ c (Proc.devRef .tc main_arg2)) (ix1 o) = G1 m c o := by
  rw [a_arg2, arg2_W9]
theorem b1_W10 (o : Fin 128) : arr (S := S128) (Gen.W10 m ρ c (Proc.devRef .tc main_arg3)) (ix1 o) = B1 m c o := by
  rw [a_arg3, arg3_W9]

theorem sc1_W11 (o : Fin 128) :
    arr (S := S128x1) (Gen.W11 m ρ c (Proc.devRef .tc main_v57)) (ix2 o (0 : Fin 1)) = sc1 (X m c) (W1 m c) (G1 m c) o := by
  rw [RHost.v57_apply]
  exact FinLaw.scale_congr (tot1 m ρ c) (totSq1 m ρ c) (g1_W10 m ρ c) o
theorem sh1_W11 (o : Fin 128) :
    arr (S := S128x1) (Gen.W11 m ρ c (Proc.devRef .tc main_v58)) (ix2 o (0 : Fin 1))
      = sh1 (X m c) (W1 m c) (G1 m c) (B1 m c) o := by
  rw [RHost.v58_apply]
  exact FinLaw.shift_congr (tot1 m ρ c) (totSq1 m ρ c) (g1_W10 m ρ c) (b1_W10 m ρ c) o

/-! ## The second pass: masked chunk sums of the second convolution -/

theorem e35_11 : (fun t o ci => arr (S := S3x128x128) (V11 m ρ c main_v35) (ix3 t o ci)) = wT (W1 m c) :=
  funext fun t => funext fun o => funext fun ci => by
    show arr (S := S3x128x128) (Gen.W11 m ρ c (Proc.devRef .tc main_v35)) (ix3 t o ci) = _
    rw [h1_v35, a_v35]; exact RHost.v35_apply m ρ c t o ci
theorem e36_11 : (fun t o ci => arr (S := S3x128x128) (V11 m ρ c main_v36) (ix3 t o ci)) = wT (W2 m c) :=
  funext fun t => funext fun o => funext fun ci => by
    show arr (S := S3x128x128) (Gen.W11 m ρ c (Proc.devRef .tc main_v36)) (ix3 t o ci) = _
    rw [h1_v36, a_v36]; exact RHost.v36_apply m ρ c t o ci
theorem e4_11 (ch : Fin 22) : (fun ci k => arr (S := S22x128x3204) (V11 m ρ c main_v4) (ix3 ch ci k)) = xflat (X m c) ch :=
  funext fun ci => funext fun k => by
    show arr (S := S22x128x3204) (Gen.W11 m ρ c (Proc.devRef .tc main_v4)) (ix3 ch ci k) = _
    rw [h1_v4, a_v4]; exact RHost.v4_apply m ρ c ch ci k
theorem e57_11 : (fun ci => arr (S := S128x1) (V11 m ρ c main_v57) (ix2 ci 0)) = sc1 (X m c) (W1 m c) (G1 m c) :=
  funext fun ci => sc1_W11 m ρ c ci
theorem e58_11 : (fun ci => arr (S := S128x1) (V11 m ρ c main_v58) (ix2 ci 0)) = sh1 (X m c) (W1 m c) (G1 m c) (B1 m c) :=
  funext fun ci => sh1_W11 m ρ c ci
theorem e25_11 (ch : Fin 22) : (fun j => arr (S := S22x1x3202) (V11 m ρ c main_v25) (ix3 ch 0 j)) = mask1 ch :=
  funext fun j => by
    show arr (S := S22x1x3202) (Gen.W11 m ρ c (Proc.devRef .tc main_v25)) (ix3 ch 0 j) = _
    rw [h1_v25, a_v25]; exact RHost.v25_apply m ρ c ch j
theorem e34_11 (ch : Fin 22) (j : Fin 3200) : arr (S := S22x1x3200) (V11 m ρ c main_v34) (ix3 ch 0 j) = mask2 ch j := by
  show arr (S := S22x1x3200) (Gen.W11 m ρ c (Proc.devRef .tc main_v34)) (ix3 ch 0 j) = _
  rw [h1_v34, a_v34]; exact RHost.v34_apply m ρ c ch j

theorem sB (ch : Fin 22) (o : Fin 128) :
    arr (S := S22x128x1) (Gen.W12 m ρ c (Proc.devRef .tc main_v59_0)) (ix3 ch o (0 : Fin 1))
      = ∑ n : Fin 64, if n.val / 3 = ch.val then ∑ q : Fin 1024, h2 (X m c) (W1 m c) (G1 m c) (B1 m c) (W2 m c) n o q else 0 := by
  rw [show Gen.W12 m ρ c (Proc.devRef .tc main_v59_0) = (dat1 (V11 m ρ) c).arrAt 7 cfg1.N from W12_arr m ρ c 7,
    RReg.arrB_7 (V11 m ρ) c ch o, e35_11, e36_11, e4_11, e57_11, e58_11, e25_11]
  refine (Finset.sum_congr rfl fun j _ => ?_).trans
    (masked_sum ch (fun j => taps3 (wT (W2 m c)) (refAct (wT (W1 m c)) (xflat (X m c) ch) (sc1 (X m c) (W1 m c) (G1 m c)) (sh1 (X m c) (W1 m c) (G1 m c) (B1 m c)) (mask1 ch)) o j.val) (fun n q => h2 (X m c) (W1 m c) (G1 m c) (B1 m c) (W2 m c) n o q)
      (fun jj hjj hn q => taps3_refAct (X m c) ch jj hjj hn (W1 m c) (W2 m c) _ _ o q))
  exact congrArg _ (e34_11 m ρ c ch j)

theorem qB (ch : Fin 22) (o : Fin 128) :
    arr (S := S22x128x1) (Gen.W12 m ρ c (Proc.devRef .tc main_v59_1)) (ix3 ch o (0 : Fin 1))
      = ∑ n : Fin 64, if n.val / 3 = ch.val then ∑ q : Fin 1024, h2 (X m c) (W1 m c) (G1 m c) (B1 m c) (W2 m c) n o q * h2 (X m c) (W1 m c) (G1 m c) (B1 m c) (W2 m c) n o q else 0 := by
  rw [show Gen.W12 m ρ c (Proc.devRef .tc main_v59_1) = (dat1 (V11 m ρ) c).arrAt 8 cfg1.N from W12_arr m ρ c 8,
    RReg.arrB_8 (V11 m ρ) c ch o, e35_11, e36_11, e4_11, e57_11, e58_11, e25_11]
  refine (Finset.sum_congr rfl fun j _ => ?_).trans
    (masked_sum ch (fun j => taps3 (wT (W2 m c)) (refAct (wT (W1 m c)) (xflat (X m c) ch) (sc1 (X m c) (W1 m c) (G1 m c)) (sh1 (X m c) (W1 m c) (G1 m c) (B1 m c)) (mask1 ch)) o j.val * taps3 (wT (W2 m c)) (refAct (wT (W1 m c)) (xflat (X m c) ch) (sc1 (X m c) (W1 m c) (G1 m c)) (sh1 (X m c) (W1 m c) (G1 m c) (B1 m c)) (mask1 ch)) o j.val)
      (fun n q => h2 (X m c) (W1 m c) (G1 m c) (B1 m c) (W2 m c) n o q * h2 (X m c) (W1 m c) (G1 m c) (B1 m c) (W2 m c) n o q)
      (fun jj hjj hn q => by
        show taps3 _ _ o _ * taps3 _ _ o _ = _
        rw [taps3_refAct (X m c) ch jj hjj hn (W1 m c) (W2 m c) _ _ o q]; rfl))
  rw [e34_11 m ρ c ch j]
  exact (mul_assoc _ _ _).symm

theorem tot2 (o : Fin 128) :
    (∑ ch : Fin 22, arr (S := S22x128x1) (Gen.W12 m ρ c (Proc.devRef .tc main_v59_0)) (ix3 ch o (0 : Fin 1)))
      = tot (h2 (X m c) (W1 m c) (G1 m c) (B1 m c) (W2 m c)) o :=
  (Finset.sum_congr rfl fun ch _ => sB m ρ c ch o).trans (chunk_sum fun n => ∑ q : Fin 1024, h2 (X m c) (W1 m c) (G1 m c) (B1 m c) (W2 m c) n o q)
theorem totSq2 (o : Fin 128) :
    (∑ ch : Fin 22, arr (S := S22x128x1) (Gen.W12 m ρ c (Proc.devRef .tc main_v59_1)) (ix3 ch o (0 : Fin 1)))
      = totSq (h2 (X m c) (W1 m c) (G1 m c) (B1 m c) (W2 m c)) o :=
  (Finset.sum_congr rfl fun ch _ => qB m ρ c ch o).trans
    (chunk_sum fun n => ∑ q : Fin 1024, h2 (X m c) (W1 m c) (G1 m c) (B1 m c) (W2 m c) n o q * h2 (X m c) (W1 m c) (G1 m c) (B1 m c) (W2 m c) n o q)

theorem g2_W12 (o : Fin 128) : arr (S := S128) (Gen.W12 m ρ c (Proc.devRef .tc main_arg5)) (ix1 o) = G2 m c o := by
  rw [b_arg5, h1_arg5, a_arg5, arg5_W9]
theorem b2_W12 (o : Fin 128) : arr (S := S128) (Gen.W12 m ρ c (Proc.devRef .tc main_arg6)) (ix1 o) = B2 m c o := by
  rw [b_arg6, h1_arg6, a_arg6, arg6_W9]

theorem sc2_W13 (o : Fin 128) :
    arr (S := S128x1) (Gen.W13 m ρ c (Proc.devRef .tc main_v78)) (ix2 o (0 : Fin 1))
      = sc2 (X m c) (W1 m c) (G1 m c) (B1 m c) (W2 m c) (G2 m c) o := by
  rw [RHost.v78_apply]
  exact FinLaw.scale_congr (tot2 m ρ c) (totSq2 m ρ c) (g2_W12 m ρ c) o
theorem sh2_W13 (o : Fin 128) :
    arr (S := S128x1) (Gen.W13 m ρ c (Proc.devRef .tc main_v79)) (ix2 o (0 : Fin 1))
      = sh2 (X m c) (W1 m c) (G1 m c) (B1 m c) (W2 m c) (G2 m c) (B2 m c) o := by
  rw [RHost.v79_apply]
  exact FinLaw.shift_congr (tot2 m ρ c) (totSq2 m ρ c) (g2_W12 m ρ c) (b2_W12 m ρ c) o

/-! ## The third pass and the extraction of the genuine columns -/

theorem e35_13 : (fun t o ci => arr (S := S3x128x128) (V13 m ρ c main_v35) (ix3 t o ci)) = wT (W1 m c) :=
  funext fun t => funext fun o => funext fun ci => by
    show arr (S := S3x128x128) (Gen.W13 m ρ c (Proc.devRef .tc main_v35)) (ix3 t o ci) = _
    rw [h2_v35, b_v35]; exact congrFun (congrFun (congrFun (e35_11 m ρ c) t) o) ci
theorem e36_13 : (fun t o ci => arr (S := S3x128x128) (V13 m ρ c main_v36) (ix3 t o ci)) = wT (W2 m c) :=
  funext fun t => funext fun o => funext fun ci => by
    show arr (S := S3x128x128) (Gen.W13 m ρ c (Proc.devRef .tc main_v36)) (ix3 t o ci) = _
    rw [h2_v36, b_v36]; exact congrFun (congrFun (congrFun (e36_11 m ρ c) t) o) ci
theorem e4_13 (ch : Fin 22) : (fun ci k => arr (S := S22x128x3204) (V13 m ρ c main_v4) (ix3 ch ci k)) = xflat (X m c) ch :=
  funext fun ci => funext fun k => by
    show arr (S := S22x128x3204) (Gen.W13 m ρ c (Proc.devRef .tc main_v4)) (ix3 ch ci k) = _
    rw [h2_v4, b_v4]; exact congrFun (congrFun (e4_11 m ρ c ch) ci) k
theorem e57_13 : (fun ci => arr (S := S128x1) (V13 m ρ c main_v57) (ix2 ci 0)) = sc1 (X m c) (W1 m c) (G1 m c) :=
  funext fun ci => by
    show arr (S := S128x1) (Gen.W13 m ρ c (Proc.devRef .tc main_v57)) (ix2 ci 0) = _
    rw [h2_v57, b_v57]; exact sc1_W11 m ρ c ci
theorem e58_13 : (fun ci => arr (S := S128x1) (V13 m ρ c main_v58) (ix2 ci 0)) = sh1 (X m c) (W1 m c) (G1 m c) (B1 m c) :=
  funext fun ci => by
    show arr (S := S128x1) (Gen.W13 m ρ c (Proc.devRef .tc main_v58)) (ix2 ci 0) = _
    rw [h2_v58, b_v58]; exact sh1_W11 m ρ c ci
theorem e25_13 (ch : Fin 22) : (fun j => arr (S := S22x1x3202) (V13 m ρ c main_v25) (ix3 ch 0 j)) = mask1 ch :=
  funext fun j => by
    show arr (S := S22x1x3202) (Gen.W13 m ρ c (Proc.devRef .tc main_v25)) (ix3 ch 0 j) = _
    rw [h2_v25, b_v25]; exact congrFun (e25_11 m ρ c ch) j
theorem wp_13 (o ci : Fin 128) : arr (S := S128x128) (V13 m ρ c main_v37) (ix2 o ci) = WP m c o ci := by
  show arr (S := S128x128) (Gen.W13 m ρ c (Proc.devRef .tc main_v37)) (ix2 o ci) = _
  rw [h2_v37, b_v37, h1_v37, a_v37]; exact RHost.v37_apply m ρ c o ci

theorem sc2_V13 (o : Fin 128) :
    arr (S := S128x1) (V13 m ρ c main_v78) (ix2 o 0) = sc2 (X m c) (W1 m c) (G1 m c) (B1 m c) (W2 m c) (G2 m c) o := sc2_W13 m ρ c o
theorem sh2_V13 (o : Fin 128) :
    arr (S := S128x1) (V13 m ρ c main_v79) (ix2 o 0) = sh2 (X m c) (W1 m c) (G1 m c) (B1 m c) (W2 m c) (G2 m c) (B2 m c) o := sh2_W13 m ρ c o

/-- The projection's sum at genuine column l of strip jj of chunk ch. -/
theorem proj_13 (ch : Fin 22) (jj : ℕ) (hjj : jj < 3) (hn : 3 * ch.val + jj < 64) (o : Fin 128) (l : Fin 1024) :
    (∑ ci : Fin 128, arr (S := S128x128) (V13 m ρ c main_v37) (ix2 o ci)
        * at0 (fun k => arr (S := S22x128x3204) (V13 m ρ c main_v4) (ix3 ch ci k)) (jj * 1028 + l.val + 2))
      = proj (WP m c) (X m c) ⟨3 * ch.val + jj, hn⟩ o l :=
  Finset.sum_congr rfl fun ci _ => by
    rw [wp_13, show (fun k => arr (S := S22x128x3204) (V13 m ρ c main_v4) (ix3 ch ci k)) = xflat (X m c) ch ci
      from congrFun (e4_13 m ρ c ch) ci, at0_xflat_mid (X m c) ch jj hjj hn ci l]

/-- The third pass's output array at genuine column l of strip jj of chunk ch is the block's result at sample
    3·ch + jj. -/
theorem outC (ch : Fin 22) (jj : ℕ) (hjj : jj < 3) (hn : 3 * ch.val + jj < 64) (o : Fin 128) (l : Fin 1024) :
    arr (S := S22x128x3200) (Gen.W14 m ρ c (Proc.devRef .tc main_v80))
        (ix3 ch o (⟨jj * 1028 + l.val, by have := l.isLt; omega⟩ : Fin 3200))
      = out (X m c) (W1 m c) (G1 m c) (B1 m c) (W2 m c) (G2 m c) (B2 m c) (WP m c) ⟨3 * ch.val + jj, hn⟩ o l := by
  rw [show Gen.W14 m ρ c (Proc.devRef .tc main_v80) = (dat2 (V13 m ρ) c).arrAt 9 cfg2.N from W14_arr m ρ c 9,
    RReg.arrC_9 (V13 m ρ) c ch o _, e35_13, e36_13, e4_13, e57_13, e58_13, e25_13]
  dsimp only
  rw [taps3_refAct (X m c) ch jj hjj hn (W1 m c) (W2 m c) _ _ o l, sc2_V13, sh2_V13, proj_13 m ρ c ch jj hjj hn o l]
  rfl

/-- The result buffer, entry by entry, is the block's result of the argument arrays: sample n sits in strip n mod 3 of
    chunk n / 3. -/
theorem result (n : Fin 64) (o : Fin 128) (l : Fin 1024) :
    arr (S := S64x128x1024) (Gen.W15 m ρ c (Proc.devRef .tc main_v85)) (ix3 n o l)
      = out (X m c) (W1 m c) (G1 m c) (B1 m c) (W2 m c) (G2 m c) (B2 m c) (WP m c) n o l := by
  have hn : 3 * (n.val / 3) + n.val % 3 < 64 := by have := n.isLt; omega
  have en : (⟨3 * (n.val / 3) + n.val % 3, hn⟩ : Fin 64) = n := Fin.ext (by simp only []; omega)
  have h := outC m ρ c ⟨n.val / 3, by have := n.isLt; omega⟩ (n.val % 3) (Nat.mod_lt _ (by decide)) hn o l
  rw [en] at h
  rw [RHost.v85_apply]
  exact h

end Cert.ReferenceIdeal.RV

end
-- ==== Proof.lean ====
/-
  The certificate of the residual block: the kernel (three pipelined passes over groups of eight samples, each 3-tap
  convolution one matrix product over the three shifted copies of a sample stacked along the contraction axis, the
  batch-norm statistics accumulated per sample and reduced between the passes) against the reference (three passes over
  chunks of three halo-padded samples laid side by side, validity masks, each convolution three matrix products added
  from zero), at the extended reals.

  The three frames are the programs' runs with everything but the argument arrays forgotten. The ideal pass rewrote
  nothing, so the kernel's idealization is its own text read on the extended reals. The algebraic claim: both runs end with
  the result buffer holding `Cert.ResBlock.out` of the argument arrays, entry by entry (Proof/Spec.lean).
-/
import proofs.«152241_g2000003559913605_pallasbulk_133_2_alg».proof.Defs
import proofs.«152241_g2000003559913605_pallasbulk_133_2_alg».proof.Proof.Gen.Kernel
import proofs.«152241_g2000003559913605_pallasbulk_133_2_alg».proof.Proof.Gen.KernelIdeal
import proofs.«152241_g2000003559913605_pallasbulk_133_2_alg».proof.Proof.Gen.ReferenceIdeal
import proofs.«152241_g2000003559913605_pallasbulk_133_2_alg».proof.Proof.Gen.Pre_finite_inputs
import proofs.«152241_g2000003559913605_pallasbulk_133_2_alg».proof.Proof.KernelFrameP
import proofs.«152241_g2000003559913605_pallasbulk_133_2_alg».proof.Proof.KernelIdealFrameP
import proofs.«152241_g2000003559913605_pallasbulk_133_2_alg».proof.Proof.Gen.ReferenceIdeal.Frame
import proofs.«152241_g2000003559913605_pallasbulk_133_2_alg».proof.Proof.KernelRun
import proofs.«152241_g2000003559913605_pallasbulk_133_2_alg».proof.Proof.ReferenceRun
import proofs.«152241_g2000003559913605_pallasbulk_133_2_alg».proof.Proof.KValue
import proofs.«152241_g2000003559913605_pallasbulk_133_2_alg».proof.Proof.RValue
import Idealize.ShloMosaic.Adequacy
import Idealize.ShloMosaic.Init

noncomputable section

namespace Cert.Proof

open Idealize.ShloMosaic Idealize.SL.Sem

/-- Each program's run with everything but the argument arrays forgotten. -/
theorem frame_k : Cert.frame_Kernel (hKernel := Cert.Kernel.Gen.facts) (hPre_finite_inputs := Cert.Pre_finite_inputs.Gen.facts) :=
  fun m ρ _ => Cert.Kernel.GenP.frame m ρ
theorem frame_ki : Cert.frame_KernelIdeal (hKernelIdeal := Cert.KernelIdeal.Gen.facts) (hPre_finite_inputs := Cert.Pre_finite_inputs.Gen.facts) :=
  fun m ρ _ => Cert.KernelIdeal.GenP.frame m ρ
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c idx => Cert.ResBlock.out (Cert.KernelIdeal.KV.X m c) (Cert.KernelIdeal.KV.W1 m c) (Cert.KernelIdeal.KV.G1 m c)
    (Cert.KernelIdeal.KV.B1 m c) (Cert.KernelIdeal.KV.W2 m c) (Cert.KernelIdeal.KV.G2 m c) (Cert.KernelIdeal.KV.B2 m c)
    (Cert.KernelIdeal.KV.WP m c) (idx 0) (idx 1) (idx 2), ?_, ?_⟩
  · -- the kernel's run ends with the block's result of its own arguments
    refine (θ_run Cert.KernelIdeal.defs _ _).mono (fun r h c => ⟨(h c).1.trans ?_, (h c).2⟩)
      (Cert.KernelIdeal.Run.run (F := Ideal) m ρ)
    funext idx
    obtain ⟨n, o, l, rfl⟩ : ∃ (n : Fin 64) (o : Fin 128) (l : Fin 1024), idx = ValueIdx.ix3 n o l :=
      ⟨idx 0, idx 1, idx 2, ValueIdx.eq_ix3 idx⟩
    exact Cert.KernelIdeal.KV.result m ρ c n o l
  · -- the reference's run ends with the block's result of ITS arguments, which are the kernel's
    refine (θ_run Cert.ReferenceIdeal.defs _ _).mono (fun r h c => ⟨(h c).1.trans ?_, (h c).2⟩)
      (Cert.ReferenceIdeal.Run.run (F := Ideal) m' ρ')
    funext idx
    obtain ⟨n, o, l, rfl⟩ : ∃ (n : Fin 64) (o : Fin 128) (l : Fin 1024), idx = ValueIdx.ix3 n o l :=
      ⟨idx 0, idx 1, idx 2, ValueIdx.eq_ix3 idx⟩
    refine (Cert.ReferenceIdeal.RV.result m' ρ' c n o l).trans ?_
    have hX : Cert.ReferenceIdeal.RV.X m' c = Cert.KernelIdeal.KV.X m c :=
      funext fun n => funext fun ci => funext fun l => congrFun (hagree c).1 (ValueIdx.ix3 n ci l)
    have hW1 : Cert.ReferenceIdeal.RV.W1 m' c = Cert.KernelIdeal.KV.W1 m c :=
      funext fun o => funext fun ci => funext fun t => congrFun (hagree c).2.1 (ValueIdx.ix3 o ci t)
    have hG1 : Cert.ReferenceIdeal.RV.G1 m' c = Cert.KernelIdeal.KV.G1 m c :=
      funext fun o => congrFun (hagree c).2.2.1 (ValueIdx.ix1 o)
    have hB1 : Cert.ReferenceIdeal.RV.B1 m' c = Cert.KernelIdeal.KV.B1 m c :=
      funext fun o => congrFun (hagree c).2.2.2.1 (ValueIdx.ix1 o)
    have hW2 : Cert.ReferenceIdeal.RV.W2 m' c = Cert.KernelIdeal.KV.W2 m c :=
      funext fun o => funext fun ci => funext fun t => congrFun (hagree c).2.2.2.2.1 (ValueIdx.ix3 o ci t)
    have hG2 : Cert.ReferenceIdeal.RV.G2 m' c = Cert.KernelIdeal.KV.G2 m c :=
      funext fun o => congrFun (hagree c).2.2.2.2.2.1 (ValueIdx.ix1 o)
    have hB2 : Cert.ReferenceIdeal.RV.B2 m' c = Cert.KernelIdeal.KV.B2 m c :=
      funext fun o => congrFun (hagree c).2.2.2.2.2.2.1 (ValueIdx.ix1 o)
    have hWP : Cert.ReferenceIdeal.RV.WP m' c = Cert.KernelIdeal.KV.WP m c :=
      funext fun o => funext fun ci => congrFun (hagree c).2.2.2.2.2.2.2 (ValueIdx.ix3 o ci (0 : Fin 1))
    rw [hX, hW1, hG1, hB1, hW2, hG2, hB2, hWP]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
